-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v116) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x784 : Shape := ⟨2, ![131072, 784]⟩
abbrev S255x785 : Shape := ⟨2, ![255, 785]⟩
abbrev S10x256 : Shape := ⟨2, ![10, 256]⟩
abbrev S_ : Shape := ⟨0, ![]⟩

class Facts : Prop where
  bcast_S_S131072x784 : S_.BroadcastsInDim S131072x784 (![] : Fin 0 → Fin S131072x784.rank)
  reducesTo_S131072x784_S_d0_1 : S131072x784.ReducesTo [0, 1] S_
  h_S_ : 0 < S_.numel
  bcast_S_S255x785 : S_.BroadcastsInDim S255x785 (![] : Fin 0 → Fin S255x785.rank)
  reducesTo_S255x785_S_d0_1 : S255x785.ReducesTo [0, 1] S_
  bcast_S_S10x256 : S_.BroadcastsInDim S10x256 (![] : Fin 0 → Fin S10x256.rank)
  reducesTo_S10x256_S_d0_1 : S10x256.ReducesTo [0, 1] S_

variable [Facts]

def fn {F : FTy → Type} [FloatOps F] (main_arg0 : FVec F S131072x784 .f32) (main_arg1 : FVec F S255x785 .f32) (main_arg2 : FVec F S10x256 .f32) : IVec S_ 1 :=
  let main_v0 : FVec F S131072x784 .f32 := Host.absf main_arg0
  let main_cst : FVec F S_ .f32 := constant S_ .f32 0x7F800000#32
  let main_v1 : FVec F S131072x784 .f32 := broadcastInDim S131072x784 ![] bcast_S_S131072x784 main_cst
  let main_v2 : IVec S131072x784 1 := cmpf .olt main_v0 main_v1
  let main_c : IVec S_ 1 := constantI S_ 1 1#1
  let main_v3 : IVec S_ 1 := (fun x v => Host.reduce IntOp.andi x v reducesTo_S131072x784_S_d0_1 h_S_) main_v2 main_c
  let main_v4 : FVec F S255x785 .f32 := Host.absf main_arg1
  let main_cst_0 : FVec F S_ .f32 := constant S_ .f32 0x7F800000#32
  let main_v5 : FVec F S255x785 .f32 := broadcastInDim S255x785 ![] bcast_S_S255x785 main_cst_0
  let main_v6 : IVec S255x785 1 := cmpf .olt main_v4 main_v5
  let main_c_1 : IVec S_ 1 := constantI S_ 1 1#1
  let main_v7 : IVec S_ 1 := (fun x v => Host.reduce IntOp.andi x v reducesTo_S255x785_S_d0_1 h_S_) main_v6 main_c_1
  let main_v8 : IVec S_ 1 := andi main_v3 main_v7
  let main_v9 : FVec F S10x256 .f32 := Host.absf main_arg2
  let main_cst_2 : FVec F S_ .f32 := constant S_ .f32 0x7F800000#32
  let main_v10 : FVec F S10x256 .f32 := broadcastInDim S10x256 ![] bcast_S_S10x256 main_cst_2
  let main_v11 : IVec S10x256 1 := cmpf .olt main_v9 main_v10
  let main_c_3 : IVec S_ 1 := constantI S_ 1 1#1
  let main_v12 : IVec S_ 1 := (fun x v => Host.reduce IntOp.andi x v reducesTo_S10x256_S_d0_1 h_S_) main_v11 main_c_3
  let main_v13 : IVec S_ 1 := andi main_v8 main_v12
  main_v13
-- ==== Kernel.lean ====
abbrev S131072x784 : Shape := ⟨2, ![131072, 784]⟩
abbrev S255x785 : Shape := ⟨2, ![255, 785]⟩
abbrev S10x256 : Shape := ⟨2, ![10, 256]⟩
abbrev S255 : Shape := ⟨1, ![255]⟩
abbrev S256 : Shape := ⟨1, ![256]⟩
abbrev S_ : Shape := ⟨0, ![]⟩
abbrev S255x1 : Shape := ⟨2, ![255, 1]⟩
abbrev S255x784 : Shape := ⟨2, ![255, 784]⟩
abbrev S256x784 : Shape := ⟨2, ![256, 784]⟩
abbrev S784x256 : Shape := ⟨2, ![784, 256]⟩
abbrev S1x256 : Shape := ⟨2, ![1, 256]⟩
abbrev S256x1 : Shape := ⟨2, ![256, 1]⟩
abbrev S128x256 : Shape := ⟨2, ![128, 256]⟩
abbrev S256x128 : Shape := ⟨2, ![256, 128]⟩
abbrev S131072x128 : Shape := ⟨2, ![131072, 128]⟩
abbrev S2x1x510 : Shape := ⟨3, ![2, 1, 510]⟩
abbrev S2048x784 : Shape := ⟨2, ![2048, 784]⟩
abbrev S2048x128 : Shape := ⟨2, ![2048, 128]⟩
abbrev S1x1x510 : Shape := ⟨3, ![1, 1, 510]⟩
abbrev S2048x256 : Shape := ⟨2, ![2048, 256]⟩
abbrev S2048x1 : Shape := ⟨2, ![2048, 1]⟩
abbrev S2048x2 : Shape := ⟨2, ![2048, 2]⟩
abbrev S2 : Shape := ⟨1, ![2]⟩
abbrev S1x1x2 : Shape := ⟨3, ![1, 1, 2]⟩
abbrev S2048x4 : Shape := ⟨2, ![2048, 4]⟩
abbrev S4 : Shape := ⟨1, ![4]⟩
abbrev S1x1x4 : Shape := ⟨3, ![1, 1, 4]⟩
abbrev S2048x8 : Shape := ⟨2, ![2048, 8]⟩
abbrev S8 : Shape := ⟨1, ![8]⟩
abbrev S1x1x8 : Shape := ⟨3, ![1, 1, 8]⟩
abbrev S2048x16 : Shape := ⟨2, ![2048, 16]⟩
abbrev S16 : Shape := ⟨1, ![16]⟩
abbrev S1x1x16 : Shape := ⟨3, ![1, 1, 16]⟩
abbrev S2048x32 : Shape := ⟨2, ![2048, 32]⟩
abbrev S32 : Shape := ⟨1, ![32]⟩
abbrev S1x1x32 : Shape := ⟨3, ![1, 1, 32]⟩
abbrev S2048x64 : Shape := ⟨2, ![2048, 64]⟩
abbrev S64 : Shape := ⟨1, ![64]⟩
abbrev S1x1x64 : Shape := ⟨3, ![1, 1, 64]⟩
abbrev S128 : Shape := ⟨1, ![128]⟩
abbrev S1x1x128 : Shape := ⟨3, ![1, 1, 128]⟩
abbrev S1x1x256 : Shape := ⟨3, ![1, 1, 256]⟩
abbrev S131072x10 : Shape := ⟨2, ![131072, 10]⟩
abbrev S2x510 : Shape := ⟨2, ![2, 510]⟩
abbrev S510 : Shape := ⟨1, ![510]⟩

abbrev nBuf : Space → Nat
  | .hbm => 161
  | .vmem => 11
  | .smem => 0
  | _ => 0

abbrev hbmTy0_0 (i : Nat) : BufTy := match i % 128 with
  | 0 => ⟨S131072x784, .f32⟩
  | 1 => ⟨S255x785, .f32⟩
  | 2 => ⟨S10x256, .f32⟩
  | 3 => ⟨S255, .i32⟩
  | 4 => ⟨S256, .i32⟩
  | 5 => ⟨S_, .i32⟩
  | 6 => ⟨S255, .i32⟩
  | 7 => ⟨S255, .i1⟩
  | 8 => ⟨S_, .i32⟩
  | 9 => ⟨S255, .i32⟩
  | 10 => ⟨S255, .i32⟩
  | 11 => ⟨S255, .i32⟩
  | 12 => ⟨S255x1, .i32⟩
  | 13 => ⟨S255x785, .f32⟩
  | 14 => ⟨S255x1, .f32⟩
  | 15 => ⟨S255, .f32⟩
  | 16 => ⟨S255x784, .f32⟩
  | 17 => ⟨S_, .i32⟩
  | 18 => ⟨S_, .f32⟩
  | 19 => ⟨S256x784, .f32⟩
  | 20 => ⟨S_, .i32⟩
  | 21 => ⟨S_, .f32⟩
  | 22 => ⟨S256, .f32⟩
  | 23 => ⟨S784x256, .f32⟩
  | 24 => ⟨S1x256, .f32⟩
  | 25 => ⟨S_, .i32⟩
  | 26 => ⟨S256, .i32⟩
  | 27 => ⟨S256, .i1⟩
  | 28 => ⟨S_, .i32⟩
  | 29 => ⟨S256, .i32⟩
  | 30 => ⟨S256, .i32⟩
  | 31 => ⟨S256, .i32⟩
  | 32 => ⟨S256x1, .i32⟩
  | 33 => ⟨S10x256, .f32⟩
  | 34 => ⟨S_, .i32⟩
  | 35 => ⟨S_, .f32⟩
  | 36 => ⟨S128x256, .f32⟩
  | 37 => ⟨S256x128, .f32⟩
  | 38 => ⟨S131072x128, .f32⟩
  | 39 => ⟨S2x1x510, .f32⟩
  | 40 => ⟨S2x1x510, .f32⟩
  | 41 => ⟨S131072x10, .f32⟩
  | 42 => ⟨S2x510, .f32⟩
  | 43 => ⟨S_, .f32⟩
  | 44 => ⟨S510, .f32⟩
  | 45 => ⟨S2x510, .f32⟩
  | 46 => ⟨S_, .f32⟩
  | 47 => ⟨S510, .f32⟩
  | 48 => ⟨S2, .f32⟩
  | 49 => ⟨S2, .f32⟩
  | 50 => ⟨S2, .f32⟩
  | 51 => ⟨S2, .f32⟩
  | 52 => ⟨S_, .f32⟩
  | 53 => ⟨S2, .f32⟩
  | 54 => ⟨S2, .f32⟩
  | 55 => ⟨S2, .f32⟩
  | 56 => ⟨S2, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S4, .f32⟩
  | 64 => ⟨S4, .f32⟩
  | 65 => ⟨S4, .f32⟩
  | 66 => ⟨S4, .f32⟩
  | 67 => ⟨S_, .f32⟩
  | 68 => ⟨S4, .f32⟩
  | 69 => ⟨S4, .f32⟩
  | 70 => ⟨S4, .f32⟩
  | 71 => ⟨S4, .f32⟩
  | 72 => ⟨S_, .f32⟩
  | 73 => ⟨S_, .f32⟩
  | 74 => ⟨S_, .f32⟩
  | 75 => ⟨S_, .f32⟩
  | 76 => ⟨S_, .f32⟩
  | 77 => ⟨S8, .f32⟩
  | 78 => ⟨S8, .f32⟩
  | 79 => ⟨S8, .f32⟩
  | 80 => ⟨S8, .f32⟩
  | 81 => ⟨S_, .f32⟩
  | 82 => ⟨S8, .f32⟩
  | 83 => ⟨S8, .f32⟩
  | 84 => ⟨S8, .f32⟩
  | 85 => ⟨S8, .f32⟩
  | 86 => ⟨S_, .f32⟩
  | 87 => ⟨S_, .f32⟩
  | 88 => ⟨S_, .f32⟩
  | 89 => ⟨S_, .f32⟩
  | 90 => ⟨S_, .f32⟩
  | 91 => ⟨S16, .f32⟩
  | 92 => ⟨S16, .f32⟩
  | 93 => ⟨S16, .f32⟩
  | 94 => ⟨S16, .f32⟩
  | 95 => ⟨S_, .f32⟩
  | 96 => ⟨S16, .f32⟩
  | 97 => ⟨S16, .f32⟩
  | 98 => ⟨S16, .f32⟩
  | 99 => ⟨S16, .f32⟩
  | 100 => ⟨S_, .f32⟩
  | 101 => ⟨S_, .f32⟩
  | 102 => ⟨S_, .f32⟩
  | 103 => ⟨S_, .f32⟩
  | 104 => ⟨S_, .f32⟩
  | 105 => ⟨S32, .f32⟩
  | 106 => ⟨S32, .f32⟩
  | 107 => ⟨S32, .f32⟩
  | 108 => ⟨S32, .f32⟩
  | 109 => ⟨S_, .f32⟩
  | 110 => ⟨S32, .f32⟩
  | 111 => ⟨S32, .f32⟩
  | 112 => ⟨S32, .f32⟩
  | 113 => ⟨S32, .f32⟩
  | 114 => ⟨S_, .f32⟩
  | 115 => ⟨S_, .f32⟩
  | 116 => ⟨S_, .f32⟩
  | 117 => ⟨S_, .f32⟩
  | 118 => ⟨S_, .f32⟩
  | 119 => ⟨S64, .f32⟩
  | 120 => ⟨S64, .f32⟩
  | 121 => ⟨S64, .f32⟩
  | 122 => ⟨S64, .f32⟩
  | 123 => ⟨S_, .f32⟩
  | 124 => ⟨S64, .f32⟩
  | 125 => ⟨S64, .f32⟩
  | 126 => ⟨S64, .f32⟩
  | 127 => ⟨S64, .f32⟩
  | _ => ⟨S131072x784, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S128, .f32⟩
  | 9 => ⟨S_, .f32⟩
  | 10 => ⟨S128, .f32⟩
  | 11 => ⟨S128, .f32⟩
  | 12 => ⟨S128, .f32⟩
  | 13 => ⟨S128, .f32⟩
  | 14 => ⟨S_, .f32⟩
  | 15 => ⟨S_, .f32⟩
  | 16 => ⟨S_, .f32⟩
  | 17 => ⟨S_, .f32⟩
  | 18 => ⟨S_, .f32⟩
  | 19 => ⟨S256, .f32⟩
  | 20 => ⟨S256, .f32⟩
  | 21 => ⟨S256, .f32⟩
  | 22 => ⟨S256, .f32⟩
  | 23 => ⟨S_, .f32⟩
  | 24 => ⟨S256, .f32⟩
  | 25 => ⟨S256, .f32⟩
  | 26 => ⟨S256, .f32⟩
  | 27 => ⟨S256, .f32⟩
  | 28 => ⟨S_, .f32⟩
  | 29 => ⟨S_, .f32⟩
  | 30 => ⟨S_, .f32⟩
  | 31 => ⟨S_, .f32⟩
  | 32 => ⟨S_, .f32⟩
  | _ => ⟨S131072x784, .f32⟩

abbrev hbmTy (i : Nat) : BufTy := match i / 128 with
  | 0 => hbmTy0_0 i
  | 1 => hbmTy0_1 i
  | _ => ⟨S131072x784, .f32⟩

abbrev bufTy : (tb : Table) → Fin (tcTables nBuf tb) → BufTy
  | .hbm, ⟨i, _⟩ => hbmTy i
  | .local _ .vmem, ⟨0, _⟩ => ⟨S2048x784, .f32⟩
  | .local _ .vmem, ⟨1, _⟩ => ⟨S2048x784, .f32⟩
  | .local _ .vmem, ⟨2, _⟩ => ⟨S784x256, .f32⟩
  | .local _ .vmem, ⟨3, _⟩ => ⟨S1x256, .f32⟩
  | .local _ .vmem, ⟨4, _⟩ => ⟨S256x128, .f32⟩
  | .local _ .vmem, ⟨5, _⟩ => ⟨S2048x128, .f32⟩
  | .local _ .vmem, ⟨6, _⟩ => ⟨S2048x128, .f32⟩
  | .local _ .vmem, ⟨7, _⟩ => ⟨S1x1x510, .f32⟩
  | .local _ .vmem, ⟨8, _⟩ => ⟨S1x1x510, .f32⟩
  | .local _ .vmem, ⟨9, _⟩ => ⟨S1x1x510, .f32⟩
  | .local _ .vmem, ⟨10, _⟩ => ⟨S1x1x510, .f32⟩
  | _, _ => ⟨S131072x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_c_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_call0_v0 : Ref sig .tc := ⟨.hbm, 18, rfl⟩
abbrev main_v10 : Ref sig .tc := ⟨.hbm, 19, rfl⟩
abbrev main_c_4 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_call2_v0 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_cst_15 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_16 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_17 : Ref sig .tc := ⟨.hbm, 86, rfl⟩
abbrev main_v59 : Ref sig .tc := ⟨.hbm, 87, rfl⟩
abbrev main_cst_18 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_19 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_20 : Ref sig .tc := ⟨.hbm, 100, rfl⟩
abbrev main_v70 : Ref sig .tc := ⟨.hbm, 101, rfl⟩
abbrev main_cst_21 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_22 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_23 : Ref sig .tc := ⟨.hbm, 114, rfl⟩
abbrev main_v81 : Ref sig .tc := ⟨.hbm, 115, rfl⟩
abbrev main_cst_24 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_25 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_26 : Ref sig .tc := ⟨.hbm, 128, rfl⟩
abbrev main_v92 : Ref sig .tc := ⟨.hbm, 129, rfl⟩
abbrev main_cst_27 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_28 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_29 : Ref sig .tc := ⟨.hbm, 142, rfl⟩
abbrev main_v103 : Ref sig .tc := ⟨.hbm, 143, rfl⟩
abbrev main_cst_30 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_31 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_32 : Ref sig .tc := ⟨.hbm, 156, rfl⟩
abbrev main_v114 : Ref sig .tc := ⟨.hbm, 157, rfl⟩
abbrev main_cst_33 : Ref sig .tc := ⟨.hbm, 158, rfl⟩
abbrev main_v115 : Ref sig .tc := ⟨.hbm, 159, rfl⟩
abbrev main_v116 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S784x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x510 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x510 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S255 : S_.BroadcastsInDim S255 (![] : Fin 0 → Fin S255.rank)
  bcast_S255_S255x1_0 : S255.BroadcastsInDim S255x1 (![0] : Fin 1 → Fin S255x1.rank)
  slices_S255x785_S255x1_0_0 : S255x785.Slices ![0, 0] S255x1
  shapeCasts_S255x1_S255 : S255x1.ShapeCasts S255
  slices_S255x785_S255x784_0_1 : S255x785.Slices ![0, 1] S255x784
  pads_S255x784_S256x784_010_000 : S255x784.Pads (![0, 0] : Fin 2 → Nat) ![1, 0] ![0, 0] S256x784
  h_S_ : 0 < S_.numel
  pads_S255_S256_010 : S255.Pads (![0] : Fin 1 → Nat) ![1] ![0] S256
  transposes_S256x784_S784x256_1_0 : S256x784.Transposes [1, 0] S784x256
  shapeCasts_S256_S1x256 : S256.ShapeCasts S1x256
  bcast_S_S256 : S_.BroadcastsInDim S256 (![] : Fin 0 → Fin S256.rank)
  bcast_S256_S256x1_0 : S256.BroadcastsInDim S256x1 (![0] : Fin 1 → Fin S256x1.rank)
  pads_S10x256_S128x256_01180_000 : S10x256.Pads (![0, 0] : Fin 2 → Nat) ![118, 0] ![0, 0] S128x256
  transposes_S128x256_S256x128_1_0 : S128x256.Transposes [1, 0] S256x128
  inb_S1x1x510_S1x1x510_0_0_0 : ∀ a, (![0, 0, 0] : Fin 3 → Nat) a + S1x1x510.size a ≤ S1x1x510.size a
  h_S1x1x510 : 0 < S1x1x510.numel
  inb_S2048x784_S2048x784_0_0 : ∀ a, (![0, 0] : Fin 2 → Nat) a + S2048x784.size a ≤ S2048x784.size a
  h_S2048x784 : 0 < S2048x784.numel
  inb_S784x256_S784x256_0_0 : ∀ a, (![0, 0] : Fin 2 → Nat) a + S784x256.size a ≤ S784x256.size a
  h_S784x256 : 0 < S784x256.numel
  shapeCasts_S784x256_S784x256 : S784x256.ShapeCasts S784x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x256_o0_0_S2048x1 : S2048x256.Slices ![0, 0] S2048x1
  concatenates_S2048x1_S2048x1_S2048x2_d1 : Shape.Concatenates [S2048x1, S2048x1] S2048x2 1
  reduces_S2048x2_S2 : S2048x2.Reduces [0] S2
  inb_S1x1x510_S1x1x2_0_0_0 : ∀ a, (![0, 0, 0] : Fin 3 → Nat) a + S1x1x2.size a ≤ S1x1x510.size a
  h_S1x1x2 : 0 < S1x1x2.numel
  shapeCasts_S1x1x2_S2 : S1x1x2.ShapeCasts S2
  shapeCasts_S2_S1x1x2 : S2.ShapeCasts S1x1x2
  slices_S2048x256_o0_1_S2048x2 : S2048x256.Slices ![0, 1] S2048x2
  concatenates_S2048x2_S2048x2_S2048x4_d1 : Shape.Concatenates [S2048x2, S2048x2] S2048x4 1
  reduces_S2048x4_S4 : S2048x4.Reduces [0] S4
  inb_S1x1x510_S1x1x4_0_0_2 : ∀ a, (![0, 0, 2] : Fin 3 → Nat) a + S1x1x4.size a ≤ S1x1x510.size a
  h_S1x1x4 : 0 < S1x1x4.numel
  shapeCasts_S1x1x4_S4 : S1x1x4.ShapeCasts S4
  shapeCasts_S4_S1x1x4 : S4.ShapeCasts S1x1x4
  slices_S2048x256_o0_3_S2048x4 : S2048x256.Slices ![0, 3] S2048x4
  concatenates_S2048x4_S2048x4_S2048x8_d1 : Shape.Concatenates [S2048x4, S2048x4] S2048x8 1
  reduces_S2048x8_S8 : S2048x8.Reduces [0] S8
  inb_S1x1x510_S1x1x8_0_0_6 : ∀ a, (![0, 0, 6] : Fin 3 → Nat) a + S1x1x8.size a ≤ S1x1x510.size a
  h_S1x1x8 : 0 < S1x1x8.numel
  shapeCasts_S1x1x8_S8 : S1x1x8.ShapeCasts S8
  shapeCasts_S8_S1x1x8 : S8.ShapeCasts S1x1x8
  slices_S2048x256_o0_7_S2048x8 : S2048x256.Slices ![0, 7] S2048x8
  concatenates_S2048x8_S2048x8_S2048x16_d1 : Shape.Concatenates [S2048x8, S2048x8] S2048x16 1
  reduces_S2048x16_S16 : S2048x16.Reduces [0] S16
  inb_S1x1x510_S1x1x16_0_0_14 : ∀ a, (![0, 0, 14] : Fin 3 → Nat) a + S1x1x16.size a ≤ S1x1x510.size a
  h_S1x1x16 : 0 < S1x1x16.numel
  shapeCasts_S1x1x16_S16 : S1x1x16.ShapeCasts S16
  shapeCasts_S16_S1x1x16 : S16.ShapeCasts S1x1x16
  slices_S2048x256_o0_15_S2048x16 : S2048x256.Slices ![0, 15] S2048x16
  concatenates_S2048x16_S2048x16_S2048x32_d1 : Shape.Concatenates [S2048x16, S2048x16] S2048x32 1
  reduces_S2048x32_S32 : S2048x32.Reduces [0] S32
  inb_S1x1x510_S1x1x32_0_0_30 : ∀ a, (![0, 0, 30] : Fin 3 → Nat) a + S1x1x32.size a ≤ S1x1x510.size a
  h_S1x1x32 : 0 < S1x1x32.numel
  shapeCasts_S1x1x32_S32 : S1x1x32.ShapeCasts S32
  shapeCasts_S32_S1x1x32 : S32.ShapeCasts S1x1x32
  slices_S2048x256_o0_31_S2048x32 : S2048x256.Slices ![0, 31] S2048x32
  concatenates_S2048x32_S2048x32_S2048x64_d1 : Shape.Concatenates [S2048x32, S2048x32] S2048x64 1
  reduces_S2048x64_S64 : S2048x64.Reduces [0] S64
  inb_S1x1x510_S1x1x64_0_0_62 : ∀ a, (![0, 0, 62] : Fin 3 → Nat) a + S1x1x64.size a ≤ S1x1x510.size a
  h_S1x1x64 : 0 < S1x1x64.numel
  shapeCasts_S1x1x64_S64 : S1x1x64.ShapeCasts S64
  shapeCasts_S64_S1x1x64 : S64.ShapeCasts S1x1x64
  slices_S2048x256_o0_63_S2048x64 : S2048x256.Slices ![0, 63] S2048x64
  concatenates_S2048x64_S2048x64_S2048x128_d1 : Shape.Concatenates [S2048x64, S2048x64] S2048x128 1
  reduces_S2048x128_S128 : S2048x128.Reduces [0] S128
  inb_S1x1x510_S1x1x128_0_0_126 : ∀ a, (![0, 0, 126] : Fin 3 → Nat) a + S1x1x128.size a ≤ S1x1x510.size a
  h_S1x1x128 : 0 < S1x1x128.numel
  shapeCasts_S1x1x128_S128 : S1x1x128.ShapeCasts S128
  shapeCasts_S128_S1x1x128 : S128.ShapeCasts S1x1x128
  slices_S2048x256_o0_127_S2048x128 : S2048x256.Slices ![0, 127] S2048x128
  concatenates_S2048x128_S2048x128_S2048x256_d1 : Shape.Concatenates [S2048x128, S2048x128] S2048x256 1
  reduces_S2048x256_S256 : S2048x256.Reduces [0] S256
  inb_S1x1x510_S1x1x256_0_0_254 : ∀ a, (![0, 0, 254] : Fin 3 → Nat) a + S1x1x256.size a ≤ S1x1x510.size a
  h_S1x1x256 : 0 < S1x1x256.numel
  shapeCasts_S1x1x256_S256 : S1x1x256.ShapeCasts S256
  shapeCasts_S256_S1x1x256 : S256.ShapeCasts S1x1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  slices_S131072x128_S131072x10_0_0 : S131072x128.Slices ![0, 0] S131072x10
  shapeCasts_S2x1x510_S2x510 : S2x1x510.ShapeCasts S2x510
  reducesTo_S2x510_S510_d0 : S2x510.ReducesTo [0] S510
  slices_S510_S2_0 : S510.Slices ![0] S2
  bcast_S_S2 : S_.BroadcastsInDim S2 (![] : Fin 0 → Fin S2.rank)
  reducesTo_S2_S_d0 : S2.ReducesTo [0] S_
  slices_S510_S4_2 : S510.Slices ![2] S4
  bcast_S_S4 : S_.BroadcastsInDim S4 (![] : Fin 0 → Fin S4.rank)
  reducesTo_S4_S_d0 : S4.ReducesTo [0] S_
  slices_S510_S8_6 : S510.Slices ![6] S8
  bcast_S_S8 : S_.BroadcastsInDim S8 (![] : Fin 0 → Fin S8.rank)
  reducesTo_S8_S_d0 : S8.ReducesTo [0] S_
  slices_S510_S16_14 : S510.Slices ![14] S16
  bcast_S_S16 : S_.BroadcastsInDim S16 (![] : Fin 0 → Fin S16.rank)
  reducesTo_S16_S_d0 : S16.ReducesTo [0] S_
  slices_S510_S32_30 : S510.Slices ![30] S32
  bcast_S_S32 : S_.BroadcastsInDim S32 (![] : Fin 0 → Fin S32.rank)
  reducesTo_S32_S_d0 : S32.ReducesTo [0] S_
  slices_S510_S64_62 : S510.Slices ![62] S64
  bcast_S_S64 : S_.BroadcastsInDim S64 (![] : Fin 0 → Fin S64.rank)
  reducesTo_S64_S_d0 : S64.ReducesTo [0] S_
  slices_S510_S128_126 : S510.Slices ![126] S128
  bcast_S_S128 : S_.BroadcastsInDim S128 (![] : Fin 0 → Fin S128.rank)
  reducesTo_S128_S_d0 : S128.ReducesTo [0] S_
  slices_S510_S256_254 : S510.Slices ![254] S256
  reducesTo_S256_S_d0 : S256.ReducesTo [0] S_
  gather_S255x785_S255x1_S255x785_1_0_n_n_0_1_1785_wf : GatherDims.WF S255x785 S255x1 S255x785 [1] [0] [] [0] [] 1 ![1, 785]
  gather_S10x256_S256x1_S10x256_0_1_n_n_1_1_101_wf : GatherDims.WF S10x256 S256x1 S10x256 [0] [1] [] [1] [] 1 ![10, 1]
  dot_S2048x784_S784x256_S2048x256_1_0_0_1_n_n_wf : DotDims.WF S2048x784 S784x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S131072x784.size a
  hwx0_0 : ∀ i : grid0.Coords, EltTy.bits .f32 = 32 ∨ (Rect.block (s := S131072x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x256.size a ≤ S784x256.size a
  hwx0_1 : ∀ i : grid0.Coords, EltTy.bits .f32 = 32 ∨ (Rect.block (s := S784x256) S784x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S131072x128.size a
  hwx0_4 : ∀ i : grid0.Coords, EltTy.bits .f32 = 32 ∨ (Rect.block (s := S131072x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x510.size a ≤ S2x1x510.size a
  hwx0_5 : ∀ i : grid0.Coords, EltTy.bits .f32 = 32 ∨ (Rect.block (s := S2x1x510) S1x1x510.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x510.size a ≤ S2x1x510.size a
  hwx0_6 : ∀ i : grid0.Coords, EltTy.bits .f32 = 32 ∨ (Rect.block (s := S2x1x510) S1x1x510.size (cc0_transform_6 i) (hinb0_6 i)).WholeWords (EltTy.packing .f32)

variable [Facts₀]

def gather_S255x785_S255x1_S255x785_1_0_n_n_0_1_1785 : GatherDims S255x785 S255x1 S255x785 where
  offsetDims := [1]
  collapsedSliceDims := [0]
  operandBatchingDims := []
  startIndicesBatchingDims := []
  startIndexMap := [0]
  indexVectorDim := 1
  sliceSizes := ![1, 785]
  wf := gather_S255x785_S255x1_S255x785_1_0_n_n_0_1_1785_wf
def gather_S10x256_S256x1_S10x256_0_1_n_n_1_1_101 : GatherDims S10x256 S256x1 S10x256 where
  offsetDims := [0]
  collapsedSliceDims := [1]
  operandBatchingDims := []
  startIndicesBatchingDims := []
  startIndexMap := [1]
  indexVectorDim := 1
  sliceSizes := ![10, 1]
  wf := gather_S10x256_S256x1_S10x256_0_1_n_n_1_1_101_wf
def dot_S2048x784_S784x256_S2048x256_1_0_0_1_n_n : DotDims S2048x784 S784x256 S2048x256 where
  lhsContracting := [1]
  rhsContracting := [0]
  lhsNonContracting := [0]
  rhsNonContracting := [1]
  lhsBatch := []
  rhsBatch := []
  wf := dot_S2048x784_S784x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S784x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S1x1x510.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S1x1x510.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x784 : Shape := ⟨2, ![131072, 784]⟩
abbrev S255x785 : Shape := ⟨2, ![255, 785]⟩
abbrev S10x256 : Shape := ⟨2, ![10, 256]⟩
abbrev S_ : Shape := ⟨0, ![]⟩
abbrev S131072x1 : Shape := ⟨2, ![131072, 1]⟩
abbrev S131072x785 : Shape := ⟨2, ![131072, 785]⟩
abbrev S785x255 : Shape := ⟨2, ![785, 255]⟩
abbrev S131072x255 : Shape := ⟨2, ![131072, 255]⟩
abbrev S131072x255x1 : Shape := ⟨3, ![131072, 255, 1]⟩
abbrev S131072x255x2 : Shape := ⟨3, ![131072, 255, 2]⟩
abbrev S131072x1x2 : Shape := ⟨3, ![131072, 1, 2]⟩
abbrev S131072x2 : Shape := ⟨2, ![131072, 2]⟩
abbrev S2 : Shape := ⟨1, ![2]⟩
abbrev S131072x2x2 : Shape := ⟨3, ![131072, 2, 2]⟩
abbrev S131072x4 : Shape := ⟨2, ![131072, 4]⟩
abbrev S4 : Shape := ⟨1, ![4]⟩
abbrev S131072x4x2 : Shape := ⟨3, ![131072, 4, 2]⟩
abbrev S131072x8 : Shape := ⟨2, ![131072, 8]⟩
abbrev S8 : Shape := ⟨1, ![8]⟩
abbrev S131072x8x2 : Shape := ⟨3, ![131072, 8, 2]⟩
abbrev S131072x16 : Shape := ⟨2, ![131072, 16]⟩
abbrev S16 : Shape := ⟨1, ![16]⟩
abbrev S131072x16x2 : Shape := ⟨3, ![131072, 16, 2]⟩
abbrev S131072x32 : Shape := ⟨2, ![131072, 32]⟩
abbrev S32 : Shape := ⟨1, ![32]⟩
abbrev S131072x32x2 : Shape := ⟨3, ![131072, 32, 2]⟩
abbrev S131072x64 : Shape := ⟨2, ![131072, 64]⟩
abbrev S64 : Shape := ⟨1, ![64]⟩
abbrev S131072x64x2 : Shape := ⟨3, ![131072, 64, 2]⟩
abbrev S131072x128 : Shape := ⟨2, ![131072, 128]⟩
abbrev S128 : Shape := ⟨1, ![128]⟩
abbrev S131072x128x2 : Shape := ⟨3, ![131072, 128, 2]⟩
abbrev S131072x256 : Shape := ⟨2, ![131072, 256]⟩
abbrev S256 : Shape := ⟨1, ![256]⟩
abbrev S256x10 : Shape := ⟨2, ![256, 10]⟩
abbrev S131072x10 : Shape := ⟨2, ![131072, 10]⟩

abbrev nBuf : Space → Nat
  | .hbm => 203
  | .vmem => 0
  | .smem => 0
  | _ => 0

abbrev hbmTy0_0 (i : Nat) : BufTy := match i % 128 with
  | 0 => ⟨S131072x784, .f32⟩
  | 1 => ⟨S255x785, .f32⟩
  | 2 => ⟨S10x256, .f32⟩
  | 3 => ⟨S_, .f32⟩
  | 4 => ⟨S131072x1, .f32⟩
  | 5 => ⟨S131072x785, .f32⟩
  | 6 => ⟨S785x255, .f32⟩
  | 7 => ⟨S131072x255, .f32⟩
  | 8 => ⟨S131072x255, .f32⟩
  | 9 => ⟨S131072x255, .f32⟩
  | 10 => ⟨S_, .f32⟩
  | 11 => ⟨S131072x255, .f32⟩
  | 12 => ⟨S131072x255, .f32⟩
  | 13 => ⟨S_, .f32⟩
  | 14 => ⟨S131072x255, .f32⟩
  | 15 => ⟨S131072x255, .f32⟩
  | 16 => ⟨S_, .f32⟩
  | 17 => ⟨S131072x255, .f32⟩
  | 18 => ⟨S131072x255, .f32⟩
  | 19 => ⟨S131072x255x1, .f32⟩
  | 20 => ⟨S131072x255x1, .f32⟩
  | 21 => ⟨S131072x255x2, .f32⟩
  | 22 => ⟨S_, .f32⟩
  | 23 => ⟨S131072x1, .f32⟩
  | 24 => ⟨S131072x1x2, .f32⟩
  | 25 => ⟨S131072x2, .f32⟩
  | 26 => ⟨S131072x1x2, .f32⟩
  | 27 => ⟨S131072x2, .f32⟩
  | 28 => ⟨S131072x2, .f32⟩
  | 29 => ⟨S_, .f32⟩
  | 30 => ⟨S2, .f32⟩
  | 31 => ⟨S_, .f32⟩
  | 32 => ⟨S2, .f32⟩
  | 33 => ⟨S2, .f32⟩
  | 34 => ⟨S2, .f32⟩
  | 35 => ⟨S_, .f32⟩
  | 36 => ⟨S2, .f32⟩
  | 37 => ⟨S2, .f32⟩
  | 38 => ⟨S2, .f32⟩
  | 39 => ⟨S2, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S131072x2, .f32⟩
  | 47 => ⟨S131072x2x2, .f32⟩
  | 48 => ⟨S131072x4, .f32⟩
  | 49 => ⟨S131072x2x2, .f32⟩
  | 50 => ⟨S131072x4, .f32⟩
  | 51 => ⟨S131072x4, .f32⟩
  | 52 => ⟨S_, .f32⟩
  | 53 => ⟨S4, .f32⟩
  | 54 => ⟨S_, .f32⟩
  | 55 => ⟨S4, .f32⟩
  | 56 => ⟨S4, .f32⟩
  | 57 => ⟨S4, .f32⟩
  | 58 => ⟨S_, .f32⟩
  | 59 => ⟨S4, .f32⟩
  | 60 => ⟨S4, .f32⟩
  | 61 => ⟨S4, .f32⟩
  | 62 => ⟨S4, .f32⟩
  | 63 => ⟨S_, .f32⟩
  | 64 => ⟨S_, .f32⟩
  | 65 => ⟨S_, .f32⟩
  | 66 => ⟨S_, .f32⟩
  | 67 => ⟨S_, .f32⟩
  | 68 => ⟨S131072x4, .f32⟩
  | 69 => ⟨S131072x4x2, .f32⟩
  | 70 => ⟨S131072x8, .f32⟩
  | 71 => ⟨S131072x4x2, .f32⟩
  | 72 => ⟨S131072x8, .f32⟩
  | 73 => ⟨S131072x8, .f32⟩
  | 74 => ⟨S_, .f32⟩
  | 75 => ⟨S8, .f32⟩
  | 76 => ⟨S_, .f32⟩
  | 77 => ⟨S8, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S_, .f32⟩
  | 86 => ⟨S_, .f32⟩
  | 87 => ⟨S_, .f32⟩
  | 88 => ⟨S_, .f32⟩
  | 89 => ⟨S_, .f32⟩
  | 90 => ⟨S131072x8, .f32⟩
  | 91 => ⟨S131072x8x2, .f32⟩
  | 92 => ⟨S131072x16, .f32⟩
  | 93 => ⟨S131072x8x2, .f32⟩
  | 94 => ⟨S131072x16, .f32⟩
  | 95 => ⟨S131072x16, .f32⟩
  | 96 => ⟨S_, .f32⟩
  | 97 => ⟨S16, .f32⟩
  | 98 => ⟨S_, .f32⟩
  | 99 => ⟨S16, .f32⟩
  | 100 => ⟨S16, .f32⟩
  | 101 => ⟨S16, .f32⟩
  | 102 => ⟨S_, .f32⟩
  | 103 => ⟨S16, .f32⟩
  | 104 => ⟨S16, .f32⟩
  | 105 => ⟨S16, .f32⟩
  | 106 => ⟨S16, .f32⟩
  | 107 => ⟨S_, .f32⟩
  | 108 => ⟨S_, .f32⟩
  | 109 => ⟨S_, .f32⟩
  | 110 => ⟨S_, .f32⟩
  | 111 => ⟨S_, .f32⟩
  | 112 => ⟨S131072x16, .f32⟩
  | 113 => ⟨S131072x16x2, .f32⟩
  | 114 => ⟨S131072x32, .f32⟩
  | 115 => ⟨S131072x16x2, .f32⟩
  | 116 => ⟨S131072x32, .f32⟩
  | 117 => ⟨S131072x32, .f32⟩
  | 118 => ⟨S_, .f32⟩
  | 119 => ⟨S32, .f32⟩
  | 120 => ⟨S_, .f32⟩
  | 121 => ⟨S32, .f32⟩
  | 122 => ⟨S32, .f32⟩
  | 123 => ⟨S32, .f32⟩
  | 124 => ⟨S_, .f32⟩
  | 125 => ⟨S32, .f32⟩
  | 126 => ⟨S32, .f32⟩
  | 127 => ⟨S32, .f32⟩
  | _ => ⟨S131072x784, .f32⟩

abbrev hbmTy0_1 (i : Nat) : BufTy := match i % 128 with
  | 0 => ⟨S32, .f32⟩
  | 1 => ⟨S_, .f32⟩
  | 2 => ⟨S_, .f32⟩
  | 3 => ⟨S_, .f32⟩
  | 4 => ⟨S_, .f32⟩
  | 5 => ⟨S_, .f32⟩
  | 6 => ⟨S131072x32, .f32⟩
  | 7 => ⟨S131072x32x2, .f32⟩
  | 8 => ⟨S131072x64, .f32⟩
  | 9 => ⟨S131072x32x2, .f32⟩
  | 10 => ⟨S131072x64, .f32⟩
  | 11 => ⟨S131072x64, .f32⟩
  | 12 => ⟨S_, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S64, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S131072x64, .f32⟩
  | 29 => ⟨S131072x64x2, .f32⟩
  | 30 => ⟨S131072x128, .f32⟩
  | 31 => ⟨S131072x64x2, .f32⟩
  | 32 => ⟨S131072x128, .f32⟩
  | 33 => ⟨S131072x128, .f32⟩
  | 34 => ⟨S_, .f32⟩
  | 35 => ⟨S128, .f32⟩
  | 36 => ⟨S_, .f32⟩
  | 37 => ⟨S128, .f32⟩
  | 38 => ⟨S128, .f32⟩
  | 39 => ⟨S128, .f32⟩
  | 40 => ⟨S_, .f32⟩
  | 41 => ⟨S128, .f32⟩
  | 42 => ⟨S128, .f32⟩
  | 43 => ⟨S128, .f32⟩
  | 44 => ⟨S128, .f32⟩
  | 45 => ⟨S_, .f32⟩
  | 46 => ⟨S_, .f32⟩
  | 47 => ⟨S_, .f32⟩
  | 48 => ⟨S_, .f32⟩
  | 49 => ⟨S_, .f32⟩
  | 50 => ⟨S131072x128, .f32⟩
  | 51 => ⟨S131072x128x2, .f32⟩
  | 52 => ⟨S131072x256, .f32⟩
  | 53 => ⟨S131072x128x2, .f32⟩
  | 54 => ⟨S131072x256, .f32⟩
  | 55 => ⟨S131072x256, .f32⟩
  | 56 => ⟨S_, .f32⟩
  | 57 => ⟨S256, .f32⟩
  | 58 => ⟨S_, .f32⟩
  | 59 => ⟨S256, .f32⟩
  | 60 => ⟨S256, .f32⟩
  | 61 => ⟨S256, .f32⟩
  | 62 => ⟨S_, .f32⟩
  | 63 => ⟨S256, .f32⟩
  | 64 => ⟨S256, .f32⟩
  | 65 => ⟨S256, .f32⟩
  | 66 => ⟨S256, .f32⟩
  | 67 => ⟨S_, .f32⟩
  | 68 => ⟨S_, .f32⟩
  | 69 => ⟨S_, .f32⟩
  | 70 => ⟨S_, .f32⟩
  | 71 => ⟨S_, .f32⟩
  | 72 => ⟨S131072x256, .f32⟩
  | 73 => ⟨S256x10, .f32⟩
  | 74 => ⟨S131072x10, .f32⟩
  | _ => ⟨S131072x784, .f32⟩

abbrev hbmTy (i : Nat) : BufTy := match i / 128 with
  | 0 => hbmTy0_0 i
  | 1 => hbmTy0_1 i
  | _ => ⟨S131072x784, .f32⟩

abbrev bufTy : (tb : Table) → Fin (tcTables nBuf tb) → BufTy
  | .hbm, ⟨i, _⟩ => hbmTy i
  | _, _ => ⟨S131072x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_cst_14 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_cst_16 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_17 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_18 : Ref sig .tc := ⟨.hbm, 85, rfl⟩
abbrev main_v63 : Ref sig .tc := ⟨.hbm, 86, rfl⟩
abbrev main_cst_19 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_20 : Ref sig .tc := ⟨.hbm, 96, rfl⟩
abbrev main_v72 : Ref sig .tc := ⟨.hbm, 97, rfl⟩
abbrev main_cst_21 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_22 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_23 : Ref sig .tc := ⟨.hbm, 107, rfl⟩
abbrev main_v80 : Ref sig .tc := ⟨.hbm, 108, rfl⟩
abbrev main_cst_24 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_25 : Ref sig .tc := ⟨.hbm, 118, rfl⟩
abbrev main_v89 : Ref sig .tc := ⟨.hbm, 119, rfl⟩
abbrev main_cst_26 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_27 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_28 : Ref sig .tc := ⟨.hbm, 129, rfl⟩
abbrev main_v97 : Ref sig .tc := ⟨.hbm, 130, rfl⟩
abbrev main_cst_29 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_30 : Ref sig .tc := ⟨.hbm, 140, rfl⟩
abbrev main_v106 : Ref sig .tc := ⟨.hbm, 141, rfl⟩
abbrev main_cst_31 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_32 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_33 : Ref sig .tc := ⟨.hbm, 151, rfl⟩
abbrev main_v114 : Ref sig .tc := ⟨.hbm, 152, rfl⟩
abbrev main_cst_34 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_35 : Ref sig .tc := ⟨.hbm, 162, rfl⟩
abbrev main_v123 : Ref sig .tc := ⟨.hbm, 163, rfl⟩
abbrev main_cst_36 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_37 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_38 : Ref sig .tc := ⟨.hbm, 173, rfl⟩
abbrev main_v131 : Ref sig .tc := ⟨.hbm, 174, rfl⟩
abbrev main_cst_39 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_40 : Ref sig .tc := ⟨.hbm, 184, rfl⟩
abbrev main_v140 : Ref sig .tc := ⟨.hbm, 185, rfl⟩
abbrev main_cst_41 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_42 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_43 : Ref sig .tc := ⟨.hbm, 195, rfl⟩
abbrev main_v148 : Ref sig .tc := ⟨.hbm, 196, rfl⟩
abbrev main_cst_44 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩

abbrev nD : Nat := 1
abbrev τ : Topo := Topo.v7x

variable {F : FTy → Type} [FloatOps F]

class Facts₀ : Prop where
  bcast_S_S131072x1 : S_.BroadcastsInDim S131072x1 (![] : Fin 0 → Fin S131072x1.rank)
  concatenates_S131072x1_S131072x784_S131072x785_d1 : Shape.Concatenates [S131072x1, S131072x784] S131072x785 1
  transposes_S255x785_S785x255_1_0 : S255x785.Transposes [1, 0] S785x255
  bcast_S_S131072x255 : S_.BroadcastsInDim S131072x255 (![] : Fin 0 → Fin S131072x255.rank)
  bcast_S131072x255_S131072x255x1_0_1 : S131072x255.BroadcastsInDim S131072x255x1 (![0, 1] : Fin 2 → Fin S131072x255x1.rank)
  concatenates_S131072x255x1_S131072x255x1_S131072x255x2_d2 : Shape.Concatenates [S131072x255x1, S131072x255x1] S131072x255x2 2
  slices_S131072x255x2_S131072x1x2_0_0_0 : S131072x255x2.Slices ![0, 0, 0] S131072x1x2
  shapeCasts_S131072x1x2_S131072x2 : S131072x1x2.ShapeCasts S131072x2
  bcast_S131072x1_S131072x1x2_0_1 : S131072x1.BroadcastsInDim S131072x1x2 (![0, 1] : Fin 2 → Fin S131072x1x2.rank)
  reducesTo_S131072x2_S2_d0 : S131072x2.ReducesTo [0] S2
  h_S_ : 0 < S_.numel
  bcast_S_S2 : S_.BroadcastsInDim S2 (![] : Fin 0 → Fin S2.rank)
  reducesTo_S2_S_d0 : S2.ReducesTo [0] S_
  slices_S131072x255x2_S131072x2x2_0_1_0 : S131072x255x2.Slices ![0, 1, 0] S131072x2x2
  shapeCasts_S131072x2x2_S131072x4 : S131072x2x2.ShapeCasts S131072x4
  bcast_S131072x2_S131072x2x2_0_1 : S131072x2.BroadcastsInDim S131072x2x2 (![0, 1] : Fin 2 → Fin S131072x2x2.rank)
  reducesTo_S131072x4_S4_d0 : S131072x4.ReducesTo [0] S4
  bcast_S_S4 : S_.BroadcastsInDim S4 (![] : Fin 0 → Fin S4.rank)
  reducesTo_S4_S_d0 : S4.ReducesTo [0] S_
  slices_S131072x255x2_S131072x4x2_0_3_0 : S131072x255x2.Slices ![0, 3, 0] S131072x4x2
  shapeCasts_S131072x4x2_S131072x8 : S131072x4x2.ShapeCasts S131072x8
  bcast_S131072x4_S131072x4x2_0_1 : S131072x4.BroadcastsInDim S131072x4x2 (![0, 1] : Fin 2 → Fin S131072x4x2.rank)
  reducesTo_S131072x8_S8_d0 : S131072x8.ReducesTo [0] S8
  bcast_S_S8 : S_.BroadcastsInDim S8 (![] : Fin 0 → Fin S8.rank)
  reducesTo_S8_S_d0 : S8.ReducesTo [0] S_
  slices_S131072x255x2_S131072x8x2_0_7_0 : S131072x255x2.Slices ![0, 7, 0] S131072x8x2
  shapeCasts_S131072x8x2_S131072x16 : S131072x8x2.ShapeCasts S131072x16
  bcast_S131072x8_S131072x8x2_0_1 : S131072x8.BroadcastsInDim S131072x8x2 (![0, 1] : Fin 2 → Fin S131072x8x2.rank)
  reducesTo_S131072x16_S16_d0 : S131072x16.ReducesTo [0] S16
  bcast_S_S16 : S_.BroadcastsInDim S16 (![] : Fin 0 → Fin S16.rank)
  reducesTo_S16_S_d0 : S16.ReducesTo [0] S_
  slices_S131072x255x2_S131072x16x2_0_15_0 : S131072x255x2.Slices ![0, 15, 0] S131072x16x2
  shapeCasts_S131072x16x2_S131072x32 : S131072x16x2.ShapeCasts S131072x32
  bcast_S131072x16_S131072x16x2_0_1 : S131072x16.BroadcastsInDim S131072x16x2 (![0, 1] : Fin 2 → Fin S131072x16x2.rank)
  reducesTo_S131072x32_S32_d0 : S131072x32.ReducesTo [0] S32
  bcast_S_S32 : S_.BroadcastsInDim S32 (![] : Fin 0 → Fin S32.rank)
  reducesTo_S32_S_d0 : S32.ReducesTo [0] S_
  slices_S131072x255x2_S131072x32x2_0_31_0 : S131072x255x2.Slices ![0, 31, 0] S131072x32x2
  shapeCasts_S131072x32x2_S131072x64 : S131072x32x2.ShapeCasts S131072x64
  bcast_S131072x32_S131072x32x2_0_1 : S131072x32.BroadcastsInDim S131072x32x2 (![0, 1] : Fin 2 → Fin S131072x32x2.rank)
  reducesTo_S131072x64_S64_d0 : S131072x64.ReducesTo [0] S64
  bcast_S_S64 : S_.BroadcastsInDim S64 (![] : Fin 0 → Fin S64.rank)
  reducesTo_S64_S_d0 : S64.ReducesTo [0] S_
  slices_S131072x255x2_S131072x64x2_0_63_0 : S131072x255x2.Slices ![0, 63, 0] S131072x64x2
  shapeCasts_S131072x64x2_S131072x128 : S131072x64x2.ShapeCasts S131072x128
  bcast_S131072x64_S131072x64x2_0_1 : S131072x64.BroadcastsInDim S131072x64x2 (![0, 1] : Fin 2 → Fin S131072x64x2.rank)
  reducesTo_S131072x128_S128_d0 : S131072x128.ReducesTo [0] S128
  bcast_S_S128 : S_.BroadcastsInDim S128 (![] : Fin 0 → Fin S128.rank)
  reducesTo_S128_S_d0 : S128.ReducesTo [0] S_
  slices_S131072x255x2_S131072x128x2_0_127_0 : S131072x255x2.Slices ![0, 127, 0] S131072x128x2
  shapeCasts_S131072x128x2_S131072x256 : S131072x128x2.ShapeCasts S131072x256
  bcast_S131072x128_S131072x128x2_0_1 : S131072x128.BroadcastsInDim S131072x128x2 (![0, 1] : Fin 2 → Fin S131072x128x2.rank)
  reducesTo_S131072x256_S256_d0 : S131072x256.ReducesTo [0] S256
  bcast_S_S256 : S_.BroadcastsInDim S256 (![] : Fin 0 → Fin S256.rank)
  reducesTo_S256_S_d0 : S256.ReducesTo [0] S_
  transposes_S10x256_S256x10_1_0 : S10x256.Transposes [1, 0] S256x10
  dot_S131072x785_S785x255_S131072x255_1_0_0_1_n_n_wf : DotDims.WF S131072x785 S785x255 S131072x255 [1] [0] [0] [1] [] []
  dot_S131072x256_S256x10_S131072x10_1_0_0_1_n_n_wf : DotDims.WF S131072x256 S256x10 S131072x10 [1] [0] [0] [1] [] []

variable [Facts₀]

def dot_S131072x785_S785x255_S131072x255_1_0_0_1_n_n : DotDims S131072x785 S785x255 S131072x255 where
  lhsContracting := [1]
  rhsContracting := [0]
  lhsNonContracting := [0]
  rhsNonContracting := [1]
  lhsBatch := []
  rhsBatch := []
  wf := dot_S131072x785_S785x255_S131072x255_1_0_0_1_n_n_wf
def dot_S131072x256_S256x10_S131072x10_1_0_0_1_n_n : DotDims S131072x256 S256x10 S131072x10 where
  lhsContracting := [1]
  rhsContracting := [0]
  lhsNonContracting := [0]
  rhsNonContracting := [1]
  lhsBatch := []
  rhsBatch := []
  wf := dot_S131072x256_S256x10_S131072x10_1_0_0_1_n_n_wf

class Facts : Prop extends Facts₀ where

variable [Facts]
-- ==== Proof.KitBits.lean ====
/-
  The soft decision tree kernel: what its frame run is stated over.  The program is fifteen-odd host lines that
  permute and pad the two weight matrices, ONE region on a 2 x 32 grid (two halves of the batch, 32 row tiles of
  2048 rows each), and 120 host lines that add the two halves' statistics and fold them into the penalty.
  Here: the contents the region finds (the host lines before it, folded), the reduction of the whole program to
  the region continued by the later lines, the three facts the later lines owe (they touch unscoped buffers only,
  allocate nothing, and write none of the region's seven arrays), the blocks of the four input windows, the one
  branch condition of the body (the row tile is the first of its half) in closed form, and the frame claim read
  off a frame run.  Everything is stated for any float instance.
-/
import proofs.«148994_j9070970929349_2_alg».proof.Proof.Gen.Kernel.Launch
import proofs.«148994_j9070970929349_2_alg».proof.Proof.Gen.Kernel.Skeleton
import proofs.«148994_j9070970929349_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host lines before the region, stretch by stretch. -/
abbrev pre : List (List (HloOp τ sig (Elt F))) := [hostOps0, hostOps0_1, hostOps0_2, hostOps0_3, hostOps0_4, hostOps0_5, hostOps0_6]

/-- Core `c`'s buffers when the region is entered: the launch contents after the host lines before it. -/
abbrev V0 (c : Dev nD) : Valuation τ sig (Elt F) := StableHlo.after (List.flatten (pre (F := F))) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program reduces to the region continued by the 120 later lines, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The later lines touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each later line writes its own result buffer, which is none of the region's seven arrays. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 0. -/
theorem hostOps1_keeps_arg0 : (hostOps1 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1. -/
theorem hostOps1_keeps_arg1 : (hostOps1 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 2. -/
theorem hostOps1_keeps_arg2 : (hostOps1 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- Argument 1 is no window's array, and no later line writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (by
      simp only [List.flatten_cons, List.flatten_nil, List.append_nil]
      exact List.forall_iff_forall_mem.mp hostOps1_keeps_arg1),
    Pipeline.withArrays_of_ne _ c (V0 m c) _ main_arg1 (by exact (by decide : ∀ w, Pipeline.arrRef spec0 w ≠ main_arg1))]
  exact V_main_arg1 m c

/-- Argument 2 is no window's array, and no later line writes it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (by
      simp only [List.flatten_cons, List.flatten_nil, List.append_nil]
      exact List.forall_iff_forall_mem.mp hostOps1_keeps_arg2),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run to the library's frame post gives the frame claim: argument 0 is window 0's array, an input, so it ends
    as the region found it; arguments 1 and 2 are read by host lines only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

/-! ## The body's one branch -/

/-- The body resets its two statistics accumulators when the row tile is the first of its half of the batch. -/
abbrev firstTile (i : grid0.Coords) : Prop := (Scalar.cmpi .ne (Scalar.extui (Scalar.cmpi .eq (BitVec.ofNat 32 (i 1).val) 0#32)) 0#32) = 1#1
/-- That is at the points 0 and 32 of the 64. -/
theorem firstTile_iff : ∀ t : Fin cfg0.N, firstTile (grid0.coords t) ↔ t.val % 32 = 0 :=
  (by decide +kernel : ∀ t : Fin grid0.N, firstTile (grid0.coords t) ↔ t.val % 32 = 0)

/-! ## The staging memrefs the pipeline passes the body -/

abbrev VO4 : View sig .tc .vmem S2048x128 .f32 := (Memref.whole cc0_stg4_0 : Memref sig .tc .vmem S2048x128 .f32).view
abbrev VO5 : View sig .tc .vmem S1x1x510 .f32 := (Memref.whole cc0_stg5_0 : Memref sig .tc .vmem S1x1x510 .f32).view
abbrev VO6 : View sig .tc .vmem S1x1x510 .f32 := (Memref.whole cc0_stg6_0 : Memref sig .tc .vmem S1x1x510 .f32).view
abbrev ms0 (t : Fin cfg0.N) : Memref sig .tc .vmem S2048x784 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S784x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x510 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x510 .f32 := win0_6.stage (cfg0.slots t 6)
abbrev hs6 (t : Fin cfg0.N) : (ms6 t).IsWhole := hstage0_6 ((cfg0.slots t 6).cast nbuf0_6)

/-- No window is ever idle: the body stores into every output at every point. -/
theorem live (w : Fin cfg0.W) : ∀ t : Fin cfg0.N, cfg0.idle w (grid0.coords t) = false := by
  fin_cases w <;> decide +kernel

end Cert.Kernel.Tree

end
-- ==== Proof.RunFirstBits.lean ====
/-
  The tree kernel's body run once, symbolically, at a row tile that IS the first of its half of the batch
  (the two statistics accumulators are reset to zero before anything is added): on whole staging buffers, the four
  inputs at given contents, the body runs to the end without a fault, hands the inputs back as they were, and
  leaves each of the three outputs with a list of stores written over whatever it held — the score block in one
  store, each accumulator in one reset and eight stores, one per tree layer, of widths 2, 4, …, 256.  The lists are found by the run.
-/
import proofs.«148994_j9070970929349_2_alg».proof.Proof.KitBits

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S2048x784 .f32) (harg2 : arg2.IsWhole) (arg3 : Memref sig .tc .vmem S784x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x1x510 .f32) (harg7 : arg7.IsWhole) (arg8 : Memref sig .tc .vmem S1x1x510 .f32) (harg8 : arg8.IsWhole) (hc : firstTile i)
    (x0 : Vec F S2048x784 .f32) (x1 : Vec F S784x256 .f32) (x2 : Vec F S1x256 .f32) (x3 : Vec F S256x128 .f32) :
    Σ' (L4 : List (View.Piece (Elt F) S2048x128 .f32)) (L5 : List (View.Piece (Elt F) S1x1x510 .f32)), { L6 : List (View.Piece (Elt F) S1x1x510 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__sdt_kernel i arg2 harg2 arg3 harg3 arg4 harg4 arg5 harg5 arg6 harg6 arg7 harg7 arg8 harg8) K } := by
  refine ⟨?_, ?_, ?_, fun E K => ?run⟩
  case run =>
    simp only [cc0__sdt_kernel_eq_skeleton]; unfold cc0__sdt_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

end Cert.Kernel.Tree

end
-- ==== Proof.RunLaterBits.lean ====
/-
  The tree kernel's body run once, symbolically, at a row tile that is NOT the first of its half of the batch
  (the two statistics accumulators hold what the tile before left, and are added to): on whole staging buffers, the four
  inputs at given contents, the body runs to the end without a fault, hands the inputs back as they were, and
  leaves each of the three outputs with a list of stores written over whatever it held — the score block in one
  store, each accumulator in eight stores, one per tree layer, of widths 2, 4, …, 256.  The lists are found by the run.
-/
import proofs.«148994_j9070970929349_2_alg».proof.Proof.KitBits

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLater (c : Dev nD) (i : grid0.Coords) (arg2 : Memref sig .tc .vmem S2048x784 .f32) (harg2 : arg2.IsWhole) (arg3 : Memref sig .tc .vmem S784x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x1x510 .f32) (harg7 : arg7.IsWhole) (arg8 : Memref sig .tc .vmem S1x1x510 .f32) (harg8 : arg8.IsWhole) (hc : ¬firstTile i)
    (x0 : Vec F S2048x784 .f32) (x1 : Vec F S784x256 .f32) (x2 : Vec F S1x256 .f32) (x3 : Vec F S256x128 .f32) (xo5 : Vec F S1x1x510 .f32) (xo6 : Vec F S1x1x510 .f32) :
    Σ' (L4 : List (View.Piece (Elt F) S2048x128 .f32)) (L5 : List (View.Piece (Elt F) S1x1x510 .f32)), { L6 : List (View.Piece (Elt F) S1x1x510 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__sdt_kernel i arg2 harg2 arg3 harg3 arg4 harg4 arg5 harg5 arg6 harg6 arg7 harg7 arg8 harg8) K } := by
  refine ⟨?_, ?_, ?_, fun E K => ?run⟩
  case run =>
    simp only [cc0__sdt_kernel_eq_skeleton]; unfold cc0__sdt_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

end Cert.Kernel.Tree

end
-- ==== Proof.FrameBits.lean ====
/-
  The tree kernel's frame run.  What the three outputs' staging buffers hold after each of the 64 grid points, by
  recursion on the point: at the first row tile of a half of the batch (points 0 and 32) what the body leaves when
  it starts from reset accumulators; at every other point what it leaves when the two accumulators come in holding
  what the point before left (their buffers are written back only after the last tile of a half, so nothing
  disturbs them in between).  With that as the proof data the body obligation is the case's symbolic run, and the
  library's frame run around a region gives: the program terminates, faults nowhere, each of the region's arrays
  ends at what the write-backs make of it, the later host lines' buffers at what those lines compute, and the three
  arguments end as launched.
-/
import proofs.«148994_j9070970929349_2_alg».proof.Proof.RunFirstBits
import proofs.«148994_j9070970929349_2_alg».proof.Proof.RunLaterBits

set_option maxRecDepth 16384

noncomputable section

namespace Cert.Kernel.Tree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each case cover each output's block -/

section Covers
variable (c : Dev nD) (i : grid0.Coords) (arg2 : Memref sig .tc .vmem S2048x784 .f32) (harg2 : arg2.IsWhole) (arg3 : Memref sig .tc .vmem S784x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x1x510 .f32) (harg7 : arg7.IsWhole) (arg8 : Memref sig .tc .vmem S1x1x510 .f32) (harg8 : arg8.IsWhole)
  (x0 : Vec F S2048x784 .f32) (x1 : Vec F S784x256 .f32) (x2 : Vec F S1x256 .f32) (x3 : Vec F S256x128 .f32)

/-- The score block is stored whole. -/
theorem coverF4 (hc : firstTile i) (y : S2048x128.Idx) :
    ∃ pc ∈ (runFirst c i arg2 harg2 arg3 harg3 arg4 harg4 arg5 harg5 arg6 harg6 arg7 harg7 arg8 harg8 hc x0 x1 x2 x3).1, y ∈ pc.1.set :=
  View.cover_of_tiledL (runFirst c i arg2 harg2 arg3 harg3 arg4 harg4 arg5 harg5 arg6 harg6 arg7 harg7 arg8 harg8 hc x0 x1 x2 x3).1 S2048x128.size (by sl_kernel_rfl) y
/-- At a first tile each accumulator is reset by one store of its whole block. -/
theorem coverF5 (hc : firstTile i) (y : S1x1x510.Idx) :
    ∃ pc ∈ (runFirst c i arg2 harg2 arg3 harg3 arg4 harg4 arg5 harg5 arg6 harg6 arg7 harg7 arg8 harg8 hc x0 x1 x2 x3).2.1, y ∈ pc.1.set :=
  View.cover_of_wholeMem (runFirst c i arg2 harg2 arg3 harg3 arg4 harg4 arg5 harg5 arg6 harg6 arg7 harg7 arg8 harg8 hc x0 x1 x2 x3).2.1 (by sl_whole_mem) y
theorem coverF6 (hc : firstTile i) (y : S1x1x510.Idx) :
    ∃ pc ∈ (runFirst c i arg2 harg2 arg3 harg3 arg4 harg4 arg5 harg5 arg6 harg6 arg7 harg7 arg8 harg8 hc x0 x1 x2 x3).2.2.1, y ∈ pc.1.set :=
  View.cover_of_wholeMem (runFirst c i arg2 harg2 arg3 harg3 arg4 harg4 arg5 harg5 arg6 harg6 arg7 harg7 arg8 harg8 hc x0 x1 x2 x3).2.2.1 (by sl_whole_mem) y

theorem coverL4 (hc : ¬firstTile i) (xo5 xo6 : Vec F S1x1x510 .f32) (y : S2048x128.Idx) :
    ∃ pc ∈ (runLater c i arg2 harg2 arg3 harg3 arg4 harg4 arg5 harg5 arg6 harg6 arg7 harg7 arg8 harg8 hc x0 x1 x2 x3 xo5 xo6).1, y ∈ pc.1.set :=
  View.cover_of_tiledL (runLater c i arg2 harg2 arg3 harg3 arg4 harg4 arg5 harg5 arg6 harg6 arg7 harg7 arg8 harg8 hc x0 x1 x2 x3 xo5 xo6).1 S2048x128.size (by sl_kernel_rfl) y
/-- At a later tile each accumulator is rewritten by eight stores, one per tree layer, of widths 2, 4, …, 256 at
    offsets 0, 2, 6, …, 254: cut into pairs of lanes they tile the 510 lanes. -/
theorem coverL5 (hc : ¬firstTile i) (xo5 xo6 : Vec F S1x1x510 .f32) (y : S1x1x510.Idx) :
    ∃ pc ∈ (runLater c i arg2 harg2 arg3 harg3 arg4 harg4 arg5 harg5 arg6 harg6 arg7 harg7 arg8 harg8 hc x0 x1 x2 x3 xo5 xo6).2.1, y ∈ pc.1.set :=
  View.cover_of_tiledBy (runLater c i arg2 harg2 arg3 harg3 arg4 harg4 arg5 harg5 arg6 harg6 arg7 harg7 arg8 harg8 hc x0 x1 x2 x3 xo5 xo6).2.1 ![1, 1, 2] (by sl_kernel_rfl) y
theorem coverL6 (hc : ¬firstTile i) (xo5 xo6 : Vec F S1x1x510 .f32) (y : S1x1x510.Idx) :
    ∃ pc ∈ (runLater c i arg2 harg2 arg3 harg3 arg4 harg4 arg5 harg5 arg6 harg6 arg7 harg7 arg8 harg8 hc x0 x1 x2 x3 xo5 xo6).2.2.1, y ∈ pc.1.set :=
  View.cover_of_tiledBy (runLater c i arg2 harg2 arg3 harg3 arg4 harg4 arg5 harg5 arg6 harg6 arg7 harg7 arg8 harg8 hc x0 x1 x2 x3 xo5 xo6).2.2.1 ![1, 1, 2] (by sl_kernel_rfl) y

/-- What each case leaves in each output's buffer: its stores read back. -/
def outF4 (hc : firstTile i) : Vec F S2048x128 .f32 :=
  VO4.read (Elt F) (VO4.writes (Elt F) VO4.junk (runFirst c i arg2 harg2 arg3 harg3 arg4 harg4 arg5 harg5 arg6 harg6 arg7 harg7 arg8 harg8 hc x0 x1 x2 x3).1)
def outF5 (hc : firstTile i) : Vec F S1x1x510 .f32 :=
  VO5.read (Elt F) (VO5.writes (Elt F) VO5.junk (runFirst c i arg2 harg2 arg3 harg3 arg4 harg4 arg5 harg5 arg6 harg6 arg7 harg7 arg8 harg8 hc x0 x1 x2 x3).2.1)
def outF6 (hc : firstTile i) : Vec F S1x1x510 .f32 :=
  VO6.read (Elt F) (VO6.writes (Elt F) VO6.junk (runFirst c i arg2 harg2 arg3 harg3 arg4 harg4 arg5 harg5 arg6 harg6 arg7 harg7 arg8 harg8 hc x0 x1 x2 x3).2.2.1)
def outL4 (hc : ¬firstTile i) (xo5 xo6 : Vec F S1x1x510 .f32) : Vec F S2048x128 .f32 :=
  VO4.read (Elt F) (VO4.writes (Elt F) VO4.junk (runLater c i arg2 harg2 arg3 harg3 arg4 harg4 arg5 harg5 arg6 harg6 arg7 harg7 arg8 harg8 hc x0 x1 x2 x3 xo5 xo6).1)
def outL5 (hc : ¬firstTile i) (xo5 xo6 : Vec F S1x1x510 .f32) : Vec F S1x1x510 .f32 :=
  VO5.read (Elt F) (VO5.writes (Elt F) VO5.junk (runLater c i arg2 harg2 arg3 harg3 arg4 harg4 arg5 harg5 arg6 harg6 arg7 harg7 arg8 harg8 hc x0 x1 x2 x3 xo5 xo6).2.1)
def outL6 (hc : ¬firstTile i) (xo5 xo6 : Vec F S1x1x510 .f32) : Vec F S1x1x510 .f32 :=
  VO6.read (Elt F) (VO6.writes (Elt F) VO6.junk (runLater c i arg2 harg2 arg3 harg3 arg4 harg4 arg5 harg5 arg6 harg6 arg7 harg7 arg8 harg8 hc x0 x1 x2 x3 xo5 xo6).2.2.1)

end Covers

/-! ## What the outputs hold after each point -/

/-- The three outputs after a first tile: the body on the point's memrefs and input blocks. -/
def atFirst (c : Dev nD) (t : Fin cfg0.N) (h : t.val % 32 = 0) : Vec F S2048x128 .f32 × Vec F S1x1x510 .f32 × Vec F S1x1x510 .f32 :=
  (outF4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) ((firstTile_iff t).mpr h),
   outF5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) ((firstTile_iff t).mpr h),
   outF6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) ((firstTile_iff t).mpr h))

/-- After a later tile: the same with the accumulators coming in at `p5`, `p6`. -/
def atLater (c : Dev nD) (t : Fin cfg0.N) (h : ¬t.val % 32 = 0) (p5 p6 : Vec F S1x1x510 .f32) : Vec F S2048x128 .f32 × Vec F S1x1x510 .f32 × Vec F S1x1x510 .f32 :=
  (outL4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (fun hh => h ((firstTile_iff t).mp hh)) p5 p6,
   outL5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (fun hh => h ((firstTile_iff t).mp hh)) p5 p6,
   outL6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (fun hh => h ((firstTile_iff t).mp hh)) p5 p6)

/-- The accumulation over the grid: the outputs after point `n`. -/
def outsAt (c : Dev nD) : (n : ℕ) → n < cfg0.N → Vec F S2048x128 .f32 × Vec F S1x1x510 .f32 × Vec F S1x1x510 .f32
  | 0, hn => atFirst m c ⟨0, hn⟩ (Nat.zero_mod _)
  | n + 1, hn =>
    if h0 : (n + 1) % 32 = 0 then atFirst m c ⟨n + 1, hn⟩ h0
    else atLater m c ⟨n + 1, hn⟩ h0 (outsAt c n (Nat.lt_of_succ_lt hn)).2.1 (outsAt c n (Nat.lt_of_succ_lt hn)).2.2

theorem outsAt_first (c : Dev nD) (t : Fin cfg0.N) (h0 : t.val % 32 = 0) :
    outsAt m c t.val t.isLt = atFirst m c t h0 := by
  obtain ⟨n, hn⟩ := t
  cases n with
  | zero => exact rfl
  | succ n => exact (dif_pos h0).trans rfl

theorem outsAt_later (c : Dev nD) (t : Fin cfg0.N) (h0 : ¬t.val % 32 = 0) :
    outsAt m c t.val t.isLt = atLater m c t h0
      (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input's buffer at its block, each output's at
    `outsAt`; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem after6 (c : Dev nD) (t : Fin cfg0.N) : (dats m 0 c).after 6 t = (outsAt m c t.val t.isLt).2.2 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At a later tile accumulator window 5's buffer holds what the body left at the point before: the point is not the
    first, and the buffer is written back only after the last tile of a half (points 31 and 63). -/
theorem before5_later (c : Dev nD) (t : Fin cfg0.N) (h0 : ¬t.val % 32 = 0) (d) :
    (dats m 0 c).before 5 t d = (outsAt m c (t.val - 1) (Nat.lt_of_le_of_lt (Nat.sub_le _ _) t.isLt)).2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]
/-- At a later tile accumulator window 6's buffer holds what the body left at the point before: the point is not the
    first, and the buffer is written back only after the last tile of a half (points 31 and 63). -/
theorem before6_later (c : Dev nD) (t : Fin cfg0.N) (h0 : ¬t.val % 32 = 0) (d) :
    (dats m 0 c).before 6 t d = (outsAt m c (t.val - 1) (Nat.lt_of_le_of_lt (Nat.sub_le _ _) t.isLt)).2.2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the inputs' buffers hold their blocks; the point is a first tile or not; at a later tile
    the accumulators' buffers hold what the point before left; so the case's run applies, and what it leaves is the
    case's stores read back, which cover each block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 64 := lt_of_lt_of_eq t.isLt (show cfg0.N = 64 from N_0)
  by_cases h0 : t.val % 32 = 0
  · rw [outsAt_first m c t h0]
    unfold atFirst; dsimp only
    unfold outF4 outF5 outF6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ ((firstTile_iff t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverF4 c _ _ _ _ _ _ _ _ _ _ _ _ _ _ _ _ _ _ _ _)
    isplitl [H5]
    · unfold owns; iexists _; isplitr
      swap; · iexact H5
      ipureintro; exact View.read_writes_of_cover _ _ _ _ _ (coverF5 c _ _ _ _ _ _ _ _ _ _ _ _ _ _ _ _ _ _ _ _)
    unfold owns; iexists _; isplitr
    swap; · iexact H6
    ipureintro; exact View.read_writes_of_cover _ _ _ _ _ (coverF6 c _ _ _ _ _ _ _ _ _ _ _ _ _ _ _ _ _ _ _ _)
  · rw [outsAt_later m c t h0]
    simp only [before5_later m c t h0, before6_later m c t h0]
    unfold atLater; dsimp only
    unfold outL4 outL5 outL6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ (fun hh => h0 ((firstTile_iff t).mp hh)) (iblk m c 0 t) (iblk m c 1 t) (iblk m c 2 t) (iblk m c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverL4 c _ _ _ _ _ _ _ _ _ _ _ _ _ _ _ _ _ _ _ _ _ _)
    isplitl [H5]
    · unfold owns; iexists _; isplitr
      swap; · iexact H5
      ipureintro; exact View.read_writes_of_cover _ _ _ _ _ (coverL5 c _ _ _ _ _ _ _ _ _ _ _ _ _ _ _ _ _ _ _ _ _ _)
    unfold owns; iexists _; isplitr
    swap; · iexact H6
    ipureintro; exact View.read_writes_of_cover _ _ _ _ _ (coverL6 c _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, each array of the region at what the
    write-backs make of the proof data, every other unscoped buffer as the 120 later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Tree

end
-- ==== Proof.KitIdeal.lean ====
/-
  The soft decision tree kernel: what its frame run is stated over.  The program is fifteen-odd host lines that
  permute and pad the two weight matrices, ONE region on a 2 x 32 grid (two halves of the batch, 32 row tiles of
  2048 rows each), and 120 host lines that add the two halves' statistics and fold them into the penalty.
  Here: the contents the region finds (the host lines before it, folded), the reduction of the whole program to
  the region continued by the later lines, the three facts the later lines owe (they touch unscoped buffers only,
  allocate nothing, and write none of the region's seven arrays), the blocks of the four input windows, the one
  branch condition of the body (the row tile is the first of its half) in closed form, and the frame claim read
  off a frame run.  Everything is stated for any float instance.
-/
import proofs.«148994_j9070970929349_2_alg».proof.Proof.Gen.KernelIdeal.Launch
import proofs.«148994_j9070970929349_2_alg».proof.Proof.Gen.KernelIdeal.Skeleton
import proofs.«148994_j9070970929349_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host lines before the region, stretch by stretch. -/
abbrev pre : List (List (HloOp τ sig (Elt F))) := [hostOps0, hostOps0_1, hostOps0_2, hostOps0_3, hostOps0_4, hostOps0_5, hostOps0_6]

/-- Core `c`'s buffers when the region is entered: the launch contents after the host lines before it. -/
abbrev V0 (c : Dev nD) : Valuation τ sig (Elt F) := StableHlo.after (List.flatten (pre (F := F))) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program reduces to the region continued by the 120 later lines, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The later lines touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each later line writes its own result buffer, which is none of the region's seven arrays. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 0. -/
theorem hostOps1_keeps_arg0 : (hostOps1 : List (HloOp τ sig (Elt F))).Forall fun op =>
    Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1. -/
theorem hostOps1_keeps_arg1 : (hostOps1 : List (HloOp τ sig (Elt F))).Forall fun op =>
    Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 2. -/
theorem hostOps1_keeps_arg2 : (hostOps1 : List (HloOp τ sig (Elt F))).Forall fun op =>
    Proc.devRef .tc main_arg2 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- Argument 1 is no window's array, and no later line writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (by
      simp only [List.flatten_cons, List.flatten_nil, List.append_nil]
      exact List.forall_iff_forall_mem.mp hostOps1_keeps_arg1),
    Pipeline.withArrays_of_ne _ c (V0 m c) _ main_arg1 (by exact (by decide : ∀ w, Pipeline.arrRef spec0 w ≠ main_arg1))]
  exact V_main_arg1 m c

/-- Argument 2 is no window's array, and no later line writes it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (by
      simp only [List.flatten_cons, List.flatten_nil, List.append_nil]
      exact List.forall_iff_forall_mem.mp hostOps1_keeps_arg2),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run to the library's frame post gives the frame claim: argument 0 is window 0's array, an input, so it ends
    as the region found it; arguments 1 and 2 are read by host lines only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

/-! ## The body's one branch -/

/-- The body resets its two statistics accumulators when the row tile is the first of its half of the batch. -/
abbrev firstTile (i : grid0.Coords) : Prop := (Scalar.cmpi .ne (Scalar.extui (Scalar.cmpi .eq (BitVec.ofNat 32 (i 1).val) 0#32)) 0#32) = 1#1
/-- That is at the points 0 and 32 of the 64. -/
theorem firstTile_iff : ∀ t : Fin cfg0.N, firstTile (grid0.coords t) ↔ t.val % 32 = 0 :=
  (by decide +kernel : ∀ t : Fin grid0.N, firstTile (grid0.coords t) ↔ t.val % 32 = 0)

/-! ## The staging memrefs the pipeline passes the body -/

abbrev VO4 : View sig .tc .vmem S2048x128 .f32 := (Memref.whole cc0_stg4_0 : Memref sig .tc .vmem S2048x128 .f32).view
abbrev VO5 : View sig .tc .vmem S1x1x510 .f32 := (Memref.whole cc0_stg5_0 : Memref sig .tc .vmem S1x1x510 .f32).view
abbrev VO6 : View sig .tc .vmem S1x1x510 .f32 := (Memref.whole cc0_stg6_0 : Memref sig .tc .vmem S1x1x510 .f32).view
abbrev ms0 (t : Fin cfg0.N) : Memref sig .tc .vmem S2048x784 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S784x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x510 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x510 .f32 := win0_6.stage (cfg0.slots t 6)
abbrev hs6 (t : Fin cfg0.N) : (ms6 t).IsWhole := hstage0_6 ((cfg0.slots t 6).cast nbuf0_6)

/-- No window is ever idle: the body stores into every output at every point. -/
theorem live (w : Fin cfg0.W) : ∀ t : Fin cfg0.N, cfg0.idle w (grid0.coords t) = false := by
  fin_cases w <;> decide +kernel

end Cert.KernelIdeal.Tree

end
-- ==== Proof.RunFirstIdeal.lean ====
/-
  The tree kernel's body run once, symbolically, at a row tile that IS the first of its half of the batch
  (the two statistics accumulators are reset to zero before anything is added): on whole staging buffers, the four
  inputs at given contents, the body runs to the end without a fault, hands the inputs back as they were, and
  leaves each of the three outputs with a list of stores written over whatever it held — the score block in one
  store, each accumulator in one reset and eight stores, one per tree layer, of widths 2, 4, …, 256.  The lists are found by the run.
-/
import proofs.«148994_j9070970929349_2_alg».proof.Proof.KitIdeal

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S2048x784 .f32) (harg2 : arg2.IsWhole) (arg3 : Memref sig .tc .vmem S784x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x1x510 .f32) (harg7 : arg7.IsWhole) (arg8 : Memref sig .tc .vmem S1x1x510 .f32) (harg8 : arg8.IsWhole) (hc : firstTile i)
    (x0 : Vec F S2048x784 .f32) (x1 : Vec F S784x256 .f32) (x2 : Vec F S1x256 .f32) (x3 : Vec F S256x128 .f32) :
    Σ' (L4 : List (View.Piece (Elt F) S2048x128 .f32)) (L5 : List (View.Piece (Elt F) S1x1x510 .f32)), { L6 : List (View.Piece (Elt F) S1x1x510 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__sdt_kernel i arg2 harg2 arg3 harg3 arg4 harg4 arg5 harg5 arg6 harg6 arg7 harg7 arg8 harg8) K } := by
  refine ⟨?_, ?_, ?_, fun E K => ?run⟩
  case run =>
    simp only [cc0__sdt_kernel_eq_skeleton]; unfold cc0__sdt_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

end Cert.KernelIdeal.Tree

end
-- ==== Proof.RunLaterIdeal.lean ====
/-
  The tree kernel's body run once, symbolically, at a row tile that is NOT the first of its half of the batch
  (the two statistics accumulators hold what the tile before left, and are added to): on whole staging buffers, the four
  inputs at given contents, the body runs to the end without a fault, hands the inputs back as they were, and
  leaves each of the three outputs with a list of stores written over whatever it held — the score block in one
  store, each accumulator in eight stores, one per tree layer, of widths 2, 4, …, 256.  The lists are found by the run.
-/
import proofs.«148994_j9070970929349_2_alg».proof.Proof.KitIdeal

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLater (c : Dev nD) (i : grid0.Coords) (arg2 : Memref sig .tc .vmem S2048x784 .f32) (harg2 : arg2.IsWhole) (arg3 : Memref sig .tc .vmem S784x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x1x510 .f32) (harg7 : arg7.IsWhole) (arg8 : Memref sig .tc .vmem S1x1x510 .f32) (harg8 : arg8.IsWhole) (hc : ¬firstTile i)
    (x0 : Vec F S2048x784 .f32) (x1 : Vec F S784x256 .f32) (x2 : Vec F S1x256 .f32) (x3 : Vec F S256x128 .f32) (xo5 : Vec F S1x1x510 .f32) (xo6 : Vec F S1x1x510 .f32) :
    Σ' (L4 : List (View.Piece (Elt F) S2048x128 .f32)) (L5 : List (View.Piece (Elt F) S1x1x510 .f32)), { L6 : List (View.Piece (Elt F) S1x1x510 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__sdt_kernel i arg2 harg2 arg3 harg3 arg4 harg4 arg5 harg5 arg6 harg6 arg7 harg7 arg8 harg8) K } := by
  refine ⟨?_, ?_, ?_, fun E K => ?run⟩
  case run =>
    simp only [cc0__sdt_kernel_eq_skeleton]; unfold cc0__sdt_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

end Cert.KernelIdeal.Tree

end
-- ==== Proof.FrameIdeal.lean ====
/-
  The tree kernel's frame run.  What the three outputs' staging buffers hold after each of the 64 grid points, by
  recursion on the point: at the first row tile of a half of the batch (points 0 and 32) what the body leaves when
  it starts from reset accumulators; at every other point what it leaves when the two accumulators come in holding
  what the point before left (their buffers are written back only after the last tile of a half, so nothing
  disturbs them in between).  With that as the proof data the body obligation is the case's symbolic run, and the
  library's frame run around a region gives: the program terminates, faults nowhere, each of the region's arrays
  ends at what the write-backs make of it, the later host lines' buffers at what those lines compute, and the three
  arguments end as launched.
-/
import proofs.«148994_j9070970929349_2_alg».proof.Proof.RunFirstIdeal
import proofs.«148994_j9070970929349_2_alg».proof.Proof.RunLaterIdeal

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each case cover each output's block -/

section Covers
variable (c : Dev nD) (i : grid0.Coords) (arg2 : Memref sig .tc .vmem S2048x784 .f32) (harg2 : arg2.IsWhole) (arg3 : Memref sig .tc .vmem S784x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x1x510 .f32) (harg7 : arg7.IsWhole) (arg8 : Memref sig .tc .vmem S1x1x510 .f32) (harg8 : arg8.IsWhole)
  (x0 : Vec F S2048x784 .f32) (x1 : Vec F S784x256 .f32) (x2 : Vec F S1x256 .f32) (x3 : Vec F S256x128 .f32)

/-- The score block is stored whole. -/
theorem coverF4 (hc : firstTile i) (y : S2048x128.Idx) :
    ∃ pc ∈ (runFirst c i arg2 harg2 arg3 harg3 arg4 harg4 arg5 harg5 arg6 harg6 arg7 harg7 arg8 harg8 hc x0 x1 x2 x3).1, y ∈ pc.1.set :=
  View.cover_of_tiledL (runFirst c i arg2 harg2 arg3 harg3 arg4 harg4 arg5 harg5 arg6 harg6 arg7 harg7 arg8 harg8 hc x0 x1 x2 x3).1 S2048x128.size (by sl_kernel_rfl) y
/-- At a first tile each accumulator is reset by one store of its whole block. -/
theorem coverF5 (hc : firstTile i) (y : S1x1x510.Idx) :
    ∃ pc ∈ (runFirst c i arg2 harg2 arg3 harg3 arg4 harg4 arg5 harg5 arg6 harg6 arg7 harg7 arg8 harg8 hc x0 x1 x2 x3).2.1, y ∈ pc.1.set :=
  View.cover_of_wholeMem (runFirst c i arg2 harg2 arg3 harg3 arg4 harg4 arg5 harg5 arg6 harg6 arg7 harg7 arg8 harg8 hc x0 x1 x2 x3).2.1 (by sl_whole_mem) y
theorem coverF6 (hc : firstTile i) (y : S1x1x510.Idx) :
    ∃ pc ∈ (runFirst c i arg2 harg2 arg3 harg3 arg4 harg4 arg5 harg5 arg6 harg6 arg7 harg7 arg8 harg8 hc x0 x1 x2 x3).2.2.1, y ∈ pc.1.set :=
  View.cover_of_wholeMem (runFirst c i arg2 harg2 arg3 harg3 arg4 harg4 arg5 harg5 arg6 harg6 arg7 harg7 arg8 harg8 hc x0 x1 x2 x3).2.2.1 (by sl_whole_mem) y

theorem coverL4 (hc : ¬firstTile i) (xo5 xo6 : Vec F S1x1x510 .f32) (y : S2048x128.Idx) :
    ∃ pc ∈ (runLater c i arg2 harg2 arg3 harg3 arg4 harg4 arg5 harg5 arg6 harg6 arg7 harg7 arg8 harg8 hc x0 x1 x2 x3 xo5 xo6).1, y ∈ pc.1.set :=
  View.cover_of_tiledL (runLater c i arg2 harg2 arg3 harg3 arg4 harg4 arg5 harg5 arg6 harg6 arg7 harg7 arg8 harg8 hc x0 x1 x2 x3 xo5 xo6).1 S2048x128.size (by sl_kernel_rfl) y
/-- At a later tile each accumulator is rewritten by eight stores, one per tree layer, of widths 2, 4, …, 256 at
    offsets 0, 2, 6, …, 254: cut into pairs of lanes they tile the 510 lanes. -/
theorem coverL5 (hc : ¬firstTile i) (xo5 xo6 : Vec F S1x1x510 .f32) (y : S1x1x510.Idx) :
    ∃ pc ∈ (runLater c i arg2 harg2 arg3 harg3 arg4 harg4 arg5 harg5 arg6 harg6 arg7 harg7 arg8 harg8 hc x0 x1 x2 x3 xo5 xo6).2.1, y ∈ pc.1.set :=
  View.cover_of_tiledBy (runLater c i arg2 harg2 arg3 harg3 arg4 harg4 arg5 harg5 arg6 harg6 arg7 harg7 arg8 harg8 hc x0 x1 x2 x3 xo5 xo6).2.1 ![1, 1, 2] (by sl_kernel_rfl) y
theorem coverL6 (hc : ¬firstTile i) (xo5 xo6 : Vec F S1x1x510 .f32) (y : S1x1x510.Idx) :
    ∃ pc ∈ (runLater c i arg2 harg2 arg3 harg3 arg4 harg4 arg5 harg5 arg6 harg6 arg7 harg7 arg8 harg8 hc x0 x1 x2 x3 xo5 xo6).2.2.1, y ∈ pc.1.set :=
  View.cover_of_tiledBy (runLater c i arg2 harg2 arg3 harg3 arg4 harg4 arg5 harg5 arg6 harg6 arg7 harg7 arg8 harg8 hc x0 x1 x2 x3 xo5 xo6).2.2.1 ![1, 1, 2] (by sl_kernel_rfl) y

/-- What each case leaves in each output's buffer: its stores read back. -/
def outF4 (hc : firstTile i) : Vec F S2048x128 .f32 :=
  VO4.read (Elt F) (VO4.writes (Elt F) VO4.junk (runFirst c i arg2 harg2 arg3 harg3 arg4 harg4 arg5 harg5 arg6 harg6 arg7 harg7 arg8 harg8 hc x0 x1 x2 x3).1)
def outF5 (hc : firstTile i) : Vec F S1x1x510 .f32 :=
  VO5.read (Elt F) (VO5.writes (Elt F) VO5.junk (runFirst c i arg2 harg2 arg3 harg3 arg4 harg4 arg5 harg5 arg6 harg6 arg7 harg7 arg8 harg8 hc x0 x1 x2 x3).2.1)
def outF6 (hc : firstTile i) : Vec F S1x1x510 .f32 :=
  VO6.read (Elt F) (VO6.writes (Elt F) VO6.junk (runFirst c i arg2 harg2 arg3 harg3 arg4 harg4 arg5 harg5 arg6 harg6 arg7 harg7 arg8 harg8 hc x0 x1 x2 x3).2.2.1)
def outL4 (hc : ¬firstTile i) (xo5 xo6 : Vec F S1x1x510 .f32) : Vec F S2048x128 .f32 :=
  VO4.read (Elt F) (VO4.writes (Elt F) VO4.junk (runLater c i arg2 harg2 arg3 harg3 arg4 harg4 arg5 harg5 arg6 harg6 arg7 harg7 arg8 harg8 hc x0 x1 x2 x3 xo5 xo6).1)
def outL5 (hc : ¬firstTile i) (xo5 xo6 : Vec F S1x1x510 .f32) : Vec F S1x1x510 .f32 :=
  VO5.read (Elt F) (VO5.writes (Elt F) VO5.junk (runLater c i arg2 harg2 arg3 harg3 arg4 harg4 arg5 harg5 arg6 harg6 arg7 harg7 arg8 harg8 hc x0 x1 x2 x3 xo5 xo6).2.1)
def outL6 (hc : ¬firstTile i) (xo5 xo6 : Vec F S1x1x510 .f32) : Vec F S1x1x510 .f32 :=
  VO6.read (Elt F) (VO6.writes (Elt F) VO6.junk (runLater c i arg2 harg2 arg3 harg3 arg4 harg4 arg5 harg5 arg6 harg6 arg7 harg7 arg8 harg8 hc x0 x1 x2 x3 xo5 xo6).2.2.1)

end Covers

/-! ## What the outputs hold after each point -/

/-- The three outputs after a first tile: the body on the point's memrefs and input blocks. -/
def atFirst (c : Dev nD) (t : Fin cfg0.N) (h : t.val % 32 = 0) : Vec F S2048x128 .f32 × Vec F S1x1x510 .f32 × Vec F S1x1x510 .f32 :=
  (outF4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) ((firstTile_iff t).mpr h),
   outF5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) ((firstTile_iff t).mpr h),
   outF6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) ((firstTile_iff t).mpr h))

/-- After a later tile: the same with the accumulators coming in at `p5`, `p6`. -/
def atLater (c : Dev nD) (t : Fin cfg0.N) (h : ¬t.val % 32 = 0) (p5 p6 : Vec F S1x1x510 .f32) : Vec F S2048x128 .f32 × Vec F S1x1x510 .f32 × Vec F S1x1x510 .f32 :=
  (outL4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (fun hh => h ((firstTile_iff t).mp hh)) p5 p6,
   outL5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (fun hh => h ((firstTile_iff t).mp hh)) p5 p6,
   outL6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (fun hh => h ((firstTile_iff t).mp hh)) p5 p6)

/-- The accumulation over the grid: the outputs after point `n`. -/
def outsAt (c : Dev nD) : (n : ℕ) → n < cfg0.N → Vec F S2048x128 .f32 × Vec F S1x1x510 .f32 × Vec F S1x1x510 .f32
  | 0, hn => atFirst m c ⟨0, hn⟩ (Nat.zero_mod _)
  | n + 1, hn =>
    if h0 : (n + 1) % 32 = 0 then atFirst m c ⟨n + 1, hn⟩ h0
    else atLater m c ⟨n + 1, hn⟩ h0 (outsAt c n (Nat.lt_of_succ_lt hn)).2.1 (outsAt c n (Nat.lt_of_succ_lt hn)).2.2

theorem outsAt_first (c : Dev nD) (t : Fin cfg0.N) (h0 : t.val % 32 = 0) :
    outsAt m c t.val t.isLt = atFirst m c t h0 := by
  obtain ⟨n, hn⟩ := t
  cases n with
  | zero => exact rfl
  | succ n => exact (dif_pos h0).trans rfl

theorem outsAt_later (c : Dev nD) (t : Fin cfg0.N) (h0 : ¬t.val % 32 = 0) :
    outsAt m c t.val t.isLt = atLater m c t h0
      (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input's buffer at its block, each output's at
    `outsAt`; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]
theorem after6 (c : Dev nD) (t : Fin cfg0.N) : (dats m 0 c).after 6 t = (outsAt m c t.val t.isLt).2.2 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At a later tile accumulator window 5's buffer holds what the body left at the point before: the point is not the
    first, and the buffer is written back only after the last tile of a half (points 31 and 63). -/
theorem before5_later (c : Dev nD) (t : Fin cfg0.N) (h0 : ¬t.val % 32 = 0) (d) :
    (dats m 0 c).before 5 t d = (outsAt m c (t.val - 1) (Nat.lt_of_le_of_lt (Nat.sub_le _ _) t.isLt)).2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]
/-- At a later tile accumulator window 6's buffer holds what the body left at the point before: the point is not the
    first, and the buffer is written back only after the last tile of a half (points 31 and 63). -/
theorem before6_later (c : Dev nD) (t : Fin cfg0.N) (h0 : ¬t.val % 32 = 0) (d) :
    (dats m 0 c).before 6 t d = (outsAt m c (t.val - 1) (Nat.lt_of_le_of_lt (Nat.sub_le _ _) t.isLt)).2.2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the inputs' buffers hold their blocks; the point is a first tile or not; at a later tile
    the accumulators' buffers hold what the point before left; so the case's run applies, and what it leaves is the
    case's stores read back, which cover each block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 64 := lt_of_lt_of_eq t.isLt (show cfg0.N = 64 from N_0)
  by_cases h0 : t.val % 32 = 0
  · rw [outsAt_first m c t h0]
    unfold atFirst; dsimp only
    unfold outF4 outF5 outF6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ ((firstTile_iff t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverF4 c _ _ _ _ _ _ _ _ _ _ _ _ _ _ _ _ _ _ _ _)
    isplitl [H5]
    · unfold owns; iexists _; isplitr
      swap; · iexact H5
      ipureintro; exact View.read_writes_of_cover _ _ _ _ _ (coverF5 c _ _ _ _ _ _ _ _ _ _ _ _ _ _ _ _ _ _ _ _)
    unfold owns; iexists _; isplitr
    swap; · iexact H6
    ipureintro; exact View.read_writes_of_cover _ _ _ _ _ (coverF6 c _ _ _ _ _ _ _ _ _ _ _ _ _ _ _ _ _ _ _ _)
  · rw [outsAt_later m c t h0]
    simp only [before5_later m c t h0, before6_later m c t h0]
    unfold atLater; dsimp only
    unfold outL4 outL5 outL6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ (fun hh => h0 ((firstTile_iff t).mp hh)) (iblk m c 0 t) (iblk m c 1 t) (iblk m c 2 t) (iblk m c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverL4 c _ _ _ _ _ _ _ _ _ _ _ _ _ _ _ _ _ _ _ _ _ _)
    isplitl [H5]
    · unfold owns; iexists _; isplitr
      swap; · iexact H5
      ipureintro; exact View.read_writes_of_cover _ _ _ _ _ (coverL5 c _ _ _ _ _ _ _ _ _ _ _ _ _ _ _ _ _ _ _ _ _ _)
    unfold owns; iexists _; isplitr
    swap; · iexact H6
    ipureintro; exact View.read_writes_of_cover _ _ _ _ _ (coverL6 c _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, each array of the region at what the
    write-backs make of the proof data, every other unscoped buffer as the 120 later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Tree

end
-- ==== Proof.TileTerms.lean ====
/-
  The values the tree kernel's body carries from one layer to the next, named once as functions of a tile's three
  input blocks (the rows, the weights, the bias row): the node probabilities, and per layer the pair
  [left | right] step probabilities and [parent | parent] path probabilities where the printed body hands them on.
-/
import proofs.«148994_j9070970929349_2_alg».proof.Proof.Gen.KernelIdeal.Skeleton

noncomputable section

namespace Cert.KernelIdeal.Tile

open Cert.KernelIdeal Cert.KernelIdeal.Gen Idealize.ShloMosaic

variable {F : FTy → Type} [FloatOps F]
variable (x0 : Vec F S2048x784 .f32) (x1 : Vec F S784x256 .f32) (x2 : Vec F S1x256 .f32)

/-- The tile's 256 slots of node probabilities (255 used). -/
abbrev prob : FVec F S2048x256 .f32 := k0_pay6 x0 x1 x2
/-- Layer 0: the step pair and the (all-ones) parent pair. -/
abbrev step0 : FVec F S2048x2 .f32 := k0_pay7 x0 x1 x2
abbrev par0 : FVec F S2048x2 .f32 := k0_pay8
/-- Layer 1. -/
abbrev step1 : FVec F S2048x4 .f32 := k0_pay12 (prob x0 x1 x2)
abbrev par1 : FVec F S2048x4 .f32 := k0_pay13 (step0 x0 x1 x2) (par0 (F := F))
/-- Layer 2. -/
abbrev step2 : FVec F S2048x8 .f32 := k0_pay16 (prob x0 x1 x2)
abbrev par2 : FVec F S2048x8 .f32 := k0_pay17 (prob x0 x1 x2) (step0 x0 x1 x2) (par0 (F := F))
/-- Layer 3. -/
abbrev step3 : FVec F S2048x16 .f32 := k0_pay22 (prob x0 x1 x2)
abbrev par3 : FVec F S2048x16 .f32 := k0_pay23 (step2 x0 x1 x2) (par2 x0 x1 x2)
/-- The path probabilities of layer 4's sixteen nodes, and the slice of probabilities its steps are made of. -/
abbrev path4 : FVec F S2048x16 .f32 := k0_pay26 (prob x0 x1 x2) (step2 x0 x1 x2) (par2 x0 x1 x2)
abbrev slice4 : FVec F S2048x16 .f32 := k0_pay27 (prob x0 x1 x2)
abbrev one : F .f32 := Scalar.ofBits .f32 0x3F800000#32
/-- Layer 4. -/
abbrev step4 : FVec F S2048x32 .f32 := k0_pay28 (slice4 x0 x1 x2) (one (F := F))
abbrev par4 : FVec F S2048x32 .f32 := k0_pay29 (path4 x0 x1 x2)
/-- Layer 5. -/
abbrev step5 : FVec F S2048x64 .f32 := k0_pay32 (prob x0 x1 x2)
abbrev par5 : FVec F S2048x64 .f32 := k0_pay33 (path4 x0 x1 x2) (slice4 x0 x1 x2) (one (F := F))
/-- Layer 6. -/
abbrev step6 : FVec F S2048x128 .f32 := k0_pay37 (prob x0 x1 x2)
abbrev par6 : FVec F S2048x128 .f32 := k0_pay38 (step5 x0 x1 x2) (par5 x0 x1 x2)
/-- Layer 7. -/
abbrev step7 : FVec F S2048x256 .f32 := k0_pay41 (prob x0 x1 x2)
abbrev par7 : FVec F S2048x256 .f32 := k0_pay42 (prob x0 x1 x2) (step5 x0 x1 x2) (par5 x0 x1 x2)
abbrev both7 : FVec F S2048x256 .f32 := k0_pay43 (prob x0 x1 x2) (step5 x0 x1 x2) (par5 x0 x1 x2)

/-- What the body stores, over what each accumulator slice held (`prev`): the first statistic of each layer … -/
abbrev slp0 (prev : Vec F S1x1x2 .f32) : FVec F S1x1x2 .f32 := k0_pay9 x0 x1 x2 prev
abbrev slp1 (prev : Vec F S1x1x4 .f32) : FVec F S1x1x4 .f32 := k0_pay14 (prob x0 x1 x2) (step0 x0 x1 x2) (par0 (F := F)) prev
abbrev slp2 (prev : Vec F S1x1x8 .f32) : FVec F S1x1x8 .f32 := k0_pay20 (k0_pay19 (prob x0 x1 x2) (step0 x0 x1 x2) (par0 (F := F)) prev)
abbrev slp3 (prev : Vec F S1x1x16 .f32) : FVec F S1x1x16 .f32 := k0_pay24 (prob x0 x1 x2) (step2 x0 x1 x2) (par2 x0 x1 x2) prev
abbrev slp4 (prev : Vec F S1x1x32 .f32) : FVec F S1x1x32 .f32 := k0_pay30 (path4 x0 x1 x2) (slice4 x0 x1 x2) (one (F := F)) prev
abbrev slp5 (prev : Vec F S1x1x64 .f32) : FVec F S1x1x64 .f32 := k0_pay35 (prob x0 x1 x2) (path4 x0 x1 x2) (slice4 x0 x1 x2) (one (F := F)) prev
abbrev slp6 (prev : Vec F S1x1x128 .f32) : FVec F S1x1x128 .f32 := k0_pay39 (prob x0 x1 x2) (step5 x0 x1 x2) (par5 x0 x1 x2) prev
abbrev slp7 (prev : Vec F S1x1x256 .f32) : FVec F S1x1x256 .f32 := k0_pay1 (both7 x0 x1 x2) prev
/-- … and the second. -/
abbrev smu0 (prev : Vec F S1x1x2 .f32) : FVec F S1x1x2 .f32 := k0_pay11 (k0_pay10 prev)
abbrev smu1 (prev : Vec F S1x1x4 .f32) : FVec F S1x1x4 .f32 := k0_pay15 (step0 x0 x1 x2) (par0 (F := F)) prev
abbrev smu2 (prev : Vec F S1x1x8 .f32) : FVec F S1x1x8 .f32 := k0_pay21 (k0_pay18 (prob x0 x1 x2) (step0 x0 x1 x2) (par0 (F := F))) prev
abbrev smu3 (prev : Vec F S1x1x16 .f32) : FVec F S1x1x16 .f32 := k0_pay25 (step2 x0 x1 x2) (par2 x0 x1 x2) prev
abbrev smu4 (prev : Vec F S1x1x32 .f32) : FVec F S1x1x32 .f32 := k0_pay31 (path4 x0 x1 x2) prev
abbrev smu5 (prev : Vec F S1x1x64 .f32) : FVec F S1x1x64 .f32 := k0_pay36 (k0_pay34 (path4 x0 x1 x2) (slice4 x0 x1 x2) (one (F := F))) prev
abbrev smu6 (prev : Vec F S1x1x128 .f32) : FVec F S1x1x128 .f32 := k0_pay40 (step5 x0 x1 x2) (par5 x0 x1 x2) prev
abbrev smu7 (prev : Vec F S1x1x256 .f32) : FVec F S1x1x256 .f32 := k0_pay2 (par7 x0 x1 x2) prev
/-- The score block: the leaf path probabilities times the leaf weights. -/
abbrev score (x3 : Vec F S256x128 .f32) : FVec F S2048x128 .f32 := k0_pay3 (step7 x0 x1 x2) (par7 x0 x1 x2) x3

end Cert.KernelIdeal.Tile

end
-- ==== Proof.KernelArrays.lean ====
/-
  What the region's three output arrays hold after the run, read off the frame run's proof data.
  The score array (131072 x 128, one block of 2048 rows per grid point, written back at every point): row b lies in
  the block of point b / 2048, and holds what the body's one store left there — the leaf path probabilities of the
  tile's rows times the leaf weights.
-/
import proofs.«148994_j9070970929349_2_alg».proof.Proof.FrameIdeal
import proofs.«148994_j9070970929349_2_alg».proof.Proof.TileTerms
import Idealize.ShloMosaic.Lib.Pipeline.Value
import Idealize.ShloMosaic.Lib.Pipeline.CanonAppend
import Idealize.ShloMosaic.Lib.ValueIdx

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

variable (m : (ℓ : Loc nD τ sig) → Buf (Elt F) ℓ) (ρ : Dev nD → PrngReg)

theorem hz2 : (![0, 0] : Fin 2 → Nat) = fun _ => 0 := funext fun a => by fin_cases a <;> rfl

section Pieces
variable (c : Dev nD) (i : grid0.Coords) (arg2 : Memref sig .tc .vmem S2048x784 .f32) (harg2 : arg2.IsWhole) (arg3 : Memref sig .tc .vmem S784x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x1x510 .f32) (harg7 : arg7.IsWhole) (arg8 : Memref sig .tc .vmem S1x1x510 .f32) (harg8 : arg8.IsWhole)
  (x0 : Vec F S2048x784 .f32) (x1 : Vec F S784x256 .f32) (x2 : Vec F S1x256 .f32) (x3 : Vec F S256x128 .f32)

/-- The one store of the score block leaves the score payload of the tile's blocks, at a first tile … -/
theorem outF4_eq (hc : firstTile i) :
    outF4 c i arg2 harg2 arg3 harg3 arg4 harg4 arg5 harg5 arg6 harg6 arg7 harg7 arg8 harg8 x0 x1 x2 x3 hc = Tile.score x0 x1 x2 x3 := by
  unfold outF4
  rw [View.read_writes_eq_canon _ _ _ (coverF4 c i arg2 harg2 arg3 harg3 arg4 harg4 arg5 harg5 arg6 harg6 arg7 harg7 arg8 harg8 x0 x1 x2 x3 hc)]
  unfold runFirst
  dsimp only
  sl_unfold_words
  rw [View.canon_unit_zero hz2]
  simp only [View.readAt_eq_ld, harg2.read_unread, harg3.read_unread, harg4.read_unread, harg5.read_unread,
    View.ld_unit_zero (S := S2048x784) hz2, View.ld_unit_zero (S := S784x256) hz2, View.ld_unit_zero (S := S1x256) hz2,
    View.ld_unit_zero (S := S256x128) hz2]

/-- … and at a later one. -/
theorem outL4_eq (hc : ¬firstTile i) (xo5 xo6 : Vec F S1x1x510 .f32) :
    outL4 c i arg2 harg2 arg3 harg3 arg4 harg4 arg5 harg5 arg6 harg6 arg7 harg7 arg8 harg8 x0 x1 x2 x3 hc xo5 xo6 = Tile.score x0 x1 x2 x3 := by
  unfold outL4
  rw [View.read_writes_eq_canon _ _ _ (coverL4 c i arg2 harg2 arg3 harg3 arg4 harg4 arg5 harg5 arg6 harg6 arg7 harg7 arg8 harg8 x0 x1 x2 x3 hc xo5 xo6)]
  unfold runLater
  dsimp only
  sl_unfold_words
  rw [View.canon_unit_zero hz2]
  simp only [View.readAt_eq_ld, harg2.read_unread, harg3.read_unread, harg4.read_unread, harg5.read_unread,
    View.ld_unit_zero (S := S2048x784) hz2, View.ld_unit_zero (S := S784x256) hz2, View.ld_unit_zero (S := S1x256) hz2,
    View.ld_unit_zero (S := S256x128) hz2]

end Pieces

/-- After every point the score block's buffer holds the score payload of the point's input blocks. -/
theorem out4_at (c : Dev nD) (t : Fin cfg0.N) :
    (outsAt m c t.val t.isLt).1 = Tile.score (iblk m c 0 t) (iblk m c 1 t) (iblk m c 2 t) (iblk m c 3 t) := by
  by_cases h0 : t.val % 32 = 0
  · rw [outsAt_first m c t h0]; unfold atFirst; dsimp only
    exact outF4_eq c _ _ _ _ _ _ _ _ _ _ _ _ _ _ _ _ _ _ _ _
  · rw [outsAt_later m c t h0]; unfold atLater; dsimp only
    exact outL4_eq c _ _ _ _ _ _ _ _ _ _ _ _ _ _ _ _ _ _ _ _ _ _

/-! ## The score array -/

/-- The windows' index maps over the grid: the row windows (0 and 4) are at block `t`, the weight windows at block 0,
    the statistics windows at the half of the batch `t / 32`. -/
theorem idx_facts : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 3) = t.val / 32 ∧ win0_5.index t (1 : Fin 3) = 0 ∧ win0_5.index t (2 : Fin 3) = 0
    ∧ win0_6.index t (0 : Fin 3) = t.val / 32 ∧ win0_6.index t (1 : Fin 3) = 0 ∧ win0_6.index t (2 : Fin 3) = 0 :=
  (by decide +kernel : ∀ t : Fin grid0.N, _)

/-- The grid point whose block holds row `b`. -/
def ptOf (b : ℕ) (h : b < 131072) : Fin cfg0.N := ⟨b / 2048, by rw [show cfg0.N = 64 from N_0]; omega⟩

/-- The score array after the run: row `b`, column `o` is the score payload of the blocks of point `b / 2048` at
    row `b mod 2048`. -/
def G4 (c : Dev nD) : S131072x128.Idx → Elt F .f32 := fun i =>
  Tile.score (iblk m c 0 (ptOf (i 0).val (i 0).isLt)) (iblk m c 1 (ptOf (i 0).val (i 0).isLt))
    (iblk m c 2 (ptOf (i 0).val (i 0).isLt)) (iblk m c 3 (ptOf (i 0).val (i 0).isLt))
    (ix2 ⟨(i 0).val % 2048, Nat.mod_lt _ (by norm_num)⟩ ⟨(i 1).val, (i 1).isLt⟩)

theorem G4_at (c : Dev nD) (t : Fin cfg0.N) (i : S131072x128.Idx) (j : S2048x128.Idx)
    (h0 : (i 0).val = t.val * 2048 + (j 0).val) (h1 : (i 1).val = (j 1).val) :
    G4 m c i = Tile.score (iblk m c 0 t) (iblk m c 1 t) (iblk m c 2 t) (iblk m c 3 t) j := by
  have hj0 : (j 0).val < 2048 := (j 0).isLt
  obtain rfl : t = ptOf (i 0).val (i 0).isLt := Fin.ext (by show t.val = (i 0).val / 2048; omega)
  unfold G4
  refine congrArg _ ?_
  rw [eq_ix2 j]
  refine congrArg₂ _ (Fin.ext ?_) (Fin.ext ?_)
  · show (i 0).val % 2048 = (j 0).val
    have : (ptOf (i 0).val (i 0).isLt).val = (i 0).val / 2048 := rfl
    omega
  · exact h1

/-- What point `t` writes back is block `t` of `G4`. -/
theorem flushed4_eq (c : Dev nD) (t : Fin cfg0.N) :
    (dats m 0 c).flushed 4 t = ((cfg0.win 4).blk t).view.read (Elt F) (G4 m c) := by
  show (cfg0.win 4).cut (grid0.coords t) ((dats m 0 c).after 4 t) = _
  rw [after4, out4_at]
  funext j
  symm
  refine G4_at m c t _ j ?_ ?_
  · show win0_4.index t (0 : Fin 2) * 2048 + 1 * (j 0).val = _
    rw [(idx_facts t).1]; omega
  · show win0_4.index t (1 : Fin 2) * 128 + 1 * (j 1).val = _
    rw [(idx_facts t).2.1]; omega

theorem mem_blk4 (t : Fin cfg0.N) (i : S131072x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v23_0).slice (win0_4.rect t)).set ↔ _
  rw [View.set_slice_whole, Rect.mem_set_unit]
  exact Iff.rfl

/-- Every row is in the block of some point, and every point writes its block back. -/
theorem cover4 (i : S131072x128.Idx) : ∃ t : Fin cfg0.N, (cfg0.win 4).flush t = true ∧ i ∈ ((cfg0.win 4).blk t).view.set := by
  have hi0 : (i 0).val < 131072 := (i 0).isLt
  have hi1 : (i 1).val < 128 := (i 1).isLt
  refine ⟨ptOf (i 0).val hi0, flush0_4 _, ?_⟩
  rw [mem_blk4]
  have hp : (ptOf (i 0).val hi0).val = (i 0).val / 2048 := rfl
  intro a
  match a with
  | ⟨0, _⟩ => show win0_4.index _ (0 : Fin 2) * 2048 ≤ (i 0).val ∧ (i 0).val < win0_4.index _ (0 : Fin 2) * 2048 + 2048; rw [(idx_facts _).1]; omega
  | ⟨1, _⟩ => show win0_4.index _ (1 : Fin 2) * 128 ≤ (i 1).val ∧ (i 1).val < win0_4.index _ (1 : Fin 2) * 128 + 128; rw [(idx_facts _).2.1]; omega

/-- The score array after the run. -/
theorem final4 (c : Dev nD) : (dats m 0 c).arrAt 4 cfg0.N = G4 m c :=
  (dats m 0 c).arrAt_eq_of_cover 4 (G4 m c) (fun t _ => flushed4_eq m c t) cover4

end Cert.KernelIdeal.Tree

end
-- ==== Proof.KernelStats.lean ====
/-
  The two statistics arrays.  Each is a [2, 1, 510] array, one [1, 1, 510] block per half of the batch, whose 510
  lanes are the tree's eight layers side by side (layer L's 2^(L+1) child positions at lanes 2^(L+1) - 2 …).  A tile's
  body rewrites every layer's lanes as "what was there plus this tile's column sums"; at the first tile of a half
  "what was there" is the zero it has just stored.  So after the last tile of a half the block holds, lane by lane,
  zero plus the 32 tiles' column sums, and that is what is written back.
-/
import proofs.«148994_j9070970929349_2_alg».proof.Proof.KernelArrays

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

/-- Entry `k` of a [1, 1, n] vector, `d` past its end. -/
def at3 {α : Type} {n : ℕ} (v : (⟨3, ![1, 1, n]⟩ : Shape).Idx → α) (d : α) (k : ℕ) : α :=
  if h : k < n then v (ix3 0 0 ⟨k, h⟩) else d

/-- Accumulator window 5 after a tile, over what it held before (`prev`): lanes `off … off + n - 1` of layer L hold that
    layer's stored payload over the matching lanes of `prev`. -/
def stat5 (x0 : Vec F S2048x784 .f32) (x1 : Vec F S784x256 .f32) (x2 : Vec F S1x256 .f32) (prev : Vec F S1x1x510 .f32) : Vec F S1x1x510 .f32 := fun y =>
  if (y 2).val < 2 then at3 (Tile.slp0 x0 x1 x2 (View.ld prev (Rect.unit (s := S1x1x510) ![0, 0, 0] S1x1x2.size inb_S1x1x510_S1x1x2_0_0_0))) (prev y) ((y 2).val - 0)
  else if (y 2).val < 6 then at3 (Tile.slp1 x0 x1 x2 (View.ld prev (Rect.unit (s := S1x1x510) ![0, 0, 2] S1x1x4.size inb_S1x1x510_S1x1x4_0_0_2))) (prev y) ((y 2).val - 2)
  else if (y 2).val < 14 then at3 (Tile.slp2 x0 x1 x2 (View.ld prev (Rect.unit (s := S1x1x510) ![0, 0, 6] S1x1x8.size inb_S1x1x510_S1x1x8_0_0_6))) (prev y) ((y 2).val - 6)
  else if (y 2).val < 30 then at3 (Tile.slp3 x0 x1 x2 (View.ld prev (Rect.unit (s := S1x1x510) ![0, 0, 14] S1x1x16.size inb_S1x1x510_S1x1x16_0_0_14))) (prev y) ((y 2).val - 14)
  else if (y 2).val < 62 then at3 (Tile.slp4 x0 x1 x2 (View.ld prev (Rect.unit (s := S1x1x510) ![0, 0, 30] S1x1x32.size inb_S1x1x510_S1x1x32_0_0_30))) (prev y) ((y 2).val - 30)
  else if (y 2).val < 126 then at3 (Tile.slp5 x0 x1 x2 (View.ld prev (Rect.unit (s := S1x1x510) ![0, 0, 62] S1x1x64.size inb_S1x1x510_S1x1x64_0_0_62))) (prev y) ((y 2).val - 62)
  else if (y 2).val < 254 then at3 (Tile.slp6 x0 x1 x2 (View.ld prev (Rect.unit (s := S1x1x510) ![0, 0, 126] S1x1x128.size inb_S1x1x510_S1x1x128_0_0_126))) (prev y) ((y 2).val - 126)
  else at3 (Tile.slp7 x0 x1 x2 (View.ld prev (Rect.unit (s := S1x1x510) ![0, 0, 254] S1x1x256.size inb_S1x1x510_S1x1x256_0_0_254))) (prev y) ((y 2).val - 254)

theorem stat5_piece0 (x0 : Vec F S2048x784 .f32) (x1 : Vec F S784x256 .f32) (x2 : Vec F S1x256 .f32) (prev : Vec F S1x1x510 .f32) (x : S1x1x2.Idx) :
    Tile.slp0 x0 x1 x2 (View.ld prev (Rect.unit (s := S1x1x510) ![0, 0, 0] S1x1x2.size inb_S1x1x510_S1x1x2_0_0_0)) x = stat5 x0 x1 x2 prev ((Rect.unit (s := S1x1x510) ![0, 0, 0] S1x1x2.size inb_S1x1x510_S1x1x2_0_0_0).emb x) := by
  have hx : (x 2).val < 2 := (x 2).isLt
  have he : (((Rect.unit (s := S1x1x510) ![0, 0, 0] S1x1x2.size inb_S1x1x510_S1x1x2_0_0_0).emb x) 2).val = 0 + (x 2).val := by
    show 0 + 1 * (x 2).val = _; omega
  unfold stat5
  rw [he]
  rw [if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 0 + (x 2).val - 0; omega)

theorem stat5_piece1 (x0 : Vec F S2048x784 .f32) (x1 : Vec F S784x256 .f32) (x2 : Vec F S1x256 .f32) (prev : Vec F S1x1x510 .f32) (x : S1x1x4.Idx) :
    Tile.slp1 x0 x1 x2 (View.ld prev (Rect.unit (s := S1x1x510) ![0, 0, 2] S1x1x4.size inb_S1x1x510_S1x1x4_0_0_2)) x = stat5 x0 x1 x2 prev ((Rect.unit (s := S1x1x510) ![0, 0, 2] S1x1x4.size inb_S1x1x510_S1x1x4_0_0_2).emb x) := by
  have hx : (x 2).val < 4 := (x 2).isLt
  have he : (((Rect.unit (s := S1x1x510) ![0, 0, 2] S1x1x4.size inb_S1x1x510_S1x1x4_0_0_2).emb x) 2).val = 2 + (x 2).val := by
    show 2 + 1 * (x 2).val = _; omega
  unfold stat5
  rw [he]
  rw [if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 2 + (x 2).val - 2; omega)

theorem stat5_piece2 (x0 : Vec F S2048x784 .f32) (x1 : Vec F S784x256 .f32) (x2 : Vec F S1x256 .f32) (prev : Vec F S1x1x510 .f32) (x : S1x1x8.Idx) :
    Tile.slp2 x0 x1 x2 (View.ld prev (Rect.unit (s := S1x1x510) ![0, 0, 6] S1x1x8.size inb_S1x1x510_S1x1x8_0_0_6)) x = stat5 x0 x1 x2 prev ((Rect.unit (s := S1x1x510) ![0, 0, 6] S1x1x8.size inb_S1x1x510_S1x1x8_0_0_6).emb x) := by
  have hx : (x 2).val < 8 := (x 2).isLt
  have he : (((Rect.unit (s := S1x1x510) ![0, 0, 6] S1x1x8.size inb_S1x1x510_S1x1x8_0_0_6).emb x) 2).val = 6 + (x 2).val := by
    show 6 + 1 * (x 2).val = _; omega
  unfold stat5
  rw [he]
  rw [if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 6 + (x 2).val - 6; omega)

theorem stat5_piece3 (x0 : Vec F S2048x784 .f32) (x1 : Vec F S784x256 .f32) (x2 : Vec F S1x256 .f32) (prev : Vec F S1x1x510 .f32) (x : S1x1x16.Idx) :
    Tile.slp3 x0 x1 x2 (View.ld prev (Rect.unit (s := S1x1x510) ![0, 0, 14] S1x1x16.size inb_S1x1x510_S1x1x16_0_0_14)) x = stat5 x0 x1 x2 prev ((Rect.unit (s := S1x1x510) ![0, 0, 14] S1x1x16.size inb_S1x1x510_S1x1x16_0_0_14).emb x) := by
  have hx : (x 2).val < 16 := (x 2).isLt
  have he : (((Rect.unit (s := S1x1x510) ![0, 0, 14] S1x1x16.size inb_S1x1x510_S1x1x16_0_0_14).emb x) 2).val = 14 + (x 2).val := by
    show 14 + 1 * (x 2).val = _; omega
  unfold stat5
  rw [he]
  rw [if_neg (by omega), if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 14 + (x 2).val - 14; omega)

theorem stat5_piece4 (x0 : Vec F S2048x784 .f32) (x1 : Vec F S784x256 .f32) (x2 : Vec F S1x256 .f32) (prev : Vec F S1x1x510 .f32) (x : S1x1x32.Idx) :
    Tile.slp4 x0 x1 x2 (View.ld prev (Rect.unit (s := S1x1x510) ![0, 0, 30] S1x1x32.size inb_S1x1x510_S1x1x32_0_0_30)) x = stat5 x0 x1 x2 prev ((Rect.unit (s := S1x1x510) ![0, 0, 30] S1x1x32.size inb_S1x1x510_S1x1x32_0_0_30).emb x) := by
  have hx : (x 2).val < 32 := (x 2).isLt
  have he : (((Rect.unit (s := S1x1x510) ![0, 0, 30] S1x1x32.size inb_S1x1x510_S1x1x32_0_0_30).emb x) 2).val = 30 + (x 2).val := by
    show 30 + 1 * (x 2).val = _; omega
  unfold stat5
  rw [he]
  rw [if_neg (by omega), if_neg (by omega), if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 30 + (x 2).val - 30; omega)

theorem stat5_piece5 (x0 : Vec F S2048x784 .f32) (x1 : Vec F S784x256 .f32) (x2 : Vec F S1x256 .f32) (prev : Vec F S1x1x510 .f32) (x : S1x1x64.Idx) :
    Tile.slp5 x0 x1 x2 (View.ld prev (Rect.unit (s := S1x1x510) ![0, 0, 62] S1x1x64.size inb_S1x1x510_S1x1x64_0_0_62)) x = stat5 x0 x1 x2 prev ((Rect.unit (s := S1x1x510) ![0, 0, 62] S1x1x64.size inb_S1x1x510_S1x1x64_0_0_62).emb x) := by
  have hx : (x 2).val < 64 := (x 2).isLt
  have he : (((Rect.unit (s := S1x1x510) ![0, 0, 62] S1x1x64.size inb_S1x1x510_S1x1x64_0_0_62).emb x) 2).val = 62 + (x 2).val := by
    show 62 + 1 * (x 2).val = _; omega
  unfold stat5
  rw [he]
  rw [if_neg (by omega), if_neg (by omega), if_neg (by omega), if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 62 + (x 2).val - 62; omega)

theorem stat5_piece6 (x0 : Vec F S2048x784 .f32) (x1 : Vec F S784x256 .f32) (x2 : Vec F S1x256 .f32) (prev : Vec F S1x1x510 .f32) (x : S1x1x128.Idx) :
    Tile.slp6 x0 x1 x2 (View.ld prev (Rect.unit (s := S1x1x510) ![0, 0, 126] S1x1x128.size inb_S1x1x510_S1x1x128_0_0_126)) x = stat5 x0 x1 x2 prev ((Rect.unit (s := S1x1x510) ![0, 0, 126] S1x1x128.size inb_S1x1x510_S1x1x128_0_0_126).emb x) := by
  have hx : (x 2).val < 128 := (x 2).isLt
  have he : (((Rect.unit (s := S1x1x510) ![0, 0, 126] S1x1x128.size inb_S1x1x510_S1x1x128_0_0_126).emb x) 2).val = 126 + (x 2).val := by
    show 126 + 1 * (x 2).val = _; omega
  unfold stat5
  rw [he]
  rw [if_neg (by omega), if_neg (by omega), if_neg (by omega), if_neg (by omega), if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 126 + (x 2).val - 126; omega)

theorem stat5_piece7 (x0 : Vec F S2048x784 .f32) (x1 : Vec F S784x256 .f32) (x2 : Vec F S1x256 .f32) (prev : Vec F S1x1x510 .f32) (x : S1x1x256.Idx) :
    Tile.slp7 x0 x1 x2 (View.ld prev (Rect.unit (s := S1x1x510) ![0, 0, 254] S1x1x256.size inb_S1x1x510_S1x1x256_0_0_254)) x = stat5 x0 x1 x2 prev ((Rect.unit (s := S1x1x510) ![0, 0, 254] S1x1x256.size inb_S1x1x510_S1x1x256_0_0_254).emb x) := by
  have hx : (x 2).val < 256 := (x 2).isLt
  have he : (((Rect.unit (s := S1x1x510) ![0, 0, 254] S1x1x256.size inb_S1x1x510_S1x1x256_0_0_254).emb x) 2).val = 254 + (x 2).val := by
    show 254 + 1 * (x 2).val = _; omega
  unfold stat5
  rw [he]
  rw [if_neg (by omega), if_neg (by omega), if_neg (by omega), if_neg (by omega), if_neg (by omega), if_neg (by omega), if_neg (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 254 + (x 2).val - 254; omega)

/-- Accumulator window 6 after a tile, over what it held before (`prev`): lanes `off … off + n - 1` of layer L hold that
    layer's stored payload over the matching lanes of `prev`. -/
def stat6 (x0 : Vec F S2048x784 .f32) (x1 : Vec F S784x256 .f32) (x2 : Vec F S1x256 .f32) (prev : Vec F S1x1x510 .f32) : Vec F S1x1x510 .f32 := fun y =>
  if (y 2).val < 2 then at3 (Tile.smu0 (View.ld prev (Rect.unit (s := S1x1x510) ![0, 0, 0] S1x1x2.size inb_S1x1x510_S1x1x2_0_0_0))) (prev y) ((y 2).val - 0)
  else if (y 2).val < 6 then at3 (Tile.smu1 x0 x1 x2 (View.ld prev (Rect.unit (s := S1x1x510) ![0, 0, 2] S1x1x4.size inb_S1x1x510_S1x1x4_0_0_2))) (prev y) ((y 2).val - 2)
  else if (y 2).val < 14 then at3 (Tile.smu2 x0 x1 x2 (View.ld prev (Rect.unit (s := S1x1x510) ![0, 0, 6] S1x1x8.size inb_S1x1x510_S1x1x8_0_0_6))) (prev y) ((y 2).val - 6)
  else if (y 2).val < 30 then at3 (Tile.smu3 x0 x1 x2 (View.ld prev (Rect.unit (s := S1x1x510) ![0, 0, 14] S1x1x16.size inb_S1x1x510_S1x1x16_0_0_14))) (prev y) ((y 2).val - 14)
  else if (y 2).val < 62 then at3 (Tile.smu4 x0 x1 x2 (View.ld prev (Rect.unit (s := S1x1x510) ![0, 0, 30] S1x1x32.size inb_S1x1x510_S1x1x32_0_0_30))) (prev y) ((y 2).val - 30)
  else if (y 2).val < 126 then at3 (Tile.smu5 x0 x1 x2 (View.ld prev (Rect.unit (s := S1x1x510) ![0, 0, 62] S1x1x64.size inb_S1x1x510_S1x1x64_0_0_62))) (prev y) ((y 2).val - 62)
  else if (y 2).val < 254 then at3 (Tile.smu6 x0 x1 x2 (View.ld prev (Rect.unit (s := S1x1x510) ![0, 0, 126] S1x1x128.size inb_S1x1x510_S1x1x128_0_0_126))) (prev y) ((y 2).val - 126)
  else at3 (Tile.smu7 x0 x1 x2 (View.ld prev (Rect.unit (s := S1x1x510) ![0, 0, 254] S1x1x256.size inb_S1x1x510_S1x1x256_0_0_254))) (prev y) ((y 2).val - 254)

theorem stat6_piece0 (x0 : Vec F S2048x784 .f32) (x1 : Vec F S784x256 .f32) (x2 : Vec F S1x256 .f32) (prev : Vec F S1x1x510 .f32) (x : S1x1x2.Idx) :
    Tile.smu0 (View.ld prev (Rect.unit (s := S1x1x510) ![0, 0, 0] S1x1x2.size inb_S1x1x510_S1x1x2_0_0_0)) x = stat6 x0 x1 x2 prev ((Rect.unit (s := S1x1x510) ![0, 0, 0] S1x1x2.size inb_S1x1x510_S1x1x2_0_0_0).emb x) := by
  have hx : (x 2).val < 2 := (x 2).isLt
  have he : (((Rect.unit (s := S1x1x510) ![0, 0, 0] S1x1x2.size inb_S1x1x510_S1x1x2_0_0_0).emb x) 2).val = 0 + (x 2).val := by
    show 0 + 1 * (x 2).val = _; omega
  unfold stat6
  rw [he]
  rw [if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 0 + (x 2).val - 0; omega)

theorem stat6_piece1 (x0 : Vec F S2048x784 .f32) (x1 : Vec F S784x256 .f32) (x2 : Vec F S1x256 .f32) (prev : Vec F S1x1x510 .f32) (x : S1x1x4.Idx) :
    Tile.smu1 x0 x1 x2 (View.ld prev (Rect.unit (s := S1x1x510) ![0, 0, 2] S1x1x4.size inb_S1x1x510_S1x1x4_0_0_2)) x = stat6 x0 x1 x2 prev ((Rect.unit (s := S1x1x510) ![0, 0, 2] S1x1x4.size inb_S1x1x510_S1x1x4_0_0_2).emb x) := by
  have hx : (x 2).val < 4 := (x 2).isLt
  have he : (((Rect.unit (s := S1x1x510) ![0, 0, 2] S1x1x4.size inb_S1x1x510_S1x1x4_0_0_2).emb x) 2).val = 2 + (x 2).val := by
    show 2 + 1 * (x 2).val = _; omega
  unfold stat6
  rw [he]
  rw [if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 2 + (x 2).val - 2; omega)

theorem stat6_piece2 (x0 : Vec F S2048x784 .f32) (x1 : Vec F S784x256 .f32) (x2 : Vec F S1x256 .f32) (prev : Vec F S1x1x510 .f32) (x : S1x1x8.Idx) :
    Tile.smu2 x0 x1 x2 (View.ld prev (Rect.unit (s := S1x1x510) ![0, 0, 6] S1x1x8.size inb_S1x1x510_S1x1x8_0_0_6)) x = stat6 x0 x1 x2 prev ((Rect.unit (s := S1x1x510) ![0, 0, 6] S1x1x8.size inb_S1x1x510_S1x1x8_0_0_6).emb x) := by
  have hx : (x 2).val < 8 := (x 2).isLt
  have he : (((Rect.unit (s := S1x1x510) ![0, 0, 6] S1x1x8.size inb_S1x1x510_S1x1x8_0_0_6).emb x) 2).val = 6 + (x 2).val := by
    show 6 + 1 * (x 2).val = _; omega
  unfold stat6
  rw [he]
  rw [if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 6 + (x 2).val - 6; omega)

theorem stat6_piece3 (x0 : Vec F S2048x784 .f32) (x1 : Vec F S784x256 .f32) (x2 : Vec F S1x256 .f32) (prev : Vec F S1x1x510 .f32) (x : S1x1x16.Idx) :
    Tile.smu3 x0 x1 x2 (View.ld prev (Rect.unit (s := S1x1x510) ![0, 0, 14] S1x1x16.size inb_S1x1x510_S1x1x16_0_0_14)) x = stat6 x0 x1 x2 prev ((Rect.unit (s := S1x1x510) ![0, 0, 14] S1x1x16.size inb_S1x1x510_S1x1x16_0_0_14).emb x) := by
  have hx : (x 2).val < 16 := (x 2).isLt
  have he : (((Rect.unit (s := S1x1x510) ![0, 0, 14] S1x1x16.size inb_S1x1x510_S1x1x16_0_0_14).emb x) 2).val = 14 + (x 2).val := by
    show 14 + 1 * (x 2).val = _; omega
  unfold stat6
  rw [he]
  rw [if_neg (by omega), if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 14 + (x 2).val - 14; omega)

theorem stat6_piece4 (x0 : Vec F S2048x784 .f32) (x1 : Vec F S784x256 .f32) (x2 : Vec F S1x256 .f32) (prev : Vec F S1x1x510 .f32) (x : S1x1x32.Idx) :
    Tile.smu4 x0 x1 x2 (View.ld prev (Rect.unit (s := S1x1x510) ![0, 0, 30] S1x1x32.size inb_S1x1x510_S1x1x32_0_0_30)) x = stat6 x0 x1 x2 prev ((Rect.unit (s := S1x1x510) ![0, 0, 30] S1x1x32.size inb_S1x1x510_S1x1x32_0_0_30).emb x) := by
  have hx : (x 2).val < 32 := (x 2).isLt
  have he : (((Rect.unit (s := S1x1x510) ![0, 0, 30] S1x1x32.size inb_S1x1x510_S1x1x32_0_0_30).emb x) 2).val = 30 + (x 2).val := by
    show 30 + 1 * (x 2).val = _; omega
  unfold stat6
  rw [he]
  rw [if_neg (by omega), if_neg (by omega), if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 30 + (x 2).val - 30; omega)

theorem stat6_piece5 (x0 : Vec F S2048x784 .f32) (x1 : Vec F S784x256 .f32) (x2 : Vec F S1x256 .f32) (prev : Vec F S1x1x510 .f32) (x : S1x1x64.Idx) :
    Tile.smu5 x0 x1 x2 (View.ld prev (Rect.unit (s := S1x1x510) ![0, 0, 62] S1x1x64.size inb_S1x1x510_S1x1x64_0_0_62)) x = stat6 x0 x1 x2 prev ((Rect.unit (s := S1x1x510) ![0, 0, 62] S1x1x64.size inb_S1x1x510_S1x1x64_0_0_62).emb x) := by
  have hx : (x 2).val < 64 := (x 2).isLt
  have he : (((Rect.unit (s := S1x1x510) ![0, 0, 62] S1x1x64.size inb_S1x1x510_S1x1x64_0_0_62).emb x) 2).val = 62 + (x 2).val := by
    show 62 + 1 * (x 2).val = _; omega
  unfold stat6
  rw [he]
  rw [if_neg (by omega), if_neg (by omega), if_neg (by omega), if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 62 + (x 2).val - 62; omega)

theorem stat6_piece6 (x0 : Vec F S2048x784 .f32) (x1 : Vec F S784x256 .f32) (x2 : Vec F S1x256 .f32) (prev : Vec F S1x1x510 .f32) (x : S1x1x128.Idx) :
    Tile.smu6 x0 x1 x2 (View.ld prev (Rect.unit (s := S1x1x510) ![0, 0, 126] S1x1x128.size inb_S1x1x510_S1x1x128_0_0_126)) x = stat6 x0 x1 x2 prev ((Rect.unit (s := S1x1x510) ![0, 0, 126] S1x1x128.size inb_S1x1x510_S1x1x128_0_0_126).emb x) := by
  have hx : (x 2).val < 128 := (x 2).isLt
  have he : (((Rect.unit (s := S1x1x510) ![0, 0, 126] S1x1x128.size inb_S1x1x510_S1x1x128_0_0_126).emb x) 2).val = 126 + (x 2).val := by
    show 126 + 1 * (x 2).val = _; omega
  unfold stat6
  rw [he]
  rw [if_neg (by omega), if_neg (by omega), if_neg (by omega), if_neg (by omega), if_neg (by omega), if_neg (by omega), if_pos (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 126 + (x 2).val - 126; omega)

theorem stat6_piece7 (x0 : Vec F S2048x784 .f32) (x1 : Vec F S784x256 .f32) (x2 : Vec F S1x256 .f32) (prev : Vec F S1x1x510 .f32) (x : S1x1x256.Idx) :
    Tile.smu7 x0 x1 x2 (View.ld prev (Rect.unit (s := S1x1x510) ![0, 0, 254] S1x1x256.size inb_S1x1x510_S1x1x256_0_0_254)) x = stat6 x0 x1 x2 prev ((Rect.unit (s := S1x1x510) ![0, 0, 254] S1x1x256.size inb_S1x1x510_S1x1x256_0_0_254).emb x) := by
  have hx : (x 2).val < 256 := (x 2).isLt
  have he : (((Rect.unit (s := S1x1x510) ![0, 0, 254] S1x1x256.size inb_S1x1x510_S1x1x256_0_0_254).emb x) 2).val = 254 + (x 2).val := by
    show 254 + 1 * (x 2).val = _; omega
  unfold stat6
  rw [he]
  rw [if_neg (by omega), if_neg (by omega), if_neg (by omega), if_neg (by omega), if_neg (by omega), if_neg (by omega), if_neg (by omega)]
  unfold at3
  rw [dif_pos (by omega)]
  refine congrArg _ ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by show (x 2).val = 254 + (x 2).val - 254; omega)

/-! ## What the body's stores leave in the two statistics windows -/

theorem hz3 : (![0, 0, 0] : Fin 3 → Nat) = fun _ => 0 := funext fun a => by fin_cases a <;> rfl

/-- An index at or past lane `o + n` is not in the rectangle of lanes `o … o + n - 1`. -/
theorem not_mem_below {off size : Fin 3 → ℕ} {inb} (y : S1x1x510.Idx) (hy : off 2 + size 2 ≤ (y 2).val) :
    y ∉ (Rect.unit (s := S1x1x510) off size inb).set := by
  rw [Rect.mem_set_unit]
  intro h
  have h2 : (y 2).val < off 2 + size 2 := (h 2).2
  omega

/-- Off the last store's rectangle, the contents are what the earlier stores left. -/
theorem canon_cons_skip {Val : EltTy → Type} [∀ e, Nonempty (Val e)] {S : Shape} {e : EltTy} (r : Rect S) (w : r.shape.Idx → Val e)
    (L : List (View.Piece Val S e)) (y : S.Idx) (h : y ∉ r.set) : View.canon (⟨r, w⟩ :: L) y = View.canon L y :=
  View.canon_cons_of_not_mem ⟨r, w⟩ L h

section PiecesStats
variable (c : Dev nD) (i : grid0.Coords) (arg2 : Memref sig .tc .vmem S2048x784 .f32) (harg2 : arg2.IsWhole) (arg3 : Memref sig .tc .vmem S784x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x1x510 .f32) (harg7 : arg7.IsWhole) (arg8 : Memref sig .tc .vmem S1x1x510 .f32) (harg8 : arg8.IsWhole)
  (x0 : Vec F S2048x784 .f32) (x1 : Vec F S784x256 .f32) (x2 : Vec F S1x256 .f32) (x3 : Vec F S256x128 .f32)

/-- At a later tile window 5's buffer ends at `stat5` of the tile's blocks over what it held. -/
theorem outL5_eq (hc : ¬firstTile i) (xo5 xo6 : Vec F S1x1x510 .f32) :
    outL5 c i arg2 harg2 arg3 harg3 arg4 harg4 arg5 harg5 arg6 harg6 arg7 harg7 arg8 harg8 x0 x1 x2 x3 hc xo5 xo6 = stat5 x0 x1 x2 xo5 := by
  unfold outL5
  rw [View.read_writes_eq_canon _ _ _ (coverL5 c i arg2 harg2 arg3 harg3 arg4 harg4 arg5 harg5 arg6 harg6 arg7 harg7 arg8 harg8 x0 x1 x2 x3 hc xo5 xo6)]
  funext y
  have hcov := coverL5 c i arg2 harg2 arg3 harg3 arg4 harg4 arg5 harg5 arg6 harg6 arg7 harg7 arg8 harg8 x0 x1 x2 x3 hc xo5 xo6 y
  revert hcov
  unfold runLater
  dsimp only
  sl_unfold_words
  simp only [View.readAt_eq_ld, harg2.read_unread, harg3.read_unread, harg4.read_unread, harg7.read_unread,
    View.ld_unit_zero (S := S2048x784) hz2, View.ld_unit_zero (S := S784x256) hz2, View.ld_unit_zero (S := S1x256) hz2]
  intro hcov
  refine View.canon_apply_of_pieces (stat5 x0 x1 x2 xo5) _ ?_ y hcov
  intro p hp
  simp only [List.mem_cons, List.mem_nil_iff, or_false] at hp
  rcases hp with rfl | rfl | rfl | rfl | rfl | rfl | rfl | rfl
  · exact stat5_piece7 x0 x1 x2 xo5
  · exact stat5_piece6 x0 x1 x2 xo5
  · exact stat5_piece5 x0 x1 x2 xo5
  · exact stat5_piece4 x0 x1 x2 xo5
  · exact stat5_piece3 x0 x1 x2 xo5
  · exact stat5_piece2 x0 x1 x2 xo5
  · exact stat5_piece1 x0 x1 x2 xo5
  · exact stat5_piece0 x0 x1 x2 xo5

/-- At a later tile window 6's buffer ends at `stat6` of the tile's blocks over what it held. -/
theorem outL6_eq (hc : ¬firstTile i) (xo5 xo6 : Vec F S1x1x510 .f32) :
    outL6 c i arg2 harg2 arg3 harg3 arg4 harg4 arg5 harg5 arg6 harg6 arg7 harg7 arg8 harg8 x0 x1 x2 x3 hc xo5 xo6 = stat6 x0 x1 x2 xo6 := by
  unfold outL6
  rw [View.read_writes_eq_canon _ _ _ (coverL6 c i arg2 harg2 arg3 harg3 arg4 harg4 arg5 harg5 arg6 harg6 arg7 harg7 arg8 harg8 x0 x1 x2 x3 hc xo5 xo6)]
  funext y
  have hcov := coverL6 c i arg2 harg2 arg3 harg3 arg4 harg4 arg5 harg5 arg6 harg6 arg7 harg7 arg8 harg8 x0 x1 x2 x3 hc xo5 xo6 y
  revert hcov
  unfold runLater
  dsimp only
  sl_unfold_words
  simp only [View.readAt_eq_ld, harg2.read_unread, harg3.read_unread, harg4.read_unread, harg8.read_unread,
    View.ld_unit_zero (S := S2048x784) hz2, View.ld_unit_zero (S := S784x256) hz2, View.ld_unit_zero (S := S1x256) hz2]
  intro hcov
  refine View.canon_apply_of_pieces (stat6 x0 x1 x2 xo6) _ ?_ y hcov
  intro p hp
  simp only [List.mem_cons, List.mem_nil_iff, or_false] at hp
  rcases hp with rfl | rfl | rfl | rfl | rfl | rfl | rfl | rfl
  · exact stat6_piece7 x0 x1 x2 xo6
  · exact stat6_piece6 x0 x1 x2 xo6
  · exact stat6_piece5 x0 x1 x2 xo6
  · exact stat6_piece4 x0 x1 x2 xo6
  · exact stat6_piece3 x0 x1 x2 xo6
  · exact stat6_piece2 x0 x1 x2 xo6
  · exact stat6_piece1 x0 x1 x2 xo6
  · exact stat6_piece0 x0 x1 x2 xo6

/-! ### Window 5 at a first tile: every load reads the zero block just stored -/

theorem H5_1_skip (y : S1x1x510.Idx) : View.canon (runFirst.sl.H5_1 (F := F)) y = k0_pay4 (F := F) y := by
  unfold runFirst.sl.H5_1
  exact congrFun (View.canon_unit_zero (Val := Elt F) (S := S1x1x510) (e := .f32) (off := ![0, 0, 0]) hz3 inb_S1x1x510_S1x1x510_0_0_0 (k0_pay4 (F := F))) y
theorem H5_2_skip (y : S1x1x510.Idx) (hy : 2 ≤ (y 2).val) : View.canon (runFirst.sl.H5_2 c arg2 harg2 arg3 harg3 arg4 harg4 arg7 x0 x1 x2) y = k0_pay4 (F := F) y := by
  have h : y ∉ (Rect.unit (s := S1x1x510) ![0, 0, 0] S1x1x2.size inb_S1x1x510_S1x1x2_0_0_0).set :=
    not_mem_below y (by show 0 + 2 ≤ (y 2).val; omega)
  unfold runFirst.sl.H5_2
  exact (canon_cons_skip _ _ _ y h).trans (H5_1_skip y)
theorem H5_3_skip (y : S1x1x510.Idx) (hy : 6 ≤ (y 2).val) : View.canon (runFirst.sl.H5_3 c arg2 harg2 arg3 harg3 arg4 harg4 arg7 x0 x1 x2) y = k0_pay4 (F := F) y := by
  have h : y ∉ (Rect.unit (s := S1x1x510) ![0, 0, 2] S1x1x4.size inb_S1x1x510_S1x1x4_0_0_2).set :=
    not_mem_below y (by show 2 + 4 ≤ (y 2).val; omega)
  unfold runFirst.sl.H5_3
  exact (canon_cons_skip _ _ _ y h).trans (H5_2_skip c arg2 harg2 arg3 harg3 arg4 harg4 arg7 x0 x1 x2 y (by omega))
theorem H5_4_skip (y : S1x1x510.Idx) (hy : 14 ≤ (y 2).val) : View.canon (runFirst.sl.H5_4 c arg2 harg2 arg3 harg3 arg4 harg4 arg7 x0 x1 x2) y = k0_pay4 (F := F) y := by
  have h : y ∉ (Rect.unit (s := S1x1x510) ![0, 0, 6] S1x1x8.size inb_S1x1x510_S1x1x8_0_0_6).set :=
    not_mem_below y (by show 6 + 8 ≤ (y 2).val; omega)
  unfold runFirst.sl.H5_4
  exact (canon_cons_skip _ _ _ y h).trans (H5_3_skip c arg2 harg2 arg3 harg3 arg4 harg4 arg7 x0 x1 x2 y (by omega))
theorem H5_5_skip (y : S1x1x510.Idx) (hy : 30 ≤ (y 2).val) : View.canon (runFirst.sl.H5_5 c arg2 harg2 arg3 harg3 arg4 harg4 arg7 x0 x1 x2) y = k0_pay4 (F := F) y := by
  have h : y ∉ (Rect.unit (s := S1x1x510) ![0, 0, 14] S1x1x16.size inb_S1x1x510_S1x1x16_0_0_14).set :=
    not_mem_below y (by show 14 + 16 ≤ (y 2).val; omega)
  unfold runFirst.sl.H5_5
  exact (canon_cons_skip _ _ _ y h).trans (H5_4_skip c arg2 harg2 arg3 harg3 arg4 harg4 arg7 x0 x1 x2 y (by omega))
theorem H5_6_skip (y : S1x1x510.Idx) (hy : 62 ≤ (y 2).val) : View.canon (runFirst.sl.H5_6 c arg2 harg2 arg3 harg3 arg4 harg4 arg7 x0 x1 x2) y = k0_pay4 (F := F) y := by
  have h : y ∉ (Rect.unit (s := S1x1x510) ![0, 0, 30] S1x1x32.size inb_S1x1x510_S1x1x32_0_0_30).set :=
    not_mem_below y (by show 30 + 32 ≤ (y 2).val; omega)
  unfold runFirst.sl.H5_6
  exact (canon_cons_skip _ _ _ y h).trans (H5_5_skip c arg2 harg2 arg3 harg3 arg4 harg4 arg7 x0 x1 x2 y (by omega))
theorem H5_7_skip (y : S1x1x510.Idx) (hy : 126 ≤ (y 2).val) : View.canon (runFirst.sl.H5_7 c arg2 harg2 arg3 harg3 arg4 harg4 arg7 x0 x1 x2) y = k0_pay4 (F := F) y := by
  have h : y ∉ (Rect.unit (s := S1x1x510) ![0, 0, 62] S1x1x64.size inb_S1x1x510_S1x1x64_0_0_62).set :=
    not_mem_below y (by show 62 + 64 ≤ (y 2).val; omega)
  unfold runFirst.sl.H5_7
  exact (canon_cons_skip _ _ _ y h).trans (H5_6_skip c arg2 harg2 arg3 harg3 arg4 harg4 arg7 x0 x1 x2 y (by omega))
theorem H5_8_skip (y : S1x1x510.Idx) (hy : 254 ≤ (y 2).val) : View.canon (runFirst.sl.H5_8 c arg2 harg2 arg3 harg3 arg4 harg4 arg7 x0 x1 x2) y = k0_pay4 (F := F) y := by
  have h : y ∉ (Rect.unit (s := S1x1x510) ![0, 0, 126] S1x1x128.size inb_S1x1x510_S1x1x128_0_0_126).set :=
    not_mem_below y (by show 126 + 128 ≤ (y 2).val; omega)
  unfold runFirst.sl.H5_8
  exact (canon_cons_skip _ _ _ y h).trans (H5_7_skip c arg2 harg2 arg3 harg3 arg4 harg4 arg7 x0 x1 x2 y (by omega))
theorem v21_zero : runFirst.sl.v21 c arg7 = View.ld (k0_pay4 (F := F)) (Rect.unit (s := S1x1x510) ![0, 0, 0] S1x1x2.size inb_S1x1x510_S1x1x2_0_0_0) := by
  unfold runFirst.sl.v21
  rw [View.readCov_eq_canon']
  funext j
  exact H5_1_skip _
theorem v42_zero : runFirst.sl.v42 c arg2 harg2 arg3 harg3 arg4 harg4 arg7 x0 x1 x2 = View.ld (k0_pay4 (F := F)) (Rect.unit (s := S1x1x510) ![0, 0, 2] S1x1x4.size inb_S1x1x510_S1x1x4_0_0_2) := by
  unfold runFirst.sl.v42
  rw [View.readCov_eq_canon']
  funext j
  exact H5_2_skip c arg2 harg2 arg3 harg3 arg4 harg4 arg7 x0 x1 x2 _ (by show 2 ≤ 2 + 1 * (j 2).val; omega)
theorem v63_zero : runFirst.sl.v63 c arg2 harg2 arg3 harg3 arg4 harg4 arg7 x0 x1 x2 = View.ld (k0_pay4 (F := F)) (Rect.unit (s := S1x1x510) ![0, 0, 6] S1x1x8.size inb_S1x1x510_S1x1x8_0_0_6) := by
  unfold runFirst.sl.v63
  rw [View.readCov_eq_canon']
  funext j
  exact H5_3_skip c arg2 harg2 arg3 harg3 arg4 harg4 arg7 x0 x1 x2 _ (by show 6 ≤ 6 + 1 * (j 2).val; omega)
theorem v84_zero : runFirst.sl.v84 c arg2 harg2 arg3 harg3 arg4 harg4 arg7 x0 x1 x2 = View.ld (k0_pay4 (F := F)) (Rect.unit (s := S1x1x510) ![0, 0, 14] S1x1x16.size inb_S1x1x510_S1x1x16_0_0_14) := by
  unfold runFirst.sl.v84
  rw [View.readCov_eq_canon']
  funext j
  exact H5_4_skip c arg2 harg2 arg3 harg3 arg4 harg4 arg7 x0 x1 x2 _ (by show 14 ≤ 14 + 1 * (j 2).val; omega)
theorem v105_zero : runFirst.sl.v105 c arg2 harg2 arg3 harg3 arg4 harg4 arg7 x0 x1 x2 = View.ld (k0_pay4 (F := F)) (Rect.unit (s := S1x1x510) ![0, 0, 30] S1x1x32.size inb_S1x1x510_S1x1x32_0_0_30) := by
  unfold runFirst.sl.v105
  rw [View.readCov_eq_canon']
  funext j
  exact H5_5_skip c arg2 harg2 arg3 harg3 arg4 harg4 arg7 x0 x1 x2 _ (by show 30 ≤ 30 + 1 * (j 2).val; omega)
theorem v126_zero : runFirst.sl.v126 c arg2 harg2 arg3 harg3 arg4 harg4 arg7 x0 x1 x2 = View.ld (k0_pay4 (F := F)) (Rect.unit (s := S1x1x510) ![0, 0, 62] S1x1x64.size inb_S1x1x510_S1x1x64_0_0_62) := by
  unfold runFirst.sl.v126
  rw [View.readCov_eq_canon']
  funext j
  exact H5_6_skip c arg2 harg2 arg3 harg3 arg4 harg4 arg7 x0 x1 x2 _ (by show 62 ≤ 62 + 1 * (j 2).val; omega)
theorem v147_zero : runFirst.sl.v147 c arg2 harg2 arg3 harg3 arg4 harg4 arg7 x0 x1 x2 = View.ld (k0_pay4 (F := F)) (Rect.unit (s := S1x1x510) ![0, 0, 126] S1x1x128.size inb_S1x1x510_S1x1x128_0_0_126) := by
  unfold runFirst.sl.v147
  rw [View.readCov_eq_canon']
  funext j
  exact H5_7_skip c arg2 harg2 arg3 harg3 arg4 harg4 arg7 x0 x1 x2 _ (by show 126 ≤ 126 + 1 * (j 2).val; omega)
theorem v168_zero : runFirst.sl.v168 c arg2 harg2 arg3 harg3 arg4 harg4 arg7 x0 x1 x2 = View.ld (k0_pay4 (F := F)) (Rect.unit (s := S1x1x510) ![0, 0, 254] S1x1x256.size inb_S1x1x510_S1x1x256_0_0_254) := by
  unfold runFirst.sl.v168
  rw [View.readCov_eq_canon']
  funext j
  exact H5_8_skip c arg2 harg2 arg3 harg3 arg4 harg4 arg7 x0 x1 x2 _ (by show 254 ≤ 254 + 1 * (j 2).val; omega)

theorem coverF5' (hc : firstTile i) (y : S1x1x510.Idx) :
    ∃ pc ∈ ((runFirst c i arg2 harg2 arg3 harg3 arg4 harg4 arg5 harg5 arg6 harg6 arg7 harg7 arg8 harg8 hc x0 x1 x2 x3).2.1).dropLast, y ∈ pc.1.set :=
  View.cover_of_tiledBy ((runFirst c i arg2 harg2 arg3 harg3 arg4 harg4 arg5 harg5 arg6 harg6 arg7 harg7 arg8 harg8 hc x0 x1 x2 x3).2.1).dropLast ![1, 1, 2] (by sl_kernel_rfl) y

/-- At a first tile window 5's buffer ends at `stat5` over the zero block it has just stored. -/
theorem outF5_eq (hc : firstTile i) :
    outF5 c i arg2 harg2 arg3 harg3 arg4 harg4 arg5 harg5 arg6 harg6 arg7 harg7 arg8 harg8 x0 x1 x2 x3 hc = stat5 x0 x1 x2 (k0_pay4 (F := F)) := by
  unfold outF5
  rw [View.read_writes_eq_canon _ _ _ (coverF5 c i arg2 harg2 arg3 harg3 arg4 harg4 arg5 harg5 arg6 harg6 arg7 harg7 arg8 harg8 x0 x1 x2 x3 hc)]
  funext y
  have hcov := coverF5' c i arg2 harg2 arg3 harg3 arg4 harg4 arg5 harg5 arg6 harg6 arg7 harg7 arg8 harg8 x0 x1 x2 x3 hc y
  revert hcov
  unfold runFirst
  dsimp only
  simp only [runFirst.sl.H5_8, runFirst.sl.H5_7, runFirst.sl.H5_6, runFirst.sl.H5_5, runFirst.sl.H5_4, runFirst.sl.H5_3, runFirst.sl.H5_2, runFirst.sl.H5_1]
  simp only [runFirst.sl.r_6]
  simp only [v21_zero, v42_zero, v63_zero, v84_zero, v105_zero, v126_zero, v147_zero, v168_zero]
  sl_unfold_words
  simp only [View.readAt_eq_ld, harg2.read_unread, harg3.read_unread, harg4.read_unread, harg7.read_unread,
    View.ld_unit_zero (S := S2048x784) hz2, View.ld_unit_zero (S := S784x256) hz2, View.ld_unit_zero (S := S1x256) hz2]
  simp only [List.dropLast]
  intro hcov
  refine View.canon_append_of_pieces (stat5 x0 x1 x2 (k0_pay4 (F := F))) [_] _ ?_ y hcov
  intro p hp
  simp only [List.mem_cons, List.mem_nil_iff, or_false] at hp
  rcases hp with rfl | rfl | rfl | rfl | rfl | rfl | rfl | rfl
  · exact stat5_piece7 x0 x1 x2 (k0_pay4 (F := F))
  · exact stat5_piece6 x0 x1 x2 (k0_pay4 (F := F))
  · exact stat5_piece5 x0 x1 x2 (k0_pay4 (F := F))
  · exact stat5_piece4 x0 x1 x2 (k0_pay4 (F := F))
  · exact stat5_piece3 x0 x1 x2 (k0_pay4 (F := F))
  · exact stat5_piece2 x0 x1 x2 (k0_pay4 (F := F))
  · exact stat5_piece1 x0 x1 x2 (k0_pay4 (F := F))
  · exact stat5_piece0 x0 x1 x2 (k0_pay4 (F := F))

/-! ### Window 6 at a first tile: every load reads the zero block just stored -/

theorem H6_1_skip (y : S1x1x510.Idx) : View.canon (runFirst.sl.H6_1 (F := F)) y = k0_pay5 (F := F) y := by
  unfold runFirst.sl.H6_1
  exact congrFun (View.canon_unit_zero (Val := Elt F) (S := S1x1x510) (e := .f32) (off := ![0, 0, 0]) hz3 inb_S1x1x510_S1x1x510_0_0_0 (k0_pay5 (F := F))) y
theorem H6_2_skip (y : S1x1x510.Idx) (hy : 2 ≤ (y 2).val) : View.canon (runFirst.sl.H6_2 c arg8) y = k0_pay5 (F := F) y := by
  have h : y ∉ (Rect.unit (s := S1x1x510) ![0, 0, 0] S1x1x2.size inb_S1x1x510_S1x1x2_0_0_0).set :=
    not_mem_below y (by show 0 + 2 ≤ (y 2).val; omega)
  unfold runFirst.sl.H6_2
  exact (canon_cons_skip _ _ _ y h).trans (H6_1_skip y)
theorem H6_3_skip (y : S1x1x510.Idx) (hy : 6 ≤ (y 2).val) : View.canon (runFirst.sl.H6_3 c arg2 harg2 arg3 harg3 arg4 harg4 arg8 x0 x1 x2) y = k0_pay5 (F := F) y := by
  have h : y ∉ (Rect.unit (s := S1x1x510) ![0, 0, 2] S1x1x4.size inb_S1x1x510_S1x1x4_0_0_2).set :=
    not_mem_below y (by show 2 + 4 ≤ (y 2).val; omega)
  unfold runFirst.sl.H6_3
  exact (canon_cons_skip _ _ _ y h).trans (H6_2_skip c arg8 y (by omega))
theorem H6_4_skip (y : S1x1x510.Idx) (hy : 14 ≤ (y 2).val) : View.canon (runFirst.sl.H6_4 c arg2 harg2 arg3 harg3 arg4 harg4 arg8 x0 x1 x2) y = k0_pay5 (F := F) y := by
  have h : y ∉ (Rect.unit (s := S1x1x510) ![0, 0, 6] S1x1x8.size inb_S1x1x510_S1x1x8_0_0_6).set :=
    not_mem_below y (by show 6 + 8 ≤ (y 2).val; omega)
  unfold runFirst.sl.H6_4
  exact (canon_cons_skip _ _ _ y h).trans (H6_3_skip c arg2 harg2 arg3 harg3 arg4 harg4 arg8 x0 x1 x2 y (by omega))
theorem H6_5_skip (y : S1x1x510.Idx) (hy : 30 ≤ (y 2).val) : View.canon (runFirst.sl.H6_5 c arg2 harg2 arg3 harg3 arg4 harg4 arg8 x0 x1 x2) y = k0_pay5 (F := F) y := by
  have h : y ∉ (Rect.unit (s := S1x1x510) ![0, 0, 14] S1x1x16.size inb_S1x1x510_S1x1x16_0_0_14).set :=
    not_mem_below y (by show 14 + 16 ≤ (y 2).val; omega)
  unfold runFirst.sl.H6_5
  exact (canon_cons_skip _ _ _ y h).trans (H6_4_skip c arg2 harg2 arg3 harg3 arg4 harg4 arg8 x0 x1 x2 y (by omega))
theorem H6_6_skip (y : S1x1x510.Idx) (hy : 62 ≤ (y 2).val) : View.canon (runFirst.sl.H6_6 c arg2 harg2 arg3 harg3 arg4 harg4 arg8 x0 x1 x2) y = k0_pay5 (F := F) y := by
  have h : y ∉ (Rect.unit (s := S1x1x510) ![0, 0, 30] S1x1x32.size inb_S1x1x510_S1x1x32_0_0_30).set :=
    not_mem_below y (by show 30 + 32 ≤ (y 2).val; omega)
  unfold runFirst.sl.H6_6
  exact (canon_cons_skip _ _ _ y h).trans (H6_5_skip c arg2 harg2 arg3 harg3 arg4 harg4 arg8 x0 x1 x2 y (by omega))
theorem H6_7_skip (y : S1x1x510.Idx) (hy : 126 ≤ (y 2).val) : View.canon (runFirst.sl.H6_7 c arg2 harg2 arg3 harg3 arg4 harg4 arg8 x0 x1 x2) y = k0_pay5 (F := F) y := by
  have h : y ∉ (Rect.unit (s := S1x1x510) ![0, 0, 62] S1x1x64.size inb_S1x1x510_S1x1x64_0_0_62).set :=
    not_mem_below y (by show 62 + 64 ≤ (y 2).val; omega)
  unfold runFirst.sl.H6_7
  exact (canon_cons_skip _ _ _ y h).trans (H6_6_skip c arg2 harg2 arg3 harg3 arg4 harg4 arg8 x0 x1 x2 y (by omega))
theorem H6_8_skip (y : S1x1x510.Idx) (hy : 254 ≤ (y 2).val) : View.canon (runFirst.sl.H6_8 c arg2 harg2 arg3 harg3 arg4 harg4 arg8 x0 x1 x2) y = k0_pay5 (F := F) y := by
  have h : y ∉ (Rect.unit (s := S1x1x510) ![0, 0, 126] S1x1x128.size inb_S1x1x510_S1x1x128_0_0_126).set :=
    not_mem_below y (by show 126 + 128 ≤ (y 2).val; omega)
  unfold runFirst.sl.H6_8
  exact (canon_cons_skip _ _ _ y h).trans (H6_7_skip c arg2 harg2 arg3 harg3 arg4 harg4 arg8 x0 x1 x2 y (by omega))
theorem v27_zero : runFirst.sl.v27 c arg8 = View.ld (k0_pay5 (F := F)) (Rect.unit (s := S1x1x510) ![0, 0, 0] S1x1x2.size inb_S1x1x510_S1x1x2_0_0_0) := by
  unfold runFirst.sl.v27
  rw [View.readCov_eq_canon']
  funext j
  exact H6_1_skip _
theorem v48_zero : runFirst.sl.v48 c arg8 = View.ld (k0_pay5 (F := F)) (Rect.unit (s := S1x1x510) ![0, 0, 2] S1x1x4.size inb_S1x1x510_S1x1x4_0_0_2) := by
  unfold runFirst.sl.v48
  rw [View.readCov_eq_canon']
  funext j
  exact H6_2_skip c arg8 _ (by show 2 ≤ 2 + 1 * (j 2).val; omega)
theorem v69_zero : runFirst.sl.v69 c arg2 harg2 arg3 harg3 arg4 harg4 arg8 x0 x1 x2 = View.ld (k0_pay5 (F := F)) (Rect.unit (s := S1x1x510) ![0, 0, 6] S1x1x8.size inb_S1x1x510_S1x1x8_0_0_6) := by
  unfold runFirst.sl.v69
  rw [View.readCov_eq_canon']
  funext j
  exact H6_3_skip c arg2 harg2 arg3 harg3 arg4 harg4 arg8 x0 x1 x2 _ (by show 6 ≤ 6 + 1 * (j 2).val; omega)
theorem v90_zero : runFirst.sl.v90 c arg2 harg2 arg3 harg3 arg4 harg4 arg8 x0 x1 x2 = View.ld (k0_pay5 (F := F)) (Rect.unit (s := S1x1x510) ![0, 0, 14] S1x1x16.size inb_S1x1x510_S1x1x16_0_0_14) := by
  unfold runFirst.sl.v90
  rw [View.readCov_eq_canon']
  funext j
  exact H6_4_skip c arg2 harg2 arg3 harg3 arg4 harg4 arg8 x0 x1 x2 _ (by show 14 ≤ 14 + 1 * (j 2).val; omega)
theorem v111_zero : runFirst.sl.v111 c arg2 harg2 arg3 harg3 arg4 harg4 arg8 x0 x1 x2 = View.ld (k0_pay5 (F := F)) (Rect.unit (s := S1x1x510) ![0, 0, 30] S1x1x32.size inb_S1x1x510_S1x1x32_0_0_30) := by
  unfold runFirst.sl.v111
  rw [View.readCov_eq_canon']
  funext j
  exact H6_5_skip c arg2 harg2 arg3 harg3 arg4 harg4 arg8 x0 x1 x2 _ (by show 30 ≤ 30 + 1 * (j 2).val; omega)
theorem v132_zero : runFirst.sl.v132 c arg2 harg2 arg3 harg3 arg4 harg4 arg8 x0 x1 x2 = View.ld (k0_pay5 (F := F)) (Rect.unit (s := S1x1x510) ![0, 0, 62] S1x1x64.size inb_S1x1x510_S1x1x64_0_0_62) := by
  unfold runFirst.sl.v132
  rw [View.readCov_eq_canon']
  funext j
  exact H6_6_skip c arg2 harg2 arg3 harg3 arg4 harg4 arg8 x0 x1 x2 _ (by show 62 ≤ 62 + 1 * (j 2).val; omega)
theorem v153_zero : runFirst.sl.v153 c arg2 harg2 arg3 harg3 arg4 harg4 arg8 x0 x1 x2 = View.ld (k0_pay5 (F := F)) (Rect.unit (s := S1x1x510) ![0, 0, 126] S1x1x128.size inb_S1x1x510_S1x1x128_0_0_126) := by
  unfold runFirst.sl.v153
  rw [View.readCov_eq_canon']
  funext j
  exact H6_7_skip c arg2 harg2 arg3 harg3 arg4 harg4 arg8 x0 x1 x2 _ (by show 126 ≤ 126 + 1 * (j 2).val; omega)
theorem v174_zero : runFirst.sl.v174 c arg2 harg2 arg3 harg3 arg4 harg4 arg8 x0 x1 x2 = View.ld (k0_pay5 (F := F)) (Rect.unit (s := S1x1x510) ![0, 0, 254] S1x1x256.size inb_S1x1x510_S1x1x256_0_0_254) := by
  unfold runFirst.sl.v174
  rw [View.readCov_eq_canon']
  funext j
  exact H6_8_skip c arg2 harg2 arg3 harg3 arg4 harg4 arg8 x0 x1 x2 _ (by show 254 ≤ 254 + 1 * (j 2).val; omega)

theorem coverF6' (hc : firstTile i) (y : S1x1x510.Idx) :
    ∃ pc ∈ ((runFirst c i arg2 harg2 arg3 harg3 arg4 harg4 arg5 harg5 arg6 harg6 arg7 harg7 arg8 harg8 hc x0 x1 x2 x3).2.2.1).dropLast, y ∈ pc.1.set :=
  View.cover_of_tiledBy ((runFirst c i arg2 harg2 arg3 harg3 arg4 harg4 arg5 harg5 arg6 harg6 arg7 harg7 arg8 harg8 hc x0 x1 x2 x3).2.2.1).dropLast ![1, 1, 2] (by sl_kernel_rfl) y

/-- At a first tile window 6's buffer ends at `stat6` over the zero block it has just stored. -/
theorem outF6_eq (hc : firstTile i) :
    outF6 c i arg2 harg2 arg3 harg3 arg4 harg4 arg5 harg5 arg6 harg6 arg7 harg7 arg8 harg8 x0 x1 x2 x3 hc = stat6 x0 x1 x2 (k0_pay5 (F := F)) := by
  unfold outF6
  rw [View.read_writes_eq_canon _ _ _ (coverF6 c i arg2 harg2 arg3 harg3 arg4 harg4 arg5 harg5 arg6 harg6 arg7 harg7 arg8 harg8 x0 x1 x2 x3 hc)]
  funext y
  have hcov := coverF6' c i arg2 harg2 arg3 harg3 arg4 harg4 arg5 harg5 arg6 harg6 arg7 harg7 arg8 harg8 x0 x1 x2 x3 hc y
  revert hcov
  unfold runFirst
  dsimp only
  simp only [runFirst.sl.H6_8, runFirst.sl.H6_7, runFirst.sl.H6_6, runFirst.sl.H6_5, runFirst.sl.H6_4, runFirst.sl.H6_3, runFirst.sl.H6_2, runFirst.sl.H6_1]
  simp only [runFirst.sl.r_2]
  simp only [v27_zero, v48_zero, v69_zero, v90_zero, v111_zero, v132_zero, v153_zero, v174_zero]
  sl_unfold_words
  simp only [View.readAt_eq_ld, harg2.read_unread, harg3.read_unread, harg4.read_unread, harg8.read_unread,
    View.ld_unit_zero (S := S2048x784) hz2, View.ld_unit_zero (S := S784x256) hz2, View.ld_unit_zero (S := S1x256) hz2]
  simp only [List.dropLast]
  intro hcov
  refine View.canon_append_of_pieces (stat6 x0 x1 x2 (k0_pay5 (F := F))) [_] _ ?_ y hcov
  intro p hp
  simp only [List.mem_cons, List.mem_nil_iff, or_false] at hp
  rcases hp with rfl | rfl | rfl | rfl | rfl | rfl | rfl | rfl
  · exact stat6_piece7 x0 x1 x2 (k0_pay5 (F := F))
  · exact stat6_piece6 x0 x1 x2 (k0_pay5 (F := F))
  · exact stat6_piece5 x0 x1 x2 (k0_pay5 (F := F))
  · exact stat6_piece4 x0 x1 x2 (k0_pay5 (F := F))
  · exact stat6_piece3 x0 x1 x2 (k0_pay5 (F := F))
  · exact stat6_piece2 x0 x1 x2 (k0_pay5 (F := F))
  · exact stat6_piece1 x0 x1 x2 (k0_pay5 (F := F))
  · exact stat6_piece0 x0 x1 x2 (k0_pay5 (F := F))

end PiecesStats

end Cert.KernelIdeal.Tree

end
-- ==== Proof.KernelAcc.lean ====
/-
  The two statistics arrays after the run.  A statistics window's buffer is reset-and-added-to at the first tile of
  a half of the batch and added to at the 31 tiles after it, and written back after the last: so half `q`'s block
  of the array is the fold of the tile update over points 32 q … 32 q + 31, started from the zero block.
-/
import proofs.«148994_j9070970929349_2_alg».proof.Proof.KernelStats

set_option maxRecDepth 16384

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

variable (m : (ℓ : Loc nD τ sig) → Buf (Elt F) ℓ)

/-- The fold does not depend on how its start and length are spelt. -/
theorem accAt_congr {α : Type} {N : ℕ} (a : (n : ℕ) → n < N → α) (g : (n : ℕ) → n < N → α → α) {b b' j j' : ℕ}
    (hb : b = b') (hj : j = j') (h : b + j < N) (h' : b' + j' < N) :
    Pipeline.accAt a g b j h = Pipeline.accAt a g b' j' h' := by
  subst hb; subst hj; rfl

/-! ## Window 5 -/

theorem out5_first (c : Dev nD) (t : Fin cfg0.N) (h0 : t.val % 32 = 0) :
    (outsAt m c t.val t.isLt).2.1 = stat5 (iblk m c 0 t) (iblk m c 1 t) (iblk m c 2 t) (k0_pay4 (F := F)) := by
  rw [outsAt_first m c t h0]; unfold atFirst; dsimp only
  exact outF5_eq c _ _ _ _ _ _ _ _ _ _ _ _ _ _ _ _ _ _ _ _

theorem out5_later (c : Dev nD) (t : Fin cfg0.N) (h0 : ¬t.val % 32 = 0) :
    (outsAt m c t.val t.isLt).2.1 = stat5 (iblk m c 0 t) (iblk m c 1 t) (iblk m c 2 t)
      (outsAt m c (t.val - 1) (Nat.lt_of_le_of_lt (Nat.sub_le _ _) t.isLt)).2.1 := by
  rw [outsAt_later m c t h0]; unfold atLater; dsimp only
  exact outL5_eq c _ _ _ _ _ _ _ _ _ _ _ _ _ _ _ _ _ _ _ _ _ _

/-- What the window's buffer holds at the first tile of a half, and how a later tile updates it. -/
def reset5 (c : Dev nD) (n : ℕ) (h : n < cfg0.N) : Vec F S1x1x510 .f32 :=
  stat5 (iblk m c 0 ⟨n, h⟩) (iblk m c 1 ⟨n, h⟩) (iblk m c 2 ⟨n, h⟩) (k0_pay4 (F := F))
def update5 (c : Dev nD) (n : ℕ) (h : n < cfg0.N) (acc : Vec F S1x1x510 .f32) : Vec F S1x1x510 .f32 :=
  stat5 (iblk m c 0 ⟨n, h⟩) (iblk m c 1 ⟨n, h⟩) (iblk m c 2 ⟨n, h⟩) acc

/-- After point `t` the buffer holds the fold over the tiles of `t`'s half up to `t`. -/
theorem out5_fold (c : Dev nD) (t : Fin cfg0.N) (h' : 32 * (t.val / 32) + t.val % 32 < cfg0.N) :
    (outsAt m c t.val t.isLt).2.1 = Pipeline.accAt (reset5 m c) (update5 m c) (32 * (t.val / 32)) (t.val % 32) h' :=
  Pipeline.eq_accAt_of_mod (fun n h => (outsAt m c n h).2.1) 32 (reset5 m c) (update5 m c)
    (fun n h hn => out5_first m c ⟨n, h⟩ hn)
    (fun n h hn => out5_later m c ⟨n + 1, h⟩ hn)
    (by norm_num) t.val t.isLt h'

/-- The statistics array after the run: half `q`'s block is the fold over its 32 tiles. -/
def G5 (c : Dev nD) : S2x1x510.Idx → Elt F .f32 := fun i =>
  Pipeline.accAt (reset5 m c) (update5 m c) (32 * (i 0).val) 31
    (by have h : (i 0).val < 2 := (i 0).isLt; rw [show cfg0.N = 64 from N_0]; omega)
    (ix3 0 0 ⟨(i 2).val, (i 2).isLt⟩)

theorem G5_at (c : Dev nD) (t : Fin cfg0.N) (ht : t.val % 32 = 31) (i : S2x1x510.Idx) (j : S1x1x510.Idx)
    (h0 : (i 0).val = t.val / 32) (h2 : (i 2).val = (j 2).val) :
    G5 m c i = (outsAt m c t.val t.isLt).2.1 j := by
  have hN : t.val < 64 := lt_of_lt_of_eq t.isLt (show cfg0.N = 64 from N_0)
  rw [out5_fold m c t (lt_of_lt_of_eq (by omega : 32 * (t.val / 32) + t.val % 32 < 64) (show (64 : ℕ) = cfg0.N from N_0.symm))]
  unfold G5
  have e1 : 32 * (i 0).val = 32 * (t.val / 32) := by rw [h0]
  have e2 : (31 : ℕ) = t.val % 32 := ht.symm
  have ej : (ix3 (0 : Fin 1) (0 : Fin 1) ⟨(i 2).val, (i 2).isLt⟩ : S1x1x510.Idx) = j := by
    funext a
    match a with
    | ⟨0, _⟩ => exact Fin.ext (by have h : (j 0).val < 1 := (j 0).isLt; show 0 = (j 0).val; omega)
    | ⟨1, _⟩ => exact Fin.ext (by have h : (j 1).val < 1 := (j 1).isLt; show 0 = (j 1).val; omega)
    | ⟨2, _⟩ => exact Fin.ext h2
  rw [ej]
  exact congrFun (accAt_congr _ _ e1 e2 _ _) j

theorem flushed5_eq (c : Dev nD) (t : Fin cfg0.N) (hf : (cfg0.win 5).flush t = true) :
    (dats m 0 c).flushed 5 t = ((cfg0.win 5).blk t).view.read (Elt F) (G5 m c) := by
  have ht : t.val % 32 = 31 := (flush0_5 t).mp hf
  show (cfg0.win 5).cut (grid0.coords t) ((dats m 0 c).after 5 t) = _
  rw [after5]
  funext j
  symm
  refine G5_at m c t ht _ j ?_ ?_
  · show win0_5.index t (0 : Fin 3) * 1 + 1 * (j 0).val = _
    have h : (j 0).val < 1 := (j 0).isLt
    rw [(idx_facts t).2.2.2.2.2.2.2.2.2.2.1]; omega
  · show win0_5.index t (2 : Fin 3) * 510 + 1 * (j 2).val = _
    rw [(idx_facts t).2.2.2.2.2.2.2.2.2.2.2.2.1]; omega

theorem mem_blk5 (t : Fin cfg0.N) (i : S2x1x510.Idx) :
    i ∈ ((cfg0.win 5).blk t).view.set ↔ ∀ a : Fin 3, win0_5.index t a * S1x1x510.size a ≤ (i a).val ∧ (i a).val < win0_5.index t a * S1x1x510.size a + S1x1x510.size a := by
  show i ∈ ((View.whole main_v23_1).slice (win0_5.rect t)).set ↔ _
  rw [View.set_slice_whole, Rect.mem_set_unit]
  exact Iff.rfl

theorem cover5 (i : S2x1x510.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 510 := (i 2).isLt
  let t : Fin cfg0.N := ⟨32 * (i 0).val + 31, by rw [show cfg0.N = 64 from N_0]; omega⟩
  have htv : t.val = 32 * (i 0).val + 31 := rfl
  refine ⟨t, (flush0_5 t).mpr (by rw [htv]; omega), ?_⟩
  rw [mem_blk5]
  obtain ⟨-, -, -, -, -, -, -, -, -, -, a0, a1, a2, b0, b1, b2⟩ := idx_facts t
  intro a
  match a with
  | ⟨0, _⟩ => show win0_5.index t (0 : Fin 3) * 1 ≤ (i 0).val ∧ (i 0).val < win0_5.index t (0 : Fin 3) * 1 + 1; rw [a0, htv]; omega
  | ⟨1, _⟩ => show win0_5.index t (1 : Fin 3) * 1 ≤ (i 1).val ∧ (i 1).val < win0_5.index t (1 : Fin 3) * 1 + 1; rw [a1]; omega
  | ⟨2, _⟩ => show win0_5.index t (2 : Fin 3) * 510 ≤ (i 2).val ∧ (i 2).val < win0_5.index t (2 : Fin 3) * 510 + 510; rw [a2]; omega

theorem final5 (c : Dev nD) : (dats m 0 c).arrAt 5 cfg0.N = G5 m c :=
  (dats m 0 c).arrAt_eq_of_cover 5 (G5 m c) (fun t hf => flushed5_eq m c t hf) cover5

/-! ## Window 6 -/

theorem out6_first (c : Dev nD) (t : Fin cfg0.N) (h0 : t.val % 32 = 0) :
    (outsAt m c t.val t.isLt).2.2 = stat6 (iblk m c 0 t) (iblk m c 1 t) (iblk m c 2 t) (k0_pay5 (F := F)) := by
  rw [outsAt_first m c t h0]; unfold atFirst; dsimp only
  exact outF6_eq c _ _ _ _ _ _ _ _ _ _ _ _ _ _ _ _ _ _ _ _

theorem out6_later (c : Dev nD) (t : Fin cfg0.N) (h0 : ¬t.val % 32 = 0) :
    (outsAt m c t.val t.isLt).2.2 = stat6 (iblk m c 0 t) (iblk m c 1 t) (iblk m c 2 t)
      (outsAt m c (t.val - 1) (Nat.lt_of_le_of_lt (Nat.sub_le _ _) t.isLt)).2.2 := by
  rw [outsAt_later m c t h0]; unfold atLater; dsimp only
  exact outL6_eq c _ _ _ _ _ _ _ _ _ _ _ _ _ _ _ _ _ _ _ _ _ _

/-- What the window's buffer holds at the first tile of a half, and how a later tile updates it. -/
def reset6 (c : Dev nD) (n : ℕ) (h : n < cfg0.N) : Vec F S1x1x510 .f32 :=
  stat6 (iblk m c 0 ⟨n, h⟩) (iblk m c 1 ⟨n, h⟩) (iblk m c 2 ⟨n, h⟩) (k0_pay5 (F := F))
def update6 (c : Dev nD) (n : ℕ) (h : n < cfg0.N) (acc : Vec F S1x1x510 .f32) : Vec F S1x1x510 .f32 :=
  stat6 (iblk m c 0 ⟨n, h⟩) (iblk m c 1 ⟨n, h⟩) (iblk m c 2 ⟨n, h⟩) acc

/-- After point `t` the buffer holds the fold over the tiles of `t`'s half up to `t`. -/
theorem out6_fold (c : Dev nD) (t : Fin cfg0.N) (h' : 32 * (t.val / 32) + t.val % 32 < cfg0.N) :
    (outsAt m c t.val t.isLt).2.2 = Pipeline.accAt (reset6 m c) (update6 m c) (32 * (t.val / 32)) (t.val % 32) h' :=
  Pipeline.eq_accAt_of_mod (fun n h => (outsAt m c n h).2.2) 32 (reset6 m c) (update6 m c)
    (fun n h hn => out6_first m c ⟨n, h⟩ hn)
    (fun n h hn => out6_later m c ⟨n + 1, h⟩ hn)
    (by norm_num) t.val t.isLt h'

/-- The statistics array after the run: half `q`'s block is the fold over its 32 tiles. -/
def G6 (c : Dev nD) : S2x1x510.Idx → Elt F .f32 := fun i =>
  Pipeline.accAt (reset6 m c) (update6 m c) (32 * (i 0).val) 31
    (by have h : (i 0).val < 2 := (i 0).isLt; rw [show cfg0.N = 64 from N_0]; omega)
    (ix3 0 0 ⟨(i 2).val, (i 2).isLt⟩)

theorem G6_at (c : Dev nD) (t : Fin cfg0.N) (ht : t.val % 32 = 31) (i : S2x1x510.Idx) (j : S1x1x510.Idx)
    (h0 : (i 0).val = t.val / 32) (h2 : (i 2).val = (j 2).val) :
    G6 m c i = (outsAt m c t.val t.isLt).2.2 j := by
  have hN : t.val < 64 := lt_of_lt_of_eq t.isLt (show cfg0.N = 64 from N_0)
  rw [out6_fold m c t (lt_of_lt_of_eq (by omega : 32 * (t.val / 32) + t.val % 32 < 64) (show (64 : ℕ) = cfg0.N from N_0.symm))]
  unfold G6
  have e1 : 32 * (i 0).val = 32 * (t.val / 32) := by rw [h0]
  have e2 : (31 : ℕ) = t.val % 32 := ht.symm
  have ej : (ix3 (0 : Fin 1) (0 : Fin 1) ⟨(i 2).val, (i 2).isLt⟩ : S1x1x510.Idx) = j := by
    funext a
    match a with
    | ⟨0, _⟩ => exact Fin.ext (by have h : (j 0).val < 1 := (j 0).isLt; show 0 = (j 0).val; omega)
    | ⟨1, _⟩ => exact Fin.ext (by have h : (j 1).val < 1 := (j 1).isLt; show 0 = (j 1).val; omega)
    | ⟨2, _⟩ => exact Fin.ext h2
  rw [ej]
  exact congrFun (accAt_congr _ _ e1 e2 _ _) j

theorem flushed6_eq (c : Dev nD) (t : Fin cfg0.N) (hf : (cfg0.win 6).flush t = true) :
    (dats m 0 c).flushed 6 t = ((cfg0.win 6).blk t).view.read (Elt F) (G6 m c) := by
  have ht : t.val % 32 = 31 := (flush0_6 t).mp hf
  show (cfg0.win 6).cut (grid0.coords t) ((dats m 0 c).after 6 t) = _
  rw [after6]
  funext j
  symm
  refine G6_at m c t ht _ j ?_ ?_
  · show win0_6.index t (0 : Fin 3) * 1 + 1 * (j 0).val = _
    have h : (j 0).val < 1 := (j 0).isLt
    rw [(idx_facts t).2.2.2.2.2.2.2.2.2.2.2.2.2.1]; omega
  · show win0_6.index t (2 : Fin 3) * 510 + 1 * (j 2).val = _
    rw [(idx_facts t).2.2.2.2.2.2.2.2.2.2.2.2.2.2.2]; omega

theorem mem_blk6 (t : Fin cfg0.N) (i : S2x1x510.Idx) :
    i ∈ ((cfg0.win 6).blk t).view.set ↔ ∀ a : Fin 3, win0_6.index t a * S1x1x510.size a ≤ (i a).val ∧ (i a).val < win0_6.index t a * S1x1x510.size a + S1x1x510.size a := by
  show i ∈ ((View.whole main_v23_2).slice (win0_6.rect t)).set ↔ _
  rw [View.set_slice_whole, Rect.mem_set_unit]
  exact Iff.rfl

theorem cover6 (i : S2x1x510.Idx) : ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 510 := (i 2).isLt
  let t : Fin cfg0.N := ⟨32 * (i 0).val + 31, by rw [show cfg0.N = 64 from N_0]; omega⟩
  have htv : t.val = 32 * (i 0).val + 31 := rfl
  refine ⟨t, (flush0_6 t).mpr (by rw [htv]; omega), ?_⟩
  rw [mem_blk6]
  obtain ⟨-, -, -, -, -, -, -, -, -, -, a0, a1, a2, b0, b1, b2⟩ := idx_facts t
  intro a
  match a with
  | ⟨0, _⟩ => show win0_6.index t (0 : Fin 3) * 1 ≤ (i 0).val ∧ (i 0).val < win0_6.index t (0 : Fin 3) * 1 + 1; rw [b0, htv]; omega
  | ⟨1, _⟩ => show win0_6.index t (1 : Fin 3) * 1 ≤ (i 1).val ∧ (i 1).val < win0_6.index t (1 : Fin 3) * 1 + 1; rw [b1]; omega
  | ⟨2, _⟩ => show win0_6.index t (2 : Fin 3) * 510 ≤ (i 2).val ∧ (i 2).val < win0_6.index t (2 : Fin 3) * 510 + 510; rw [b2]; omega

theorem final6 (c : Dev nD) : (dats m 0 c).arrAt 6 cfg0.N = G6 m c :=
  (dats m 0 c).arrAt_eq_of_cover 6 (G6 m c) (fun t hf => flushed6_eq m c t hf) cover6

end Cert.KernelIdeal.Tree

end
-- ==== Proof.TreeWalk.lean ====
/-
  The two walks down the depth-8 tree and why they agree.

  A row's path probabilities are computed layer by layer.  The REFERENCE keeps layer L's 2^L nodes in heap order and
  puts the two children of node n at positions 2n and 2n+1 of the next layer (interleaved): position q of layer L+1
  has parent q/2 and goes left when q is even, with the probability of node 2^L - 1 + q/2 of the heap.  The KERNEL
  puts all left children first and all right children after them (blocked): position q of layer L+1 has parent
  q mod 2^L and goes left when q < 2^L, with the probability it finds in slot 2^L - 1 + (q mod 2^L) of a weight table
  whose rows were permuted beforehand.  By induction on the layer, slot q of the kernel's layer L is node
  `heap L q` of the reference's, where heap (L+1) q = 2·heap L q for q < 2^L and 2·heap L (q - 2^L) + 1 otherwise —
  provided the kernel's table holds at slot 2^L - 1 + j the probability of heap node 2^L - 1 + heap L j, which is what
  the permutation of the weight rows arranges.  `heap L` permutes {0, …, 2^L - 1}, so a sum over a layer's positions
  does not see the difference.  The walks need only a monoid (products along a path) and the sums an additive commutative monoid, so the extended
  reals will do and no finiteness is asked.
-/
import Mathlib

namespace Cert.Tree

/-- The heap position (reference order) of the kernel's slot `q` in layer `L`. -/
def heap : ℕ → ℕ → ℕ
  | 0, _ => 0
  | L + 1, q => if q < 2 ^ L then 2 * heap L q else 2 * heap L (q - 2 ^ L) + 1

theorem heap_lt : ∀ (L q : ℕ), heap L q < 2 ^ L
  | 0, _ => by simp [heap]
  | L + 1, q => by
    have h1 := heap_lt L q
    have h2 := heap_lt L (q - 2 ^ L)
    unfold heap
    split <;> rw [pow_succ] <;> omega

theorem heap_succ_lt (L q : ℕ) (h : q < 2 ^ L) : heap (L + 1) q = 2 * heap L q := by
  show (if q < 2 ^ L then 2 * heap L q else 2 * heap L (q - 2 ^ L) + 1) = _
  rw [if_pos h]

theorem heap_succ_ge (L q : ℕ) (h : ¬q < 2 ^ L) : heap (L + 1) q = 2 * heap L (q - 2 ^ L) + 1 := by
  show (if q < 2 ^ L then 2 * heap L q else 2 * heap L (q - 2 ^ L) + 1) = _
  rw [if_neg h]

/-- The parent of slot `q` of layer `L + 1`, on both sides. -/
theorem heap_parent (L q : ℕ) (hq : q < 2 ^ (L + 1)) : heap (L + 1) q / 2 = heap L (q % 2 ^ L) := by
  have hq' : q < 2 ^ L * 2 := by rwa [pow_succ] at hq
  by_cases hlt : q < 2 ^ L
  · rw [heap_succ_lt L q hlt, Nat.mod_eq_of_lt hlt]; omega
  · have hmod : q % 2 ^ L = q - 2 ^ L := by
      rw [Nat.mod_eq_sub_mod (by omega), Nat.mod_eq_of_lt (by omega)]
    rw [heap_succ_ge L q hlt, hmod]; omega

section Walks

variable {R : Type} [Monoid R]

/-- One step of the reference's walk: go left at an even position. `one_sub` is "one minus". -/
def stepR (one_sub : R → R) (p : ℕ → ℕ → R) (L b q : ℕ) : R :=
  if q % 2 = 0 then p b (2 ^ L - 1 + q / 2) else one_sub (p b (2 ^ L - 1 + q / 2))

/-- The reference's path probability of position `q` of layer `L` for row `b`. -/
def walkR (one_sub : R → R) (p : ℕ → ℕ → R) : ℕ → ℕ → ℕ → R
  | 0, _, _ => 1
  | L + 1, b, q => walkR one_sub p L b (q / 2) * stepR one_sub p L b q

/-- One step of the kernel's walk: go left in the first block. -/
def stepK (one_sub : R → R) (pk : ℕ → ℕ → R) (L b q : ℕ) : R :=
  if q < 2 ^ L then pk b (2 ^ L - 1 + q) else one_sub (pk b (2 ^ L - 1 + (q - 2 ^ L)))

/-- The kernel's path probability of slot `q` of layer `L` for row `b`. -/
def walkK (one_sub : R → R) (pk : ℕ → ℕ → R) : ℕ → ℕ → ℕ → R
  | 0, _, _ => 1
  | L + 1, b, q => walkK one_sub pk L b (q % 2 ^ L) * stepK one_sub pk L b q

variable (one_sub : R → R) (p pk : ℕ → ℕ → R)

/-- The kernel's table is the reference's probabilities in blocked order, on the first `D` layers. -/
def Permuted (D b : ℕ) : Prop := ∀ L, L < D → ∀ j, j < 2 ^ L → pk b (2 ^ L - 1 + j) = p b (2 ^ L - 1 + heap L j)

theorem stepK_eq (D b : ℕ) (h : Permuted p pk D b) (L : ℕ) (hL : L < D) (q : ℕ) (hq : q < 2 ^ (L + 1)) :
    stepK one_sub pk L b q = stepR one_sub p L b (heap (L + 1) q) := by
  have hq' : q < 2 ^ L * 2 := by rwa [pow_succ] at hq
  unfold stepK stepR
  by_cases hlt : q < 2 ^ L
  · rw [if_pos hlt, h L hL q hlt, heap_succ_lt L q hlt]
    rw [if_pos (by omega), show 2 * heap L q / 2 = heap L q by omega]
  · rw [if_neg hlt, h L hL (q - 2 ^ L) (by omega), heap_succ_ge L q hlt]
    rw [if_neg (by omega), show (2 * heap L (q - 2 ^ L) + 1) / 2 = heap L (q - 2 ^ L) by omega]

/-- Slot `q` of the kernel's layer is heap node `heap L q` of the reference's. -/
theorem walkK_eq (D b : ℕ) (h : Permuted p pk D b) : ∀ (L : ℕ), L ≤ D → ∀ q : ℕ, q < 2 ^ L →
    walkK one_sub pk L b q = walkR one_sub p L b (heap L q)
  | 0, _, _, _ => rfl
  | L + 1, hL, q, hq => by
    have hmod : q % 2 ^ L < 2 ^ L := Nat.mod_lt _ (by positivity)
    rw [walkK, walkR, stepK_eq one_sub p pk D b h L (by omega) q hq, walkK_eq D b h L (by omega) _ hmod, heap_parent L q hq]

/-- The parent's path probability, as each side repeats it under its two children. -/
theorem parentK_eq (D b : ℕ) (h : Permuted p pk D b) (L : ℕ) (hL : L ≤ D) (q : ℕ) (hq : q < 2 ^ (L + 1)) :
    walkK one_sub pk L b (q % 2 ^ L) = walkR one_sub p L b (heap (L + 1) q / 2) := by
  have hmod : q % 2 ^ L < 2 ^ L := Nat.mod_lt _ (by positivity)
  rw [walkK_eq one_sub p pk D b h L hL _ hmod, heap_parent L q hq]

/-- A walk for row `b` sees only row `b` of its table. -/
theorem stepK_congr (pk' : ℕ → ℕ → R) (b b' : ℕ) (h : ∀ j, pk b j = pk' b' j) (L q : ℕ) :
    stepK one_sub pk L b q = stepK one_sub pk' L b' q := by
  unfold stepK; rw [h, h]

theorem walkK_congr (pk' : ℕ → ℕ → R) (b b' : ℕ) (h : ∀ j, pk b j = pk' b' j) : ∀ (L q : ℕ),
    walkK one_sub pk L b q = walkK one_sub pk' L b' q
  | 0, _ => rfl
  | L + 1, q => by rw [walkK, walkK, walkK_congr pk' b b' h L, stepK_congr one_sub pk pk' b b' h L q]

end Walks

section Sums

variable {M : Type} [AddCommMonoid M]

theorem sum_range_even_odd (f : ℕ → M) : ∀ n : ℕ,
    ∑ q ∈ Finset.range (n * 2), f q = ∑ i ∈ Finset.range n, f (2 * i) + ∑ i ∈ Finset.range n, f (2 * i + 1)
  | 0 => by simp
  | n + 1 => by
    rw [Nat.succ_mul, Finset.sum_range_succ, Finset.sum_range_succ, sum_range_even_odd f n,
      Finset.sum_range_succ, Finset.sum_range_succ]
    rw [show n * 2 = 2 * n by omega]
    abel

/-- A sum over the positions of a layer does not depend on the order the layer is kept in. -/
theorem sum_heap (f : ℕ → M) : ∀ L : ℕ, ∑ q ∈ Finset.range (2 ^ L), f (heap L q) = ∑ q ∈ Finset.range (2 ^ L), f q
  | 0 => by simp [heap]
  | L + 1 => by
    rw [pow_succ, show 2 ^ L * 2 = 2 ^ L + 2 ^ L by omega, Finset.sum_range_add]
    have h1 : ∑ q ∈ Finset.range (2 ^ L), f (heap (L + 1) q) = ∑ q ∈ Finset.range (2 ^ L), f (2 * heap L q) :=
      Finset.sum_congr rfl fun q hq => by
        rw [heap_succ_lt L q (Finset.mem_range.mp hq)]
    have h2 : ∑ q ∈ Finset.range (2 ^ L), f (heap (L + 1) (2 ^ L + q)) = ∑ q ∈ Finset.range (2 ^ L), f (2 * heap L q + 1) :=
      Finset.sum_congr rfl fun q _ => by
        rw [heap_succ_ge L _ (by omega), show 2 ^ L + q - 2 ^ L = q by omega]
    rw [h1, h2, sum_heap (fun i => f (2 * i)) L, sum_heap (fun i => f (2 * i + 1)) L,
      show 2 ^ L + 2 ^ L = 2 ^ L * 2 by omega, sum_range_even_odd f (2 ^ L)]

end Sums

end Cert.Tree
-- ==== Proof.HostTail.lean ====
/-
  The host operations after the region, read as functions of the three arrays the region leaves: the scores, and the
  two statistics (one block of 510 lanes per half of the batch; lanes 2^(L+1) - 2 … 2^(L+2) - 3 of a block are layer
  L's 2^(L+1) positions). The output scores are the first ten columns of the score array. Each layer's ratio vector
  divides the sum over the two halves of the first statistic by that of the second, and the penalty subtracts from
  zero, layer by layer, a coefficient times the sum over the layer's positions of log α + log (1 - α).
-/
import proofs.«148994_j9070970929349_2_alg».proof.Proof.Gen.KernelIdeal.Launch
import proofs.«148994_j9070970929349_2_alg».proof.Proof.TreeWalk
import Idealize.ShloMosaic.Lib.StableHlo.Run
import Idealize.ShloMosaic.Lib.IdealHost
import Idealize.ShloMosaic.Lib.ValueLayout
import Idealize.ShloMosaic.PureOps.Ideal.Laws

noncomputable section

namespace Cert.KernelIdeal.Tail

open Cert.KernelIdeal Cert.KernelIdeal.Gen Idealize.ShloMosaic Idealize.ShloMosaic.ValueIdx Idealize.ShloMosaic.StableHlo
open scoped BigOperators

abbrev Val := Valuation τ sig (Elt Ideal)

/-- The three arrays the region leaves. -/
def A4 (Wv : Val) : FVec Ideal S131072x128 .f32 := Wv (Proc.devRef .tc main_v23_0)
def A5 (Wv : Val) : FVec Ideal S2x1x510 .f32 := Wv (Proc.devRef .tc main_v23_1)
def A6 (Wv : Val) : FVec Ideal S2x1x510 .f32 := Wv (Proc.devRef .tc main_v23_2)

/-- A statistic summed over the two halves of the batch, lane by lane. -/
def colsum (A : FVec Ideal S2x1x510 .f32) : FVec Ideal S510 .f32 :=
  Host.reduceAdd (F := Ideal) (shapeCast S2x510 A shapeCasts_S2x1x510_S2x510) (constant (F := Ideal) S_ .f32 0x00000000#32)
    reducesTo_S2x510_S510_d0 h_S_

/-- Layer 0's ratio vector: lanes 0 … 1 of the first statistic over the same lanes of the second. -/
def alphaK0 (A5 A6 : FVec Ideal S2x1x510 .f32) : FVec Ideal S2 .f32 :=
  Host.divf (extractStridedSlice S2 ![0] (colsum A5) slices_S510_S2_0)
    (extractStridedSlice S2 ![0] (colsum A6) slices_S510_S2_0)

/-- Layer 0's term of the penalty: the sum over its positions of log α + log (1 - α). -/
def term0 (a : FVec Ideal S2 .f32) : FVec Ideal S_ .f32 :=
  Host.reduceAdd (F := Ideal) (addf (Host.log a) (Host.log (subf (broadcastInDim S2 ![] bcast_S_S2 (constant (F := Ideal) S_ .f32 0x3F800000#32)) a)))
    (constant (F := Ideal) S_ .f32 0x00000000#32) reducesTo_S2_S_d0 h_S_

/-- Layer 1's ratio vector: lanes 2 … 5 of the first statistic over the same lanes of the second. -/
def alphaK1 (A5 A6 : FVec Ideal S2x1x510 .f32) : FVec Ideal S4 .f32 :=
  Host.divf (extractStridedSlice S4 ![2] (colsum A5) slices_S510_S4_2)
    (extractStridedSlice S4 ![2] (colsum A6) slices_S510_S4_2)

/-- Layer 1's term of the penalty: the sum over its positions of log α + log (1 - α). -/
def term1 (a : FVec Ideal S4 .f32) : FVec Ideal S_ .f32 :=
  Host.reduceAdd (F := Ideal) (addf (Host.log a) (Host.log (subf (broadcastInDim S4 ![] bcast_S_S4 (constant (F := Ideal) S_ .f32 0x3F800000#32)) a)))
    (constant (F := Ideal) S_ .f32 0x00000000#32) reducesTo_S4_S_d0 h_S_

/-- Layer 2's ratio vector: lanes 6 … 13 of the first statistic over the same lanes of the second. -/
def alphaK2 (A5 A6 : FVec Ideal S2x1x510 .f32) : FVec Ideal S8 .f32 :=
  Host.divf (extractStridedSlice S8 ![6] (colsum A5) slices_S510_S8_6)
    (extractStridedSlice S8 ![6] (colsum A6) slices_S510_S8_6)

/-- Layer 2's term of the penalty: the sum over its positions of log α + log (1 - α). -/
def term2 (a : FVec Ideal S8 .f32) : FVec Ideal S_ .f32 :=
  Host.reduceAdd (F := Ideal) (addf (Host.log a) (Host.log (subf (broadcastInDim S8 ![] bcast_S_S8 (constant (F := Ideal) S_ .f32 0x3F800000#32)) a)))
    (constant (F := Ideal) S_ .f32 0x00000000#32) reducesTo_S8_S_d0 h_S_

/-- Layer 3's ratio vector: lanes 14 … 29 of the first statistic over the same lanes of the second. -/
def alphaK3 (A5 A6 : FVec Ideal S2x1x510 .f32) : FVec Ideal S16 .f32 :=
  Host.divf (extractStridedSlice S16 ![14] (colsum A5) slices_S510_S16_14)
    (extractStridedSlice S16 ![14] (colsum A6) slices_S510_S16_14)

/-- Layer 3's term of the penalty: the sum over its positions of log α + log (1 - α). -/
def term3 (a : FVec Ideal S16 .f32) : FVec Ideal S_ .f32 :=
  Host.reduceAdd (F := Ideal) (addf (Host.log a) (Host.log (subf (broadcastInDim S16 ![] bcast_S_S16 (constant (F := Ideal) S_ .f32 0x3F800000#32)) a)))
    (constant (F := Ideal) S_ .f32 0x00000000#32) reducesTo_S16_S_d0 h_S_

/-- Layer 4's ratio vector: lanes 30 … 61 of the first statistic over the same lanes of the second. -/
def alphaK4 (A5 A6 : FVec Ideal S2x1x510 .f32) : FVec Ideal S32 .f32 :=
  Host.divf (extractStridedSlice S32 ![30] (colsum A5) slices_S510_S32_30)
    (extractStridedSlice S32 ![30] (colsum A6) slices_S510_S32_30)

/-- Layer 4's term of the penalty: the sum over its positions of log α + log (1 - α). -/
def term4 (a : FVec Ideal S32 .f32) : FVec Ideal S_ .f32 :=
  Host.reduceAdd (F := Ideal) (addf (Host.log a) (Host.log (subf (broadcastInDim S32 ![] bcast_S_S32 (constant (F := Ideal) S_ .f32 0x3F800000#32)) a)))
    (constant (F := Ideal) S_ .f32 0x00000000#32) reducesTo_S32_S_d0 h_S_

/-- Layer 5's ratio vector: lanes 62 … 125 of the first statistic over the same lanes of the second. -/
def alphaK5 (A5 A6 : FVec Ideal S2x1x510 .f32) : FVec Ideal S64 .f32 :=
  Host.divf (extractStridedSlice S64 ![62] (colsum A5) slices_S510_S64_62)
    (extractStridedSlice S64 ![62] (colsum A6) slices_S510_S64_62)

/-- Layer 5's term of the penalty: the sum over its positions of log α + log (1 - α). -/
def term5 (a : FVec Ideal S64 .f32) : FVec Ideal S_ .f32 :=
  Host.reduceAdd (F := Ideal) (addf (Host.log a) (Host.log (subf (broadcastInDim S64 ![] bcast_S_S64 (constant (F := Ideal) S_ .f32 0x3F800000#32)) a)))
    (constant (F := Ideal) S_ .f32 0x00000000#32) reducesTo_S64_S_d0 h_S_

/-- Layer 6's ratio vector: lanes 126 … 253 of the first statistic over the same lanes of the second. -/
def alphaK6 (A5 A6 : FVec Ideal S2x1x510 .f32) : FVec Ideal S128 .f32 :=
  Host.divf (extractStridedSlice S128 ![126] (colsum A5) slices_S510_S128_126)
    (extractStridedSlice S128 ![126] (colsum A6) slices_S510_S128_126)

/-- Layer 6's term of the penalty: the sum over its positions of log α + log (1 - α). -/
def term6 (a : FVec Ideal S128 .f32) : FVec Ideal S_ .f32 :=
  Host.reduceAdd (F := Ideal) (addf (Host.log a) (Host.log (subf (broadcastInDim S128 ![] bcast_S_S128 (constant (F := Ideal) S_ .f32 0x3F800000#32)) a)))
    (constant (F := Ideal) S_ .f32 0x00000000#32) reducesTo_S128_S_d0 h_S_

/-- Layer 7's ratio vector: lanes 254 … 509 of the first statistic over the same lanes of the second. -/
def alphaK7 (A5 A6 : FVec Ideal S2x1x510 .f32) : FVec Ideal S256 .f32 :=
  Host.divf (extractStridedSlice S256 ![254] (colsum A5) slices_S510_S256_254)
    (extractStridedSlice S256 ![254] (colsum A6) slices_S510_S256_254)

/-- Layer 7's term of the penalty: the sum over its positions of log α + log (1 - α). -/
def term7 (a : FVec Ideal S256 .f32) : FVec Ideal S_ .f32 :=
  Host.reduceAdd (F := Ideal) (addf (Host.log a) (Host.log (subf (broadcastInDim S256 ![] bcast_S_S256 (constant (F := Ideal) S_ .f32 0x3F800000#32)) a)))
    (constant (F := Ideal) S_ .f32 0x00000000#32) reducesTo_S256_S_d0 h_S_

/-- The penalty as the tail composes it from the eight ratio vectors. -/
def pen (a0 : FVec Ideal S2 .f32) (a1 : FVec Ideal S4 .f32) (a2 : FVec Ideal S8 .f32) (a3 : FVec Ideal S16 .f32) (a4 : FVec Ideal S32 .f32) (a5 : FVec Ideal S64 .f32) (a6 : FVec Ideal S128 .f32) (a7 : FVec Ideal S256 .f32) : FVec Ideal S_ .f32 :=
  subf (subf (subf (subf (subf (subf (subf (subf (constant (F := Ideal) S_ .f32 0x00000000#32)
    (mulf (constant (F := Ideal) S_ .f32 0x3A03126F#32) (term0 a0)))
    (mulf (constant (F := Ideal) S_ .f32 0x3983126F#32) (term1 a1)))
    (mulf (constant (F := Ideal) S_ .f32 0x3903126F#32) (term2 a2)))
    (mulf (constant (F := Ideal) S_ .f32 0x3883126F#32) (term3 a3)))
    (mulf (constant (F := Ideal) S_ .f32 0x3803126F#32) (term4 a4)))
    (mulf (constant (F := Ideal) S_ .f32 0x3783126F#32) (term5 a5)))
    (mulf (constant (F := Ideal) S_ .f32 0x3703126F#32) (term6 a6)))
    (mulf (constant (F := Ideal) S_ .f32 0x3683126F#32) (term7 a7))

/-! ## Reading the pieces at an index -/

/-- A one-axis index set is its coordinate's range … -/
def idxEquiv1 {n : ℕ} : (⟨1, ![n]⟩ : Shape).Idx ≃ Fin n where
  toFun i := i 0
  invFun q := ix1 q
  left_inv i := (eq_ix1 i).symm
  right_inv _ := rfl

/-- … so a sum over it is the sum over the coordinate. -/
theorem sum_idx1 {M : Type} [AddCommMonoid M] {n : ℕ} (f : (⟨1, ![n]⟩ : Shape).Idx → M) :
    ∑ i, f i = ∑ q : Fin n, f (ix1 q) :=
  (Equiv.sum_comp (idxEquiv1 (n := n)).symm f).symm

/-- The two blocks of a statistic, viewed as two rows, sit at the same row-major position. -/
theorem rowMajor_2x510 (h : Fin 2) (c : Fin 510) :
    (S2x1x510.rowMajor (ix3 h (0 : Fin 1) c)).val = (S2x510.rowMajor (ix2 h c)).val := by
  rw [Shape.rowMajor_val_three, Shape.rowMajor_val_two]
  show (h.val * 1 + 0) * 510 + c.val = h.val * 510 + c.val
  omega

/-- A statistic summed over the two halves, at lane `c`. -/
theorem colsum_apply (A : FVec Ideal S2x1x510 .f32) (c : Fin 510) :
    colsum A (ix1 c) = ∑ h : Fin 2, A (ix3 h (0 : Fin 1) c) := by
  have hR : S2x510.Reduces [0] S510 := by decide
  unfold colsum
  refine (hostReduceAdd_apply _ _ reducesTo_S2x510_S510_d0 h_S_ (ix1 c)).trans ?_
  rw [Ideal.hostReduceAdd_single reducesTo_S2x510_S510_d0 hR, constant_apply, Ideal.ofBits_zero_f32, zero_add]
  show ∑ k : Fin 2, shapeCast S2x510 A shapeCasts_S2x1x510_S2x510 (hR.lift (ix1 c) k) = _
  refine Finset.sum_congr rfl fun k _ => ?_
  have hk : hR.lift (ix1 c) k = ix2 k c := by
    funext a
    match a with
    | ⟨0, _⟩ => exact Fin.ext rfl
    | ⟨1, _⟩ => exact Fin.ext rfl
  rw [hk]
  exact shapeCast_apply A shapeCasts_S2x1x510_S2x510 (ix2 k c) (ix3 k (0 : Fin 1) c) (rowMajor_2x510 k c)

/-- A layer's ratio vector at position `q`: the two statistics' sums over the halves at lane `off + q`, divided. -/
theorem alpha_gen {n : ℕ} (off : ℕ) (A5 A6 : FVec Ideal S2x1x510 .f32) (hs : S510.Slices ![off] ⟨1, ![n]⟩)
    (hle : off + n ≤ 510) (q : Fin n) :
    Host.divf (extractStridedSlice ⟨1, ![n]⟩ ![off] (colsum A5) hs) (extractStridedSlice ⟨1, ![n]⟩ ![off] (colsum A6) hs) (ix1 q)
      = Ideal.div (∑ h : Fin 2, A5 (ix3 h (0 : Fin 1) ⟨off + q.val, lt_of_lt_of_le (Nat.add_lt_add_left q.isLt off) hle⟩))
          (∑ h : Fin 2, A6 (ix3 h (0 : Fin 1) ⟨off + q.val, lt_of_lt_of_le (Nat.add_lt_add_left q.isLt off) hle⟩)) := by
  have hsl : ∀ x : FVec Ideal S510 .f32, extractStridedSlice ⟨1, ![n]⟩ ![off] x hs (ix1 q)
      = x (ix1 ⟨off + q.val, lt_of_lt_of_le (Nat.add_lt_add_left q.isLt off) hle⟩) := fun x =>
    extractStridedSlice_apply ![off] x hs (ix1 q) (ix1 ⟨off + q.val, lt_of_lt_of_le (Nat.add_lt_add_left q.isLt off) hle⟩)
      (fun a => by
        match a with
        | ⟨0, _⟩ => rfl)
  refine (hostDivf_apply _ _ _).trans ?_
  rw [hsl, hsl, colsum_apply, colsum_apply]

/-- A layer's term of the penalty as a sum over its positions. -/
theorem term_gen {n : ℕ} (a : FVec Ideal ⟨1, ![n]⟩ .f32) (hb : S_.BroadcastsInDim ⟨1, ![n]⟩ ![])
    (hr : (⟨1, ![n]⟩ : Shape).ReducesTo [0] S_) (hu : 0 < S_.numel) (j : S_.Idx) :
    Host.reduceAdd (F := Ideal) (addf (Host.log a) (Host.log (subf (broadcastInDim ⟨1, ![n]⟩ ![] hb
        (constant (F := Ideal) S_ .f32 0x3F800000#32)) a))) (constant (F := Ideal) S_ .f32 0x00000000#32) hr hu j
      = ∑ q : Fin n, (Ideal.log (a (ix1 q)) + Ideal.log (1 - a (ix1 q))) := by
  refine (hostReduceAdd_apply _ _ hr hu j).trans ?_
  rw [Ideal.hostReduceAdd_total hr (fun b => b.elim0), constant_apply, Ideal.ofBits_zero_f32, zero_add, sum_idx1]
  refine Finset.sum_congr rfl fun q _ => ?_
  show Ideal.log (a (ix1 q)) + Ideal.log (broadcastInDim ⟨1, ![n]⟩ ![] hb (constant (F := Ideal) S_ .f32 0x3F800000#32) (ix1 q)
    - a (ix1 q)) = _
  rw [broadcastInDim_scalar_apply, constant_apply, Ideal.ofBits_one_f32]

/-- A layer's term does not see the order its positions are kept in: if `a` is `a'` read through the heap order of
    layer `L + 1`'s slots, the two terms are equal. -/
theorem term_perm_gen (L : ℕ) {n : ℕ} (hn : n = 2 ^ (L + 1)) (a a' : FVec Ideal ⟨1, ![n]⟩ .f32)
    (hb : S_.BroadcastsInDim ⟨1, ![n]⟩ ![]) (hr : (⟨1, ![n]⟩ : Shape).ReducesTo [0] S_) (hu : 0 < S_.numel)
    (h : ∀ q q' : Fin n, q'.val = Cert.Tree.heap (L + 1) q.val → a (ix1 q) = a' (ix1 q')) :
    Host.reduceAdd (F := Ideal) (addf (Host.log a) (Host.log (subf (broadcastInDim ⟨1, ![n]⟩ ![] hb
        (constant (F := Ideal) S_ .f32 0x3F800000#32)) a))) (constant (F := Ideal) S_ .f32 0x00000000#32) hr hu
      = Host.reduceAdd (F := Ideal) (addf (Host.log a') (Host.log (subf (broadcastInDim ⟨1, ![n]⟩ ![] hb
        (constant (F := Ideal) S_ .f32 0x3F800000#32)) a'))) (constant (F := Ideal) S_ .f32 0x00000000#32) hr hu := by
  funext j
  rw [term_gen a hb hr hu j, term_gen a' hb hr hu j]
  let g : ℕ → EReal := fun q => if hq : q < n then Ideal.log (a' (ix1 ⟨q, hq⟩)) + Ideal.log (1 - a' (ix1 ⟨q, hq⟩)) else 0
  have hL : ∀ q : Fin n, Ideal.log (a (ix1 q)) + Ideal.log (1 - a (ix1 q)) = g (Cert.Tree.heap (L + 1) q.val) := fun q => by
    have hlt : Cert.Tree.heap (L + 1) q.val < n := hn ▸ Cert.Tree.heap_lt (L + 1) q.val
    show _ = dite _ _ _
    rw [dif_pos hlt, h q ⟨_, hlt⟩ rfl]
  have hR : ∀ q : Fin n, Ideal.log (a' (ix1 q)) + Ideal.log (1 - a' (ix1 q)) = g q.val := fun q => by
    show _ = dite _ _ _
    rw [dif_pos q.isLt]
  rw [Finset.sum_congr rfl fun q _ => hL q, Finset.sum_congr rfl fun q _ => hR q,
    Fin.sum_univ_eq_sum_range (fun q => g (Cert.Tree.heap (L + 1) q)) n, Fin.sum_univ_eq_sum_range g n, hn,
    Cert.Tree.sum_heap g (L + 1)]

/-! ## The eight layers' ratio vectors and terms -/

theorem alphaK0_apply (A5 A6 : FVec Ideal S2x1x510 .f32) (q : Fin 2) :
    alphaK0 A5 A6 (ix1 q)
      = Ideal.div (∑ h : Fin 2, A5 (ix3 h (0 : Fin 1) ⟨0 + q.val, by have := q.isLt; omega⟩))
          (∑ h : Fin 2, A6 (ix3 h (0 : Fin 1) ⟨0 + q.val, by have := q.isLt; omega⟩)) :=
  alpha_gen 0 A5 A6 slices_S510_S2_0 (by decide) q

theorem term0_apply (a : FVec Ideal S2 .f32) (j : S_.Idx) :
    term0 a j = ∑ q : Fin 2, (Ideal.log (a (ix1 q)) + Ideal.log (1 - a (ix1 q))) :=
  term_gen a bcast_S_S2 reducesTo_S2_S_d0 h_S_ j

theorem term0_perm (a a' : FVec Ideal S2 .f32)
    (h : ∀ q q' : Fin 2, q'.val = Cert.Tree.heap 1 q.val → a (ix1 q) = a' (ix1 q')) :
    term0 a = term0 a' :=
  term_perm_gen 0 rfl a a' bcast_S_S2 reducesTo_S2_S_d0 h_S_ h

theorem alphaK1_apply (A5 A6 : FVec Ideal S2x1x510 .f32) (q : Fin 4) :
    alphaK1 A5 A6 (ix1 q)
      = Ideal.div (∑ h : Fin 2, A5 (ix3 h (0 : Fin 1) ⟨2 + q.val, by have := q.isLt; omega⟩))
          (∑ h : Fin 2, A6 (ix3 h (0 : Fin 1) ⟨2 + q.val, by have := q.isLt; omega⟩)) :=
  alpha_gen 2 A5 A6 slices_S510_S4_2 (by decide) q

theorem term1_apply (a : FVec Ideal S4 .f32) (j : S_.Idx) :
    term1 a j = ∑ q : Fin 4, (Ideal.log (a (ix1 q)) + Ideal.log (1 - a (ix1 q))) :=
  term_gen a bcast_S_S4 reducesTo_S4_S_d0 h_S_ j

theorem term1_perm (a a' : FVec Ideal S4 .f32)
    (h : ∀ q q' : Fin 4, q'.val = Cert.Tree.heap 2 q.val → a (ix1 q) = a' (ix1 q')) :
    term1 a = term1 a' :=
  term_perm_gen 1 rfl a a' bcast_S_S4 reducesTo_S4_S_d0 h_S_ h

theorem alphaK2_apply (A5 A6 : FVec Ideal S2x1x510 .f32) (q : Fin 8) :
    alphaK2 A5 A6 (ix1 q)
      = Ideal.div (∑ h : Fin 2, A5 (ix3 h (0 : Fin 1) ⟨6 + q.val, by have := q.isLt; omega⟩))
          (∑ h : Fin 2, A6 (ix3 h (0 : Fin 1) ⟨6 + q.val, by have := q.isLt; omega⟩)) :=
  alpha_gen 6 A5 A6 slices_S510_S8_6 (by decide) q

theorem term2_apply (a : FVec Ideal S8 .f32) (j : S_.Idx) :
    term2 a j = ∑ q : Fin 8, (Ideal.log (a (ix1 q)) + Ideal.log (1 - a (ix1 q))) :=
  term_gen a bcast_S_S8 reducesTo_S8_S_d0 h_S_ j

theorem term2_perm (a a' : FVec Ideal S8 .f32)
    (h : ∀ q q' : Fin 8, q'.val = Cert.Tree.heap 3 q.val → a (ix1 q) = a' (ix1 q')) :
    term2 a = term2 a' :=
  term_perm_gen 2 rfl a a' bcast_S_S8 reducesTo_S8_S_d0 h_S_ h

theorem alphaK3_apply (A5 A6 : FVec Ideal S2x1x510 .f32) (q : Fin 16) :
    alphaK3 A5 A6 (ix1 q)
      = Ideal.div (∑ h : Fin 2, A5 (ix3 h (0 : Fin 1) ⟨14 + q.val, by have := q.isLt; omega⟩))
          (∑ h : Fin 2, A6 (ix3 h (0 : Fin 1) ⟨14 + q.val, by have := q.isLt; omega⟩)) :=
  alpha_gen 14 A5 A6 slices_S510_S16_14 (by decide) q

theorem term3_apply (a : FVec Ideal S16 .f32) (j : S_.Idx) :
    term3 a j = ∑ q : Fin 16, (Ideal.log (a (ix1 q)) + Ideal.log (1 - a (ix1 q))) :=
  term_gen a bcast_S_S16 reducesTo_S16_S_d0 h_S_ j

theorem term3_perm (a a' : FVec Ideal S16 .f32)
    (h : ∀ q q' : Fin 16, q'.val = Cert.Tree.heap 4 q.val → a (ix1 q) = a' (ix1 q')) :
    term3 a = term3 a' :=
  term_perm_gen 3 rfl a a' bcast_S_S16 reducesTo_S16_S_d0 h_S_ h

theorem alphaK4_apply (A5 A6 : FVec Ideal S2x1x510 .f32) (q : Fin 32) :
    alphaK4 A5 A6 (ix1 q)
      = Ideal.div (∑ h : Fin 2, A5 (ix3 h (0 : Fin 1) ⟨30 + q.val, by have := q.isLt; omega⟩))
          (∑ h : Fin 2, A6 (ix3 h (0 : Fin 1) ⟨30 + q.val, by have := q.isLt; omega⟩)) :=
  alpha_gen 30 A5 A6 slices_S510_S32_30 (by decide) q

theorem term4_apply (a : FVec Ideal S32 .f32) (j : S_.Idx) :
    term4 a j = ∑ q : Fin 32, (Ideal.log (a (ix1 q)) + Ideal.log (1 - a (ix1 q))) :=
  term_gen a bcast_S_S32 reducesTo_S32_S_d0 h_S_ j

theorem term4_perm (a a' : FVec Ideal S32 .f32)
    (h : ∀ q q' : Fin 32, q'.val = Cert.Tree.heap 5 q.val → a (ix1 q) = a' (ix1 q')) :
    term4 a = term4 a' :=
  term_perm_gen 4 rfl a a' bcast_S_S32 reducesTo_S32_S_d0 h_S_ h

theorem alphaK5_apply (A5 A6 : FVec Ideal S2x1x510 .f32) (q : Fin 64) :
    alphaK5 A5 A6 (ix1 q)
      = Ideal.div (∑ h : Fin 2, A5 (ix3 h (0 : Fin 1) ⟨62 + q.val, by have := q.isLt; omega⟩))
          (∑ h : Fin 2, A6 (ix3 h (0 : Fin 1) ⟨62 + q.val, by have := q.isLt; omega⟩)) :=
  alpha_gen 62 A5 A6 slices_S510_S64_62 (by decide) q

theorem term5_apply (a : FVec Ideal S64 .f32) (j : S_.Idx) :
    term5 a j = ∑ q : Fin 64, (Ideal.log (a (ix1 q)) + Ideal.log (1 - a (ix1 q))) :=
  term_gen a bcast_S_S64 reducesTo_S64_S_d0 h_S_ j

theorem term5_perm (a a' : FVec Ideal S64 .f32)
    (h : ∀ q q' : Fin 64, q'.val = Cert.Tree.heap 6 q.val → a (ix1 q) = a' (ix1 q')) :
    term5 a = term5 a' :=
  term_perm_gen 5 rfl a a' bcast_S_S64 reducesTo_S64_S_d0 h_S_ h

theorem alphaK6_apply (A5 A6 : FVec Ideal S2x1x510 .f32) (q : Fin 128) :
    alphaK6 A5 A6 (ix1 q)
      = Ideal.div (∑ h : Fin 2, A5 (ix3 h (0 : Fin 1) ⟨126 + q.val, by have := q.isLt; omega⟩))
          (∑ h : Fin 2, A6 (ix3 h (0 : Fin 1) ⟨126 + q.val, by have := q.isLt; omega⟩)) :=
  alpha_gen 126 A5 A6 slices_S510_S128_126 (by decide) q

theorem term6_apply (a : FVec Ideal S128 .f32) (j : S_.Idx) :
    term6 a j = ∑ q : Fin 128, (Ideal.log (a (ix1 q)) + Ideal.log (1 - a (ix1 q))) :=
  term_gen a bcast_S_S128 reducesTo_S128_S_d0 h_S_ j

theorem term6_perm (a a' : FVec Ideal S128 .f32)
    (h : ∀ q q' : Fin 128, q'.val = Cert.Tree.heap 7 q.val → a (ix1 q) = a' (ix1 q')) :
    term6 a = term6 a' :=
  term_perm_gen 6 rfl a a' bcast_S_S128 reducesTo_S128_S_d0 h_S_ h

theorem alphaK7_apply (A5 A6 : FVec Ideal S2x1x510 .f32) (q : Fin 256) :
    alphaK7 A5 A6 (ix1 q)
      = Ideal.div (∑ h : Fin 2, A5 (ix3 h (0 : Fin 1) ⟨254 + q.val, by have := q.isLt; omega⟩))
          (∑ h : Fin 2, A6 (ix3 h (0 : Fin 1) ⟨254 + q.val, by have := q.isLt; omega⟩)) :=
  alpha_gen 254 A5 A6 slices_S510_S256_254 (by decide) q

theorem term7_apply (a : FVec Ideal S256 .f32) (j : S_.Idx) :
    term7 a j = ∑ q : Fin 256, (Ideal.log (a (ix1 q)) + Ideal.log (1 - a (ix1 q))) :=
  term_gen a bcast_S_S256 reducesTo_S256_S_d0 h_S_ j

theorem term7_perm (a a' : FVec Ideal S256 .f32)
    (h : ∀ q q' : Fin 256, q'.val = Cert.Tree.heap 8 q.val → a (ix1 q) = a' (ix1 q')) :
    term7 a = term7 a' :=
  term_perm_gen 7 rfl a a' bcast_S_S256 reducesTo_S256_S_d0 h_S_ h

/-- The output scores: the first ten columns of the score array. -/
theorem out_apply (X : FVec Ideal S131072x128 .f32) (b : Fin 131072) (o : Fin 10) :
    extractStridedSlice S131072x10 ![0, 0] X slices_S131072x128_S131072x10_0_0 (ix2 b o)
      = X (ix2 b ⟨o.val, by have := o.isLt; omega⟩) :=
  slice2_axis1_apply 0 X slices_S131072x128_S131072x10_0_0 b o ⟨o.val, by have := o.isLt; omega⟩ (Nat.zero_add _).symm

/-! ## What the tail leaves in its two outputs -/

set_option maxRecDepth 16384 in
set_option maxHeartbeats 4000000 in
theorem tail24 (Wv : Val) :
    after (hostOps1 (F := Ideal)) Wv (Proc.devRef .tc main_v24)
      = extractStridedSlice S131072x10 ![0, 0] (A4 Wv) slices_S131072x128_S131072x10_0_0 := by
  simp only [hostOps1]
  after_results_simp
  rfl

set_option maxRecDepth 16384 in
set_option maxHeartbeats 8000000 in
theorem tail116 (Wv : Val) :
    after (hostOps1 (F := Ideal)) Wv (Proc.devRef .tc main_v116)
      = pen (alphaK0 (A5 Wv) (A6 Wv)) (alphaK1 (A5 Wv) (A6 Wv)) (alphaK2 (A5 Wv) (A6 Wv)) (alphaK3 (A5 Wv) (A6 Wv)) (alphaK4 (A5 Wv) (A6 Wv)) (alphaK5 (A5 Wv) (A6 Wv)) (alphaK6 (A5 Wv) (A6 Wv)) (alphaK7 (A5 Wv) (A6 Wv)) := by
  simp only [hostOps1]
  after_results_simp
  rfl

end Cert.KernelIdeal.Tail

end
-- ==== Proof.KernelRun.lean ====
/-
  The idealized kernel program's run with its two results named: the scores are the first ten columns of the score
  array the region leaves, the penalty is the host chain of the 120 later lines applied to the two statistics arrays
  the region leaves.
-/
import proofs.«148994_j9070970929349_2_alg».proof.Proof.KernelAcc
import proofs.«148994_j9070970929349_2_alg».proof.Proof.HostTail

set_option maxRecDepth 16384

noncomputable section

namespace Cert.KernelIdeal.Assemble

open Cert.KernelIdeal Cert.KernelIdeal.Gen Cert.KernelIdeal.Tree
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The kernel program's first result. -/
def yK (c : Dev nD) : FVec Ideal S131072x10 .f32 :=
  extractStridedSlice S131072x10 ![0, 0] (G4 (F := Ideal) m c) slices_S131072x128_S131072x10_0_0

/-- Its second result. -/
def penK (c : Dev nD) : FVec Ideal S_ .f32 :=
  Tail.pen (Tail.alphaK0 (G5 (F := Ideal) m c) (G6 (F := Ideal) m c)) (Tail.alphaK1 (G5 (F := Ideal) m c) (G6 (F := Ideal) m c))
    (Tail.alphaK2 (G5 (F := Ideal) m c) (G6 (F := Ideal) m c)) (Tail.alphaK3 (G5 (F := Ideal) m c) (G6 (F := Ideal) m c))
    (Tail.alphaK4 (G5 (F := Ideal) m c) (G6 (F := Ideal) m c)) (Tail.alphaK5 (G5 (F := Ideal) m c) (G6 (F := Ideal) m c))
    (Tail.alphaK6 (G5 (F := Ideal) m c) (G6 (F := Ideal) m c)) (Tail.alphaK7 (G5 (F := Ideal) m c) (G6 (F := Ideal) m c))

/-- The contents the later lines start from: the region's arrays after the run, everything else as the region found it. -/
abbrev Wend (c : Dev nD) : Valuation τ sig (Elt Ideal) :=
  Pipeline.withArrays spec0 c (V0 m c) fun w => (dats m 0 c).arrAt w cfg0.N

theorem Wend4 (c : Dev nD) : Tail.A4 (Wend m c) = G4 (F := Ideal) m c := by
  unfold Tail.A4
  exact (Pipeline.withArrays_arr spec0 launch0.win.arr_inj c (V0 m c) _ 4).trans (final4 m c)

theorem Wend5 (c : Dev nD) : Tail.A5 (Wend m c) = G5 (F := Ideal) m c := by
  unfold Tail.A5
  exact (Pipeline.withArrays_arr spec0 launch0.win.arr_inj c (V0 m c) _ 5).trans (final5 m c)

theorem Wend6 (c : Dev nD) : Tail.A6 (Wend m c) = G6 (F := Ideal) m c := by
  unfold Tail.A6
  exact (Pipeline.withArrays_arr spec0 launch0.win.arr_inj c (V0 m c) _ 6).trans (final6 m c)

theorem tailY (c : Dev nD) :
    Pipeline.afterTail₀ cfgs (dats m) 0 (V0 m) [hostOps1] c main_v24 = yK m c := by
  unfold Pipeline.afterTail₀
  simp only [List.flatten_cons, List.flatten_nil, List.append_nil]
  exact (Tail.tail24 (Wend m c)).trans (by rw [Wend4]; rfl)

theorem tailPen (c : Dev nD) :
    Pipeline.afterTail₀ cfgs (dats m) 0 (V0 m) [hostOps1] c main_v116 = penK m c := by
  unfold Pipeline.afterTail₀
  simp only [List.flatten_cons, List.flatten_nil, List.append_nil]
  exact (Tail.tail116 (Wend m c)).trans (by rw [Wend5, Wend6]; rfl)

/-- Every weakly fair execution of the idealized kernel program terminates without a fault, with the two results at
    `yK` and `penK` and the three arguments as launched. -/
theorem kernel_run : θ_run defs (onTc (τ := τ) (main (F := Ideal))) ⟨m, fun _ => 0, ρ⟩ (fun r => ∀ c : Dev nD,
      r.2.mem ((c.tc : Thread nD τ).loc main_v24) = yK m c
      ∧ r.2.mem ((c.tc : Thread nD τ).loc main_v116) = penK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v24 (Pipeline.mem_restRefs_of main_v24 (by decide) (by decide))).trans (tailY m c),
     ((h c).2 main_v116 (Pipeline.mem_restRefs_of main_v116 (by decide) (by decide))).trans (tailPen m c),
     ((h c).1 0).trans ((((dats m) 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main (F := Ideal) m ρ)

end Cert.KernelIdeal.Assemble

end
-- ==== Proof.RefRead.lean ====
/-
  The reference's intermediates read at an index, as the walk down the tree.

  The reference computes the node probabilities P[b, j] = logistic(∑ₖ [1 | x][b, k] · w[j, k]), stacks [P, 1 - P]
  along a new last axis, and for layer L takes the 2^L nodes from heap position 2^L - 1, reshaped so that position
  q of the layer reads node 2^L - 1 + q / 2, the probability itself at even q and its complement at odd q: the
  step of the interleaved walk. The path probability of the parent, repeated under its two children, times the
  step is the path probability one layer down; the layer's ratio vector divides the row sums of step times parent
  by the row sums of the parent.
-/
import proofs.«148994_j9070970929349_2_alg».proof.Proof.Gen.ReferenceIdeal.Run
import proofs.«148994_j9070970929349_2_alg».proof.Proof.TreeWalk
import Idealize.ShloMosaic.Lib.IdealHost
import Idealize.ShloMosaic.Lib.StackMember
import Idealize.ShloMosaic.Lib.Pipeline.Value

noncomputable section

namespace Cert.ReferenceIdeal.RefRead

open Cert.ReferenceIdeal Cert.ReferenceIdeal.Gen Cert.ReferenceIdeal.Value Idealize.ShloMosaic Idealize.ShloMosaic.ValueIdx
open scoped BigOperators

abbrev Val := Valuation τ sig (Elt Ideal)

/-- The two inputs the tree reads, and the node probabilities the reference computes from them. -/
def X (V0 : Val) : S131072x784.Idx → EReal := V0 (Proc.devRef .tc main_arg0)
def W (V0 : Val) : S255x785.Idx → EReal := V0 (Proc.devRef .tc main_arg1)
def P (V0 : Val) : S131072x255.Idx → EReal := res_main_v9 (F := Ideal) V0

/-- Row `b` of the input with a leading one: column 0 is 1, column k + 1 is x[b, k]. -/
def Xa (x : S131072x784.Idx → EReal) (b : Fin 131072) (k : Fin 785) : EReal :=
  if h : k.val = 0 then 1 else x (ix2 b ⟨k.val - 1, by have := k.isLt; omega⟩)

theorem dot_eq_plain : dot_S131072x785_S785x255_S131072x255_1_0_0_1_n_n = DotDims.plain 131072 785 255 := rfl

/-- The concatenation [1 | x] read at (b, k). -/
theorem cat_apply (x : S131072x784.Idx → EReal) (b : Fin 131072) (k : Fin 785) :
    concatenate S131072x785 1 [⟨S131072x1, (broadcastInDim S131072x1 ![] bcast_S_S131072x1 (constant (F := Ideal) S_ .f32 0x3F800000#32))⟩, ⟨S131072x784, x⟩]
      concatenates_S131072x1_S131072x784_S131072x785_d1 (ix2 b k) = Xa x b k := by
  unfold Xa
  by_cases hk : k.val = 0
  · rw [dif_pos hk]
    refine (concatenate_pair_apply_left (t := S131072x785) (s₁ := S131072x1) (s₂ := S131072x784) (1 : Fin 2) _ _ _ (ix2 b k) rfl
      (ix2 b (⟨0, Nat.one_pos⟩ : Fin 1)) (fun a => ?_)).trans ?_
    · match a with
      | ⟨0, _⟩ => rfl
      | ⟨1, _⟩ => exact hk.symm
    · rw [broadcastInDim_scalar_apply, constant_apply, Ideal.ofBits_one_f32]
  · rw [dif_neg hk]
    exact concatenate_pair_apply_right (t := S131072x785) (s₁ := S131072x1) (s₂ := S131072x784) (1 : Fin 2) _ _ _ (ix2 b k) rfl rfl
      (ix2 b ⟨k.val - 1, by have := k.isLt; omega⟩)
      (fun a ha => by
        match a with
        | ⟨0, _⟩ => rfl
        | ⟨1, _⟩ => exact absurd rfl ha)
      (by show (k.val - 1) + 1 = k.val; omega)

/-- The transposed weights read at (k, j). -/
theorem wT_apply (w : S255x785.Idx → EReal) (k : Fin 785) (j : Fin 255) :
    transpose S785x255 [1, 0] w transposes_S255x785_S785x255_1_0 (ix2 k j) = w (ix2 j k) :=
  transpose_apply [1, 0] w _ (ix2 k j) (ix2 j k) (fun a => by
    match a with
    | ⟨0, _⟩ => rfl
    | ⟨1, _⟩ => rfl)

/-- (a) The node probability of row `b` at node `j`: the logistic of the affine form of the row. -/
theorem P_apply (V0 : Val) (b : Fin 131072) (j : Fin 255) :
    P V0 (ix2 b j) = Ideal.logistic (∑ k : Fin 785, Xa (X V0) b k * W V0 (ix2 j k)) := by
  unfold P res_main_v9
  refine (hostDivf_apply _ _ _).trans ?_
  rw [addf_apply, broadcastInDim_scalar_apply, constant_apply, Ideal.ofBits_one_f32]
  unfold Ideal.logistic
  refine congrArg (fun z => Ideal.div 1 (1 + Ideal.exp (-z))) ?_
  rw [dot_eq_plain]
  refine (StackMember.dotGeneral_plain_apply none _ _ b j).trans ?_
  refine Finset.sum_congr rfl fun k _ => ?_
  rw [cat_apply, wT_apply]
  rfl

/-! ## The layout operations of one layer, at any layer width -/

section Layout
variable {α : Type}

/-- [B, n, 2] reshaped to [B, 2n], read at (b, q): row b, pair q / 2, member q mod 2. -/
theorem reshape_pair_apply (n m : ℕ) (hm : m = n * 2) (x : (⟨3, ![131072, n, 2]⟩ : Shape).Idx → α)
    (h : (⟨3, ![131072, n, 2]⟩ : Shape).ShapeCasts ⟨2, ![131072, m]⟩) (b : Fin 131072) (q : Fin m) :
    shapeCast ⟨2, ![131072, m]⟩ x h (ix2 b q)
      = x (ix3 b (⟨q.val / 2, by have := q.isLt; omega⟩ : Fin n) (⟨q.val % 2, Nat.mod_lt _ Nat.two_pos⟩ : Fin 2)) := by
  refine shapeCast_apply x h (ix2 b q) _ ?_
  rw [Shape.rowMajor_val_three, Shape.rowMajor_val_two]
  show (b.val * n + q.val / 2) * 2 + q.val % 2 = b.val * m + q.val
  subst hm
  have := Nat.div_add_mod q.val 2
  rw [Nat.add_mul, Nat.mul_assoc]
  omega

/-- The slice of n consecutive columns from column off of [B, 255, 2], read at (b, i, c). -/
theorem slice_cols_apply (n off : ℕ) (hle : off + n ≤ 255) (x : (⟨3, ![131072, 255, 2]⟩ : Shape).Idx → α)
    (h : (⟨3, ![131072, 255, 2]⟩ : Shape).Slices ![0, off, 0] ⟨3, ![131072, n, 2]⟩) (b : Fin 131072) (i : Fin n) (c : Fin 2) :
    extractStridedSlice ⟨3, ![131072, n, 2]⟩ ![0, off, 0] x h (ix3 b i c)
      = x (ix3 b (⟨off + i.val, by have := i.isLt; omega⟩ : Fin 255) c) :=
  extractStridedSlice_apply ![0, off, 0] x h (ix3 b i c) _ (fun a => by
    match a with
    | ⟨0, _⟩ => show b.val = 0 + b.val; omega
    | ⟨1, _⟩ => rfl
    | ⟨2, _⟩ => show c.val = 0 + c.val; omega)

/-- [B, n] repeated along a new last axis of length 2, read at (b, i, c). -/
theorem repeat_pair_apply (n : ℕ) (x : (⟨2, ![131072, n]⟩ : Shape).Idx → α)
    (h : (⟨2, ![131072, n]⟩ : Shape).BroadcastsInDim ⟨3, ![131072, n, 2]⟩ ![0, 1]) (b : Fin 131072) (i : Fin n) (c : Fin 2) :
    broadcastInDim ⟨3, ![131072, n, 2]⟩ ![0, 1] h x (ix3 b i c) = x (ix2 b i) :=
  broadcastInDim_apply ![0, 1] h x (ix3 b i c) (ix2 b i) (fun a => by
    match a with
    | ⟨0, _⟩ => exact (if_neg (show ¬((131072 : ℕ) = 1) by decide)).symm
    | ⟨1, _⟩ =>
      show i.val = if n = 1 then 0 else i.val
      split
      · have := i.isLt; omega
      · rfl)

end Layout

/-! ## The stack [p, 1 - p] and the table the walk reads -/

/-- The node probabilities as a function of two naturals (0 outside the array). -/
def tab (x : S131072x255.Idx → EReal) (b j : ℕ) : EReal :=
  if h : b < 131072 ∧ j < 255 then x (ValueIdx.ix2 ⟨b, h.1⟩ ⟨j, h.2⟩) else 0

/-- One minus. -/
def osub : EReal → EReal := fun z => 1 - z

theorem tab_apply (x : S131072x255.Idx → EReal) (b : Fin 131072) (j : Fin 255) : tab x b.val j.val = x (ix2 b j) := by
  unfold tab; rw [dif_pos ⟨b.isLt, j.isLt⟩]

/-- [B, 255] with a unit last axis added, read at (b, j, 0). -/
theorem addUnit_apply {α : Type} (x : S131072x255.Idx → α)
    (h : S131072x255.BroadcastsInDim S131072x255x1 ![0, 1]) (b : Fin 131072) (j : Fin 255) (c : Fin 1) :
    broadcastInDim S131072x255x1 ![0, 1] h x (ix3 b j c) = x (ix2 b j) :=
  broadcastInDim_apply ![0, 1] h x (ix3 b j c) (ix2 b j) (fun a => by
    match a with
    | ⟨0, _⟩ => exact (if_neg (show ¬((131072 : ℕ) = 1) by decide)).symm
    | ⟨1, _⟩ => exact (if_neg (show ¬((255 : ℕ) = 1) by decide)).symm)

/-- The stack [p, 1 - p] read at (b, j, c): member 0 is the probability, member 1 its complement. -/
theorem pp_apply (V0 : Val) (b : Fin 131072) (j : Fin 255) (c : Fin 2) :
    (res_main_v14 (F := Ideal) V0 : S131072x255x2.Idx → EReal) (ix3 b j c)
      = if c.val = 0 then P V0 (ix2 b j) else osub (P V0 (ix2 b j)) := by
  unfold res_main_v14
  by_cases hc : c.val = 0
  · rw [if_pos hc]
    refine (concatenate_pair_apply_left (t := S131072x255x2) (s₁ := S131072x255x1) (s₂ := S131072x255x1) (2 : Fin 3) _ _ _
      (ix3 b j c) rfl (ix3 b j (⟨0, Nat.one_pos⟩ : Fin 1)) (fun a => ?_)).trans ?_
    · match a with
      | ⟨0, _⟩ => rfl
      | ⟨1, _⟩ => rfl
      | ⟨2, _⟩ => exact hc.symm
    · exact addUnit_apply _ _ b j _
  · rw [if_neg hc]
    refine (concatenate_pair_apply_right (t := S131072x255x2) (s₁ := S131072x255x1) (s₂ := S131072x255x1) (2 : Fin 3) _ _ _
      (ix3 b j c) rfl rfl (ix3 b j (⟨0, Nat.one_pos⟩ : Fin 1))
      (fun a ha => by
        match a with
        | ⟨0, _⟩ => rfl
        | ⟨1, _⟩ => rfl
        | ⟨2, _⟩ => exact absurd rfl ha)
      (by show 0 + 1 = c.val; have := c.isLt; omega)).trans ?_
    refine (addUnit_apply _ _ b j _).trans ?_
    rw [subf_apply, broadcastInDim_scalar_apply, constant_apply, Ideal.ofBits_one_f32]
    rfl

/-! ## One layer, at any width -/

/-- The layer's slice of the stack, reshaped to [B, 2n], is the reference's step at each position. -/
theorem lp_gen (L n m off : ℕ) (hm : m = n * 2) (hoff : off = 2 ^ L - 1) (hle : off + n ≤ 255) (V0 : Val)
    (hs : (⟨3, ![131072, 255, 2]⟩ : Shape).Slices ![0, off, 0] ⟨3, ![131072, n, 2]⟩)
    (hc : (⟨3, ![131072, n, 2]⟩ : Shape).ShapeCasts ⟨2, ![131072, m]⟩) (b : Fin 131072) (q : Fin m) :
    shapeCast ⟨2, ![131072, m]⟩ (extractStridedSlice ⟨3, ![131072, n, 2]⟩ ![0, off, 0]
        (res_main_v14 (F := Ideal) V0 : S131072x255x2.Idx → EReal) hs) hc (ix2 b q)
      = Cert.Tree.stepR osub (tab (P V0)) L b.val q.val := by
  rw [reshape_pair_apply n m hm, slice_cols_apply n off hle, pp_apply]
  unfold Cert.Tree.stepR
  rw [← hoff]
  have ht := tab_apply (P V0) b (⟨off + q.val / 2, by have := q.isLt; omega⟩ : Fin 255)
  rw [show ((⟨off + q.val / 2, by have := q.isLt; omega⟩ : Fin 255) : ℕ) = off + q.val / 2 from rfl] at ht
  rw [ht]

/-- [B, n] repeated under its two children and reshaped to [B, 2n], read at (b, q): the parent q / 2. -/
theorem mu_layout {α : Type} (n m : ℕ) (hm : m = n * 2) (x : (⟨2, ![131072, n]⟩ : Shape).Idx → α)
    (hb : (⟨2, ![131072, n]⟩ : Shape).BroadcastsInDim ⟨3, ![131072, n, 2]⟩ ![0, 1])
    (hc : (⟨3, ![131072, n, 2]⟩ : Shape).ShapeCasts ⟨2, ![131072, m]⟩) (b : Fin 131072) (q : Fin m) :
    shapeCast ⟨2, ![131072, m]⟩ (broadcastInDim ⟨3, ![131072, n, 2]⟩ ![0, 1] hb x) hc (ix2 b q)
      = x (ix2 b (⟨q.val / 2, by have := q.isLt; omega⟩ : Fin n)) := by
  rw [reshape_pair_apply n m hm, repeat_pair_apply]

/-- The next layer's repeated parent: the product of this layer's repeated parent and step is the walk one layer down. -/
theorem mu_step (L n m : ℕ) (hm : m = n * 2) (T : ℕ → ℕ → EReal) (mu lp : FVec Ideal ⟨2, ![131072, n]⟩ .f32)
    (hmu : ∀ (b : Fin 131072) (q : Fin n), mu (ix2 b q) = Cert.Tree.walkR osub T L b.val (q.val / 2))
    (hlp : ∀ (b : Fin 131072) (q : Fin n), lp (ix2 b q) = Cert.Tree.stepR osub T L b.val q.val)
    (hb : (⟨2, ![131072, n]⟩ : Shape).BroadcastsInDim ⟨3, ![131072, n, 2]⟩ ![0, 1])
    (hc : (⟨3, ![131072, n, 2]⟩ : Shape).ShapeCasts ⟨2, ![131072, m]⟩) (b : Fin 131072) (q : Fin m) :
    shapeCast ⟨2, ![131072, m]⟩ (broadcastInDim ⟨3, ![131072, n, 2]⟩ ![0, 1] hb (mulf mu lp)) hc (ix2 b q)
      = Cert.Tree.walkR osub T (L + 1) b.val (q.val / 2) := by
  rw [mu_layout n m hm, mulf_apply, hmu, hlp]
  rfl

/-- The host's sum over the rows of [B, m] from the zero constant, read at column q. -/
theorem colsum_apply (m : ℕ) (x : FVec Ideal ⟨2, ![131072, m]⟩ .f32)
    (h' : (⟨2, ![131072, m]⟩ : Shape).ReducesTo [0] ⟨1, ![m]⟩) (hu : 0 < S_.numel) (q : Fin m) :
    Host.reduceAdd x (constant (F := Ideal) S_ .f32 0x00000000#32) h' hu (ix1 q) = ∑ b : Fin 131072, x (ix2 b q) := by
  have h : (⟨2, ![131072, m]⟩ : Shape).Reduces [0] ⟨1, ![m]⟩ := ⟨h'.1, Nat.one_pos, h'.2⟩
  refine (hostReduceAdd_apply x _ h' hu (ix1 q)).trans ?_
  rw [Ideal.hostReduceAdd_single h' h, constant_apply, Ideal.ofBits_zero_f32, zero_add]
  refine Finset.sum_congr rfl fun k _ => congrArg x (funext fun a => Fin.ext ?_)
  match a with
  | ⟨0, _⟩ => rfl
  | ⟨1, _⟩ => rfl

/-- The layer's ratio vector at position q: the sum over the rows of step times parent walk, over the sum of the parent walk. -/
theorem alpha_gen (L m : ℕ) (T : ℕ → ℕ → EReal) (lp mu : FVec Ideal ⟨2, ![131072, m]⟩ .f32)
    (hlp : ∀ (b : Fin 131072) (q : Fin m), lp (ix2 b q) = Cert.Tree.stepR osub T L b.val q.val)
    (hmu : ∀ (b : Fin 131072) (q : Fin m), mu (ix2 b q) = Cert.Tree.walkR osub T L b.val (q.val / 2))
    (h' : (⟨2, ![131072, m]⟩ : Shape).ReducesTo [0] ⟨1, ![m]⟩) (hu : 0 < S_.numel) (q : Fin m) :
    Host.divf (Host.reduceAdd (mulf lp mu) (constant (F := Ideal) S_ .f32 0x00000000#32) h' hu)
        (Host.reduceAdd mu (constant (F := Ideal) S_ .f32 0x00000000#32) h' hu) (ix1 q)
      = Ideal.div (∑ b : Fin 131072, Cert.Tree.stepR osub T L b.val q.val * Cert.Tree.walkR osub T L b.val (q.val / 2))
          (∑ b : Fin 131072, Cert.Tree.walkR osub T L b.val (q.val / 2)) := by
  refine (hostDivf_apply _ _ _).trans ?_
  rw [colsum_apply, colsum_apply]
  refine congrArg₂ Ideal.div (Finset.sum_congr rfl fun b _ => ?_) (Finset.sum_congr rfl fun b _ => hmu b q)
  rw [mulf_apply, hlp, hmu]

/-! ## The eight layers

Layer L keeps 2^(L+1) positions per row: its step array (the slice of the stack, reshaped), its repeated parent walk, and its ratio vector. -/

theorem lp0_apply (V0 : Val) (b : Fin 131072) (q : Fin 2) :
    (res_main_v17 (F := Ideal) V0 : S131072x2.Idx → EReal) (ix2 b q) = Cert.Tree.stepR osub (tab (P V0)) 0 b.val q.val := by
  unfold res_main_v17
  exact lp_gen 0 1 2 0 rfl rfl (by decide) V0 _ _ b q

theorem mu0_apply (V0 : Val) (b : Fin 131072) (q : Fin 2) :
    (res_main_v19 (F := Ideal) V0 : S131072x2.Idx → EReal) (ix2 b q) = Cert.Tree.walkR osub (tab (P V0)) 0 b.val (q.val / 2) := by
  unfold res_main_v19
  refine (mu_layout 1 2 rfl _ _ _ b q).trans ?_
  rw [broadcastInDim_scalar_apply, constant_apply, Ideal.ofBits_one_f32]
  rfl

theorem alpha0_apply (V0 : Val) (q : Fin 2) :
    (res_main_v23 (F := Ideal) V0 : S2.Idx → EReal) (ix1 q)
      = Ideal.div (∑ b : Fin 131072, Cert.Tree.stepR osub (tab (P V0)) 0 b.val q.val * Cert.Tree.walkR osub (tab (P V0)) 0 b.val (q.val / 2))
          (∑ b : Fin 131072, Cert.Tree.walkR osub (tab (P V0)) 0 b.val (q.val / 2)) := by
  unfold res_main_v23
  exact alpha_gen 0 2 _ _ _ (lp0_apply V0) (mu0_apply V0) _ _ q

theorem lp1_apply (V0 : Val) (b : Fin 131072) (q : Fin 4) :
    (res_main_v34 (F := Ideal) V0 : S131072x4.Idx → EReal) (ix2 b q) = Cert.Tree.stepR osub (tab (P V0)) 1 b.val q.val := by
  unfold res_main_v34
  exact lp_gen 1 2 4 1 rfl rfl (by decide) V0 _ _ b q

theorem mu1_apply (V0 : Val) (b : Fin 131072) (q : Fin 4) :
    (res_main_v36 (F := Ideal) V0 : S131072x4.Idx → EReal) (ix2 b q) = Cert.Tree.walkR osub (tab (P V0)) 1 b.val (q.val / 2) := by
  unfold res_main_v36
  exact mu_step 0 2 4 rfl _ _ _ (mu0_apply V0) (lp0_apply V0) _ _ b q

theorem alpha1_apply (V0 : Val) (q : Fin 4) :
    (res_main_v40 (F := Ideal) V0 : S4.Idx → EReal) (ix1 q)
      = Ideal.div (∑ b : Fin 131072, Cert.Tree.stepR osub (tab (P V0)) 1 b.val q.val * Cert.Tree.walkR osub (tab (P V0)) 1 b.val (q.val / 2))
          (∑ b : Fin 131072, Cert.Tree.walkR osub (tab (P V0)) 1 b.val (q.val / 2)) := by
  unfold res_main_v40
  exact alpha_gen 1 4 _ _ _ (lp1_apply V0) (mu1_apply V0) _ _ q

theorem lp2_apply (V0 : Val) (b : Fin 131072) (q : Fin 8) :
    (res_main_v51 (F := Ideal) V0 : S131072x8.Idx → EReal) (ix2 b q) = Cert.Tree.stepR osub (tab (P V0)) 2 b.val q.val := by
  unfold res_main_v51
  exact lp_gen 2 4 8 3 rfl rfl (by decide) V0 _ _ b q

theorem mu2_apply (V0 : Val) (b : Fin 131072) (q : Fin 8) :
    (res_main_v53 (F := Ideal) V0 : S131072x8.Idx → EReal) (ix2 b q) = Cert.Tree.walkR osub (tab (P V0)) 2 b.val (q.val / 2) := by
  unfold res_main_v53
  exact mu_step 1 4 8 rfl _ _ _ (mu1_apply V0) (lp1_apply V0) _ _ b q

theorem alpha2_apply (V0 : Val) (q : Fin 8) :
    (res_main_v57 (F := Ideal) V0 : S8.Idx → EReal) (ix1 q)
      = Ideal.div (∑ b : Fin 131072, Cert.Tree.stepR osub (tab (P V0)) 2 b.val q.val * Cert.Tree.walkR osub (tab (P V0)) 2 b.val (q.val / 2))
          (∑ b : Fin 131072, Cert.Tree.walkR osub (tab (P V0)) 2 b.val (q.val / 2)) := by
  unfold res_main_v57
  exact alpha_gen 2 8 _ _ _ (lp2_apply V0) (mu2_apply V0) _ _ q

theorem lp3_apply (V0 : Val) (b : Fin 131072) (q : Fin 16) :
    (res_main_v68 (F := Ideal) V0 : S131072x16.Idx → EReal) (ix2 b q) = Cert.Tree.stepR osub (tab (P V0)) 3 b.val q.val := by
  unfold res_main_v68
  exact lp_gen 3 8 16 7 rfl rfl (by decide) V0 _ _ b q

theorem mu3_apply (V0 : Val) (b : Fin 131072) (q : Fin 16) :
    (res_main_v70 (F := Ideal) V0 : S131072x16.Idx → EReal) (ix2 b q) = Cert.Tree.walkR osub (tab (P V0)) 3 b.val (q.val / 2) := by
  unfold res_main_v70
  exact mu_step 2 8 16 rfl _ _ _ (mu2_apply V0) (lp2_apply V0) _ _ b q

theorem alpha3_apply (V0 : Val) (q : Fin 16) :
    (res_main_v74 (F := Ideal) V0 : S16.Idx → EReal) (ix1 q)
      = Ideal.div (∑ b : Fin 131072, Cert.Tree.stepR osub (tab (P V0)) 3 b.val q.val * Cert.Tree.walkR osub (tab (P V0)) 3 b.val (q.val / 2))
          (∑ b : Fin 131072, Cert.Tree.walkR osub (tab (P V0)) 3 b.val (q.val / 2)) := by
  unfold res_main_v74
  exact alpha_gen 3 16 _ _ _ (lp3_apply V0) (mu3_apply V0) _ _ q

theorem lp4_apply (V0 : Val) (b : Fin 131072) (q : Fin 32) :
    (res_main_v85 (F := Ideal) V0 : S131072x32.Idx → EReal) (ix2 b q) = Cert.Tree.stepR osub (tab (P V0)) 4 b.val q.val := by
  unfold res_main_v85
  exact lp_gen 4 16 32 15 rfl rfl (by decide) V0 _ _ b q

theorem mu4_apply (V0 : Val) (b : Fin 131072) (q : Fin 32) :
    (res_main_v87 (F := Ideal) V0 : S131072x32.Idx → EReal) (ix2 b q) = Cert.Tree.walkR osub (tab (P V0)) 4 b.val (q.val / 2) := by
  unfold res_main_v87
  exact mu_step 3 16 32 rfl _ _ _ (mu3_apply V0) (lp3_apply V0) _ _ b q

theorem alpha4_apply (V0 : Val) (q : Fin 32) :
    (res_main_v91 (F := Ideal) V0 : S32.Idx → EReal) (ix1 q)
      = Ideal.div (∑ b : Fin 131072, Cert.Tree.stepR osub (tab (P V0)) 4 b.val q.val * Cert.Tree.walkR osub (tab (P V0)) 4 b.val (q.val / 2))
          (∑ b : Fin 131072, Cert.Tree.walkR osub (tab (P V0)) 4 b.val (q.val / 2)) := by
  unfold res_main_v91
  exact alpha_gen 4 32 _ _ _ (lp4_apply V0) (mu4_apply V0) _ _ q

theorem lp5_apply (V0 : Val) (b : Fin 131072) (q : Fin 64) :
    (res_main_v102 (F := Ideal) V0 : S131072x64.Idx → EReal) (ix2 b q) = Cert.Tree.stepR osub (tab (P V0)) 5 b.val q.val := by
  unfold res_main_v102
  exact lp_gen 5 32 64 31 rfl rfl (by decide) V0 _ _ b q

theorem mu5_apply (V0 : Val) (b : Fin 131072) (q : Fin 64) :
    (res_main_v104 (F := Ideal) V0 : S131072x64.Idx → EReal) (ix2 b q) = Cert.Tree.walkR osub (tab (P V0)) 5 b.val (q.val / 2) := by
  unfold res_main_v104
  exact mu_step 4 32 64 rfl _ _ _ (mu4_apply V0) (lp4_apply V0) _ _ b q

theorem alpha5_apply (V0 : Val) (q : Fin 64) :
    (res_main_v108 (F := Ideal) V0 : S64.Idx → EReal) (ix1 q)
      = Ideal.div (∑ b : Fin 131072, Cert.Tree.stepR osub (tab (P V0)) 5 b.val q.val * Cert.Tree.walkR osub (tab (P V0)) 5 b.val (q.val / 2))
          (∑ b : Fin 131072, Cert.Tree.walkR osub (tab (P V0)) 5 b.val (q.val / 2)) := by
  unfold res_main_v108
  exact alpha_gen 5 64 _ _ _ (lp5_apply V0) (mu5_apply V0) _ _ q

theorem lp6_apply (V0 : Val) (b : Fin 131072) (q : Fin 128) :
    (res_main_v119 (F := Ideal) V0 : S131072x128.Idx → EReal) (ix2 b q) = Cert.Tree.stepR osub (tab (P V0)) 6 b.val q.val := by
  unfold res_main_v119
  exact lp_gen 6 64 128 63 rfl rfl (by decide) V0 _ _ b q

theorem mu6_apply (V0 : Val) (b : Fin 131072) (q : Fin 128) :
    (res_main_v121 (F := Ideal) V0 : S131072x128.Idx → EReal) (ix2 b q) = Cert.Tree.walkR osub (tab (P V0)) 6 b.val (q.val / 2) := by
  unfold res_main_v121
  exact mu_step 5 64 128 rfl _ _ _ (mu5_apply V0) (lp5_apply V0) _ _ b q

theorem alpha6_apply (V0 : Val) (q : Fin 128) :
    (res_main_v125 (F := Ideal) V0 : S128.Idx → EReal) (ix1 q)
      = Ideal.div (∑ b : Fin 131072, Cert.Tree.stepR osub (tab (P V0)) 6 b.val q.val * Cert.Tree.walkR osub (tab (P V0)) 6 b.val (q.val / 2))
          (∑ b : Fin 131072, Cert.Tree.walkR osub (tab (P V0)) 6 b.val (q.val / 2)) := by
  unfold res_main_v125
  exact alpha_gen 6 128 _ _ _ (lp6_apply V0) (mu6_apply V0) _ _ q

theorem lp7_apply (V0 : Val) (b : Fin 131072) (q : Fin 256) :
    (res_main_v136 (F := Ideal) V0 : S131072x256.Idx → EReal) (ix2 b q) = Cert.Tree.stepR osub (tab (P V0)) 7 b.val q.val := by
  unfold res_main_v136
  exact lp_gen 7 128 256 127 rfl rfl (by decide) V0 _ _ b q

theorem mu7_apply (V0 : Val) (b : Fin 131072) (q : Fin 256) :
    (res_main_v138 (F := Ideal) V0 : S131072x256.Idx → EReal) (ix2 b q) = Cert.Tree.walkR osub (tab (P V0)) 7 b.val (q.val / 2) := by
  unfold res_main_v138
  exact mu_step 6 128 256 rfl _ _ _ (mu6_apply V0) (lp6_apply V0) _ _ b q

theorem alpha7_apply (V0 : Val) (q : Fin 256) :
    (res_main_v142 (F := Ideal) V0 : S256.Idx → EReal) (ix1 q)
      = Ideal.div (∑ b : Fin 131072, Cert.Tree.stepR osub (tab (P V0)) 7 b.val q.val * Cert.Tree.walkR osub (tab (P V0)) 7 b.val (q.val / 2))
          (∑ b : Fin 131072, Cert.Tree.walkR osub (tab (P V0)) 7 b.val (q.val / 2)) := by
  unfold res_main_v142
  exact alpha_gen 7 256 _ _ _ (lp7_apply V0) (mu7_apply V0) _ _ q

/-- (d) The leaf path probabilities: the last layer's repeated parent times its step is the walk to depth 8. -/
theorem leaf_apply (V0 : Val) (b : Fin 131072) (q : Fin 256) :
    (mulf (res_main_v138 (F := Ideal) V0) (res_main_v136 (F := Ideal) V0) : FVec Ideal S131072x256 .f32) (ix2 b q)
      = Cert.Tree.walkR osub (tab (P V0)) 8 b.val q.val := by
  rw [mulf_apply, mu7_apply, lp7_apply]
  rfl

end Cert.ReferenceIdeal.RefRead
end
-- ==== Proof.RefOut.lean ====
/-
  The reference's two outputs read against the tree walk.  The scores are the leaf path probabilities, the walk to
  depth 8 in the reference's interleaved order, times the leaf weights; the penalty is the chain of eight layer terms,
  each a coefficient times the sum over the layer's positions of log α + log (1 - α), subtracted in turn from zero.
-/
import proofs.«148994_j9070970929349_2_alg».proof.Proof.RefRead
import proofs.«148994_j9070970929349_2_alg».proof.Proof.HostTail

noncomputable section

namespace Cert.ReferenceIdeal.RefOut

open Cert.ReferenceIdeal Cert.ReferenceIdeal.Gen Cert.ReferenceIdeal.Value Cert.ReferenceIdeal.RefRead
open Idealize.ShloMosaic Idealize.ShloMosaic.ValueIdx
open scoped BigOperators

theorem dotY_eq_plain : dot_S131072x256_S256x10_S131072x10_1_0_0_1_n_n = DotDims.plain 131072 256 10 := rfl

/-- The transposed leaf weights read at (q, o). -/
theorem leafT_apply (w : S10x256.Idx → EReal) (q : Fin 256) (o : Fin 10) :
    transpose S256x10 [1, 0] w transposes_S10x256_S256x10_1_0 (ix2 q o) = w (ix2 o q) :=
  transpose_apply [1, 0] w _ (ix2 q o) (ix2 o q) (fun a => by
    match a with
    | ⟨0, _⟩ => rfl
    | ⟨1, _⟩ => rfl)

/-- The reference's scores: row `b`'s leaf path probabilities times the leaf weights of output `o`. -/
theorem refY_apply (V0 : Val) (b : Fin 131072) (o : Fin 10) :
    (Host.dotGeneral (F := Ideal) (φ₁ := .f32) (φ₂ := .f32) dot_S131072x256_S256x10_S131072x10_1_0_0_1_n_n none
        (mulf (res_main_v138 (F := Ideal) V0) (res_main_v136 (F := Ideal) V0) : FVec Ideal S131072x256 .f32)
        (transpose S256x10 [1, 0] (V0 (Proc.devRef .tc main_arg2) : S10x256.Idx → EReal) transposes_S10x256_S256x10_1_0) : FVec Ideal S131072x10 .f32)
        (ix2 b o)
      = ∑ q : Fin 256, Cert.Tree.walkR osub (tab (P V0)) 8 b.val q.val
          * (V0 (Proc.devRef .tc main_arg2) : S10x256.Idx → EReal) (ix2 o q) := by
  rw [dotY_eq_plain]
  refine (StackMember.dotGeneral_plain_apply none _ _ b o).trans ?_
  refine Finset.sum_congr rfl fun q _ => ?_
  rw [leaf_apply, leafT_apply]

/-- The reference's penalty is the chain the kernel's tail applies, at the reference's eight ratio vectors. -/
theorem refPen_eq (V0 : Val) :
    (subf (subf (subf (subf (subf (subf (subf (subf (constant (F := Ideal) S_ .f32 0x00000000#32) (mulf (constant (F := Ideal) S_ .f32 0x3A03126F#32) (Host.reduceAdd (F := Ideal) (addf (Host.log ((res_main_v23 (F := Ideal) V0 : FVec Ideal S2 .f32))) (Host.log (subf (broadcastInDim S2 ![] bcast_S_S2 (constant (F := Ideal) S_ .f32 0x3F800000#32)) ((res_main_v23 (F := Ideal) V0 : FVec Ideal S2 .f32))))) (constant (F := Ideal) S_ .f32 0x00000000#32) reducesTo_S2_S_d0 h_S_))) (mulf (constant (F := Ideal) S_ .f32 0x3983126F#32) (Host.reduceAdd (F := Ideal) (addf (Host.log ((res_main_v40 (F := Ideal) V0 : FVec Ideal S4 .f32))) (Host.log (subf (broadcastInDim S4 ![] bcast_S_S4 (constant (F := Ideal) S_ .f32 0x3F800000#32)) ((res_main_v40 (F := Ideal) V0 : FVec Ideal S4 .f32))))) (constant (F := Ideal) S_ .f32 0x00000000#32) reducesTo_S4_S_d0 h_S_))) (mulf (constant (F := Ideal) S_ .f32 0x3903126F#32) (Host.reduceAdd (F := Ideal) (addf (Host.log ((res_main_v57 (F := Ideal) V0 : FVec Ideal S8 .f32))) (Host.log (subf (broadcastInDim S8 ![] bcast_S_S8 (constant (F := Ideal) S_ .f32 0x3F800000#32)) ((res_main_v57 (F := Ideal) V0 : FVec Ideal S8 .f32))))) (constant (F := Ideal) S_ .f32 0x00000000#32) reducesTo_S8_S_d0 h_S_))) (mulf (constant (F := Ideal) S_ .f32 0x3883126F#32) (Host.reduceAdd (F := Ideal) (addf (Host.log ((res_main_v74 (F := Ideal) V0 : FVec Ideal S16 .f32))) (Host.log (subf (broadcastInDim S16 ![] bcast_S_S16 (constant (F := Ideal) S_ .f32 0x3F800000#32)) ((res_main_v74 (F := Ideal) V0 : FVec Ideal S16 .f32))))) (constant (F := Ideal) S_ .f32 0x00000000#32) reducesTo_S16_S_d0 h_S_))) (mulf (constant (F := Ideal) S_ .f32 0x3803126F#32) (Host.reduceAdd (F := Ideal) (addf (Host.log ((res_main_v91 (F := Ideal) V0 : FVec Ideal S32 .f32))) (Host.log (subf (broadcastInDim S32 ![] bcast_S_S32 (constant (F := Ideal) S_ .f32 0x3F800000#32)) ((res_main_v91 (F := Ideal) V0 : FVec Ideal S32 .f32))))) (constant (F := Ideal) S_ .f32 0x00000000#32) reducesTo_S32_S_d0 h_S_))) (mulf (constant (F := Ideal) S_ .f32 0x3783126F#32) (Host.reduceAdd (F := Ideal) (addf (Host.log ((res_main_v108 (F := Ideal) V0 : FVec Ideal S64 .f32))) (Host.log (subf (broadcastInDim S64 ![] bcast_S_S64 (constant (F := Ideal) S_ .f32 0x3F800000#32)) ((res_main_v108 (F := Ideal) V0 : FVec Ideal S64 .f32))))) (constant (F := Ideal) S_ .f32 0x00000000#32) reducesTo_S64_S_d0 h_S_))) (mulf (constant (F := Ideal) S_ .f32 0x3703126F#32) (Host.reduceAdd (F := Ideal) (addf (Host.log ((res_main_v125 (F := Ideal) V0 : FVec Ideal S128 .f32))) (Host.log (subf (broadcastInDim S128 ![] bcast_S_S128 (constant (F := Ideal) S_ .f32 0x3F800000#32)) ((res_main_v125 (F := Ideal) V0 : FVec Ideal S128 .f32))))) (constant (F := Ideal) S_ .f32 0x00000000#32) reducesTo_S128_S_d0 h_S_))) (mulf (constant (F := Ideal) S_ .f32 0x3683126F#32) (Host.reduceAdd (F := Ideal) (addf (Host.log ((res_main_v142 (F := Ideal) V0 : FVec Ideal S256 .f32))) (Host.log (subf (broadcastInDim S256 ![] bcast_S_S256 (constant (F := Ideal) S_ .f32 0x3F800000#32)) ((res_main_v142 (F := Ideal) V0 : FVec Ideal S256 .f32))))) (constant (F := Ideal) S_ .f32 0x00000000#32) reducesTo_S256_S_d0 h_S_)) : FVec Ideal S_ .f32)
      = Cert.KernelIdeal.Tail.pen (res_main_v23 (F := Ideal) V0) (res_main_v40 (F := Ideal) V0) (res_main_v57 (F := Ideal) V0)
          (res_main_v74 (F := Ideal) V0) (res_main_v91 (F := Ideal) V0) (res_main_v108 (F := Ideal) V0)
          (res_main_v125 (F := Ideal) V0) (res_main_v142 (F := Ideal) V0) :=
  rfl

end Cert.ReferenceIdeal.RefOut

end
-- ==== Proof.TileMath.lean ====
/-
  The tile's arithmetic read at an index.  For arbitrary input blocks (a tile of rows, the permuted weights, the bias
  row, the leaf weights) the values the body computes are, entry by entry: the node probabilities, a logistic of an
  inner product plus a bias; per layer L the pair [left | right] of step probabilities, which is the blocked walk's
  `stepK` over the table of node probabilities, and the pair [parent | parent] of path probabilities, which is the
  blocked walk's `walkK` at the slot's parent; the two statistics of each layer, the accumulator plus a sum over the
  tile's rows; and the score block, the leaf path probabilities times the leaf weights.
-/
import proofs.«148994_j9070970929349_2_alg».proof.Proof.TileTerms
import proofs.«148994_j9070970929349_2_alg».proof.Proof.TreeWalk
import Idealize.ShloMosaic.Lib.ValueLayout
import Idealize.ShloMosaic.PureOps.Ideal.Laws

noncomputable section

namespace Cert.KernelIdeal.TileMath

open Cert.KernelIdeal Cert.KernelIdeal.Gen Idealize.ShloMosaic Idealize.ShloMosaic.ValueIdx

/-- A tile's table of node probabilities as a function of a row number and a slot number (zero outside the tile). -/
def tabT (x : S2048x256.Idx → EReal) (r j : ℕ) : EReal :=
  if h : r < 2048 ∧ j < 256 then x (ix2 ⟨r, h.1⟩ ⟨j, h.2⟩) else 0

/-- "One minus", the probability of the right child. -/
def osub : EReal → EReal := fun z => 1 - z

theorem tabT_of_lt (x : S2048x256.Idx → EReal) (r : Fin 2048) (j : ℕ) (hj : j < 256) :
    tabT x r.val j = x (ix2 r ⟨j, hj⟩) := by
  unfold tabT
  rw [dif_pos ⟨r.isLt, hj⟩]

/-- The pattern of the constant one is the extended real one. -/
theorem one_eq : (Scalar.ofBits .f32 0x3F800000#32 : Ideal .f32) = 1 := IdealRules.sign_bit.ideal_onePat .f32

/-! ## The node probabilities -/

theorem prob_apply (x0 : Vec Ideal S2048x784 .f32) (x1 : Vec Ideal S784x256 .f32) (x2 : Vec Ideal S1x256 .f32)
    (r : Fin 2048) (j : Fin 256) :
    Tile.prob (F := Ideal) x0 x1 x2 (ix2 r j)
      = Ideal.logistic ((∑ k : Fin 784, x0 (ix2 r k) * x1 (ix2 k j)) + x2 (ix2 (0 : Fin 1) j)) := by
  have hm := Ideal.matmul_constant_zero_apply (φ₁ := .f32) (φ₂ := .f32) dot_S2048x784_S784x256_S2048x256_1_0_0_1_n_n (some .fp32) x0
    (shapeCast S784x256 x1 shapeCasts_S784x256_S784x256) (ix2 r j)
  have hb := broadcastTo_1b_ab_apply x2 broadcasts_S1x256_S2048x256 r j
  show Ideal.logistic (FloatOps.matmul (F := Ideal) (φ₁ := .f32) (φ₂ := .f32) dot_S2048x784_S784x256_S2048x256_1_0_0_1_n_n (some .fp32) x0
      (shapeCast S784x256 x1 shapeCasts_S784x256_S784x256) (constant S2048x256 .f32 0x00000000#32) (ix2 r j)
      + broadcastTo S2048x256 (shapeCast S1x256 x2 shapeCasts_S1x256_S1x256) broadcasts_S1x256_S2048x256 (ix2 r j)) = _
  rw [hm, shapeCast_self, shapeCast_self, hb]
  refine congrArg (fun s => Ideal.logistic (s + x2 (ix2 (0 : Fin 1) j))) ?_
  refine Fintype.sum_equiv (contrEquiv1 dot_S2048x784_S784x256_S2048x256_1_0_0_1_n_n 784 rfl rfl) _ _ (fun k => ?_)
  have hl : dot_S2048x784_S784x256_S2048x256_1_0_0_1_n_n.lhsIdx (ix2 r j) k
      = ix2 r (contrEquiv1 dot_S2048x784_S784x256_S2048x256_1_0_0_1_n_n 784 rfl rfl k) := by
    funext a
    match a with
    | ⟨0, _⟩ => rfl
    | ⟨1, _⟩ => rfl
  have hr : dot_S2048x784_S784x256_S2048x256_1_0_0_1_n_n.rhsIdx (ix2 r j) k
      = ix2 (contrEquiv1 dot_S2048x784_S784x256_S2048x256_1_0_0_1_n_n 784 rfl rfl k) j := by
    funext a
    match a with
    | ⟨0, _⟩ => rfl
    | ⟨1, _⟩ => rfl
  rw [hl, hr]

/-! ## The layout and arithmetic steps of one layer, at any width -/

section Generic

variable {α : Type}

/-- Two arrays of `m` columns side by side: a column below `m` reads the first at that column. -/
theorem cat_left {n m m2 : ℕ} (x₁ x₂ : (⟨2, ![n, m]⟩ : Shape).Idx → α)
    (h : Shape.Concatenates [(⟨2, ![n, m]⟩ : Shape), ⟨2, ![n, m]⟩] ⟨2, ![n, m2]⟩ 1) (r : Fin n) (q : Fin m2)
    (hq : q.val < m) :
    concatenate ⟨2, ![n, m2]⟩ 1 [⟨⟨2, ![n, m]⟩, x₁⟩, ⟨⟨2, ![n, m]⟩, x₂⟩] h (ix2 r q) = x₁ (ix2 r ⟨q.val, hq⟩) :=
  concatenate_pair_apply_left 1 x₁ x₂ h _ rfl _ (fun b => by
    match b with
    | ⟨0, _⟩ => rfl
    | ⟨1, _⟩ => rfl)

/-- … and a column from `m` on reads the second, `m` columns to the left. -/
theorem cat_right {n m m2 : ℕ} (x₁ x₂ : (⟨2, ![n, m]⟩ : Shape).Idx → α)
    (h : Shape.Concatenates [(⟨2, ![n, m]⟩ : Shape), ⟨2, ![n, m]⟩] ⟨2, ![n, m2]⟩ 1) (r : Fin n) (q : Fin m2)
    (hq : m ≤ q.val) (hq' : q.val - m < m) :
    concatenate ⟨2, ![n, m2]⟩ 1 [⟨⟨2, ![n, m]⟩, x₁⟩, ⟨⟨2, ![n, m]⟩, x₂⟩] h (ix2 r q) = x₂ (ix2 r ⟨q.val - m, hq'⟩) :=
  concatenate_pair_apply_right 1 x₁ x₂ h _ rfl rfl _
    (fun b hb => by
      match b with
      | ⟨0, _⟩ => rfl
      | ⟨1, _⟩ => exact absurd rfl hb)
    (by show q.val - m + m = q.val; omega)

/-- The step pair of layer `L`: the `2 ^ L` probabilities from slot `2 ^ L - 1` on, then one minus each of them. -/
theorem step_gen {m m2 : ℕ} (L o : ℕ) (P : S2048x256.Idx → EReal) (c : EReal) (hc : c = 1)
    (hs : S2048x256.Slices ![0, o] ⟨2, ![2048, m]⟩)
    (hcat : Shape.Concatenates [(⟨2, ![2048, m]⟩ : Shape), ⟨2, ![2048, m]⟩] ⟨2, ![2048, m2]⟩ 1)
    (hm : m = 2 ^ L) (ho : o = 2 ^ L - 1) (hm2 : m2 = 2 * m) (r : Fin 2048) (q : Fin m2) :
    concatenate ⟨2, ![2048, m2]⟩ 1
        [⟨⟨2, ![2048, m]⟩, extractStridedSlice ⟨2, ![2048, m]⟩ ![0, o] P hs⟩,
         ⟨⟨2, ![2048, m]⟩, subf (F := Ideal) (φ := .f32) (broadcast ⟨2, ![2048, m]⟩ c)
            (extractStridedSlice ⟨2, ![2048, m]⟩ ![0, o] P hs)⟩] hcat (ix2 r q)
      = Cert.Tree.stepK osub (tabT P) L r.val q.val := by
  subst hm ho hm2 hc
  have hb : 2 ^ L - 1 + 2 ^ L ≤ 256 := hs.2 1
  have hqlt := q.isLt
  unfold Cert.Tree.stepK
  by_cases hq : q.val < 2 ^ L
  · rw [cat_left _ _ hcat r q hq, if_pos hq, slice2_axis1_eq (2 ^ L - 1) P hs r ⟨q.val, hq⟩,
      tabT_of_lt P r (2 ^ L - 1 + q.val) (by omega)]
  · have hq' : q.val - 2 ^ L < 2 ^ L := by omega
    rw [cat_right _ _ hcat r q (by omega) hq', if_neg hq]
    show (1 : EReal) - extractStridedSlice ⟨2, ![2048, 2 ^ L]⟩ ![0, 2 ^ L - 1] P hs (ix2 r ⟨q.val - 2 ^ L, hq'⟩) = _
    rw [slice2_axis1_eq (2 ^ L - 1) P hs r ⟨q.val - 2 ^ L, hq'⟩,
      tabT_of_lt P r (2 ^ L - 1 + (q.val - 2 ^ L)) (by omega)]
    rfl

/-- The parent pair of layer `0`: ones. -/
theorem par_zero_gen {m2 : ℕ} (pk : ℕ → ℕ → EReal) (c : EReal) (hc : c = 1)
    (hcat : Shape.Concatenates [(⟨2, ![2048, 1]⟩ : Shape), ⟨2, ![2048, 1]⟩] ⟨2, ![2048, m2]⟩ 1)
    (hm2 : m2 = 2) (r : Fin 2048) (q : Fin m2) :
    concatenate ⟨2, ![2048, m2]⟩ 1
        [⟨⟨2, ![2048, 1]⟩, broadcast ⟨2, ![2048, 1]⟩ c⟩, ⟨⟨2, ![2048, 1]⟩, broadcast ⟨2, ![2048, 1]⟩ c⟩] hcat (ix2 r q)
      = Cert.Tree.walkK osub pk 0 r.val (q.val % 2 ^ 0) := by
  subst hm2 hc
  have hqlt := q.isLt
  by_cases hq : q.val < 1
  · rw [cat_left _ _ hcat r q hq]; rfl
  · rw [cat_right _ _ hcat r q (by omega) (by omega)]; rfl

/-- The path probabilities of layer `L + 1`: the parent's times the step's. -/
theorem path_gen {m : ℕ} (L : ℕ) (pk : ℕ → ℕ → EReal) (A B : FVec Ideal ⟨2, ![2048, m]⟩ .f32)
    (hA : ∀ (r : Fin 2048) (q : Fin m), A (ix2 r q) = Cert.Tree.walkK osub pk L r.val (q.val % 2 ^ L))
    (hB : ∀ (r : Fin 2048) (q : Fin m), B (ix2 r q) = Cert.Tree.stepK osub pk L r.val q.val)
    (r : Fin 2048) (q : Fin m) :
    mulf A B (ix2 r q) = Cert.Tree.walkK osub pk (L + 1) r.val q.val := by
  show A (ix2 r q) * B (ix2 r q) = _
  rw [hA, hB, Cert.Tree.walkK]

/-- The parent pair of layer `L + 1`: the path probabilities of its `2 ^ (L + 1)` nodes, twice. -/
theorem par_gen {m m2 : ℕ} (L : ℕ) (pk : ℕ → ℕ → EReal) (A B : FVec Ideal ⟨2, ![2048, m]⟩ .f32)
    (hcat : Shape.Concatenates [(⟨2, ![2048, m]⟩ : Shape), ⟨2, ![2048, m]⟩] ⟨2, ![2048, m2]⟩ 1)
    (hm : m = 2 ^ (L + 1)) (hm2 : m2 = 2 * m)
    (hA : ∀ (r : Fin 2048) (q : Fin m), A (ix2 r q) = Cert.Tree.walkK osub pk L r.val (q.val % 2 ^ L))
    (hB : ∀ (r : Fin 2048) (q : Fin m), B (ix2 r q) = Cert.Tree.stepK osub pk L r.val q.val)
    (r : Fin 2048) (q : Fin m2) :
    concatenate ⟨2, ![2048, m2]⟩ 1 [⟨⟨2, ![2048, m]⟩, mulf A B⟩, ⟨⟨2, ![2048, m]⟩, mulf A B⟩] hcat (ix2 r q)
      = Cert.Tree.walkK osub pk (L + 1) r.val (q.val % 2 ^ (L + 1)) := by
  subst hm hm2
  have hqlt := q.isLt
  by_cases hq : q.val < 2 ^ (L + 1)
  · rw [cat_left _ _ hcat r q hq, path_gen L pk A B hA hB, Nat.mod_eq_of_lt hq]
  · have hq' : q.val - 2 ^ (L + 1) < 2 ^ (L + 1) := by omega
    rw [cat_right _ _ hcat r q (by omega) hq', path_gen L pk A B hA hB,
      Nat.mod_eq_sub_mod (a := q.val) (b := 2 ^ (L + 1)) (by omega), Nat.mod_eq_of_lt hq']

/-- A three-axis index with two leading unit axes sits at the row-major position of its last coordinate. -/
theorem rowMajor_11m {m : ℕ} (q : Fin m) :
    ((⟨3, ![1, 1, m]⟩ : Shape).rowMajor (ix3 (0 : Fin 1) (0 : Fin 1) q)).val
      = ((⟨1, ![m]⟩ : Shape).rowMajor (ix1 q)).val := by
  rw [Shape.rowMajor_val_three, Shape.rowMajor_val_one]
  show (0 * 1 + 0) * m + q.val = q.val
  omega

/-- A statistic's new value: what the accumulator held plus, lane by lane, the sum over the tile's rows. -/
theorem stat_gen {m : ℕ} (src : FVec Ideal ⟨2, ![2048, m]⟩ .f32) (prev : Vec Ideal ⟨3, ![1, 1, m]⟩ .f32)
    (hred : (⟨2, ![2048, m]⟩ : Shape).Reduces [0] ⟨1, ![m]⟩) (hφ : FKind.Formats .f32)
    (hacc : (0x00000000#32 : BitVec 32) = FKind.add.neutral .f32 hφ)
    (h1 : (⟨3, ![1, 1, m]⟩ : Shape).ShapeCasts ⟨1, ![m]⟩) (h2 : (⟨1, ![m]⟩ : Shape).ShapeCasts ⟨3, ![1, 1, m]⟩)
    (q : Fin m) :
    shapeCast ⟨3, ![1, 1, m]⟩ (addf (F := Ideal) (φ := .f32) (shapeCast ⟨1, ![m]⟩ prev h1)
        (multiReduction .add [0] ⟨1, ![m]⟩ src 0x00000000#32 hred hφ hacc)) h2 (ix3 (0 : Fin 1) (0 : Fin 1) q)
      = prev (ix3 (0 : Fin 1) (0 : Fin 1) q) + ∑ k : Fin 2048, src (ix2 k q) := by
  refine (shapeCast_apply _ h2 (ix3 (0 : Fin 1) (0 : Fin 1) q) (ix1 q) (rowMajor_11m q).symm).trans ?_
  show shapeCast ⟨1, ![m]⟩ prev h1 (ix1 q) + multiReduction .add [0] ⟨1, ![m]⟩ src 0x00000000#32 hred hφ hacc (ix1 q) = _
  rw [shapeCast_apply prev h1 (ix1 q) (ix3 (0 : Fin 1) (0 : Fin 1) q) (rowMajor_11m q),
    Ideal.multiReduction_add_single src _ hred hφ hacc (ix1 q)]
  refine congrArg (fun s => prev (ix3 (0 : Fin 1) (0 : Fin 1) q) + s) ?_
  show ∑ k : Fin 2048, src (hred.lift (ix1 q) k) = ∑ k : Fin 2048, src (ix2 k q)
  refine Finset.sum_congr rfl (fun k _ => congrArg src ?_)
  funext a
  match a with
  | ⟨0, _⟩ => exact Fin.ext rfl
  | ⟨1, _⟩ => exact Fin.ext rfl

/-- The first statistic of layer `L`: the accumulator plus the sum over the rows of step times parent. -/
theorem slp_gen {m : ℕ} (L : ℕ) (pk : ℕ → ℕ → EReal) (A B : FVec Ideal ⟨2, ![2048, m]⟩ .f32)
    (prev : Vec Ideal ⟨3, ![1, 1, m]⟩ .f32)
    (hred : (⟨2, ![2048, m]⟩ : Shape).Reduces [0] ⟨1, ![m]⟩) (hφ : FKind.Formats .f32)
    (hacc : (0x00000000#32 : BitVec 32) = FKind.add.neutral .f32 hφ)
    (h1 : (⟨3, ![1, 1, m]⟩ : Shape).ShapeCasts ⟨1, ![m]⟩) (h2 : (⟨1, ![m]⟩ : Shape).ShapeCasts ⟨3, ![1, 1, m]⟩)
    (hA : ∀ (r : Fin 2048) (q : Fin m), A (ix2 r q) = Cert.Tree.stepK osub pk L r.val q.val)
    (hB : ∀ (r : Fin 2048) (q : Fin m), B (ix2 r q) = Cert.Tree.walkK osub pk L r.val (q.val % 2 ^ L))
    (q : Fin m) :
    shapeCast ⟨3, ![1, 1, m]⟩ (addf (F := Ideal) (φ := .f32) (shapeCast ⟨1, ![m]⟩ prev h1)
        (multiReduction .add [0] ⟨1, ![m]⟩ (mulf A B) 0x00000000#32 hred hφ hacc)) h2 (ix3 (0 : Fin 1) (0 : Fin 1) q)
      = prev (ix3 (0 : Fin 1) (0 : Fin 1) q)
        + ∑ r : Fin 2048, Cert.Tree.stepK osub pk L r.val q.val * Cert.Tree.walkK osub pk L r.val (q.val % 2 ^ L) := by
  refine (stat_gen (mulf A B) prev hred hφ hacc h1 h2 q).trans ?_
  refine congrArg (fun s => prev (ix3 (0 : Fin 1) (0 : Fin 1) q) + s) (Finset.sum_congr rfl fun r _ => ?_)
  show A (ix2 r q) * B (ix2 r q) = _
  rw [hA, hB]

/-- The second statistic of layer `L`: the accumulator plus the sum over the rows of the parent. -/
theorem smu_gen {m : ℕ} (L : ℕ) (pk : ℕ → ℕ → EReal) (B : FVec Ideal ⟨2, ![2048, m]⟩ .f32)
    (prev : Vec Ideal ⟨3, ![1, 1, m]⟩ .f32)
    (hred : (⟨2, ![2048, m]⟩ : Shape).Reduces [0] ⟨1, ![m]⟩) (hφ : FKind.Formats .f32)
    (hacc : (0x00000000#32 : BitVec 32) = FKind.add.neutral .f32 hφ)
    (h1 : (⟨3, ![1, 1, m]⟩ : Shape).ShapeCasts ⟨1, ![m]⟩) (h2 : (⟨1, ![m]⟩ : Shape).ShapeCasts ⟨3, ![1, 1, m]⟩)
    (hB : ∀ (r : Fin 2048) (q : Fin m), B (ix2 r q) = Cert.Tree.walkK osub pk L r.val (q.val % 2 ^ L))
    (q : Fin m) :
    shapeCast ⟨3, ![1, 1, m]⟩ (addf (F := Ideal) (φ := .f32) (shapeCast ⟨1, ![m]⟩ prev h1)
        (multiReduction .add [0] ⟨1, ![m]⟩ B 0x00000000#32 hred hφ hacc)) h2 (ix3 (0 : Fin 1) (0 : Fin 1) q)
      = prev (ix3 (0 : Fin 1) (0 : Fin 1) q) + ∑ r : Fin 2048, Cert.Tree.walkK osub pk L r.val (q.val % 2 ^ L) := by
  refine (stat_gen B prev hred hφ hacc h1 h2 q).trans ?_
  exact congrArg (fun s => prev (ix3 (0 : Fin 1) (0 : Fin 1) q) + s) (Finset.sum_congr rfl fun r _ => hB r q)

end Generic

/-! ## The layers -/

section Layers

variable (x0 : Vec Ideal S2048x784 .f32) (x1 : Vec Ideal S784x256 .f32) (x2 : Vec Ideal S1x256 .f32)

/-! ### Layer 0 -/

theorem step0_apply (r : Fin 2048) (q : Fin 2) :
    Tile.step0 (F := Ideal) x0 x1 x2 (ix2 r q) = Cert.Tree.stepK osub (tabT (Tile.prob (F := Ideal) x0 x1 x2)) 0 r.val q.val :=
  step_gen 0 0 (Tile.prob (F := Ideal) x0 x1 x2) _ one_eq slices_S2048x256_o0_0_S2048x1
    concatenates_S2048x1_S2048x1_S2048x2_d1 rfl rfl rfl r q

theorem par0_apply (r : Fin 2048) (q : Fin 2) :
    Tile.par0 (F := Ideal) (ix2 r q) = Cert.Tree.walkK osub (tabT (Tile.prob (F := Ideal) x0 x1 x2)) 0 r.val (q.val % 2 ^ 0) :=
  par_zero_gen _ _ one_eq concatenates_S2048x1_S2048x1_S2048x2_d1 rfl r q

theorem slp0_apply (prev : Vec Ideal S1x1x2 .f32) (q : Fin 2) :
    Tile.slp0 (F := Ideal) x0 x1 x2 prev (ix3 (0 : Fin 1) (0 : Fin 1) q)
      = prev (ix3 (0 : Fin 1) (0 : Fin 1) q)
        + ∑ r : Fin 2048, Cert.Tree.stepK osub (tabT (Tile.prob (F := Ideal) x0 x1 x2)) 0 r.val q.val
            * Cert.Tree.walkK osub (tabT (Tile.prob (F := Ideal) x0 x1 x2)) 0 r.val (q.val % 2 ^ 0) :=
  slp_gen 0 _ (Tile.step0 (F := Ideal) x0 x1 x2) (Tile.par0 (F := Ideal)) prev reduces_S2048x2_S2 (.inl rfl) rfl
    shapeCasts_S1x1x2_S2 shapeCasts_S2_S1x1x2 (step0_apply x0 x1 x2) (par0_apply x0 x1 x2) q

theorem smu0_apply (prev : Vec Ideal S1x1x2 .f32) (q : Fin 2) :
    Tile.smu0 (F := Ideal) prev (ix3 (0 : Fin 1) (0 : Fin 1) q)
      = prev (ix3 (0 : Fin 1) (0 : Fin 1) q)
        + ∑ r : Fin 2048, Cert.Tree.walkK osub (tabT (Tile.prob (F := Ideal) x0 x1 x2)) 0 r.val (q.val % 2 ^ 0) :=
  smu_gen 0 _ (Tile.par0 (F := Ideal)) prev reduces_S2048x2_S2 (.inl rfl) rfl
    shapeCasts_S1x1x2_S2 shapeCasts_S2_S1x1x2 (par0_apply x0 x1 x2) q

/-! ### Layer 1 -/

theorem step1_apply (r : Fin 2048) (q : Fin 4) :
    Tile.step1 (F := Ideal) x0 x1 x2 (ix2 r q) = Cert.Tree.stepK osub (tabT (Tile.prob (F := Ideal) x0 x1 x2)) 1 r.val q.val :=
  step_gen 1 1 (Tile.prob (F := Ideal) x0 x1 x2) _ one_eq slices_S2048x256_o0_1_S2048x2
    concatenates_S2048x2_S2048x2_S2048x4_d1 rfl rfl rfl r q

theorem par1_apply (r : Fin 2048) (q : Fin 4) :
    Tile.par1 (F := Ideal) x0 x1 x2 (ix2 r q) = Cert.Tree.walkK osub (tabT (Tile.prob (F := Ideal) x0 x1 x2)) 1 r.val (q.val % 2 ^ 1) :=
  par_gen 0 _ (Tile.par0 (F := Ideal)) (Tile.step0 (F := Ideal) x0 x1 x2)
    concatenates_S2048x2_S2048x2_S2048x4_d1 rfl rfl (par0_apply x0 x1 x2) (step0_apply x0 x1 x2) r q

theorem slp1_apply (prev : Vec Ideal S1x1x4 .f32) (q : Fin 4) :
    Tile.slp1 (F := Ideal) x0 x1 x2 prev (ix3 (0 : Fin 1) (0 : Fin 1) q)
      = prev (ix3 (0 : Fin 1) (0 : Fin 1) q)
        + ∑ r : Fin 2048, Cert.Tree.stepK osub (tabT (Tile.prob (F := Ideal) x0 x1 x2)) 1 r.val q.val
            * Cert.Tree.walkK osub (tabT (Tile.prob (F := Ideal) x0 x1 x2)) 1 r.val (q.val % 2 ^ 1) :=
  slp_gen 1 _ (Tile.step1 (F := Ideal) x0 x1 x2) (Tile.par1 (F := Ideal) x0 x1 x2) prev reduces_S2048x4_S4 (.inl rfl) rfl
    shapeCasts_S1x1x4_S4 shapeCasts_S4_S1x1x4 (step1_apply x0 x1 x2) (par1_apply x0 x1 x2) q

theorem smu1_apply (prev : Vec Ideal S1x1x4 .f32) (q : Fin 4) :
    Tile.smu1 (F := Ideal) x0 x1 x2 prev (ix3 (0 : Fin 1) (0 : Fin 1) q)
      = prev (ix3 (0 : Fin 1) (0 : Fin 1) q)
        + ∑ r : Fin 2048, Cert.Tree.walkK osub (tabT (Tile.prob (F := Ideal) x0 x1 x2)) 1 r.val (q.val % 2 ^ 1) :=
  smu_gen 1 _ (Tile.par1 (F := Ideal) x0 x1 x2) prev reduces_S2048x4_S4 (.inl rfl) rfl
    shapeCasts_S1x1x4_S4 shapeCasts_S4_S1x1x4 (par1_apply x0 x1 x2) q

/-! ### Layer 2 -/

theorem step2_apply (r : Fin 2048) (q : Fin 8) :
    Tile.step2 (F := Ideal) x0 x1 x2 (ix2 r q) = Cert.Tree.stepK osub (tabT (Tile.prob (F := Ideal) x0 x1 x2)) 2 r.val q.val :=
  step_gen 2 3 (Tile.prob (F := Ideal) x0 x1 x2) _ one_eq slices_S2048x256_o0_3_S2048x4
    concatenates_S2048x4_S2048x4_S2048x8_d1 rfl rfl rfl r q

theorem par2_apply (r : Fin 2048) (q : Fin 8) :
    Tile.par2 (F := Ideal) x0 x1 x2 (ix2 r q) = Cert.Tree.walkK osub (tabT (Tile.prob (F := Ideal) x0 x1 x2)) 2 r.val (q.val % 2 ^ 2) :=
  par_gen 1 _ (Tile.par1 (F := Ideal) x0 x1 x2) (Tile.step1 (F := Ideal) x0 x1 x2)
    concatenates_S2048x4_S2048x4_S2048x8_d1 rfl rfl (par1_apply x0 x1 x2) (step1_apply x0 x1 x2) r q

theorem slp2_apply (prev : Vec Ideal S1x1x8 .f32) (q : Fin 8) :
    Tile.slp2 (F := Ideal) x0 x1 x2 prev (ix3 (0 : Fin 1) (0 : Fin 1) q)
      = prev (ix3 (0 : Fin 1) (0 : Fin 1) q)
        + ∑ r : Fin 2048, Cert.Tree.stepK osub (tabT (Tile.prob (F := Ideal) x0 x1 x2)) 2 r.val q.val
            * Cert.Tree.walkK osub (tabT (Tile.prob (F := Ideal) x0 x1 x2)) 2 r.val (q.val % 2 ^ 2) :=
  slp_gen 2 _ (Tile.step2 (F := Ideal) x0 x1 x2) (Tile.par2 (F := Ideal) x0 x1 x2) prev reduces_S2048x8_S8 (.inl rfl) rfl
    shapeCasts_S1x1x8_S8 shapeCasts_S8_S1x1x8 (step2_apply x0 x1 x2) (par2_apply x0 x1 x2) q

theorem smu2_apply (prev : Vec Ideal S1x1x8 .f32) (q : Fin 8) :
    Tile.smu2 (F := Ideal) x0 x1 x2 prev (ix3 (0 : Fin 1) (0 : Fin 1) q)
      = prev (ix3 (0 : Fin 1) (0 : Fin 1) q)
        + ∑ r : Fin 2048, Cert.Tree.walkK osub (tabT (Tile.prob (F := Ideal) x0 x1 x2)) 2 r.val (q.val % 2 ^ 2) :=
  smu_gen 2 _ (Tile.par2 (F := Ideal) x0 x1 x2) prev reduces_S2048x8_S8 (.inl rfl) rfl
    shapeCasts_S1x1x8_S8 shapeCasts_S8_S1x1x8 (par2_apply x0 x1 x2) q

/-! ### Layer 3 -/

theorem step3_apply (r : Fin 2048) (q : Fin 16) :
    Tile.step3 (F := Ideal) x0 x1 x2 (ix2 r q) = Cert.Tree.stepK osub (tabT (Tile.prob (F := Ideal) x0 x1 x2)) 3 r.val q.val :=
  step_gen 3 7 (Tile.prob (F := Ideal) x0 x1 x2) _ one_eq slices_S2048x256_o0_7_S2048x8
    concatenates_S2048x8_S2048x8_S2048x16_d1 rfl rfl rfl r q

theorem par3_apply (r : Fin 2048) (q : Fin 16) :
    Tile.par3 (F := Ideal) x0 x1 x2 (ix2 r q) = Cert.Tree.walkK osub (tabT (Tile.prob (F := Ideal) x0 x1 x2)) 3 r.val (q.val % 2 ^ 3) :=
  par_gen 2 _ (Tile.par2 (F := Ideal) x0 x1 x2) (Tile.step2 (F := Ideal) x0 x1 x2)
    concatenates_S2048x8_S2048x8_S2048x16_d1 rfl rfl (par2_apply x0 x1 x2) (step2_apply x0 x1 x2) r q

theorem slp3_apply (prev : Vec Ideal S1x1x16 .f32) (q : Fin 16) :
    Tile.slp3 (F := Ideal) x0 x1 x2 prev (ix3 (0 : Fin 1) (0 : Fin 1) q)
      = prev (ix3 (0 : Fin 1) (0 : Fin 1) q)
        + ∑ r : Fin 2048, Cert.Tree.stepK osub (tabT (Tile.prob (F := Ideal) x0 x1 x2)) 3 r.val q.val
            * Cert.Tree.walkK osub (tabT (Tile.prob (F := Ideal) x0 x1 x2)) 3 r.val (q.val % 2 ^ 3) :=
  slp_gen 3 _ (Tile.step3 (F := Ideal) x0 x1 x2) (Tile.par3 (F := Ideal) x0 x1 x2) prev reduces_S2048x16_S16 (.inl rfl) rfl
    shapeCasts_S1x1x16_S16 shapeCasts_S16_S1x1x16 (step3_apply x0 x1 x2) (par3_apply x0 x1 x2) q

theorem smu3_apply (prev : Vec Ideal S1x1x16 .f32) (q : Fin 16) :
    Tile.smu3 (F := Ideal) x0 x1 x2 prev (ix3 (0 : Fin 1) (0 : Fin 1) q)
      = prev (ix3 (0 : Fin 1) (0 : Fin 1) q)
        + ∑ r : Fin 2048, Cert.Tree.walkK osub (tabT (Tile.prob (F := Ideal) x0 x1 x2)) 3 r.val (q.val % 2 ^ 3) :=
  smu_gen 3 _ (Tile.par3 (F := Ideal) x0 x1 x2) prev reduces_S2048x16_S16 (.inl rfl) rfl
    shapeCasts_S1x1x16_S16 shapeCasts_S16_S1x1x16 (par3_apply x0 x1 x2) q

/-! ### Layer 4 -/

theorem step4_apply (r : Fin 2048) (q : Fin 32) :
    Tile.step4 (F := Ideal) x0 x1 x2 (ix2 r q) = Cert.Tree.stepK osub (tabT (Tile.prob (F := Ideal) x0 x1 x2)) 4 r.val q.val :=
  step_gen 4 15 (Tile.prob (F := Ideal) x0 x1 x2) _ one_eq slices_S2048x256_o0_15_S2048x16
    concatenates_S2048x16_S2048x16_S2048x32_d1 rfl rfl rfl r q

theorem path4_apply (r : Fin 2048) (q : Fin 16) :
    Tile.path4 (F := Ideal) x0 x1 x2 (ix2 r q) = Cert.Tree.walkK osub (tabT (Tile.prob (F := Ideal) x0 x1 x2)) 4 r.val q.val :=
  path_gen 3 _ (Tile.par3 (F := Ideal) x0 x1 x2) (Tile.step3 (F := Ideal) x0 x1 x2) (par3_apply x0 x1 x2) (step3_apply x0 x1 x2) r q

theorem par4_apply (r : Fin 2048) (q : Fin 32) :
    Tile.par4 (F := Ideal) x0 x1 x2 (ix2 r q) = Cert.Tree.walkK osub (tabT (Tile.prob (F := Ideal) x0 x1 x2)) 4 r.val (q.val % 2 ^ 4) :=
  par_gen 3 _ (Tile.par3 (F := Ideal) x0 x1 x2) (Tile.step3 (F := Ideal) x0 x1 x2)
    concatenates_S2048x16_S2048x16_S2048x32_d1 rfl rfl (par3_apply x0 x1 x2) (step3_apply x0 x1 x2) r q

theorem slp4_apply (prev : Vec Ideal S1x1x32 .f32) (q : Fin 32) :
    Tile.slp4 (F := Ideal) x0 x1 x2 prev (ix3 (0 : Fin 1) (0 : Fin 1) q)
      = prev (ix3 (0 : Fin 1) (0 : Fin 1) q)
        + ∑ r : Fin 2048, Cert.Tree.stepK osub (tabT (Tile.prob (F := Ideal) x0 x1 x2)) 4 r.val q.val
            * Cert.Tree.walkK osub (tabT (Tile.prob (F := Ideal) x0 x1 x2)) 4 r.val (q.val % 2 ^ 4) :=
  slp_gen 4 _ (Tile.step4 (F := Ideal) x0 x1 x2) (Tile.par4 (F := Ideal) x0 x1 x2) prev reduces_S2048x32_S32 (.inl rfl) rfl
    shapeCasts_S1x1x32_S32 shapeCasts_S32_S1x1x32 (step4_apply x0 x1 x2) (par4_apply x0 x1 x2) q

theorem smu4_apply (prev : Vec Ideal S1x1x32 .f32) (q : Fin 32) :
    Tile.smu4 (F := Ideal) x0 x1 x2 prev (ix3 (0 : Fin 1) (0 : Fin 1) q)
      = prev (ix3 (0 : Fin 1) (0 : Fin 1) q)
        + ∑ r : Fin 2048, Cert.Tree.walkK osub (tabT (Tile.prob (F := Ideal) x0 x1 x2)) 4 r.val (q.val % 2 ^ 4) :=
  smu_gen 4 _ (Tile.par4 (F := Ideal) x0 x1 x2) prev reduces_S2048x32_S32 (.inl rfl) rfl
    shapeCasts_S1x1x32_S32 shapeCasts_S32_S1x1x32 (par4_apply x0 x1 x2) q

/-! ### Layer 5 -/

theorem step5_apply (r : Fin 2048) (q : Fin 64) :
    Tile.step5 (F := Ideal) x0 x1 x2 (ix2 r q) = Cert.Tree.stepK osub (tabT (Tile.prob (F := Ideal) x0 x1 x2)) 5 r.val q.val :=
  step_gen 5 31 (Tile.prob (F := Ideal) x0 x1 x2) _ one_eq slices_S2048x256_o0_31_S2048x32
    concatenates_S2048x32_S2048x32_S2048x64_d1 rfl rfl rfl r q

theorem par5_apply (r : Fin 2048) (q : Fin 64) :
    Tile.par5 (F := Ideal) x0 x1 x2 (ix2 r q) = Cert.Tree.walkK osub (tabT (Tile.prob (F := Ideal) x0 x1 x2)) 5 r.val (q.val % 2 ^ 5) :=
  par_gen 4 _ (Tile.par4 (F := Ideal) x0 x1 x2) (Tile.step4 (F := Ideal) x0 x1 x2)
    concatenates_S2048x32_S2048x32_S2048x64_d1 rfl rfl (par4_apply x0 x1 x2) (step4_apply x0 x1 x2) r q

theorem slp5_apply (prev : Vec Ideal S1x1x64 .f32) (q : Fin 64) :
    Tile.slp5 (F := Ideal) x0 x1 x2 prev (ix3 (0 : Fin 1) (0 : Fin 1) q)
      = prev (ix3 (0 : Fin 1) (0 : Fin 1) q)
        + ∑ r : Fin 2048, Cert.Tree.stepK osub (tabT (Tile.prob (F := Ideal) x0 x1 x2)) 5 r.val q.val
            * Cert.Tree.walkK osub (tabT (Tile.prob (F := Ideal) x0 x1 x2)) 5 r.val (q.val % 2 ^ 5) :=
  slp_gen 5 _ (Tile.step5 (F := Ideal) x0 x1 x2) (Tile.par5 (F := Ideal) x0 x1 x2) prev reduces_S2048x64_S64 (.inl rfl) rfl
    shapeCasts_S1x1x64_S64 shapeCasts_S64_S1x1x64 (step5_apply x0 x1 x2) (par5_apply x0 x1 x2) q

theorem smu5_apply (prev : Vec Ideal S1x1x64 .f32) (q : Fin 64) :
    Tile.smu5 (F := Ideal) x0 x1 x2 prev (ix3 (0 : Fin 1) (0 : Fin 1) q)
      = prev (ix3 (0 : Fin 1) (0 : Fin 1) q)
        + ∑ r : Fin 2048, Cert.Tree.walkK osub (tabT (Tile.prob (F := Ideal) x0 x1 x2)) 5 r.val (q.val % 2 ^ 5) :=
  smu_gen 5 _ (Tile.par5 (F := Ideal) x0 x1 x2) prev reduces_S2048x64_S64 (.inl rfl) rfl
    shapeCasts_S1x1x64_S64 shapeCasts_S64_S1x1x64 (par5_apply x0 x1 x2) q

/-! ### Layer 6 -/

theorem step6_apply (r : Fin 2048) (q : Fin 128) :
    Tile.step6 (F := Ideal) x0 x1 x2 (ix2 r q) = Cert.Tree.stepK osub (tabT (Tile.prob (F := Ideal) x0 x1 x2)) 6 r.val q.val :=
  step_gen 6 63 (Tile.prob (F := Ideal) x0 x1 x2) _ one_eq slices_S2048x256_o0_63_S2048x64
    concatenates_S2048x64_S2048x64_S2048x128_d1 rfl rfl rfl r q

theorem par6_apply (r : Fin 2048) (q : Fin 128) :
    Tile.par6 (F := Ideal) x0 x1 x2 (ix2 r q) = Cert.Tree.walkK osub (tabT (Tile.prob (F := Ideal) x0 x1 x2)) 6 r.val (q.val % 2 ^ 6) :=
  par_gen 5 _ (Tile.par5 (F := Ideal) x0 x1 x2) (Tile.step5 (F := Ideal) x0 x1 x2)
    concatenates_S2048x64_S2048x64_S2048x128_d1 rfl rfl (par5_apply x0 x1 x2) (step5_apply x0 x1 x2) r q

theorem slp6_apply (prev : Vec Ideal S1x1x128 .f32) (q : Fin 128) :
    Tile.slp6 (F := Ideal) x0 x1 x2 prev (ix3 (0 : Fin 1) (0 : Fin 1) q)
      = prev (ix3 (0 : Fin 1) (0 : Fin 1) q)
        + ∑ r : Fin 2048, Cert.Tree.stepK osub (tabT (Tile.prob (F := Ideal) x0 x1 x2)) 6 r.val q.val
            * Cert.Tree.walkK osub (tabT (Tile.prob (F := Ideal) x0 x1 x2)) 6 r.val (q.val % 2 ^ 6) :=
  slp_gen 6 _ (Tile.step6 (F := Ideal) x0 x1 x2) (Tile.par6 (F := Ideal) x0 x1 x2) prev reduces_S2048x128_S128 (.inl rfl) rfl
    shapeCasts_S1x1x128_S128 shapeCasts_S128_S1x1x128 (step6_apply x0 x1 x2) (par6_apply x0 x1 x2) q

theorem smu6_apply (prev : Vec Ideal S1x1x128 .f32) (q : Fin 128) :
    Tile.smu6 (F := Ideal) x0 x1 x2 prev (ix3 (0 : Fin 1) (0 : Fin 1) q)
      = prev (ix3 (0 : Fin 1) (0 : Fin 1) q)
        + ∑ r : Fin 2048, Cert.Tree.walkK osub (tabT (Tile.prob (F := Ideal) x0 x1 x2)) 6 r.val (q.val % 2 ^ 6) :=
  smu_gen 6 _ (Tile.par6 (F := Ideal) x0 x1 x2) prev reduces_S2048x128_S128 (.inl rfl) rfl
    shapeCasts_S1x1x128_S128 shapeCasts_S128_S1x1x128 (par6_apply x0 x1 x2) q

/-! ### Layer 7 -/

theorem step7_apply (r : Fin 2048) (q : Fin 256) :
    Tile.step7 (F := Ideal) x0 x1 x2 (ix2 r q) = Cert.Tree.stepK osub (tabT (Tile.prob (F := Ideal) x0 x1 x2)) 7 r.val q.val :=
  step_gen 7 127 (Tile.prob (F := Ideal) x0 x1 x2) _ one_eq slices_S2048x256_o0_127_S2048x128
    concatenates_S2048x128_S2048x128_S2048x256_d1 rfl rfl rfl r q

theorem par7_apply (r : Fin 2048) (q : Fin 256) :
    Tile.par7 (F := Ideal) x0 x1 x2 (ix2 r q) = Cert.Tree.walkK osub (tabT (Tile.prob (F := Ideal) x0 x1 x2)) 7 r.val (q.val % 2 ^ 7) :=
  par_gen 6 _ (Tile.par6 (F := Ideal) x0 x1 x2) (Tile.step6 (F := Ideal) x0 x1 x2)
    concatenates_S2048x128_S2048x128_S2048x256_d1 rfl rfl (par6_apply x0 x1 x2) (step6_apply x0 x1 x2) r q

theorem slp7_apply (prev : Vec Ideal S1x1x256 .f32) (q : Fin 256) :
    Tile.slp7 (F := Ideal) x0 x1 x2 prev (ix3 (0 : Fin 1) (0 : Fin 1) q)
      = prev (ix3 (0 : Fin 1) (0 : Fin 1) q)
        + ∑ r : Fin 2048, Cert.Tree.stepK osub (tabT (Tile.prob (F := Ideal) x0 x1 x2)) 7 r.val q.val
            * Cert.Tree.walkK osub (tabT (Tile.prob (F := Ideal) x0 x1 x2)) 7 r.val (q.val % 2 ^ 7) :=
  slp_gen 7 _ (Tile.step7 (F := Ideal) x0 x1 x2) (Tile.par7 (F := Ideal) x0 x1 x2) prev reduces_S2048x256_S256 (.inl rfl) rfl
    shapeCasts_S1x1x256_S256 shapeCasts_S256_S1x1x256 (step7_apply x0 x1 x2) (par7_apply x0 x1 x2) q

theorem smu7_apply (prev : Vec Ideal S1x1x256 .f32) (q : Fin 256) :
    Tile.smu7 (F := Ideal) x0 x1 x2 prev (ix3 (0 : Fin 1) (0 : Fin 1) q)
      = prev (ix3 (0 : Fin 1) (0 : Fin 1) q)
        + ∑ r : Fin 2048, Cert.Tree.walkK osub (tabT (Tile.prob (F := Ideal) x0 x1 x2)) 7 r.val (q.val % 2 ^ 7) :=
  smu_gen 7 _ (Tile.par7 (F := Ideal) x0 x1 x2) prev reduces_S2048x256_S256 (.inl rfl) rfl
    shapeCasts_S1x1x256_S256 shapeCasts_S256_S1x1x256 (par7_apply x0 x1 x2) q

/-! ### The score block -/

/-- The path probabilities of the 256 leaves. -/
theorem leaf_apply (r : Fin 2048) (q : Fin 256) :
    mulf (Tile.par7 (F := Ideal) x0 x1 x2) (Tile.step7 (F := Ideal) x0 x1 x2) (ix2 r q) = Cert.Tree.walkK osub (tabT (Tile.prob (F := Ideal) x0 x1 x2)) 8 r.val q.val :=
  path_gen 7 _ (Tile.par7 (F := Ideal) x0 x1 x2) (Tile.step7 (F := Ideal) x0 x1 x2) (par7_apply x0 x1 x2) (step7_apply x0 x1 x2) r q

theorem score_apply (x3 : Vec Ideal S256x128 .f32) (r : Fin 2048) (o : Fin 128) :
    Tile.score (F := Ideal) x0 x1 x2 x3 (ix2 r o)
      = ∑ q : Fin 256, Cert.Tree.walkK osub (tabT (Tile.prob (F := Ideal) x0 x1 x2)) 8 r.val q.val * x3 (ix2 q o) := by
  have hm := Ideal.matmul_constant_zero_apply (φ₁ := .f32) (φ₂ := .f32) dot_S2048x256_S256x128_S2048x128_1_0_0_1_n_n (some .fp32)
    (mulf (Tile.par7 (F := Ideal) x0 x1 x2) (Tile.step7 (F := Ideal) x0 x1 x2)) (shapeCast S256x128 x3 shapeCasts_S256x128_S256x128) (ix2 r o)
  show FloatOps.matmul (F := Ideal) (φ₁ := .f32) (φ₂ := .f32) dot_S2048x256_S256x128_S2048x128_1_0_0_1_n_n (some .fp32)
      (mulf (Tile.par7 (F := Ideal) x0 x1 x2) (Tile.step7 (F := Ideal) x0 x1 x2)) (shapeCast S256x128 x3 shapeCasts_S256x128_S256x128)
      (constant S2048x128 .f32 0x00000000#32) (ix2 r o) = _
  rw [hm, shapeCast_self]
  refine Fintype.sum_equiv (contrEquiv1 dot_S2048x256_S256x128_S2048x128_1_0_0_1_n_n 256 rfl rfl) _ _ (fun k => ?_)
  have hl : dot_S2048x256_S256x128_S2048x128_1_0_0_1_n_n.lhsIdx (ix2 r o) k = ix2 r (contrEquiv1 dot_S2048x256_S256x128_S2048x128_1_0_0_1_n_n 256 rfl rfl k) := by
    funext a
    match a with
    | ⟨0, _⟩ => rfl
    | ⟨1, _⟩ => rfl
  have hr : dot_S2048x256_S256x128_S2048x128_1_0_0_1_n_n.rhsIdx (ix2 r o) k = ix2 (contrEquiv1 dot_S2048x256_S256x128_S2048x128_1_0_0_1_n_n 256 rfl rfl k) o := by
    funext a
    match a with
    | ⟨0, _⟩ => rfl
    | ⟨1, _⟩ => rfl
  rw [hl, hr, leaf_apply]

end Layers

end Cert.KernelIdeal.TileMath

end
-- ==== Proof.LibGatherRows.lean ====
/-
  A gather of whole rows, and of single entries, by one start index per row of the index array, read at an index.

  `x[idx]` for a matrix `x : [N, D]` and an integer vector `idx : [E]` lowers to a gather whose start indices are the
  column `[E, 1]`: offset axis `1`, collapsed axis `0`, start index map `[0]`, index vector axis `1`, slice sizes
  `[1, D]`. Its element `(e, d)` is `x (r, d)` where `r` is the start index `idx (e, 0)` read as a signed integer and
  clamped into `[0, N − 1]`. The same with a vector `x : [N]` (no offset axis, slice sizes `[1]`): element `e` is `x r`
  for the SAME `r`. So two such gathers by one index array pick the same row, whatever the operands are.
-/
import Idealize.ShloMosaic.PureOps.ShapeOps
import Idealize.ShloMosaic.Lib.ValueIdx

namespace Cert.Lib.GatherRows

open Idealize.ShloMosaic Idealize.ShloMosaic.ValueIdx

variable {α : Type}

/-- The row a start index selects among `N`: the word read signed, negative values to `0`, clamped to `N − 1`. -/
def rowOf (N : Nat) (hN : 0 < N) {E w : Nat} (idx : IVec ⟨2, ![E, 1]⟩ w) (e : Fin E) : Fin N :=
  ⟨min (idx (ix2 e (0 : Fin 1))).toInt.toNat (N - 1), by omega⟩

/-- The dimension numbers of a row gather: operand `[N, D]`, start indices `[E, 1]`, result `[E, D]`. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of an entry gather: operand `[N]`, start indices `[E, 1]`, result `[E]`. -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A row gather at `(e, d)` is the operand at `(rowOf e, d)`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowsDims N D E wf) x idx (ix2 e d) = x (ix2 (rowOf N hN idx e) d) := by
  -- axis 0: the clamped start index, no batch and no offset coordinate
  have h0 : (rowsDims N D E wf).start (ix2 e d) idx (0 : Fin 2) + (rowsDims N D E wf).batchCoord (ix2 e d) (0 : Fin 2)
      + (rowsDims N D E wf).offCoord (ix2 e d) (0 : Fin 2) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e d) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1: no start index, no batch coordinate, the result's own coordinate as the offset
  have h1 : (rowsDims N D E wf).start (ix2 e d) idx (1 : Fin 2) + (rowsDims N D E wf).batchCoord (ix2 e d) (1 : Fin 2)
      + (rowsDims N D E wf).offCoord (ix2 e d) (1 : Fin 2) = d.val := by
    have hn : (1 : Fin 2) ∉ (rowsDims N D E wf).startIndexMap :=
      show (1 : Fin 2) ∉ ([0] : List (Fin 2)) by decide
    have hk : (1 : Fin 2) ∈ (rowsDims N D E wf).sKept :=
      (GatherDims.mem_sKept _ _).mpr ⟨show (1 : Fin 2) ∉ ([0] : List (Fin 2)) by decide, List.not_mem_nil⟩
    rw [GatherDims.batchCoord_eq_zero _ _ _ List.not_mem_nil]
    unfold GatherDims.start GatherDims.offCoord
    rw [dif_neg hn, dif_pos hk]
    simp only [Nat.zero_add, Nat.add_zero]
    rfl
  unfold Host.gather
  congr 1
  funext a
  refine Fin.ext ?_
  match a with
  | ⟨0, _⟩ => exact h0
  | ⟨1, _⟩ => exact h1

/-- An entry gather at `e` is the operand at `rowOf e`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (rowOf N hN idx e)) := by
  have h0 : (entriesDims N E wf).start (ix1 e) idx (0 : Fin 1) + (entriesDims N E wf).batchCoord (ix1 e) (0 : Fin 1)
      + (entriesDims N E wf).offCoord (ix1 e) (0 : Fin 1) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N E wf).startIndexMap from List.mem_singleton.mpr rfl)]
    have hsi : (entriesDims N E wf).siIdx (ix1 e) ⟨List.idxOf (0 : Fin 1) (entriesDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

end Cert.Lib.GatherRows
-- ==== Proof.HostPrefix.lean ====
/-
  The host lines before the region, read at an index.

  Before the region the program reorders the rows of the weight matrix by a table of 255 words and the columns of the
  leaf matrix by a table of 256 words, splits the bias column off the weights, pads the slot axes to 256 (and the ten
  classes to 128) with zeros and transposes. The row table lists, layer by layer, the heap position of each blocked
  slot; the leaf table is the heap order of the last layer.
-/
import proofs.«148994_j9070970929349_2_alg».proof.Proof.KitIdeal
import proofs.«148994_j9070970929349_2_alg».proof.Proof.TreeWalk
import proofs.«148994_j9070970929349_2_alg».proof.Proof.LibGatherRows
import Idealize.ShloMosaic.Lib.IdealHost
import Idealize.ShloMosaic.Lib.KernelVsHost
import Idealize.ShloMosaic.Lib.Pipeline.Value
import Idealize.ShloMosaic.Lib.StableHlo.Run

noncomputable section

namespace Cert.KernelIdeal.Prefix

open Cert.KernelIdeal Cert.KernelIdeal.Gen Cert.KernelIdeal.Tree Cert.Lib.GatherRows
open Idealize.ShloMosaic Idealize.ShloMosaic.TcCoe Idealize.ShloMosaic.ValueIdx Idealize.ShloMosaic.StableHlo Idealize.SL.Sem
open scoped BigOperators

abbrev Mem := (ℓ : Loc nD τ sig) → Buf (Elt Ideal) ℓ

/-! ## The two index tables

The weight rows are taken in the order of a table of 255 words, the leaf columns in the order of a table of 256
words; a word below zero would be wrapped by adding the extent, and the result is clamped into the extent. Every word
of the two tables is already in range, so the row taken for slot j is the table's word itself. -/

/-- A start index after the wrap of a negative value by the extent `N`. -/
def idxWord (N w : BitVec 32) : BitVec 32 := Scalar.select (IntOp.cmpi .slt w 0#32) (IntOp.addi w N) w

/-- The weight row taken for slot `j`. -/
def node (j : ℕ) : ℕ := if h : j < 255 then (lit0 ⟨j, h⟩).toNat else 0
/-- The leaf column taken for slot `q`. -/
def leaf (q : ℕ) : ℕ := if h : q < 256 then (lit1 ⟨q, h⟩).toNat else 0

theorem lit0_wrap : ∀ i : Fin 255, min (idxWord 255#32 (lit0 i)).toInt.toNat (255 - 1) = (lit0 i).toNat := by decide +kernel
theorem lit1_wrap : ∀ i : Fin 256, min (idxWord 256#32 (lit1 i)).toInt.toNat (256 - 1) = (lit1 i).toNat := by decide +kernel
theorem lit0_lt : ∀ i : Fin 255, (lit0 i).toNat < 255 := by decide +kernel
theorem lit1_lt : ∀ i : Fin 256, (lit1 i).toNat < 256 := by decide +kernel

theorem node_lt (j : ℕ) : node j < 255 := by
  unfold node; split
  · exact lit0_lt _
  · decide
theorem leaf_lt (q : ℕ) : leaf q < 256 := by
  unfold leaf; split
  · exact lit1_lt _
  · decide

/-- The row table lists, layer by layer, the heap positions of the blocked slots. -/
theorem node_heap : ∀ L : Fin 8, ∀ j : Fin 128, j.val < 2 ^ L.val →
    node (2 ^ L.val - 1 + j.val) = 2 ^ L.val - 1 + Cert.Tree.heap L.val j.val := by decide +kernel
/-- The leaf table is the heap order of the last layer. -/
theorem leaf_heap : ∀ q : Fin 256, leaf q.val = Cert.Tree.heap 8 q.val := by decide +kernel

/-! ## The start indices, the two gathers and the padding, read at an index -/

/-- The wrapped table as the column of start indices, read at row `e`. -/
theorem idx255_apply (T : Fin 255 → BitVec 32) (e : Fin 255) :
    (broadcastInDim S255x1 ![0] bcast_S255_S255x1_0
      (select (cmpi .slt (fun i => T (S255.rowMajor i)) (broadcastInDim S255 ![] bcast_S_S255 (constantI S_ 32 0#32)))
        (addi (fun i => T (S255.rowMajor i)) (broadcastInDim S255 ![] bcast_S_S255 (constantI S_ 32 255#32)))
        (fun i => T (S255.rowMajor i))) : IVec S255x1 32) (ix2 e (0 : Fin 1)) = idxWord 255#32 (T e) := by
  refine (broadcastInDim_apply ![0] bcast_S255_S255x1_0 _ (ix2 e (0 : Fin 1)) (ix1 e) (fun a => by
    match a with
    | ⟨0, _⟩ => exact (if_neg (show ¬((255 : ℕ) = 1) by decide)).symm)).trans ?_
  have hr : S255.rowMajor (ix1 e) = e := Fin.ext (Shape.rowMajor_val_one _)
  show Scalar.select (IntOp.cmpi .slt (T (S255.rowMajor (ix1 e))) 0#32) (IntOp.addi (T (S255.rowMajor (ix1 e))) 255#32) (T (S255.rowMajor (ix1 e))) = _
  rw [hr]; rfl

theorem idx256_apply (T : Fin 256 → BitVec 32) (e : Fin 256) :
    (broadcastInDim S256x1 ![0] bcast_S256_S256x1_0
      (select (cmpi .slt (fun i => T (S256.rowMajor i)) (broadcastInDim S256 ![] bcast_S_S256 (constantI S_ 32 0#32)))
        (addi (fun i => T (S256.rowMajor i)) (broadcastInDim S256 ![] bcast_S_S256 (constantI S_ 32 256#32)))
        (fun i => T (S256.rowMajor i))) : IVec S256x1 32) (ix2 e (0 : Fin 1)) = idxWord 256#32 (T e) := by
  refine (broadcastInDim_apply ![0] bcast_S256_S256x1_0 _ (ix2 e (0 : Fin 1)) (ix1 e) (fun a => by
    match a with
    | ⟨0, _⟩ => exact (if_neg (show ¬((256 : ℕ) = 1) by decide)).symm)).trans ?_
  have hr : S256.rowMajor (ix1 e) = e := Fin.ext (Shape.rowMajor_val_one _)
  show Scalar.select (IntOp.cmpi .slt (T (S256.rowMajor (ix1 e))) 0#32) (IntOp.addi (T (S256.rowMajor (ix1 e))) 256#32) (T (S256.rowMajor (ix1 e))) = _
  rw [hr]; rfl

theorem rows_dims_eq : gather_S255x785_S255x1_S255x785_1_0_n_n_0_1_1785
    = rowsDims 255 785 255 gather_S255x785_S255x1_S255x785_1_0_n_n_0_1_1785_wf := rfl

/-- The gather of whole weight rows at (e, d): the row the start index names, clamped. -/
theorem rows_apply {α : Type} (x : S255x785.Idx → α) (idx : IVec S255x1 32) (e : Fin 255) (d : Fin 785) :
    Host.gather gather_S255x785_S255x1_S255x785_1_0_n_n_0_1_1785 x idx (ix2 e d)
      = x (ix2 (⟨min (idx (ix2 e (0 : Fin 1))).toInt.toNat (255 - 1), by omega⟩ : Fin 255) d) := by
  rw [rows_dims_eq]
  exact gather_rows_apply (by decide) _ x idx e d

/-- The gather of whole leaf columns at (o, q): the column the start index of `q` names, clamped. -/
theorem cols_apply {α : Type} (x : S10x256.Idx → α) (idx : IVec S256x1 32) (o : Fin 10) (q : Fin 256) :
    Host.gather gather_S10x256_S256x1_S10x256_0_1_n_n_1_1_101 x idx (ix2 o q)
      = x (ix2 o (⟨min (idx (ix2 q (0 : Fin 1))).toInt.toNat (256 - 1), by omega⟩ : Fin 256)) := by
  have h1 : gather_S10x256_S256x1_S10x256_0_1_n_n_1_1_101.start (ix2 o q) idx (1 : Fin 2)
      + gather_S10x256_S256x1_S10x256_0_1_n_n_1_1_101.batchCoord (ix2 o q) (1 : Fin 2)
      + gather_S10x256_S256x1_S10x256_0_1_n_n_1_1_101.offCoord (ix2 o q) (1 : Fin 2)
        = min (idx (ix2 q (0 : Fin 1))).toInt.toNat (256 - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S10x256_S256x1_S10x256_0_1_n_n_1_1_101.startIndexMap from List.mem_singleton.mpr rfl)]
    have hsi : gather_S10x256_S256x1_S10x256_0_1_n_n_1_1_101.siIdx (ix2 o q)
        ⟨List.idxOf (1 : Fin 2) gather_S10x256_S256x1_S10x256_0_1_n_n_1_1_101.startIndexMap,
          List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl
  have h0 : gather_S10x256_S256x1_S10x256_0_1_n_n_1_1_101.start (ix2 o q) idx (0 : Fin 2)
      + gather_S10x256_S256x1_S10x256_0_1_n_n_1_1_101.batchCoord (ix2 o q) (0 : Fin 2)
      + gather_S10x256_S256x1_S10x256_0_1_n_n_1_1_101.offCoord (ix2 o q) (0 : Fin 2) = o.val := by
    have hn : (0 : Fin 2) ∉ gather_S10x256_S256x1_S10x256_0_1_n_n_1_1_101.startIndexMap :=
      show (0 : Fin 2) ∉ ([1] : List (Fin 2)) by decide
    have hk : (0 : Fin 2) ∈ gather_S10x256_S256x1_S10x256_0_1_n_n_1_1_101.sKept :=
      (GatherDims.mem_sKept _ _).mpr ⟨show (0 : Fin 2) ∉ ([1] : List (Fin 2)) by decide, List.not_mem_nil⟩
    rw [GatherDims.batchCoord_eq_zero _ _ _ List.not_mem_nil]
    unfold GatherDims.start GatherDims.offCoord
    rw [dif_neg hn, dif_pos hk]
    simp only [Nat.zero_add, Nat.add_zero]
    rfl
  unfold Host.gather
  congr 1
  funext a
  refine Fin.ext ?_
  match a with
  | ⟨0, _⟩ => exact h0
  | ⟨1, _⟩ => exact h1

/-- The integer zero converted to a float, as the padding value. -/
theorem padval_apply (i : S_.Idx) : (sitofp .f32 (constantI S_ 32 0#32) : FVec Ideal S_ .f32) i = 0 :=
  Idealize.ShloMosaic.sitofp_zero

/-! ## The three arrays the region reads, at an index -/

/-- The weight matrix and the leaf matrix as launched. -/
def Wi (m : Mem) (c : Dev nD) : S255x785.Idx → EReal := m ((c : Thread nD τ).loc main_arg1)
def Wl (m : Mem) (c : Dev nD) : S10x256.Idx → EReal := m ((c : Thread nD τ).loc main_arg2)

/-- The weight rows in table order. -/
def rowsOf (wi : S255x785.Idx → EReal) : S255x785.Idx → EReal :=
  Host.gather gather_S255x785_S255x1_S255x785_1_0_n_n_0_1_1785 wi
    (broadcastInDim S255x1 ![0] bcast_S255_S255x1_0
      (select (cmpi .slt (fun i => lit0 (S255.rowMajor i)) (broadcastInDim S255 ![] bcast_S_S255 (constantI S_ 32 0#32)))
        (addi (fun i => lit0 (S255.rowMajor i)) (broadcastInDim S255 ![] bcast_S_S255 (constantI S_ 32 255#32)))
        (fun i => lit0 (S255.rowMajor i))))

/-- The leaf columns in table order. -/
def colsOf (wl : S10x256.Idx → EReal) : S10x256.Idx → EReal :=
  Host.gather gather_S10x256_S256x1_S10x256_0_1_n_n_1_1_101 wl
    (broadcastInDim S256x1 ![0] bcast_S256_S256x1_0
      (select (cmpi .slt (fun i => lit1 (S256.rowMajor i)) (broadcastInDim S256 ![] bcast_S_S256 (constantI S_ 32 0#32)))
        (addi (fun i => lit1 (S256.rowMajor i)) (broadcastInDim S256 ![] bcast_S_S256 (constantI S_ 32 256#32)))
        (fun i => lit1 (S256.rowMajor i))))

theorem rowsOf_apply (wi : S255x785.Idx → EReal) (e : Fin 255) (d : Fin 785) :
    rowsOf wi (ix2 e d) = wi (ix2 (⟨node e.val, node_lt _⟩ : Fin 255) d) := by
  have hn : node e.val = (lit0 e).toNat := by unfold node; rw [dif_pos e.isLt]
  unfold rowsOf
  refine (rows_apply wi _ e d).trans (congrArg (fun r => wi (ix2 r d)) (Fin.ext ?_))
  show min _ (255 - 1) = node e.val
  rw [idx255_apply lit0 e, lit0_wrap e, hn]

theorem colsOf_apply (wl : S10x256.Idx → EReal) (o : Fin 10) (q : Fin 256) :
    colsOf wl (ix2 o q) = wl (ix2 o (⟨leaf q.val, leaf_lt _⟩ : Fin 256)) := by
  have hn : leaf q.val = (lit1 q).toNat := by unfold leaf; rw [dif_pos q.isLt]
  unfold colsOf
  refine (cols_apply wl _ o q).trans (congrArg (fun r => wl (ix2 o r)) (Fin.ext ?_))
  show min _ (256 - 1) = leaf q.val
  rw [idx256_apply lit1 q, lit1_wrap q, hn]

/-- The transposed, padded weights: what the host lines before the region leave in the second window's array. -/
theorem v12_eq (m : Mem) (c : Dev nD) : (V (F := Ideal) m c main_v12 : S784x256.Idx → EReal)
    = transpose S784x256 [1, 0] (pad S256x784 ![0, 0] ![1, 0] ![0, 0]
        (extractStridedSlice S255x784 ![0, 1] (rowsOf (Wi m c)) slices_S255x785_S255x784_0_1)
        (sitofp .f32 (constantI S_ 32 0#32) : FVec Ideal S_ .f32) pads_S255x784_S256x784_010_000 h_S_)
      transposes_S256x784_S784x256_1_0 := by
  dsimp only [Tree.V, Tree.V0, Tree.pre]
  simp only [hostOps0, hostOps0_1, hostOps0_2, hostOps0_3, hostOps0_4, hostOps0_5, hostOps0_6, List.flatten_cons, List.flatten_nil, List.append_nil, List.cons_append, List.nil_append]
  after_results
  rfl

/-- The padded bias row. -/
theorem v13_eq (m : Mem) (c : Dev nD) : (V (F := Ideal) m c main_v13 : S1x256.Idx → EReal)
    = shapeCast S1x256 (pad S256 ![0] ![1] ![0]
        (shapeCast S255 (extractStridedSlice S255x1 ![0, 0] (rowsOf (Wi m c)) slices_S255x785_S255x1_0_0) shapeCasts_S255x1_S255)
        (sitofp .f32 (constantI S_ 32 0#32) : FVec Ideal S_ .f32) pads_S255_S256_010 h_S_) shapeCasts_S256_S1x256 := by
  dsimp only [Tree.V, Tree.V0, Tree.pre]
  simp only [hostOps0, hostOps0_1, hostOps0_2, hostOps0_3, hostOps0_4, hostOps0_5, hostOps0_6, List.flatten_cons, List.flatten_nil, List.append_nil, List.cons_append, List.nil_append]
  after_results
  rfl

set_option maxHeartbeats 4000000 in
/-- The transposed, padded leaf matrix. -/
theorem v22_eq (m : Mem) (c : Dev nD) : (V (F := Ideal) m c main_v22 : S256x128.Idx → EReal)
    = transpose S256x128 [1, 0] (pad S128x256 ![0, 0] ![118, 0] ![0, 0] (colsOf (Wl m c))
        (sitofp .f32 (constantI S_ 32 0#32) : FVec Ideal S_ .f32) pads_S10x256_S128x256_01180_000 h_S_)
      transposes_S128x256_S256x128_1_0 := by
  dsimp only [Tree.V, Tree.V0, Tree.pre]
  simp only [hostOps0, hostOps0_1, hostOps0_2, hostOps0_3, hostOps0_4, hostOps0_5, hostOps0_6, List.flatten_cons, List.flatten_nil, List.append_nil, List.cons_append, List.nil_append]
  after_results
  rfl

/-- (1) The weights the region multiplies by: column j holds row node j of the launched weights without its first entry, column 255 is zero. -/
theorem v12_apply (m : Mem) (c : Dev nD) (k : Fin 784) (j : Fin 256) :
    (V (F := Ideal) m c main_v12 : S784x256.Idx → EReal) (ix2 k j)
      = if h : j.val < 255 then Wi m c (ix2 (⟨node j.val, node_lt _⟩ : Fin 255) (⟨k.val + 1, by have := k.isLt; omega⟩ : Fin 785)) else 0 := by
  rw [v12_eq]
  refine (transpose_apply [1, 0] _ transposes_S256x784_S784x256_1_0 (ix2 k j) (ix2 j k) (fun a => by
    match a with
    | ⟨0, _⟩ => rfl
    | ⟨1, _⟩ => rfl)).trans ?_
  by_cases h : j.val < 255
  · rw [dif_pos h]
    refine (pad_apply_of_inside (s := S255x784) (t := S256x784) ![0, 0] ![1, 0] ![0, 0] _ _ pads_S255x784_S256x784_010_000 h_S_ (ix2 j k)
      (ix2 (⟨j.val, h⟩ : Fin 255) k) (fun a => by
        match a with
        | ⟨0, _⟩ => show j.val = 0 + j.val * (0 + 1); omega
        | ⟨1, _⟩ => show k.val = 0 + k.val * (0 + 1); omega)).trans ?_
    refine (extractStridedSlice_apply ![0, 1] _ slices_S255x785_S255x784_0_1 (ix2 (⟨j.val, h⟩ : Fin 255) k)
      (ix2 (⟨j.val, h⟩ : Fin 255) (⟨k.val + 1, by have := k.isLt; omega⟩ : Fin 785)) (fun a => by
        match a with
        | ⟨0, _⟩ => show j.val = 0 + j.val; omega
        | ⟨1, _⟩ => show k.val + 1 = 1 + k.val; omega)).trans ?_
    exact rowsOf_apply _ ⟨j.val, h⟩ _
  · rw [dif_neg h]
    refine (pad_apply_of_not_inside (s := S255x784) (t := S256x784) ![0, 0] ![1, 0] ![0, 0] _ _ pads_S255x784_S256x784_010_000 h_S_ (ix2 j k) (0 : Fin 2)
      (fun hin => h ?_)).trans (padval_apply _)
    have h3 : (j.val - 0) / (0 + 1) < 255 := hin.2.2
    omega

/-- (2) The bias row: entry j is the first entry of row node j of the launched weights, entry 255 is zero. -/
theorem v13_apply (m : Mem) (c : Dev nD) (j : Fin 256) :
    (V (F := Ideal) m c main_v13 : S1x256.Idx → EReal) (ix2 (0 : Fin 1) j)
      = if h : j.val < 255 then Wi m c (ix2 (⟨node j.val, node_lt _⟩ : Fin 255) (0 : Fin 785)) else 0 := by
  rw [v13_eq]
  refine (shapeCast_apply _ shapeCasts_S256_S1x256 (ix2 (0 : Fin 1) j) (ix1 j) (by
    rw [Shape.rowMajor_val_one, Shape.rowMajor_val_two]; show j.val = 0 * 256 + j.val; omega)).trans ?_
  by_cases h : j.val < 255
  · rw [dif_pos h]
    refine (pad_apply_of_inside (s := S255) (t := S256) ![0] ![1] ![0] _ _ pads_S255_S256_010 h_S_ (ix1 j) (ix1 (⟨j.val, h⟩ : Fin 255)) (fun a => by
        match a with
        | ⟨0, _⟩ => show j.val = 0 + j.val * (0 + 1); omega)).trans ?_
    refine (shapeCast_apply _ shapeCasts_S255x1_S255 (ix1 (⟨j.val, h⟩ : Fin 255)) (ix2 (⟨j.val, h⟩ : Fin 255) (0 : Fin 1)) (by
      rw [Shape.rowMajor_val_one, Shape.rowMajor_val_two]; show j.val * 1 + 0 = j.val; omega)).trans ?_
    refine (extractStridedSlice_apply ![0, 0] _ slices_S255x785_S255x1_0_0 (ix2 (⟨j.val, h⟩ : Fin 255) (0 : Fin 1))
      (ix2 (⟨j.val, h⟩ : Fin 255) (0 : Fin 785)) (fun a => by
        match a with
        | ⟨0, _⟩ => show j.val = 0 + j.val; omega
        | ⟨1, _⟩ => rfl)).trans ?_
    exact rowsOf_apply _ ⟨j.val, h⟩ _
  · rw [dif_neg h]
    refine (pad_apply_of_not_inside (s := S255) (t := S256) ![0] ![1] ![0] _ _ pads_S255_S256_010 h_S_ (ix1 j) (0 : Fin 1)
      (fun hin => h ?_)).trans (padval_apply _)
    have h3 : (j.val - 0) / (0 + 1) < 255 := hin.2.2
    omega

/-- (3) The leaf matrix the region multiplies by: row q holds column leaf q of the launched leaf matrix, in its first ten entries. -/
theorem v22_apply (m : Mem) (c : Dev nD) (q : Fin 256) (o : Fin 128) :
    (V (F := Ideal) m c main_v22 : S256x128.Idx → EReal) (ix2 q o)
      = if h : o.val < 10 then Wl m c (ix2 (⟨o.val, h⟩ : Fin 10) (⟨leaf q.val, leaf_lt _⟩ : Fin 256)) else 0 := by
  rw [v22_eq]
  refine (transpose_apply [1, 0] _ transposes_S128x256_S256x128_1_0 (ix2 q o) (ix2 o q) (fun a => by
    match a with
    | ⟨0, _⟩ => rfl
    | ⟨1, _⟩ => rfl)).trans ?_
  by_cases h : o.val < 10
  · rw [dif_pos h]
    refine (pad_apply_of_inside (s := S10x256) (t := S128x256) ![0, 0] ![118, 0] ![0, 0] _ _ pads_S10x256_S128x256_01180_000 h_S_ (ix2 o q)
      (ix2 (⟨o.val, h⟩ : Fin 10) q) (fun a => by
        match a with
        | ⟨0, _⟩ => show o.val = 0 + o.val * (0 + 1); omega
        | ⟨1, _⟩ => show q.val = 0 + q.val * (0 + 1); omega)).trans ?_
    exact colsOf_apply _ ⟨o.val, h⟩ q
  · rw [dif_neg h]
    refine (pad_apply_of_not_inside (s := S10x256) (t := S128x256) ![0, 0] ![118, 0] ![0, 0] _ _ pads_S10x256_S128x256_01180_000 h_S_ (ix2 o q) (0 : Fin 2)
      (fun hin => h ?_)).trans (padval_apply _)
    have h3 : (o.val - 0) / (0 + 1) < 10 := hin.2.2
    omega

/-- (3) with the leaf table read as the heap order of the last layer. -/
theorem v22_apply_heap (m : Mem) (c : Dev nD) (q : Fin 256) (o : Fin 128) :
    (V (F := Ideal) m c main_v22 : S256x128.Idx → EReal) (ix2 q o)
      = if h : o.val < 10 then Wl m c (ix2 (⟨o.val, h⟩ : Fin 10) (⟨Cert.Tree.heap 8 q.val, Cert.Tree.heap_lt 8 q.val⟩ : Fin 256)) else 0 := by
  rw [v22_apply]
  by_cases h : o.val < 10
  · rw [dif_pos h, dif_pos h]
    exact congrArg (fun r => Wl m c (ix2 (⟨o.val, h⟩ : Fin 10) r)) (Fin.ext (leaf_heap q))
  · rw [dif_neg h, dif_neg h]

end Cert.KernelIdeal.Prefix
end
-- ==== Proof.BridgeProb.lean ====
/-
  The bridge between a tile's table of node probabilities and the reference's.

  A grid point's row block is 2048 consecutive rows of the input; its weight, bias and leaf blocks are the whole
  arrays the host lines before the region prepared. The node probability the body computes for row b at slot s is
  the logistic of the row's inner product with weight row node s plus that row's first entry, and the row table
  sends slot 2^L - 1 + j to heap node 2^L - 1 + heap L j: so the kernel's table is the reference's probabilities
  in blocked order, which is what the agreement of the two walks asks.
-/
import proofs.«148994_j9070970929349_2_alg».proof.Proof.KernelArrays
import proofs.«148994_j9070970929349_2_alg».proof.Proof.TileMath
import proofs.«148994_j9070970929349_2_alg».proof.Proof.HostPrefix
import proofs.«148994_j9070970929349_2_alg».proof.Proof.RefRead
import proofs.«148994_j9070970929349_2_alg».proof.Proof.TreeWalk

set_option maxRecDepth 16384

noncomputable section

namespace Cert.KernelIdeal.Bridge

open Cert.KernelIdeal Cert.KernelIdeal.Gen Cert.KernelIdeal.Tree Cert.KernelIdeal.Prefix
open Idealize.ShloMosaic Idealize.ShloMosaic.TcCoe Idealize.ShloMosaic.ValueIdx Idealize.SL.Sem
open scoped BigOperators

/-! ## The input blocks of a grid point -/

/-- The input as launched. -/
def Xin (m : Mem) (c : Dev nD) : S131072x784.Idx → EReal := m ((c : Thread nD τ).loc main_arg0)

theorem pt_lt (t : Fin cfg0.N) : t.val < 64 := lt_of_lt_of_eq t.isLt N_0

/-- The row block of point `t` is rows 2048 t … 2048 t + 2047 of the launched input. -/
theorem iblk0_apply (m : Mem) (c : Dev nD) (t : Fin cfg0.N) (r : Fin 2048) (k : Fin 784) :
    (iblk (F := Ideal) m c 0 t : S2048x784.Idx → EReal) (ix2 r k)
      = Xin m c
          (ix2 (⟨t.val * 2048 + r.val, by have := pt_lt t; have := r.isLt; omega⟩ : Fin 131072) k) := by
  show V (F := Ideal) m c main_arg0 (((cfg0.win 0).blk t).view.emb (ix2 r k)) = _
  rw [V_main_arg0]
  unfold Xin
  refine congrArg _ (funext fun a => Fin.ext ?_)
  match a with
  | ⟨0, _⟩ =>
    show win0_0.index t (0 : Fin 2) * 2048 + 1 * r.val = t.val * 2048 + r.val
    rw [(idx_facts t).2.2.1]; omega
  | ⟨1, _⟩ =>
    show win0_0.index t (1 : Fin 2) * 784 + 1 * k.val = k.val
    rw [(idx_facts t).2.2.2.1]; omega

/-- The weight window's one block is the whole permuted, padded, transposed weight array. -/
theorem iblk1_eq (m : Mem) (c : Dev nD) (t : Fin cfg0.N) :
    (iblk (F := Ideal) m c 1 t : S784x256.Idx → EReal) = V (F := Ideal) m c main_v12 := by
  funext j
  show V (F := Ideal) m c main_v12 (((cfg0.win 1).blk t).view.emb j) = V (F := Ideal) m c main_v12 j
  refine congrArg _ (funext fun a => Fin.ext ?_)
  match a with
  | ⟨0, _⟩ =>
    show win0_1.index t (0 : Fin 2) * 784 + 1 * (j 0).val = (j 0).val
    rw [(idx_facts t).2.2.2.2.1]; omega
  | ⟨1, _⟩ =>
    show win0_1.index t (1 : Fin 2) * 256 + 1 * (j 1).val = (j 1).val
    rw [(idx_facts t).2.2.2.2.2.1]; omega

/-- The bias window's one block is the whole padded bias row. -/
theorem iblk2_eq (m : Mem) (c : Dev nD) (t : Fin cfg0.N) :
    (iblk (F := Ideal) m c 2 t : S1x256.Idx → EReal) = V (F := Ideal) m c main_v13 := by
  funext j
  show V (F := Ideal) m c main_v13 (((cfg0.win 2).blk t).view.emb j) = V (F := Ideal) m c main_v13 j
  refine congrArg _ (funext fun a => Fin.ext ?_)
  match a with
  | ⟨0, _⟩ =>
    show win0_2.index t (0 : Fin 2) * 1 + 1 * (j 0).val = (j 0).val
    rw [(idx_facts t).2.2.2.2.2.2.1]; omega
  | ⟨1, _⟩ =>
    show win0_2.index t (1 : Fin 2) * 256 + 1 * (j 1).val = (j 1).val
    rw [(idx_facts t).2.2.2.2.2.2.2.1]; omega

/-- The leaf window's one block is the whole permuted, padded, transposed leaf array. -/
theorem iblk3_eq (m : Mem) (c : Dev nD) (t : Fin cfg0.N) :
    (iblk (F := Ideal) m c 3 t : S256x128.Idx → EReal) = V (F := Ideal) m c main_v22 := by
  funext j
  show V (F := Ideal) m c main_v22 (((cfg0.win 3).blk t).view.emb j) = V (F := Ideal) m c main_v22 j
  refine congrArg _ (funext fun a => Fin.ext ?_)
  match a with
  | ⟨0, _⟩ =>
    show win0_3.index t (0 : Fin 2) * 256 + 1 * (j 0).val = (j 0).val
    rw [(idx_facts t).2.2.2.2.2.2.2.2.1]; omega
  | ⟨1, _⟩ =>
    show win0_3.index t (1 : Fin 2) * 128 + 1 * (j 1).val = (j 1).val
    rw [(idx_facts t).2.2.2.2.2.2.2.2.2.1]; omega

/-! ## The table of node probabilities over all rows -/

/-- Row `b` of the global table is row `b mod 2048` of the table of the tile that holds `b`. -/
def pkG (m : Mem) (c : Dev nD) (b j : ℕ) : EReal :=
  if h : b < 131072 then
    TileMath.tabT (Tile.prob (F := Ideal) (iblk m c 0 (ptOf b h)) (iblk m c 1 (ptOf b h)) (iblk m c 2 (ptOf b h))) (b % 2048) j
  else 0

theorem pk_local (m : Mem) (c : Dev nD) (t : Fin cfg0.N) (r : Fin 2048) (j : ℕ) :
    TileMath.tabT (Tile.prob (F := Ideal) (iblk m c 0 t) (iblk m c 1 t) (iblk m c 2 t)) r.val j
      = pkG m c (t.val * 2048 + r.val) j := by
  have key : ∀ (b : ℕ) (hb : b < 131072), b / 2048 = t.val → b % 2048 = r.val →
      TileMath.tabT (Tile.prob (F := Ideal) (iblk m c 0 t) (iblk m c 1 t) (iblk m c 2 t)) r.val j = pkG m c b j := by
    intro b hb h1 h2
    obtain rfl : t = ptOf b hb := Fin.ext h1.symm
    unfold pkG
    rw [dif_pos hb, h2]
  have h64 := pt_lt t
  have hr := r.isLt
  exact key _ (by omega) (by omega) (by omega)

/-- An entry of the global table: the logistic of the row's inner product with the weight row the table names, plus its bias. -/
theorem pkG_apply (m : Mem) (c : Dev nD) (b : ℕ) (hb : b < 131072) (s : ℕ) (hs : s < 255) :
    pkG m c b s = Ideal.logistic ((∑ k : Fin 784,
        Xin m c (ix2 (⟨b, hb⟩ : Fin 131072) k)
          * Wi m c (ix2 (⟨node s, node_lt _⟩ : Fin 255) (⟨k.val + 1, by have := k.isLt; omega⟩ : Fin 785)))
        + Wi m c (ix2 (⟨node s, node_lt _⟩ : Fin 255) (0 : Fin 785))) := by
  have hs' : s < 256 := by omega
  have hr : b % 2048 < 2048 := Nat.mod_lt _ (by norm_num)
  unfold pkG
  rw [dif_pos hb]
  unfold TileMath.tabT
  rw [dif_pos ⟨hr, hs'⟩, TileMath.prob_apply]
  refine congrArg Ideal.logistic (congrArg₂ (· + ·) (Finset.sum_congr rfl fun k _ => congrArg₂ (· * ·) ?_ ?_) ?_)
  · refine (iblk0_apply m c (ptOf b hb) ⟨b % 2048, hr⟩ k).trans
      (congrArg (fun i : Fin 131072 => Xin m c (ix2 i k)) (Fin.ext ?_))
    show b / 2048 * 2048 + b % 2048 = b
    omega
  · exact (congrFun (iblk1_eq m c (ptOf b hb)) _).trans ((v12_apply m c k ⟨s, hs'⟩).trans (dif_pos hs))
  · exact (congrFun (iblk2_eq m c (ptOf b hb)) _).trans ((v13_apply m c ⟨s, hs'⟩).trans (dif_pos hs))

/-! ## The kernel's table is the reference's probabilities in blocked order -/

/-- An affine form with the constant term last is the inner product with a leading one. -/
theorem logit_eq (x : Fin 784 → EReal) (w xa : Fin 785 → EReal) (h0 : xa 0 = 1) (hsucc : ∀ k : Fin 784, xa k.succ = x k) :
    (∑ k : Fin 784, x k * w k.succ) + w 0 = ∑ k : Fin 785, xa k * w k := by
  rw [Fin.sum_univ_succ (fun k : Fin 785 => xa k * w k), h0, one_mul, add_comm]
  exact congrArg (w 0 + ·) (Finset.sum_congr rfl fun k _ => by rw [hsucc])

open Cert.ReferenceIdeal.RefRead in
/-- THE BRIDGE: for launch contents that agree on the input and the weights, the kernel's global table holds at slot
    2^L - 1 + j the reference's probability of heap node 2^L - 1 + heap L j, for every layer of the tree. -/
theorem permuted (m : Mem) (c : Dev nD) (V0 : Cert.ReferenceIdeal.RefRead.Val)
    (hX : Cert.ReferenceIdeal.RefRead.X V0 = Xin m c) (hW : Cert.ReferenceIdeal.RefRead.W V0 = Wi m c)
    (b : ℕ) (hb : b < 131072) :
    Cert.Tree.Permuted (Cert.ReferenceIdeal.RefRead.tab (Cert.ReferenceIdeal.RefRead.P V0)) (pkG m c) 8 b := by
  intro L hL j hj
  have hpow : 2 ^ L ≤ 128 := (Nat.pow_le_pow_right (by norm_num) (by omega : L ≤ 7)).trans (by norm_num)
  have hpos : 1 ≤ 2 ^ L := Nat.one_le_two_pow
  have hh := Cert.Tree.heap_lt L j
  have hs : 2 ^ L - 1 + j < 255 := by omega
  have hn : 2 ^ L - 1 + Cert.Tree.heap L j < 255 := by omega
  have hnode : node (2 ^ L - 1 + j) = 2 ^ L - 1 + Cert.Tree.heap L j := node_heap ⟨L, hL⟩ ⟨j, by omega⟩ hj
  have hrow : (⟨node (2 ^ L - 1 + j), node_lt _⟩ : Fin 255) = ⟨2 ^ L - 1 + Cert.Tree.heap L j, hn⟩ := Fin.ext hnode
  rw [pkG_apply m c b hb _ hs]
  refine Eq.trans ?_ (tab_apply (P V0) (⟨b, hb⟩ : Fin 131072) (⟨2 ^ L - 1 + Cert.Tree.heap L j, hn⟩ : Fin 255)).symm
  rw [P_apply]
  refine congrArg Ideal.logistic ?_
  refine Eq.trans ?_ (logit_eq (fun k => X V0 (ix2 (⟨b, hb⟩ : Fin 131072) k))
    (fun k => W V0 (ix2 (⟨2 ^ L - 1 + Cert.Tree.heap L j, hn⟩ : Fin 255) k)) (Xa (X V0) ⟨b, hb⟩)
    (by unfold Xa; rw [dif_pos (show ((0 : Fin 785).val = 0) from rfl)])
    (fun k => by
      unfold Xa
      rw [dif_neg (by show ¬(k.val + 1 = 0); omega)]
      exact congrArg (fun i : Fin 784 => X V0 (ix2 (⟨b, hb⟩ : Fin 131072) i)) (Fin.ext (by show k.val + 1 - 1 = k.val; omega))))
  refine congrArg₂ (· + ·) (Finset.sum_congr rfl fun k _ => congrArg₂ (· * ·) ?_ ?_) ?_
  · exact (congrFun hX _).symm
  · rw [hW]
    exact congrArg (fun i : Fin 255 => Wi m c (ix2 i k.succ)) hrow
  · rw [hW]
    exact congrArg (fun i : Fin 255 => Wi m c (ix2 i (0 : Fin 785))) hrow

end Cert.KernelIdeal.Bridge
end
-- ==== Proof.BridgeY.lean ====
/-
  The score array against the reference's scores.

  Row b of the score array is written by the grid point b / 2048: the leaf path probabilities of the tile's row
  b mod 2048, in blocked order, times the leaf block. The blocked walk at slot q is the reference's walk at heap
  position heap 8 q, the leaf block's row q is the launched leaf matrix's column heap 8 q, and heap 8 permutes the
  256 positions: the sum over the slots is the reference's sum over the positions.
-/
import proofs.«148994_j9070970929349_2_alg».proof.Proof.BridgeProb
import proofs.«148994_j9070970929349_2_alg».proof.Proof.RefOut

set_option maxRecDepth 16384

noncomputable section

namespace Cert.KernelIdeal.Bridge

open Cert.KernelIdeal Cert.KernelIdeal.Gen Cert.KernelIdeal.Tree Cert.KernelIdeal.Prefix
open Idealize.ShloMosaic Idealize.ShloMosaic.TcCoe Idealize.ShloMosaic.ValueIdx Idealize.SL.Sem
open scoped BigOperators

/-! ## The score array against the reference's walk -/

open Cert.ReferenceIdeal.RefRead in
/-- The kernel's score of row `b` for class `o`: the reference's leaf path probabilities times the launched leaf
    weights. The tile's blocked walk is the global table's, which is the reference's at the heap position of each slot;
    the leaf table puts column heap 8 q at slot q; and a sum over the 256 slots does not see the order. -/
theorem kernelY_apply (m : Mem) (c : Dev nD) (V0 : Cert.ReferenceIdeal.RefRead.Val)
    (hX : Cert.ReferenceIdeal.RefRead.X V0 = Xin m c) (hW : Cert.ReferenceIdeal.RefRead.W V0 = Wi m c)
    (b : Fin 131072) (o : Fin 10) :
    (G4 (F := Ideal) m c : S131072x128.Idx → EReal) (ix2 b (⟨o.val, by have := o.isLt; omega⟩ : Fin 128))
      = ∑ q : Fin 256, Cert.Tree.walkR Cert.ReferenceIdeal.RefRead.osub
          (Cert.ReferenceIdeal.RefRead.tab (Cert.ReferenceIdeal.RefRead.P V0)) 8 b.val q.val * Wl m c (ix2 o q) := by
  have hb := b.isLt
  have ho : o.val < 128 := by have := o.isLt; omega
  have hr : b.val % 2048 < 2048 := Nat.mod_lt _ (by norm_num)
  have hbt : (ptOf b.val hb).val * 2048 + b.val % 2048 = b.val := by
    show b.val / 2048 * 2048 + b.val % 2048 = b.val
    omega
  rw [G4_at m c (ptOf b.val hb) (ix2 b (⟨o.val, ho⟩ : Fin 128)) (ix2 (⟨b.val % 2048, hr⟩ : Fin 2048) (⟨o.val, ho⟩ : Fin 128))
    hbt.symm rfl, TileMath.score_apply]
  -- the tile's walk is the reference's at the heap position
  have hwalk : ∀ q : Fin 256,
      Cert.Tree.walkK TileMath.osub (TileMath.tabT (Tile.prob (F := Ideal) (iblk m c 0 (ptOf b.val hb)) (iblk m c 1 (ptOf b.val hb))
        (iblk m c 2 (ptOf b.val hb)))) 8 (b.val % 2048) q.val
      = Cert.Tree.walkR osub (tab (P V0)) 8 b.val (Cert.Tree.heap 8 q.val) := fun q =>
    (Cert.Tree.walkK_congr TileMath.osub _ (pkG m c) (b.val % 2048) b.val
      (fun j => (pk_local m c (ptOf b.val hb) ⟨b.val % 2048, hr⟩ j).trans (congrArg (fun n => pkG m c n j) hbt)) 8 q.val).trans
      (Cert.Tree.walkK_eq osub (tab (P V0)) (pkG m c) 8 b.val (permuted m c V0 hX hW b.val hb) 8 le_rfl q.val
        (lt_of_lt_of_eq q.isLt (by norm_num)))
  -- the leaf block's row q is the launched leaf matrix's column heap 8 q
  have hleaf : ∀ q : Fin 256, (iblk (F := Ideal) m c 3 (ptOf b.val hb) : S256x128.Idx → EReal) (ix2 q (⟨o.val, ho⟩ : Fin 128))
      = Wl m c (ix2 o (⟨Cert.Tree.heap 8 q.val, Cert.Tree.heap_lt 8 q.val⟩ : Fin 256)) := fun q =>
    (congrFun (iblk3_eq m c (ptOf b.val hb)) _).trans ((v22_apply_heap m c q ⟨o.val, ho⟩).trans (dif_pos o.isLt))
  -- a function of the heap position
  let F : ℕ → EReal := fun n => if h : n < 256 then Cert.Tree.walkR osub (tab (P V0)) 8 b.val n * Wl m c (ix2 o (⟨n, h⟩ : Fin 256)) else 0
  have h1 : ∀ q : Fin 256,
      Cert.Tree.walkK TileMath.osub (TileMath.tabT (Tile.prob (F := Ideal) (iblk m c 0 (ptOf b.val hb)) (iblk m c 1 (ptOf b.val hb))
        (iblk m c 2 (ptOf b.val hb)))) 8 (b.val % 2048) q.val
        * (iblk (F := Ideal) m c 3 (ptOf b.val hb) : S256x128.Idx → EReal) (ix2 q (⟨o.val, ho⟩ : Fin 128))
      = F (Cert.Tree.heap 8 q.val) := fun q => by
    have hh : Cert.Tree.heap 8 q.val < 256 := Cert.Tree.heap_lt 8 q.val
    show _ = if h : Cert.Tree.heap 8 q.val < 256 then _ else 0
    rw [dif_pos hh, hwalk q, hleaf q]
  calc ∑ q : Fin 256, _ = ∑ q : Fin 256, F (Cert.Tree.heap 8 q.val) := Finset.sum_congr rfl (fun q _ => h1 q)
    _ = ∑ q ∈ Finset.range 256, F (Cert.Tree.heap 8 q) := Fin.sum_univ_eq_sum_range (fun n => F (Cert.Tree.heap 8 n)) 256
    _ = ∑ q ∈ Finset.range 256, F q := Cert.Tree.sum_heap F 8
    _ = ∑ q : Fin 256, F q.val := (Fin.sum_univ_eq_sum_range F 256).symm
    _ = _ := Finset.sum_congr rfl (fun q _ => by
      show (if h : q.val < 256 then _ else 0) = _
      rw [dif_pos q.isLt])

/-- The kernel's score equals the reference's, entry by entry, when the two launches agree on the three arguments. -/
theorem y_eq (m : Mem) (c : Dev nD) (V0 : Cert.ReferenceIdeal.RefRead.Val)
    (hX : Cert.ReferenceIdeal.RefRead.X V0 = Xin m c) (hW : Cert.ReferenceIdeal.RefRead.W V0 = Wi m c)
    (hL : (V0 (Proc.devRef .tc Cert.ReferenceIdeal.main_arg2) : Cert.ReferenceIdeal.S10x256.Idx → EReal) = Wl m c)
    (b : Fin 131072) (o : Fin 10) :
    (G4 (F := Ideal) m c : S131072x128.Idx → EReal) (ix2 b (⟨o.val, by have := o.isLt; omega⟩ : Fin 128))
      = (Host.dotGeneral (F := Ideal) (φ₁ := .f32) (φ₂ := .f32) Cert.ReferenceIdeal.dot_S131072x256_S256x10_S131072x10_1_0_0_1_n_n none
          (mulf (Cert.ReferenceIdeal.Value.res_main_v138 (F := Ideal) V0) (Cert.ReferenceIdeal.Value.res_main_v136 (F := Ideal) V0) : FVec Ideal Cert.ReferenceIdeal.S131072x256 .f32)
          (transpose Cert.ReferenceIdeal.S256x10 [1, 0] (V0 (Proc.devRef .tc Cert.ReferenceIdeal.main_arg2) : Cert.ReferenceIdeal.S10x256.Idx → EReal)
            Cert.ReferenceIdeal.Gen.transposes_S10x256_S256x10_1_0) : FVec Ideal Cert.ReferenceIdeal.S131072x10 .f32)
          (ix2 b o) := by
  refine (kernelY_apply m c V0 hX hW b o).trans (Eq.symm ?_)
  refine (Cert.ReferenceIdeal.RefOut.refY_apply V0 b o).trans ?_
  rw [hL]

end Cert.KernelIdeal.Bridge
end
-- ==== Proof.BridgeStats.lean ====
/-
  The additive form of a tile's update of the two statistics.  Every lane of a statistic's block belongs to one layer
  (layer L's 2^(L+1) positions at lanes 2^(L+1) - 2 …); what a tile leaves there is what was there plus, for that
  layer and position, the sum over the tile's rows of step times parent path probability (first statistic) or of the
  parent path probability (second statistic), both as the blocked walk over the tile's node probabilities.
-/
import proofs.«148994_j9070970929349_2_alg».proof.Proof.KernelStats
import proofs.«148994_j9070970929349_2_alg».proof.Proof.TileMath

noncomputable section

namespace Cert.KernelIdeal.Bridge

open Cert.KernelIdeal Cert.KernelIdeal.Gen Cert.KernelIdeal.TileMath
open Idealize.ShloMosaic Idealize.ShloMosaic.ValueIdx
open scoped BigOperators

/-- One branch: the layer's stored payload over the layer's lanes of what was there, read at a lane of the layer. -/
theorem branch_gen {n : ℕ} (off : ℕ)
    (inb : ∀ a, (![0, 0, off] : Fin 3 → ℕ) a + (⟨3, ![1, 1, n]⟩ : Shape).size a ≤ S1x1x510.size a)
    (prev : Vec Ideal S1x1x510 .f32) (f : Vec Ideal ⟨3, ![1, 1, n]⟩ .f32 → FVec Ideal ⟨3, ![1, 1, n]⟩ .f32) (T : ℕ → EReal)
    (hf : ∀ (pv : Vec Ideal ⟨3, ![1, 1, n]⟩ .f32) (q : Fin n),
      f pv (ix3 (0 : Fin 1) (0 : Fin 1) q) = pv (ix3 (0 : Fin 1) (0 : Fin 1) q) + T q.val)
    (y : S1x1x510.Idx) (hlo : off ≤ (y 2).val) (hhi : (y 2).val - off < n) :
    Cert.KernelIdeal.Tree.at3 (f (View.ld prev (Rect.unit (s := S1x1x510) ![0, 0, off] (⟨3, ![1, 1, n]⟩ : Shape).size inb)))
        (prev y) ((y 2).val - off)
      = prev y + T ((y 2).val - off) := by
  unfold Cert.KernelIdeal.Tree.at3
  rw [dif_pos hhi, hf]
  refine congrArg (fun z => z + T ((y 2).val - off)) ?_
  show prev ((Rect.unit (s := S1x1x510) ![0, 0, off] (⟨3, ![1, 1, n]⟩ : Shape).size inb).idx
    (ix3 (0 : Fin 1) (0 : Fin 1) ⟨(y 2).val - off, hhi⟩)) = prev y
  refine congrArg prev (funext fun a => Fin.ext ?_)
  match a with
  | ⟨0, _⟩ => have h : (y 0).val < 1 := (y 0).isLt; show 0 + 1 * 0 = (y 0).val; omega
  | ⟨1, _⟩ => have h : (y 1).val < 1 := (y 1).isLt; show 0 + 1 * 0 = (y 1).val; omega
  | ⟨2, _⟩ => show off + 1 * ((y 2).val - off) = (y 2).val; omega

section Tile

variable (x0 : Vec Ideal S2048x784 .f32) (x1 : Vec Ideal S784x256 .f32) (x2 : Vec Ideal S1x256 .f32)

/-- The tile's addend to the first statistic at position `q` of layer `L` … -/
def lsum5 (L q : ℕ) : EReal :=
  ∑ r : Fin 2048, Cert.Tree.stepK osub (tabT (Tile.prob (F := Ideal) x0 x1 x2)) L r.val q * Cert.Tree.walkK osub (tabT (Tile.prob (F := Ideal) x0 x1 x2)) L r.val (q % 2 ^ L)

/-- … and to the second. -/
def lsum6 (L q : ℕ) : EReal :=
  ∑ r : Fin 2048, Cert.Tree.walkK osub (tabT (Tile.prob (F := Ideal) x0 x1 x2)) L r.val (q % 2 ^ L)

/-- The tile's addend to the first statistic, lane by lane. -/
def tsum5 : S1x1x510.Idx → EReal := fun y =>
  if (y 2).val < 2 then lsum5 x0 x1 x2 0 ((y 2).val - 0)
  else if (y 2).val < 6 then lsum5 x0 x1 x2 1 ((y 2).val - 2)
  else if (y 2).val < 14 then lsum5 x0 x1 x2 2 ((y 2).val - 6)
  else if (y 2).val < 30 then lsum5 x0 x1 x2 3 ((y 2).val - 14)
  else if (y 2).val < 62 then lsum5 x0 x1 x2 4 ((y 2).val - 30)
  else if (y 2).val < 126 then lsum5 x0 x1 x2 5 ((y 2).val - 62)
  else if (y 2).val < 254 then lsum5 x0 x1 x2 6 ((y 2).val - 126)
  else lsum5 x0 x1 x2 7 ((y 2).val - 254)

/-- The tile's addend to the second statistic, lane by lane. -/
def tsum6 : S1x1x510.Idx → EReal := fun y =>
  if (y 2).val < 2 then lsum6 x0 x1 x2 0 ((y 2).val - 0)
  else if (y 2).val < 6 then lsum6 x0 x1 x2 1 ((y 2).val - 2)
  else if (y 2).val < 14 then lsum6 x0 x1 x2 2 ((y 2).val - 6)
  else if (y 2).val < 30 then lsum6 x0 x1 x2 3 ((y 2).val - 14)
  else if (y 2).val < 62 then lsum6 x0 x1 x2 4 ((y 2).val - 30)
  else if (y 2).val < 126 then lsum6 x0 x1 x2 5 ((y 2).val - 62)
  else if (y 2).val < 254 then lsum6 x0 x1 x2 6 ((y 2).val - 126)
  else lsum6 x0 x1 x2 7 ((y 2).val - 254)

theorem stat5_add (prev : Vec Ideal S1x1x510 .f32) (y : S1x1x510.Idx) :
    Cert.KernelIdeal.Tree.stat5 (F := Ideal) x0 x1 x2 prev y = prev y + tsum5 x0 x1 x2 y := by
  have hy : (y 2).val < 510 := (y 2).isLt
  unfold Cert.KernelIdeal.Tree.stat5 tsum5
  by_cases h0 : (y 2).val < 2
  · rw [if_pos h0, if_pos h0]
    exact branch_gen 0 inb_S1x1x510_S1x1x2_0_0_0 prev _ (lsum5 x0 x1 x2 0) (fun pv q => slp0_apply x0 x1 x2 pv q) y (by omega) (by omega)
  · rw [if_neg h0, if_neg h0]
    by_cases h1 : (y 2).val < 6
    · rw [if_pos h1, if_pos h1]
      exact branch_gen 2 inb_S1x1x510_S1x1x4_0_0_2 prev _ (lsum5 x0 x1 x2 1) (fun pv q => slp1_apply x0 x1 x2 pv q) y (by omega) (by omega)
    · rw [if_neg h1, if_neg h1]
      by_cases h2 : (y 2).val < 14
      · rw [if_pos h2, if_pos h2]
        exact branch_gen 6 inb_S1x1x510_S1x1x8_0_0_6 prev _ (lsum5 x0 x1 x2 2) (fun pv q => slp2_apply x0 x1 x2 pv q) y (by omega) (by omega)
      · rw [if_neg h2, if_neg h2]
        by_cases h3 : (y 2).val < 30
        · rw [if_pos h3, if_pos h3]
          exact branch_gen 14 inb_S1x1x510_S1x1x16_0_0_14 prev _ (lsum5 x0 x1 x2 3) (fun pv q => slp3_apply x0 x1 x2 pv q) y (by omega) (by omega)
        · rw [if_neg h3, if_neg h3]
          by_cases h4 : (y 2).val < 62
          · rw [if_pos h4, if_pos h4]
            exact branch_gen 30 inb_S1x1x510_S1x1x32_0_0_30 prev _ (lsum5 x0 x1 x2 4) (fun pv q => slp4_apply x0 x1 x2 pv q) y (by omega) (by omega)
          · rw [if_neg h4, if_neg h4]
            by_cases h5 : (y 2).val < 126
            · rw [if_pos h5, if_pos h5]
              exact branch_gen 62 inb_S1x1x510_S1x1x64_0_0_62 prev _ (lsum5 x0 x1 x2 5) (fun pv q => slp5_apply x0 x1 x2 pv q) y (by omega) (by omega)
            · rw [if_neg h5, if_neg h5]
              by_cases h6 : (y 2).val < 254
              · rw [if_pos h6, if_pos h6]
                exact branch_gen 126 inb_S1x1x510_S1x1x128_0_0_126 prev _ (lsum5 x0 x1 x2 6) (fun pv q => slp6_apply x0 x1 x2 pv q) y (by omega) (by omega)
              · rw [if_neg h6, if_neg h6]
                exact branch_gen 254 inb_S1x1x510_S1x1x256_0_0_254 prev _ (lsum5 x0 x1 x2 7) (fun pv q => slp7_apply x0 x1 x2 pv q) y (by omega) (by omega)

theorem stat6_add (prev : Vec Ideal S1x1x510 .f32) (y : S1x1x510.Idx) :
    Cert.KernelIdeal.Tree.stat6 (F := Ideal) x0 x1 x2 prev y = prev y + tsum6 x0 x1 x2 y := by
  have hy : (y 2).val < 510 := (y 2).isLt
  unfold Cert.KernelIdeal.Tree.stat6 tsum6
  by_cases h0 : (y 2).val < 2
  · rw [if_pos h0, if_pos h0]
    exact branch_gen 0 inb_S1x1x510_S1x1x2_0_0_0 prev _ (lsum6 x0 x1 x2 0) (fun pv q => smu0_apply x0 x1 x2 pv q) y (by omega) (by omega)
  · rw [if_neg h0, if_neg h0]
    by_cases h1 : (y 2).val < 6
    · rw [if_pos h1, if_pos h1]
      exact branch_gen 2 inb_S1x1x510_S1x1x4_0_0_2 prev _ (lsum6 x0 x1 x2 1) (fun pv q => smu1_apply x0 x1 x2 pv q) y (by omega) (by omega)
    · rw [if_neg h1, if_neg h1]
      by_cases h2 : (y 2).val < 14
      · rw [if_pos h2, if_pos h2]
        exact branch_gen 6 inb_S1x1x510_S1x1x8_0_0_6 prev _ (lsum6 x0 x1 x2 2) (fun pv q => smu2_apply x0 x1 x2 pv q) y (by omega) (by omega)
      · rw [if_neg h2, if_neg h2]
        by_cases h3 : (y 2).val < 30
        · rw [if_pos h3, if_pos h3]
          exact branch_gen 14 inb_S1x1x510_S1x1x16_0_0_14 prev _ (lsum6 x0 x1 x2 3) (fun pv q => smu3_apply x0 x1 x2 pv q) y (by omega) (by omega)
        · rw [if_neg h3, if_neg h3]
          by_cases h4 : (y 2).val < 62
          · rw [if_pos h4, if_pos h4]
            exact branch_gen 30 inb_S1x1x510_S1x1x32_0_0_30 prev _ (lsum6 x0 x1 x2 4) (fun pv q => smu4_apply x0 x1 x2 pv q) y (by omega) (by omega)
          · rw [if_neg h4, if_neg h4]
            by_cases h5 : (y 2).val < 126
            · rw [if_pos h5, if_pos h5]
              exact branch_gen 62 inb_S1x1x510_S1x1x64_0_0_62 prev _ (lsum6 x0 x1 x2 5) (fun pv q => smu5_apply x0 x1 x2 pv q) y (by omega) (by omega)
            · rw [if_neg h5, if_neg h5]
              by_cases h6 : (y 2).val < 254
              · rw [if_pos h6, if_pos h6]
                exact branch_gen 126 inb_S1x1x510_S1x1x128_0_0_126 prev _ (lsum6 x0 x1 x2 6) (fun pv q => smu6_apply x0 x1 x2 pv q) y (by omega) (by omega)
              · rw [if_neg h6, if_neg h6]
                exact branch_gen 254 inb_S1x1x510_S1x1x256_0_0_254 prev _ (lsum6 x0 x1 x2 7) (fun pv q => smu7_apply x0 x1 x2 pv q) y (by omega) (by omega)

/-- The block a half starts from: zero in every lane. -/
theorem zero4_apply (y : S1x1x510.Idx) : k0_pay4 (F := Ideal) y = 0 := Ideal.ofBits_zero_f32
theorem zero5_apply (y : S1x1x510.Idx) : k0_pay5 (F := Ideal) y = 0 := Ideal.ofBits_zero_f32

/-- At the first tile of a half the statistics are zero plus the tile's addends. -/
theorem stat5_zero (y : S1x1x510.Idx) :
    Cert.KernelIdeal.Tree.stat5 (F := Ideal) x0 x1 x2 (k0_pay4 (F := Ideal)) y = 0 + tsum5 x0 x1 x2 y := by
  rw [stat5_add, zero4_apply]

theorem stat6_zero (y : S1x1x510.Idx) :
    Cert.KernelIdeal.Tree.stat6 (F := Ideal) x0 x1 x2 (k0_pay5 (F := Ideal)) y = 0 + tsum6 x0 x1 x2 y := by
  rw [stat6_add, zero5_apply]

end Tile

end Cert.KernelIdeal.Bridge

end
-- ==== Proof.BridgeAcc.lean ====
/-
  The two statistics arrays after the run, in additive form.  Half h's block is the fold of the tile update over the
  half's 32 tiles from the zero block, and each tile's update adds that tile's addends; so every lane holds zero plus
  the sum over the 32 tiles of the tile's addend at that lane.  And the three nested sums — halves, tiles of a half,
  rows of a tile — are one sum over the rows of the batch.
-/
import proofs.«148994_j9070970929349_2_alg».proof.Proof.KernelAcc
import proofs.«148994_j9070970929349_2_alg».proof.Proof.BridgeStats

noncomputable section

namespace Cert.KernelIdeal.Bridge

open Cert.KernelIdeal Cert.KernelIdeal.Gen Cert.KernelIdeal.Tree
open Idealize.ShloMosaic Idealize.ShloMosaic.ValueIdx
open scoped BigOperators

section Fold

variable (m : (ℓ : Loc nD τ sig) → Buf (Elt Ideal) ℓ) (c : Dev nD)

/-- Point `n`'s addend to statistic one, lane by lane (zero past the grid). -/
def Mt5 (n : ℕ) : S1x1x510.Idx → EReal := fun y =>
  if hn : n < cfg0.N then
    tsum5 (iblk (F := Ideal) m c 0 ⟨n, hn⟩) (iblk (F := Ideal) m c 1 ⟨n, hn⟩) (iblk (F := Ideal) m c 2 ⟨n, hn⟩) y
  else 0

theorem reset5_add (n : ℕ) (hn : n < cfg0.N) (y : S1x1x510.Idx) :
    reset5 (F := Ideal) m c n hn y = 0 + Mt5 m c n y := by
  unfold Mt5
  rw [dif_pos hn]
  exact stat5_zero _ _ _ y

theorem update5_add (n : ℕ) (hn : n < cfg0.N) (acc : Vec Ideal S1x1x510 .f32) (y : S1x1x510.Idx) :
    update5 (F := Ideal) m c n hn acc y = acc y + Mt5 m c n y := by
  unfold Mt5
  rw [dif_pos hn]
  exact stat5_add _ _ _ acc y

/-- Half `h`'s block of statistic one after the run: zero plus its 32 tiles' addends. -/
theorem G5_apply (h : Fin 2) (lane : Fin 510) :
    (G5 (F := Ideal) m c : S2x1x510.Idx → EReal) (ix3 h (0 : Fin 1) lane)
      = 0 + ∑ s ∈ Finset.range 32, Mt5 m c (32 * h.val + s) (ix3 (0 : Fin 1) (0 : Fin 1) lane) := by
  unfold G5
  exact Pipeline.accAt_add_apply (ι := S1x1x510.Idx) (β := EReal) (reset5 (F := Ideal) m c) (update5 (F := Ideal) m c)
    (fun _ => 0) (Mt5 m c) (32 * h.val) 31
    (fun hb y => reset5_add m c _ hb y)
    (fun n hn acc y _ _ => update5_add m c n hn acc y)
    31 le_rfl _ (ix3 (0 : Fin 1) (0 : Fin 1) lane)

/-- Point `n`'s addend to statistic two, lane by lane (zero past the grid). -/
def Mt6 (n : ℕ) : S1x1x510.Idx → EReal := fun y =>
  if hn : n < cfg0.N then
    tsum6 (iblk (F := Ideal) m c 0 ⟨n, hn⟩) (iblk (F := Ideal) m c 1 ⟨n, hn⟩) (iblk (F := Ideal) m c 2 ⟨n, hn⟩) y
  else 0

theorem reset6_add (n : ℕ) (hn : n < cfg0.N) (y : S1x1x510.Idx) :
    reset6 (F := Ideal) m c n hn y = 0 + Mt6 m c n y := by
  unfold Mt6
  rw [dif_pos hn]
  exact stat6_zero _ _ _ y

theorem update6_add (n : ℕ) (hn : n < cfg0.N) (acc : Vec Ideal S1x1x510 .f32) (y : S1x1x510.Idx) :
    update6 (F := Ideal) m c n hn acc y = acc y + Mt6 m c n y := by
  unfold Mt6
  rw [dif_pos hn]
  exact stat6_add _ _ _ acc y

/-- Half `h`'s block of statistic two after the run: zero plus its 32 tiles' addends. -/
theorem G6_apply (h : Fin 2) (lane : Fin 510) :
    (G6 (F := Ideal) m c : S2x1x510.Idx → EReal) (ix3 h (0 : Fin 1) lane)
      = 0 + ∑ s ∈ Finset.range 32, Mt6 m c (32 * h.val + s) (ix3 (0 : Fin 1) (0 : Fin 1) lane) := by
  unfold G6
  exact Pipeline.accAt_add_apply (ι := S1x1x510.Idx) (β := EReal) (reset6 (F := Ideal) m c) (update6 (F := Ideal) m c)
    (fun _ => 0) (Mt6 m c) (32 * h.val) 31
    (fun hb y => reset6_add m c _ hb y)
    (fun n hn acc y _ _ => update6_add m c n hn acc y)
    31 le_rfl _ (ix3 (0 : Fin 1) (0 : Fin 1) lane)

end Fold

/-! ## Regrouping the sums -/

/-- A sum over the first `n * k` naturals is the double sum over `n` blocks of `k`. -/
theorem sum_range_mul {M : Type} [AddCommMonoid M] (g : ℕ → M) (k : ℕ) : ∀ n : ℕ,
    ∑ i ∈ Finset.range (n * k), g i = ∑ p ∈ Finset.range n, ∑ r ∈ Finset.range k, g (p * k + r)
  | 0 => by simp
  | n + 1 => by
    rw [Nat.succ_mul, Finset.sum_range_add, sum_range_mul g k n, Finset.sum_range_succ]

/-- Halves, tiles of a half, rows of a tile: one sum over the rows of the batch. -/
theorem regroup (f : ℕ → EReal) :
    ∑ h : Fin 2, (0 + ∑ s ∈ Finset.range 32, ∑ r : Fin 2048, f ((32 * h.val + s) * 2048 + r.val))
      = ∑ b : Fin 131072, f b.val := by
  have e1 : ∀ h s : ℕ, ∑ r : Fin 2048, f ((32 * h + s) * 2048 + r.val)
      = ∑ r ∈ Finset.range 2048, f ((32 * h + s) * 2048 + r) :=
    fun h s => Fin.sum_univ_eq_sum_range (fun r => f ((32 * h + s) * 2048 + r)) 2048
  calc ∑ h : Fin 2, (0 + ∑ s ∈ Finset.range 32, ∑ r : Fin 2048, f ((32 * h.val + s) * 2048 + r.val))
      = ∑ h ∈ Finset.range 2, ∑ s ∈ Finset.range 32, ∑ r ∈ Finset.range 2048, f ((h * 32 + s) * 2048 + r) := by
        rw [← Fin.sum_univ_eq_sum_range
          (fun h => ∑ s ∈ Finset.range 32, ∑ r ∈ Finset.range 2048, f ((h * 32 + s) * 2048 + r)) 2]
        refine Finset.sum_congr rfl fun h _ => ?_
        rw [zero_add]
        refine Finset.sum_congr rfl fun s _ => ?_
        rw [e1, Nat.mul_comm 32 h.val]
    _ = ∑ p ∈ Finset.range (2 * 32), ∑ r ∈ Finset.range 2048, f (p * 2048 + r) :=
        (sum_range_mul (fun p => ∑ r ∈ Finset.range 2048, f (p * 2048 + r)) 32 2).symm
    _ = ∑ i ∈ Finset.range (2 * 32 * 2048), f i := (sum_range_mul f 2048 (2 * 32)).symm
    _ = ∑ b : Fin 131072, f b.val := (Fin.sum_univ_eq_sum_range f 131072).symm

end Cert.KernelIdeal.Bridge

end
-- ==== Proof.BridgeCol.lean ====
/-
  The statistics arrays against the reference, column by column.  A lane of a statistic belongs to one position q
  of one layer L.  Summed over the two halves of the batch, what the run leaves there is the sum over all rows of the
  batch of the blocked walk's step times parent (or parent) at that position; the blocked walk of a row over the
  kernel's permuted table is the reference's interleaved walk at heap position heap (L + 1) q.
-/
import proofs.«148994_j9070970929349_2_alg».proof.Proof.BridgeAcc
import proofs.«148994_j9070970929349_2_alg».proof.Proof.BridgeProb

set_option maxRecDepth 16384

noncomputable section

namespace Cert.KernelIdeal.Bridge

open Cert.KernelIdeal Cert.KernelIdeal.Gen Cert.KernelIdeal.Tree Cert.KernelIdeal.Prefix Cert.KernelIdeal.TileMath
open Idealize.ShloMosaic Idealize.ShloMosaic.ValueIdx
open scoped BigOperators

/-- The two "one minus" are one function. -/
theorem osub_eq : Cert.KernelIdeal.TileMath.osub = Cert.ReferenceIdeal.RefRead.osub := rfl

section Lanes

variable (x0 : Vec Ideal S2048x784 .f32) (x1 : Vec Ideal S784x256 .f32) (x2 : Vec Ideal S1x256 .f32)

/-- The lane of position `q` of layer `L` holds that layer's addend at `q`. -/
theorem tsum5_at (L : ℕ) (hL : L < 8) (q : ℕ) (hq : q < 2 ^ (L + 1)) (y : S1x1x510.Idx)
    (hy : (y 2).val = 2 ^ (L + 1) - 2 + q) : tsum5 x0 x1 x2 y = lsum5 x0 x1 x2 L q := by
  unfold tsum5
  interval_cases L <;> norm_num at hq hy <;> split_ifs <;> first | omega | (congr 1 <;> omega)

theorem tsum6_at (L : ℕ) (hL : L < 8) (q : ℕ) (hq : q < 2 ^ (L + 1)) (y : S1x1x510.Idx)
    (hy : (y 2).val = 2 ^ (L + 1) - 2 + q) : tsum6 x0 x1 x2 y = lsum6 x0 x1 x2 L q := by
  unfold tsum6
  interval_cases L <;> norm_num at hq hy <;> split_ifs <;> first | omega | (congr 1 <;> omega)

end Lanes

section Cols

variable (m : Mem) (c : Dev nD)

/-- Row `b`'s contribution to statistic one at position `q` of layer `L`, in the reference's order. -/
def F5 (V0 : Cert.ReferenceIdeal.RefRead.Val) (L q b : ℕ) : EReal :=
  Cert.Tree.stepR Cert.ReferenceIdeal.RefRead.osub (Cert.ReferenceIdeal.RefRead.tab (Cert.ReferenceIdeal.RefRead.P V0)) L b (Cert.Tree.heap (L + 1) q) * Cert.Tree.walkR Cert.ReferenceIdeal.RefRead.osub (Cert.ReferenceIdeal.RefRead.tab (Cert.ReferenceIdeal.RefRead.P V0)) L b (Cert.Tree.heap (L + 1) q / 2)

/-- A tile's addend at the lane of position `q` of layer `L`: the tile's rows' contributions. -/
theorem Mt5_col (V0 : Cert.ReferenceIdeal.RefRead.Val) (hX : Cert.ReferenceIdeal.RefRead.X V0 = Xin m c) (hW : Cert.ReferenceIdeal.RefRead.W V0 = Wi m c)
    (L : ℕ) (hL : L < 8) (q : ℕ) (hq : q < 2 ^ (L + 1)) (hlane : 2 ^ (L + 1) - 2 + q < 510) (n : ℕ) (hn : n < 64) :
    Mt5 m c n (ix3 (0 : Fin 1) (0 : Fin 1) ⟨2 ^ (L + 1) - 2 + q, hlane⟩)
      = ∑ r : Fin 2048, F5 V0 L q (n * 2048 + r.val) := by
  have hN : n < cfg0.N := lt_of_lt_of_eq hn (show cfg0.N = 64 from N_0).symm
  unfold Mt5
  rw [dif_pos hN, tsum5_at _ _ _ L hL q hq _ rfl]
  unfold lsum5 F5
  refine Finset.sum_congr rfl fun r _ => ?_
  have hr := r.isLt
  have hb : n * 2048 + r.val < 131072 := by omega
  have hloc : ∀ j, tabT (Tile.prob (F := Ideal) (iblk (F := Ideal) m c 0 ⟨n, hN⟩) (iblk (F := Ideal) m c 1 ⟨n, hN⟩) (iblk (F := Ideal) m c 2 ⟨n, hN⟩)) r.val j = pkG m c (n * 2048 + r.val) j :=
    fun j => pk_local m c ⟨n, hN⟩ r j
  have hperm := permuted m c V0 hX hW (n * 2048 + r.val) hb
  rw [Cert.Tree.stepK_congr osub _ (pkG m c) r.val (n * 2048 + r.val) hloc L q,
    Cert.Tree.walkK_congr osub _ (pkG m c) r.val (n * 2048 + r.val) hloc L (q % 2 ^ L), osub_eq,
    Cert.Tree.stepK_eq Cert.ReferenceIdeal.RefRead.osub (Cert.ReferenceIdeal.RefRead.tab (Cert.ReferenceIdeal.RefRead.P V0)) (pkG m c) 8 _ hperm L hL q hq,
    Cert.Tree.parentK_eq Cert.ReferenceIdeal.RefRead.osub (Cert.ReferenceIdeal.RefRead.tab (Cert.ReferenceIdeal.RefRead.P V0)) (pkG m c) 8 _ hperm L (le_of_lt hL) q hq]

/-- Statistic one summed over the two halves, at the lane of position `q` of layer `L`: the sum over
    the rows of the batch of the reference's contribution at heap position `heap (L + 1) q`. -/
theorem col5_eq (V0 : Cert.ReferenceIdeal.RefRead.Val) (hX : Cert.ReferenceIdeal.RefRead.X V0 = Xin m c) (hW : Cert.ReferenceIdeal.RefRead.W V0 = Wi m c)
    (L : ℕ) (hL : L < 8) (q : ℕ) (hq : q < 2 ^ (L + 1)) (hlane : 2 ^ (L + 1) - 2 + q < 510) :
    ∑ h : Fin 2, (G5 (F := Ideal) m c : S2x1x510.Idx → EReal) (ix3 h (0 : Fin 1) ⟨2 ^ (L + 1) - 2 + q, hlane⟩)
      = ∑ b : Fin 131072, Cert.Tree.stepR Cert.ReferenceIdeal.RefRead.osub (Cert.ReferenceIdeal.RefRead.tab (Cert.ReferenceIdeal.RefRead.P V0)) L b.val (Cert.Tree.heap (L + 1) q) * Cert.Tree.walkR Cert.ReferenceIdeal.RefRead.osub (Cert.ReferenceIdeal.RefRead.tab (Cert.ReferenceIdeal.RefRead.P V0)) L b.val (Cert.Tree.heap (L + 1) q / 2) := by
  show _ = ∑ b : Fin 131072, F5 V0 L q b.val
  rw [← regroup (F5 V0 L q)]
  refine Finset.sum_congr rfl fun h _ => ?_
  rw [G5_apply]
  refine congrArg (fun z => 0 + z) (Finset.sum_congr rfl fun s hs => ?_)
  have hs' := Finset.mem_range.mp hs
  have hh := h.isLt
  exact Mt5_col m c V0 hX hW L hL q hq hlane (32 * h.val + s) (by omega)

/-- Row `b`'s contribution to statistic two at position `q` of layer `L`, in the reference's order. -/
def F6 (V0 : Cert.ReferenceIdeal.RefRead.Val) (L q b : ℕ) : EReal :=
  Cert.Tree.walkR Cert.ReferenceIdeal.RefRead.osub (Cert.ReferenceIdeal.RefRead.tab (Cert.ReferenceIdeal.RefRead.P V0)) L b (Cert.Tree.heap (L + 1) q / 2)

/-- A tile's addend at the lane of position `q` of layer `L`: the tile's rows' contributions. -/
theorem Mt6_col (V0 : Cert.ReferenceIdeal.RefRead.Val) (hX : Cert.ReferenceIdeal.RefRead.X V0 = Xin m c) (hW : Cert.ReferenceIdeal.RefRead.W V0 = Wi m c)
    (L : ℕ) (hL : L < 8) (q : ℕ) (hq : q < 2 ^ (L + 1)) (hlane : 2 ^ (L + 1) - 2 + q < 510) (n : ℕ) (hn : n < 64) :
    Mt6 m c n (ix3 (0 : Fin 1) (0 : Fin 1) ⟨2 ^ (L + 1) - 2 + q, hlane⟩)
      = ∑ r : Fin 2048, F6 V0 L q (n * 2048 + r.val) := by
  have hN : n < cfg0.N := lt_of_lt_of_eq hn (show cfg0.N = 64 from N_0).symm
  unfold Mt6
  rw [dif_pos hN, tsum6_at _ _ _ L hL q hq _ rfl]
  unfold lsum6 F6
  refine Finset.sum_congr rfl fun r _ => ?_
  have hr := r.isLt
  have hb : n * 2048 + r.val < 131072 := by omega
  have hloc : ∀ j, tabT (Tile.prob (F := Ideal) (iblk (F := Ideal) m c 0 ⟨n, hN⟩) (iblk (F := Ideal) m c 1 ⟨n, hN⟩) (iblk (F := Ideal) m c 2 ⟨n, hN⟩)) r.val j = pkG m c (n * 2048 + r.val) j :=
    fun j => pk_local m c ⟨n, hN⟩ r j
  have hperm := permuted m c V0 hX hW (n * 2048 + r.val) hb
  rw [Cert.Tree.walkK_congr osub _ (pkG m c) r.val (n * 2048 + r.val) hloc L (q % 2 ^ L), osub_eq,
    Cert.Tree.parentK_eq Cert.ReferenceIdeal.RefRead.osub (Cert.ReferenceIdeal.RefRead.tab (Cert.ReferenceIdeal.RefRead.P V0)) (pkG m c) 8 _ hperm L (le_of_lt hL) q hq]

/-- Statistic two summed over the two halves, at the lane of position `q` of layer `L`: the sum over
    the rows of the batch of the reference's contribution at heap position `heap (L + 1) q`. -/
theorem col6_eq (V0 : Cert.ReferenceIdeal.RefRead.Val) (hX : Cert.ReferenceIdeal.RefRead.X V0 = Xin m c) (hW : Cert.ReferenceIdeal.RefRead.W V0 = Wi m c)
    (L : ℕ) (hL : L < 8) (q : ℕ) (hq : q < 2 ^ (L + 1)) (hlane : 2 ^ (L + 1) - 2 + q < 510) :
    ∑ h : Fin 2, (G6 (F := Ideal) m c : S2x1x510.Idx → EReal) (ix3 h (0 : Fin 1) ⟨2 ^ (L + 1) - 2 + q, hlane⟩)
      = ∑ b : Fin 131072, Cert.Tree.walkR Cert.ReferenceIdeal.RefRead.osub (Cert.ReferenceIdeal.RefRead.tab (Cert.ReferenceIdeal.RefRead.P V0)) L b.val (Cert.Tree.heap (L + 1) q / 2) := by
  show _ = ∑ b : Fin 131072, F6 V0 L q b.val
  rw [← regroup (F6 V0 L q)]
  refine Finset.sum_congr rfl fun h _ => ?_
  rw [G6_apply]
  refine congrArg (fun z => 0 + z) (Finset.sum_congr rfl fun s hs => ?_)
  have hs' := Finset.mem_range.mp hs
  have hh := h.isLt
  exact Mt6_col m c V0 hX hW L hL q hq hlane (32 * h.val + s) (by omega)

end Cols

end Cert.KernelIdeal.Bridge

end
-- ==== Proof.BridgeAlpha.lean ====
/-
  The kernel's eight ratio vectors against the reference's.

  The two statistics, summed over the two halves of the batch, are sums over all rows of the blocked walk's step times
  parent, and of the parent; slot q of layer L is the reference's position heap (L+1) q, so the kernel's ratio at slot
  q is the reference's ratio at that position.
-/
import proofs.«148994_j9070970929349_2_alg».proof.Proof.BridgeCol
import proofs.«148994_j9070970929349_2_alg».proof.Proof.HostTail
import proofs.«148994_j9070970929349_2_alg».proof.Proof.RefRead

set_option maxRecDepth 16384

noncomputable section

namespace Cert.KernelIdeal.Bridge

open Cert.KernelIdeal Cert.KernelIdeal.Gen Cert.KernelIdeal.Tree Cert.KernelIdeal.Prefix
open Idealize.ShloMosaic Idealize.ShloMosaic.TcCoe Idealize.ShloMosaic.ValueIdx Idealize.SL.Sem
open scoped BigOperators

/-! ## The eight ratio vectors

Layer L's ratio vector on the kernel's side divides, lane by lane, the two statistics summed over the two halves of
the batch; slot q of the layer is position heap (L+1) q of the reference's vector. -/

theorem alpha0_eq (m : Mem) (c : Dev nD) (V0 : Cert.ReferenceIdeal.RefRead.Val)
    (hX : Cert.ReferenceIdeal.RefRead.X V0 = Xin m c) (hW : Cert.ReferenceIdeal.RefRead.W V0 = Prefix.Wi m c) :
    ∀ q q' : Fin 2, q'.val = Cert.Tree.heap 1 q.val →
      Cert.KernelIdeal.Tail.alphaK0 (G5 (F := Ideal) m c) (G6 (F := Ideal) m c) (ix1 q)
        = (Cert.ReferenceIdeal.Value.res_main_v23 (F := Ideal) V0 : FVec Ideal Cert.KernelIdeal.S2 .f32) (ix1 q') := by
  intro q q' hq'
  have hq : q.val < 2 ^ (0 + 1) := q.isLt
  refine (Cert.KernelIdeal.Tail.alphaK0_apply _ _ q).trans ?_
  rw [Cert.ReferenceIdeal.RefRead.alpha0_apply V0 q', hq']
  exact congrArg₂ Ideal.div (col5_eq m c V0 hX hW 0 (by norm_num) q.val hq (by have := q.isLt; norm_num; omega))
    (col6_eq m c V0 hX hW 0 (by norm_num) q.val hq (by have := q.isLt; norm_num; omega))

theorem alpha1_eq (m : Mem) (c : Dev nD) (V0 : Cert.ReferenceIdeal.RefRead.Val)
    (hX : Cert.ReferenceIdeal.RefRead.X V0 = Xin m c) (hW : Cert.ReferenceIdeal.RefRead.W V0 = Prefix.Wi m c) :
    ∀ q q' : Fin 4, q'.val = Cert.Tree.heap 2 q.val →
      Cert.KernelIdeal.Tail.alphaK1 (G5 (F := Ideal) m c) (G6 (F := Ideal) m c) (ix1 q)
        = (Cert.ReferenceIdeal.Value.res_main_v40 (F := Ideal) V0 : FVec Ideal Cert.KernelIdeal.S4 .f32) (ix1 q') := by
  intro q q' hq'
  have hq : q.val < 2 ^ (1 + 1) := q.isLt
  refine (Cert.KernelIdeal.Tail.alphaK1_apply _ _ q).trans ?_
  rw [Cert.ReferenceIdeal.RefRead.alpha1_apply V0 q', hq']
  exact congrArg₂ Ideal.div (col5_eq m c V0 hX hW 1 (by norm_num) q.val hq (by have := q.isLt; norm_num; omega))
    (col6_eq m c V0 hX hW 1 (by norm_num) q.val hq (by have := q.isLt; norm_num; omega))

theorem alpha2_eq (m : Mem) (c : Dev nD) (V0 : Cert.ReferenceIdeal.RefRead.Val)
    (hX : Cert.ReferenceIdeal.RefRead.X V0 = Xin m c) (hW : Cert.ReferenceIdeal.RefRead.W V0 = Prefix.Wi m c) :
    ∀ q q' : Fin 8, q'.val = Cert.Tree.heap 3 q.val →
      Cert.KernelIdeal.Tail.alphaK2 (G5 (F := Ideal) m c) (G6 (F := Ideal) m c) (ix1 q)
        = (Cert.ReferenceIdeal.Value.res_main_v57 (F := Ideal) V0 : FVec Ideal Cert.KernelIdeal.S8 .f32) (ix1 q') := by
  intro q q' hq'
  have hq : q.val < 2 ^ (2 + 1) := q.isLt
  refine (Cert.KernelIdeal.Tail.alphaK2_apply _ _ q).trans ?_
  rw [Cert.ReferenceIdeal.RefRead.alpha2_apply V0 q', hq']
  exact congrArg₂ Ideal.div (col5_eq m c V0 hX hW 2 (by norm_num) q.val hq (by have := q.isLt; norm_num; omega))
    (col6_eq m c V0 hX hW 2 (by norm_num) q.val hq (by have := q.isLt; norm_num; omega))

theorem alpha3_eq (m : Mem) (c : Dev nD) (V0 : Cert.ReferenceIdeal.RefRead.Val)
    (hX : Cert.ReferenceIdeal.RefRead.X V0 = Xin m c) (hW : Cert.ReferenceIdeal.RefRead.W V0 = Prefix.Wi m c) :
    ∀ q q' : Fin 16, q'.val = Cert.Tree.heap 4 q.val →
      Cert.KernelIdeal.Tail.alphaK3 (G5 (F := Ideal) m c) (G6 (F := Ideal) m c) (ix1 q)
        = (Cert.ReferenceIdeal.Value.res_main_v74 (F := Ideal) V0 : FVec Ideal Cert.KernelIdeal.S16 .f32) (ix1 q') := by
  intro q q' hq'
  have hq : q.val < 2 ^ (3 + 1) := q.isLt
  refine (Cert.KernelIdeal.Tail.alphaK3_apply _ _ q).trans ?_
  rw [Cert.ReferenceIdeal.RefRead.alpha3_apply V0 q', hq']
  exact congrArg₂ Ideal.div (col5_eq m c V0 hX hW 3 (by norm_num) q.val hq (by have := q.isLt; norm_num; omega))
    (col6_eq m c V0 hX hW 3 (by norm_num) q.val hq (by have := q.isLt; norm_num; omega))

theorem alpha4_eq (m : Mem) (c : Dev nD) (V0 : Cert.ReferenceIdeal.RefRead.Val)
    (hX : Cert.ReferenceIdeal.RefRead.X V0 = Xin m c) (hW : Cert.ReferenceIdeal.RefRead.W V0 = Prefix.Wi m c) :
    ∀ q q' : Fin 32, q'.val = Cert.Tree.heap 5 q.val →
      Cert.KernelIdeal.Tail.alphaK4 (G5 (F := Ideal) m c) (G6 (F := Ideal) m c) (ix1 q)
        = (Cert.ReferenceIdeal.Value.res_main_v91 (F := Ideal) V0 : FVec Ideal Cert.KernelIdeal.S32 .f32) (ix1 q') := by
  intro q q' hq'
  have hq : q.val < 2 ^ (4 + 1) := q.isLt
  refine (Cert.KernelIdeal.Tail.alphaK4_apply _ _ q).trans ?_
  rw [Cert.ReferenceIdeal.RefRead.alpha4_apply V0 q', hq']
  exact congrArg₂ Ideal.div (col5_eq m c V0 hX hW 4 (by norm_num) q.val hq (by have := q.isLt; norm_num; omega))
    (col6_eq m c V0 hX hW 4 (by norm_num) q.val hq (by have := q.isLt; norm_num; omega))

theorem alpha5_eq (m : Mem) (c : Dev nD) (V0 : Cert.ReferenceIdeal.RefRead.Val)
    (hX : Cert.ReferenceIdeal.RefRead.X V0 = Xin m c) (hW : Cert.ReferenceIdeal.RefRead.W V0 = Prefix.Wi m c) :
    ∀ q q' : Fin 64, q'.val = Cert.Tree.heap 6 q.val →
      Cert.KernelIdeal.Tail.alphaK5 (G5 (F := Ideal) m c) (G6 (F := Ideal) m c) (ix1 q)
        = (Cert.ReferenceIdeal.Value.res_main_v108 (F := Ideal) V0 : FVec Ideal Cert.KernelIdeal.S64 .f32) (ix1 q') := by
  intro q q' hq'
  have hq : q.val < 2 ^ (5 + 1) := q.isLt
  refine (Cert.KernelIdeal.Tail.alphaK5_apply _ _ q).trans ?_
  rw [Cert.ReferenceIdeal.RefRead.alpha5_apply V0 q', hq']
  exact congrArg₂ Ideal.div (col5_eq m c V0 hX hW 5 (by norm_num) q.val hq (by have := q.isLt; norm_num; omega))
    (col6_eq m c V0 hX hW 5 (by norm_num) q.val hq (by have := q.isLt; norm_num; omega))

theorem alpha6_eq (m : Mem) (c : Dev nD) (V0 : Cert.ReferenceIdeal.RefRead.Val)
    (hX : Cert.ReferenceIdeal.RefRead.X V0 = Xin m c) (hW : Cert.ReferenceIdeal.RefRead.W V0 = Prefix.Wi m c) :
    ∀ q q' : Fin 128, q'.val = Cert.Tree.heap 7 q.val →
      Cert.KernelIdeal.Tail.alphaK6 (G5 (F := Ideal) m c) (G6 (F := Ideal) m c) (ix1 q)
        = (Cert.ReferenceIdeal.Value.res_main_v125 (F := Ideal) V0 : FVec Ideal Cert.KernelIdeal.S128 .f32) (ix1 q') := by
  intro q q' hq'
  have hq : q.val < 2 ^ (6 + 1) := q.isLt
  refine (Cert.KernelIdeal.Tail.alphaK6_apply _ _ q).trans ?_
  rw [Cert.ReferenceIdeal.RefRead.alpha6_apply V0 q', hq']
  exact congrArg₂ Ideal.div (col5_eq m c V0 hX hW 6 (by norm_num) q.val hq (by have := q.isLt; norm_num; omega))
    (col6_eq m c V0 hX hW 6 (by norm_num) q.val hq (by have := q.isLt; norm_num; omega))

theorem alpha7_eq (m : Mem) (c : Dev nD) (V0 : Cert.ReferenceIdeal.RefRead.Val)
    (hX : Cert.ReferenceIdeal.RefRead.X V0 = Xin m c) (hW : Cert.ReferenceIdeal.RefRead.W V0 = Prefix.Wi m c) :
    ∀ q q' : Fin 256, q'.val = Cert.Tree.heap 8 q.val →
      Cert.KernelIdeal.Tail.alphaK7 (G5 (F := Ideal) m c) (G6 (F := Ideal) m c) (ix1 q)
        = (Cert.ReferenceIdeal.Value.res_main_v142 (F := Ideal) V0 : FVec Ideal Cert.KernelIdeal.S256 .f32) (ix1 q') := by
  intro q q' hq'
  have hq : q.val < 2 ^ (7 + 1) := q.isLt
  refine (Cert.KernelIdeal.Tail.alphaK7_apply _ _ q).trans ?_
  rw [Cert.ReferenceIdeal.RefRead.alpha7_apply V0 q', hq']
  exact congrArg₂ Ideal.div (col5_eq m c V0 hX hW 7 (by norm_num) q.val hq (by have := q.isLt; norm_num; omega))
    (col6_eq m c V0 hX hW 7 (by norm_num) q.val hq (by have := q.isLt; norm_num; omega))

end Cert.KernelIdeal.Bridge
end
-- ==== Proof.Algebraic.lean ====
/-
  The two idealized programs compute the same scores and the same penalty.
  Scores: the kernel's entry (b, o) is the sum over its 256 leaf slots of the blocked walk's leaf probability times the
  permuted leaf weight, the reference's the sum over the 256 heap leaves of the interleaved walk's times the leaf
  weight: slot q is heap leaf `heap 8 q`, and a sum over the slots is a sum over the leaves.
  Penalty: both apply one chain of host operations to eight ratio vectors; the kernel's layer-L vector is the
  reference's read through the slot-to-node map of layer L + 1, and each layer enters the chain through a sum over
  its positions.
-/
import proofs.«148994_j9070970929349_2_alg».proof.Defs
import proofs.«148994_j9070970929349_2_alg».proof.Proof.Gen.Pre_finite_inputs
import proofs.«148994_j9070970929349_2_alg».proof.Proof.KernelRun
import proofs.«148994_j9070970929349_2_alg».proof.Proof.RefOut
import proofs.«148994_j9070970929349_2_alg».proof.Proof.BridgeY
import proofs.«148994_j9070970929349_2_alg».proof.Proof.BridgeAlpha

set_option maxRecDepth 16384

noncomputable section

namespace Cert.Proof.Alg

open Idealize.ShloMosaic Idealize.ShloMosaic.TcCoe Idealize.SL.Sem Idealize.ShloMosaic.StableHlo
open Idealize.ShloMosaic.ValueIdx
open Cert.KernelIdeal.Assemble Cert.KernelIdeal.Tree

/-- The reference's launch contents on core `c`. -/
abbrev V0r (m' : (ℓ : Loc Cert.ReferenceIdeal.nD Cert.ReferenceIdeal.τ Cert.ReferenceIdeal.sig) → Buf (Elt Ideal) ℓ)
    (c : Dev Cert.ReferenceIdeal.nD) : Cert.ReferenceIdeal.RefRead.Val := launchContents m' c

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => yK m c, fun c => penK m c, kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · -- the scores
    have hX : Cert.ReferenceIdeal.RefRead.X (V0r m' c) = Cert.KernelIdeal.Bridge.Xin m c := (hagree c).1
    have hW : Cert.ReferenceIdeal.RefRead.W (V0r m' c) = Cert.KernelIdeal.Prefix.Wi m c := (hagree c).2.1
    have hL : ((V0r m' c) (Proc.devRef .tc Cert.ReferenceIdeal.main_arg2) : Cert.ReferenceIdeal.S10x256.Idx → EReal)
        = Cert.KernelIdeal.Prefix.Wl m c := (hagree c).2.2
    funext i
    obtain ⟨b, o, rfl⟩ : ∃ (b : Fin 131072) (o : Fin 10), i = ix2 b o := ⟨i 0, i 1, eq_ix2 i⟩
    refine (Cert.ReferenceIdeal.RefOut.refY_apply (V0r m' c) b o).trans ?_
    show _ = yK m c (ix2 b o)
    unfold yK
    rw [Cert.KernelIdeal.Tail.out_apply, Cert.KernelIdeal.Bridge.kernelY_apply m c (V0r m' c) hX hW b o, hL]
  · -- the penalty
    have hX : Cert.ReferenceIdeal.RefRead.X (V0r m' c) = Cert.KernelIdeal.Bridge.Xin m c := (hagree c).1
    have hW : Cert.ReferenceIdeal.RefRead.W (V0r m' c) = Cert.KernelIdeal.Prefix.Wi m c := (hagree c).2.1
    refine (Cert.ReferenceIdeal.RefOut.refPen_eq (V0r m' c)).trans ?_
    show _ = penK m c
    unfold penK Cert.KernelIdeal.Tail.pen
    rw [Cert.KernelIdeal.Tail.term0_perm _ _ (Cert.KernelIdeal.Bridge.alpha0_eq m c (V0r m' c) hX hW),
      Cert.KernelIdeal.Tail.term1_perm _ _ (Cert.KernelIdeal.Bridge.alpha1_eq m c (V0r m' c) hX hW),
      Cert.KernelIdeal.Tail.term2_perm _ _ (Cert.KernelIdeal.Bridge.alpha2_eq m c (V0r m' c) hX hW),
      Cert.KernelIdeal.Tail.term3_perm _ _ (Cert.KernelIdeal.Bridge.alpha3_eq m c (V0r m' c) hX hW),
      Cert.KernelIdeal.Tail.term4_perm _ _ (Cert.KernelIdeal.Bridge.alpha4_eq m c (V0r m' c) hX hW),
      Cert.KernelIdeal.Tail.term5_perm _ _ (Cert.KernelIdeal.Bridge.alpha5_eq m c (V0r m' c) hX hW),
      Cert.KernelIdeal.Tail.term6_perm _ _ (Cert.KernelIdeal.Bridge.alpha6_eq m c (V0r m' c) hX hW),
      Cert.KernelIdeal.Tail.term7_perm _ _ (Cert.KernelIdeal.Bridge.alpha7_eq m c (V0r m' c) hX hW)]

end Cert.Proof.Alg

end
-- ==== Proof.lean ====
/-
  A soft decision tree of depth 8 on 131072 rows: the kernel streams the rows in 64 tiles of 2048 (two halves of 32),
  computes the 255 node probabilities of a tile by one matrix product and a sigmoid, walks the tree layer by layer
  keeping the children of a layer in two BLOCKS ([left children | right children]) where the reference interleaves
  them, accumulates per layer the two penalty statistics over the tiles of a half, and multiplies the 256 leaf
  probabilities with the leaf weights; host lines before the region permute the weight rows and columns to the
  blocked order, host lines after it add the two halves and fold the statistics into the penalty.

  The three frames: each program terminates without a fault and leaves its three arguments as launched — the two
  kernel programs by the frame run of Proof/FrameBits.lean and Proof/FrameIdeal.lean (one text, read at the two float
  instances), the reference by its run with the results dropped.  The ideal pass rewrote nothing.

  The value claim: at the ideal instance slot q of the kernel's layer L is node `heap L q` of the reference's, where
  heap (L+1) q = 2·heap L q below 2^L and 2·heap L (q - 2^L) + 1 above (Proof/TreeWalk.lean); the host lines before
  the region put the weight rows and leaf columns in that order (Proof/HostPrefix.lean), so a tile's table of node
  probabilities is the reference's, permuted (Proof/BridgeProb.lean); hence equal path probabilities layer by layer,
  equal scores after a sum over the permuted leaves (Proof/BridgeY.lean), and per layer the same two column sums over
  all rows — the kernel's accumulated over 2 halves x 32 tiles x 2048 rows (Proof/KernelStats.lean, KernelAcc.lean,
  BridgeAcc.lean, BridgeCol.lean), the reference's in one host sum (Proof/RefRead.lean) — so the same ratio vectors up
  to the permutation, which the penalty's per-layer sum does not see (Proof/HostTail.lean, BridgeAlpha.lean,
  Algebraic.lean).  No finiteness of the inputs is used: only that sums and products of extended reals may be reordered.
-/
import proofs.«148994_j9070970929349_2_alg».proof.Defs
import proofs.«148994_j9070970929349_2_alg».proof.Proof.Gen.Kernel
import proofs.«148994_j9070970929349_2_alg».proof.Proof.Gen.KernelIdeal
import proofs.«148994_j9070970929349_2_alg».proof.Proof.Gen.ReferenceIdeal
import proofs.«148994_j9070970929349_2_alg».proof.Proof.Gen.ReferenceIdeal.Run
import proofs.«148994_j9070970929349_2_alg».proof.Proof.Gen.Pre_finite_inputs
import proofs.«148994_j9070970929349_2_alg».proof.Proof.FrameBits
import proofs.«148994_j9070970929349_2_alg».proof.Proof.FrameIdeal
import proofs.«148994_j9070970929349_2_alg».proof.Proof.Algebraic
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Tree.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Tree.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  Cert.Proof.Alg.algebraic

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
